-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v191)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v191) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v243) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_arg13 : FVec F S64x2 .f32) (main_arg14 : FVec F S2 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x2 .f32 := Host.absf main_arg13
  let main_cst_20 : FVec F S_ .f32 := constant S_ .f32 0x7F800000#32
  let main_v55 : FVec F S64x2 .f32 := broadcastInDim S64x2 ![] bcast_S_S64x2 main_cst_20
  let main_v56 : IVec S64x2 1 := cmpf .olt main_v54 main_v55
  let main_c_21 : IVec S_ 1 := constantI S_ 1 1#1
  let main_v57 : IVec S_ 1 := (fun x v => Host.reduce IntOp.andi x v reducesTo_S64x2_S_d0_1 h_S_) main_v56 main_c_21
  let main_v58 : IVec S_ 1 := andi main_v53 main_v57
  let main_v59 : FVec F S2 .f32 := Host.absf main_arg14
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  main_v63

def fn_part2 {F : FTy → Type} [FloatOps F] (main_arg9 : FVec F S128x64 .f32) (main_arg10 : FVec F S64 .f32) (main_arg11 : FVec F S128x64 .f32) (main_arg12 : FVec F S64 .f32) (main_arg13 : FVec F S64x2 .f32) (main_arg14 : FVec F S2 .f32) (main_v33 : IVec S_ 1) : IVec S_ 1 :=
  let main_v34 : FVec F S128x64 .f32 := Host.absf main_arg9
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S64x2 .f32) (main_arg14 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x64 .f32) (main_arg1 : IVec S3x1000000 32) (main_arg2 : IVec S3x1000000 32) (main_arg3 : FVec F S64x64 .f32) (main_arg4 : FVec F S64 .f32) (main_arg5 : FVec F S64x64 .f32) (main_arg6 : FVec F S64 .f32) (main_arg7 : FVec F S128x64 .f32) (main_arg8 : FVec F S64 .f32) (main_arg9 : FVec F S128x64 .f32) (main_arg10 : FVec F S64 .f32) (main_arg11 : FVec F S128x64 .f32) (main_arg12 : FVec F S64 .f32) (main_arg13 : FVec F S64x2 .f32) (main_arg14 : FVec F S2 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_v13 main_v16
-- ==== Kernel.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S1x64 : Shape := ⟨2, ![1, 64]⟩
abbrev S5000x64 : Shape := ⟨2, ![5000, 64]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x2 : Shape := ⟨2, ![1, 2]⟩
abbrev S100000x2 : Shape := ⟨2, ![100000, 2]⟩
abbrev S5000x2 : Shape := ⟨2, ![5000, 2]⟩

abbrev nBuf : Space → Nat
  | .hbm => 271
  | .vmem => 107
  | .smem => 0
  | _ => 0

abbrev hbmTy0_0 (i : Nat) : BufTy := match i % 128 with
  | 0 => ⟨S100000x64, .f32⟩
  | 1 => ⟨S3x1000000, .i32⟩
  | 2 => ⟨S3x1000000, .i32⟩
  | 3 => ⟨S64x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S1x64, .f32⟩
  | 16 => ⟨S1x64, .f32⟩
  | 17 => ⟨S100000x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S_, .f32⟩
  | 25 => ⟨S100000x64, .f32⟩
  | 26 => ⟨S1x1000000, .i32⟩
  | 27 => ⟨S1000000, .i32⟩
  | 28 => ⟨S1x1000000, .i32⟩
  | 29 => ⟨S1000000, .i32⟩
  | 30 => ⟨S_, .f32⟩
  | 31 => ⟨S1000000, .f32⟩
  | 32 => ⟨S_, .f32⟩
  | 33 => ⟨S100000, .f32⟩
  | 34 => ⟨S1000000x1, .i32⟩
  | 35 => ⟨S100000, .f32⟩
  | 36 => ⟨S_, .f32⟩
  | 37 => ⟨S100000, .f32⟩
  | 38 => ⟨S100000, .i1⟩
  | 39 => ⟨S_, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S100000x1, .f32⟩
  | 47 => ⟨S100000x64, .f32⟩
  | 48 => ⟨S100000x64, .f32⟩
  | 49 => ⟨S_, .i32⟩
  | 50 => ⟨S1000000, .i32⟩
  | 51 => ⟨S1000000, .i1⟩
  | 52 => ⟨S_, .i32⟩
  | 53 => ⟨S1000000, .i32⟩
  | 54 => ⟨S1000000, .i32⟩
  | 55 => ⟨S1000000, .i32⟩
  | 56 => ⟨S1000000x1, .i32⟩
  | 57 => ⟨S1000000x64, .f32⟩
  | 58 => ⟨S100000x1, .f32⟩
  | 59 => ⟨S_, .f32⟩
  | 60 => ⟨S100000x64, .f32⟩
  | 61 => ⟨S1000000x1, .i32⟩
  | 62 => ⟨S100000x64, .f32⟩
  | 63 => ⟨S100000x64, .f32⟩
  | 64 => ⟨S100000x64, .f32⟩
  | 65 => ⟨S1x64, .f32⟩
  | 66 => ⟨S100000x64, .f32⟩
  | 67 => ⟨S_, .f32⟩
  | 68 => ⟨S1000000, .f32⟩
  | 69 => ⟨S_, .f32⟩
  | 70 => ⟨S100000, .f32⟩
  | 71 => ⟨S1000000x1, .i32⟩
  | 72 => ⟨S100000, .f32⟩
  | 73 => ⟨S_, .f32⟩
  | 74 => ⟨S100000, .f32⟩
  | 75 => ⟨S100000, .i1⟩
  | 76 => ⟨S_, .f32⟩
  | 77 => ⟨S_, .f32⟩
  | 78 => ⟨S100000, .f32⟩
  | 79 => ⟨S100000, .f32⟩
  | 80 => ⟨S_, .f32⟩
  | 81 => ⟨S100000, .f32⟩
  | 82 => ⟨S100000, .f32⟩
  | 83 => ⟨S100000x1, .f32⟩
  | 84 => ⟨S100000x64, .f32⟩
  | 85 => ⟨S100000x64, .f32⟩
  | 86 => ⟨S_, .i32⟩
  | 87 => ⟨S1000000, .i32⟩
  | 88 => ⟨S1000000, .i1⟩
  | 89 => ⟨S_, .i32⟩
  | 90 => ⟨S1000000, .i32⟩
  | 91 => ⟨S1000000, .i32⟩
  | 92 => ⟨S1000000, .i32⟩
  | 93 => ⟨S1000000x1, .i32⟩
  | 94 => ⟨S1000000x64, .f32⟩
  | 95 => ⟨S100000x1, .f32⟩
  | 96 => ⟨S_, .f32⟩
  | 97 => ⟨S100000x64, .f32⟩
  | 98 => ⟨S1000000x1, .i32⟩
  | 99 => ⟨S100000x64, .f32⟩
  | 100 => ⟨S100000x64, .f32⟩
  | 101 => ⟨S100000x64, .f32⟩
  | 102 => ⟨S1x64, .f32⟩
  | 103 => ⟨S100000x64, .f32⟩
  | 104 => ⟨S1x64, .f32⟩
  | 105 => ⟨S100000x64, .f32⟩
  | 106 => ⟨S100000x64, .f32⟩
  | 107 => ⟨S1x1000000, .i32⟩
  | 108 => ⟨S1000000, .i32⟩
  | 109 => ⟨S1x1000000, .i32⟩
  | 110 => ⟨S1000000, .i32⟩
  | 111 => ⟨S_, .f32⟩
  | 112 => ⟨S1000000, .f32⟩
  | 113 => ⟨S_, .f32⟩
  | 114 => ⟨S100000, .f32⟩
  | 115 => ⟨S1000000x1, .i32⟩
  | 116 => ⟨S100000, .f32⟩
  | 117 => ⟨S_, .f32⟩
  | 118 => ⟨S100000, .f32⟩
  | 119 => ⟨S100000, .i1⟩
  | 120 => ⟨S_, .f32⟩
  | 121 => ⟨S_, .f32⟩
  | 122 => ⟨S100000, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x64, .f32⟩

abbrev hbmTy0_1 (i : Nat) : BufTy := match i % 128 with
  | 0 => ⟨S100000x64, .f32⟩
  | 1 => ⟨S100000x64, .f32⟩
  | 2 => ⟨S_, .i32⟩
  | 3 => ⟨S1000000, .i32⟩
  | 4 => ⟨S1000000, .i1⟩
  | 5 => ⟨S_, .i32⟩
  | 6 => ⟨S1000000, .i32⟩
  | 7 => ⟨S1000000, .i32⟩
  | 8 => ⟨S1000000, .i32⟩
  | 9 => ⟨S1000000x1, .i32⟩
  | 10 => ⟨S1000000x64, .f32⟩
  | 11 => ⟨S100000x1, .f32⟩
  | 12 => ⟨S_, .f32⟩
  | 13 => ⟨S100000x64, .f32⟩
  | 14 => ⟨S1000000x1, .i32⟩
  | 15 => ⟨S100000x64, .f32⟩
  | 16 => ⟨S100000x64, .f32⟩
  | 17 => ⟨S100000x64, .f32⟩
  | 18 => ⟨S1x64, .f32⟩
  | 19 => ⟨S100000x64, .f32⟩
  | 20 => ⟨S_, .f32⟩
  | 21 => ⟨S1000000, .f32⟩
  | 22 => ⟨S_, .f32⟩
  | 23 => ⟨S100000, .f32⟩
  | 24 => ⟨S1000000x1, .i32⟩
  | 25 => ⟨S100000, .f32⟩
  | 26 => ⟨S_, .f32⟩
  | 27 => ⟨S100000, .f32⟩
  | 28 => ⟨S100000, .i1⟩
  | 29 => ⟨S_, .f32⟩
  | 30 => ⟨S_, .f32⟩
  | 31 => ⟨S100000, .f32⟩
  | 32 => ⟨S100000, .f32⟩
  | 33 => ⟨S_, .f32⟩
  | 34 => ⟨S100000, .f32⟩
  | 35 => ⟨S100000, .f32⟩
  | 36 => ⟨S100000x1, .f32⟩
  | 37 => ⟨S100000x64, .f32⟩
  | 38 => ⟨S100000x64, .f32⟩
  | 39 => ⟨S_, .i32⟩
  | 40 => ⟨S1000000, .i32⟩
  | 41 => ⟨S1000000, .i1⟩
  | 42 => ⟨S_, .i32⟩
  | 43 => ⟨S1000000, .i32⟩
  | 44 => ⟨S1000000, .i32⟩
  | 45 => ⟨S1000000, .i32⟩
  | 46 => ⟨S1000000x1, .i32⟩
  | 47 => ⟨S1000000x64, .f32⟩
  | 48 => ⟨S100000x1, .f32⟩
  | 49 => ⟨S_, .f32⟩
  | 50 => ⟨S100000x64, .f32⟩
  | 51 => ⟨S1000000x1, .i32⟩
  | 52 => ⟨S100000x64, .f32⟩
  | 53 => ⟨S100000x64, .f32⟩
  | 54 => ⟨S100000x64, .f32⟩
  | 55 => ⟨S1x64, .f32⟩
  | 56 => ⟨S100000x64, .f32⟩
  | 57 => ⟨S1x64, .f32⟩
  | 58 => ⟨S100000x64, .f32⟩
  | 59 => ⟨S100000x64, .f32⟩
  | 60 => ⟨S1x1000000, .i32⟩
  | 61 => ⟨S1000000, .i32⟩
  | 62 => ⟨S1x1000000, .i32⟩
  | 63 => ⟨S1000000, .i32⟩
  | 64 => ⟨S_, .f32⟩
  | 65 => ⟨S1000000, .f32⟩
  | 66 => ⟨S_, .f32⟩
  | 67 => ⟨S100000, .f32⟩
  | 68 => ⟨S1000000x1, .i32⟩
  | 69 => ⟨S100000, .f32⟩
  | 70 => ⟨S_, .f32⟩
  | 71 => ⟨S100000, .f32⟩
  | 72 => ⟨S100000, .i1⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x64, .f32⟩
  | 82 => ⟨S100000x64, .f32⟩
  | 83 => ⟨S_, .i32⟩
  | 84 => ⟨S1000000, .i32⟩
  | 85 => ⟨S1000000, .i1⟩
  | 86 => ⟨S_, .i32⟩
  | 87 => ⟨S1000000, .i32⟩
  | 88 => ⟨S1000000, .i32⟩
  | 89 => ⟨S1000000, .i32⟩
  | 90 => ⟨S1000000x1, .i32⟩
  | 91 => ⟨S1000000x64, .f32⟩
  | 92 => ⟨S100000x1, .f32⟩
  | 93 => ⟨S_, .f32⟩
  | 94 => ⟨S100000x64, .f32⟩
  | 95 => ⟨S1000000x1, .i32⟩
  | 96 => ⟨S100000x64, .f32⟩
  | 97 => ⟨S100000x64, .f32⟩
  | 98 => ⟨S100000x64, .f32⟩
  | 99 => ⟨S1x64, .f32⟩
  | 100 => ⟨S100000x64, .f32⟩
  | 101 => ⟨S_, .f32⟩
  | 102 => ⟨S1000000, .f32⟩
  | 103 => ⟨S_, .f32⟩
  | 104 => ⟨S100000, .f32⟩
  | 105 => ⟨S1000000x1, .i32⟩
  | 106 => ⟨S100000, .f32⟩
  | 107 => ⟨S_, .f32⟩
  | 108 => ⟨S100000, .f32⟩
  | 109 => ⟨S100000, .i1⟩
  | 110 => ⟨S_, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x64, .f32⟩
  | 119 => ⟨S100000x64, .f32⟩
  | 120 => ⟨S_, .i32⟩
  | 121 => ⟨S1000000, .i32⟩
  | 122 => ⟨S1000000, .i1⟩
  | 123 => ⟨S_, .i32⟩
  | 124 => ⟨S1000000, .i32⟩
  | 125 => ⟨S1000000, .i32⟩
  | 126 => ⟨S1000000, .i32⟩
  | 127 => ⟨S1000000x1, .i32⟩
  | _ => ⟨S100000x64, .f32⟩

abbrev hbmTy0_2 (i : Nat) : BufTy := match i % 128 with
  | 0 => ⟨S1000000x64, .f32⟩
  | 1 => ⟨S100000x1, .f32⟩
  | 2 => ⟨S_, .f32⟩
  | 3 => ⟨S100000x64, .f32⟩
  | 4 => ⟨S1000000x1, .i32⟩
  | 5 => ⟨S100000x64, .f32⟩
  | 6 => ⟨S100000x64, .f32⟩
  | 7 => ⟨S100000x64, .f32⟩
  | 8 => ⟨S1x64, .f32⟩
  | 9 => ⟨S100000x64, .f32⟩
  | 10 => ⟨S1x64, .f32⟩
  | 11 => ⟨S100000x64, .f32⟩
  | 12 => ⟨S100000x64, .f32⟩
  | 13 => ⟨S1x2, .f32⟩
  | 14 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S64x64, .f32⟩
  | .local _ .vmem, ⟨5, _⟩ => ⟨S1x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S64x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S64x64, .f32⟩
  | .local _ .vmem, ⟨31, _⟩ => ⟨S64x64, .f32⟩
  | .local _ .vmem, ⟨32, _⟩ => ⟨S1x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S64x64, .f32⟩
  | .local _ .vmem, ⟨44, _⟩ => ⟨S64x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S5000x64, .f32⟩
  | .local _ .vmem, ⟨52, _⟩ => ⟨S64x64, .f32⟩
  | .local _ .vmem, ⟨53, _⟩ => ⟨S64x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S5000x64, .f32⟩
  | .local _ .vmem, ⟨60, _⟩ => ⟨S5000x64, .f32⟩
  | .local _ .vmem, ⟨61, _⟩ => ⟨S64x64, .f32⟩
  | .local _ .vmem, ⟨62, _⟩ => ⟨S64x64, .f32⟩
  | .local _ .vmem, ⟨63, _⟩ => ⟨S1x64, .f32⟩
  | .local _ .vmem, ⟨64, _⟩ => ⟨S5000x64, .f32⟩
  | .local _ .vmem, ⟨65, _⟩ => ⟨S5000x64, .f32⟩
  | .local _ .vmem, ⟨66, _⟩ => ⟨S5000x64, .f32⟩
  | .local _ .vmem, ⟨67, _⟩ => ⟨S5000x64, .f32⟩
  | .local _ .vmem, ⟨68, _⟩ => ⟨S5000x64, .f32⟩
  | .local _ .vmem, ⟨69, _⟩ => ⟨S5000x64, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x64, .f32⟩
  | .local _ .vmem, ⟨75, _⟩ => ⟨S64x64, .f32⟩
  | .local _ .vmem, ⟨76, _⟩ => ⟨S1x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x64, .f32⟩
  | .local _ .vmem, ⟨81, _⟩ => ⟨S5000x64, .f32⟩
  | .local _ .vmem, ⟨82, _⟩ => ⟨S5000x64, .f32⟩
  | .local _ .vmem, ⟨83, _⟩ => ⟨S64x64, .f32⟩
  | .local _ .vmem, ⟨84, _⟩ => ⟨S64x64, .f32⟩
  | .local _ .vmem, ⟨85, _⟩ => ⟨S1x64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S64x64, .f32⟩
  | .local _ .vmem, ⟨93, _⟩ => ⟨S64x64, .f32⟩
  | .local _ .vmem, ⟨94, _⟩ => ⟨S1x64, .f32⟩
  | .local _ .vmem, ⟨95, _⟩ => ⟨S5000x64, .f32⟩
  | .local _ .vmem, ⟨96, _⟩ => ⟨S5000x64, .f32⟩
  | .local _ .vmem, ⟨97, _⟩ => ⟨S5000x64, .f32⟩
  | .local _ .vmem, ⟨98, _⟩ => ⟨S5000x64, .f32⟩
  | .local _ .vmem, ⟨99, _⟩ => ⟨S5000x64, .f32⟩
  | .local _ .vmem, ⟨100, _⟩ => ⟨S5000x64, .f32⟩
  | .local _ .vmem, ⟨101, _⟩ => ⟨S5000x64, .f32⟩
  | .local _ .vmem, ⟨102, _⟩ => ⟨S5000x64, .f32⟩
  | .local _ .vmem, ⟨103, _⟩ => ⟨S64x2, .f32⟩
  | .local _ .vmem, ⟨104, _⟩ => ⟨S1x2, .f32⟩
  | .local _ .vmem, ⟨105, _⟩ => ⟨S5000x2, .f32⟩
  | .local _ .vmem, ⟨106, _⟩ => ⟨S5000x2, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 107 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | _ => false

abbrev sig : RefSig :=
  ofTc nBuf bufTy 0 107 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_0 : Ref sig .tc := ⟨.hbm, 30, rfl⟩
abbrev main_v14 : Ref sig .tc := ⟨.hbm, 31, rfl⟩
abbrev main_cst_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_v20 : Ref sig .tc := ⟨.hbm, 42, rfl⟩
abbrev main_cst_4 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c : Ref sig .tc := ⟨.hbm, 49, rfl⟩
abbrev main_v26 : Ref sig .tc := ⟨.hbm, 50, rfl⟩
abbrev main_v27 : Ref sig .tc := ⟨.hbm, 51, rfl⟩
abbrev main_c_5 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_6 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_cst_8 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_9 : Ref sig .tc := ⟨.hbm, 73, rfl⟩
abbrev main_v45 : Ref sig .tc := ⟨.hbm, 74, rfl⟩
abbrev main_v46 : Ref sig .tc := ⟨.hbm, 75, rfl⟩
abbrev main_cst_10 : Ref sig .tc := ⟨.hbm, 76, rfl⟩
abbrev main_call1_v0 : Ref sig .tc := ⟨.hbm, 77, rfl⟩
abbrev main_call1_v1 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_12 : Ref sig .tc := ⟨.hbm, 86, rfl⟩
abbrev main_v53 : Ref sig .tc := ⟨.hbm, 87, rfl⟩
abbrev main_v54 : Ref sig .tc := ⟨.hbm, 88, rfl⟩
abbrev main_c_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_14 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69_0 : Ref sig .tc := ⟨.hbm, 105, rfl⟩
abbrev main_v69_1 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_cst_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_cst_17 : Ref sig .tc := ⟨.hbm, 117, rfl⟩
abbrev main_v78 : Ref sig .tc := ⟨.hbm, 118, rfl⟩
abbrev main_v79 : Ref sig .tc := ⟨.hbm, 119, rfl⟩
abbrev main_cst_18 : Ref sig .tc := ⟨.hbm, 120, rfl⟩
abbrev main_call2_v0 : Ref sig .tc := ⟨.hbm, 121, rfl⟩
abbrev main_call2_v1 : Ref sig .tc := ⟨.hbm, 122, rfl⟩
abbrev main_v80 : Ref sig .tc := ⟨.hbm, 123, rfl⟩
abbrev main_cst_19 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_c_20 : Ref sig .tc := ⟨.hbm, 130, rfl⟩
abbrev main_v86 : Ref sig .tc := ⟨.hbm, 131, rfl⟩
abbrev main_v87 : Ref sig .tc := ⟨.hbm, 132, rfl⟩
abbrev main_c_21 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_22 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_cst_23 : Ref sig .tc := ⟨.hbm, 148, rfl⟩
abbrev main_v101 : Ref sig .tc := ⟨.hbm, 149, rfl⟩
abbrev main_cst_24 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_cst_25 : Ref sig .tc := ⟨.hbm, 154, rfl⟩
abbrev main_v105 : Ref sig .tc := ⟨.hbm, 155, rfl⟩
abbrev main_v106 : Ref sig .tc := ⟨.hbm, 156, rfl⟩
abbrev main_cst_26 : Ref sig .tc := ⟨.hbm, 157, rfl⟩
abbrev main_call3_v0 : Ref sig .tc := ⟨.hbm, 158, rfl⟩
abbrev main_call3_v1 : Ref sig .tc := ⟨.hbm, 159, rfl⟩
abbrev main_v107 : Ref sig .tc := ⟨.hbm, 160, rfl⟩
abbrev main_cst_27 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_c_28 : Ref sig .tc := ⟨.hbm, 167, rfl⟩
abbrev main_v113 : Ref sig .tc := ⟨.hbm, 168, rfl⟩
abbrev main_v114 : Ref sig .tc := ⟨.hbm, 169, rfl⟩
abbrev main_c_29 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_cst_30 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129_0 : Ref sig .tc := ⟨.hbm, 186, rfl⟩
abbrev main_v129_1 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_cst_31 : Ref sig .tc := ⟨.hbm, 192, rfl⟩
abbrev main_v134 : Ref sig .tc := ⟨.hbm, 193, rfl⟩
abbrev main_cst_32 : Ref sig .tc := ⟨.hbm, 194, rfl⟩
abbrev main_v135 : Ref sig .tc := ⟨.hbm, 195, rfl⟩
abbrev main_v136 : Ref sig .tc := ⟨.hbm, 196, rfl⟩
abbrev main_v137 : Ref sig .tc := ⟨.hbm, 197, rfl⟩
abbrev main_cst_33 : Ref sig .tc := ⟨.hbm, 198, rfl⟩
abbrev main_v138 : Ref sig .tc := ⟨.hbm, 199, rfl⟩
abbrev main_v139 : Ref sig .tc := ⟨.hbm, 200, rfl⟩
abbrev main_cst_34 : Ref sig .tc := ⟨.hbm, 201, rfl⟩
abbrev main_call4_v0 : Ref sig .tc := ⟨.hbm, 202, rfl⟩
abbrev main_call4_v1 : Ref sig .tc := ⟨.hbm, 203, rfl⟩
abbrev main_v140 : Ref sig .tc := ⟨.hbm, 204, rfl⟩
abbrev main_cst_35 : Ref sig .tc := ⟨.hbm, 205, rfl⟩
abbrev main_v141 : Ref sig .tc := ⟨.hbm, 206, rfl⟩
abbrev main_v142 : Ref sig .tc := ⟨.hbm, 207, rfl⟩
abbrev main_v143 : Ref sig .tc := ⟨.hbm, 208, rfl⟩
abbrev main_v144 : Ref sig .tc := ⟨.hbm, 209, rfl⟩
abbrev main_v145 : Ref sig .tc := ⟨.hbm, 210, rfl⟩
abbrev main_c_36 : Ref sig .tc := ⟨.hbm, 211, rfl⟩
abbrev main_v146 : Ref sig .tc := ⟨.hbm, 212, rfl⟩
abbrev main_v147 : Ref sig .tc := ⟨.hbm, 213, rfl⟩
abbrev main_c_37 : Ref sig .tc := ⟨.hbm, 214, rfl⟩
abbrev main_v148 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_cst_38 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_cst_39 : Ref sig .tc := ⟨.hbm, 229, rfl⟩
abbrev main_v161 : Ref sig .tc := ⟨.hbm, 230, rfl⟩
abbrev main_cst_40 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_cst_41 : Ref sig .tc := ⟨.hbm, 235, rfl⟩
abbrev main_v165 : Ref sig .tc := ⟨.hbm, 236, rfl⟩
abbrev main_v166 : Ref sig .tc := ⟨.hbm, 237, rfl⟩
abbrev main_cst_42 : Ref sig .tc := ⟨.hbm, 238, rfl⟩
abbrev main_call5_v0 : Ref sig .tc := ⟨.hbm, 239, rfl⟩
abbrev main_call5_v1 : Ref sig .tc := ⟨.hbm, 240, rfl⟩
abbrev main_v167 : Ref sig .tc := ⟨.hbm, 241, rfl⟩
abbrev main_cst_43 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_c_44 : Ref sig .tc := ⟨.hbm, 248, rfl⟩
abbrev main_v173 : Ref sig .tc := ⟨.hbm, 249, rfl⟩
abbrev main_v174 : Ref sig .tc := ⟨.hbm, 250, rfl⟩
abbrev main_c_45 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_v179 : Ref sig .tc := ⟨.hbm, 256, rfl⟩
abbrev main_v180 : Ref sig .tc := ⟨.hbm, 257, rfl⟩
abbrev main_cst_46 : Ref sig .tc := ⟨.hbm, 258, rfl⟩
abbrev main_v181 : Ref sig .tc := ⟨.hbm, 259, rfl⟩
abbrev main_v182 : Ref sig .tc := ⟨.hbm, 260, rfl⟩
abbrev main_v183 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189_0 : Ref sig .tc := ⟨.hbm, 267, rfl⟩
abbrev main_v189_1 : Ref sig .tc := ⟨.hbm, 268, rfl⟩
abbrev main_v190 : Ref sig .tc := ⟨.hbm, 269, rfl⟩
abbrev main_v191 : Ref sig .tc := ⟨.hbm, 270, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_stg6_0 : Ref sig .tc := ⟨.vmem, 35, rfl⟩
abbrev cc3_stg6_1 : Ref sig .tc := ⟨.vmem, 36, rfl⟩
abbrev cc3_stg7_0 : Ref sig .tc := ⟨.vmem, 37, rfl⟩
abbrev cc3_stg7_1 : Ref sig .tc := ⟨.vmem, 38, rfl⟩
abbrev cc4_stg0_0 : Ref sig .tc := ⟨.vmem, 39, rfl⟩
abbrev cc4_stg0_1 : Ref sig .tc := ⟨.vmem, 40, rfl⟩
abbrev cc4_stg1_0 : Ref sig .tc := ⟨.vmem, 41, rfl⟩
abbrev cc4_stg1_1 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc5_stg0_0 : Ref sig .tc := ⟨.vmem, 48, rfl⟩
abbrev cc5_stg0_1 : Ref sig .tc := ⟨.vmem, 49, rfl⟩
abbrev cc5_stg1_0 : Ref sig .tc := ⟨.vmem, 50, rfl⟩
abbrev cc5_stg1_1 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg3_0 : Ref sig .tc := ⟨.vmem, 62, rfl⟩
abbrev cc6_stg4_0 : Ref sig .tc := ⟨.vmem, 63, rfl⟩
abbrev cc6_stg5_0 : Ref sig .tc := ⟨.vmem, 64, rfl⟩
abbrev cc6_stg5_1 : Ref sig .tc := ⟨.vmem, 65, rfl⟩
abbrev cc6_stg6_0 : Ref sig .tc := ⟨.vmem, 66, rfl⟩
abbrev cc6_stg6_1 : Ref sig .tc := ⟨.vmem, 67, rfl⟩
abbrev cc6_stg7_0 : Ref sig .tc := ⟨.vmem, 68, rfl⟩
abbrev cc6_stg7_1 : Ref sig .tc := ⟨.vmem, 69, rfl⟩
abbrev cc7_stg0_0 : Ref sig .tc := ⟨.vmem, 70, rfl⟩
abbrev cc7_stg0_1 : Ref sig .tc := ⟨.vmem, 71, rfl⟩
abbrev cc7_stg1_0 : Ref sig .tc := ⟨.vmem, 72, rfl⟩
abbrev cc7_stg1_1 : Ref sig .tc := ⟨.vmem, 73, rfl⟩
abbrev cc7_stg2_0 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg5_1 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg1_1 : Ref sig .tc := ⟨.vmem, 82, rfl⟩
abbrev cc8_stg2_0 : Ref sig .tc := ⟨.vmem, 83, rfl⟩
abbrev cc8_stg3_0 : Ref sig .tc := ⟨.vmem, 84, rfl⟩
abbrev cc8_stg4_0 : Ref sig .tc := ⟨.vmem, 85, rfl⟩
abbrev cc8_stg5_0 : Ref sig .tc := ⟨.vmem, 86, rfl⟩
abbrev cc8_stg5_1 : Ref sig .tc := ⟨.vmem, 87, rfl⟩
abbrev cc9_stg0_0 : Ref sig .tc := ⟨.vmem, 88, rfl⟩
abbrev cc9_stg0_1 : Ref sig .tc := ⟨.vmem, 89, rfl⟩
abbrev cc9_stg1_0 : Ref sig .tc := ⟨.vmem, 90, rfl⟩
abbrev cc9_stg1_1 : Ref sig .tc := ⟨.vmem, 91, rfl⟩
abbrev cc9_stg2_0 : Ref sig .tc := ⟨.vmem, 92, rfl⟩
abbrev cc9_stg3_0 : Ref sig .tc := ⟨.vmem, 93, rfl⟩
abbrev cc9_stg4_0 : Ref sig .tc := ⟨.vmem, 94, rfl⟩
abbrev cc9_stg5_0 : Ref sig .tc := ⟨.vmem, 95, rfl⟩
abbrev cc9_stg5_1 : Ref sig .tc := ⟨.vmem, 96, rfl⟩
abbrev cc9_stg6_0 : Ref sig .tc := ⟨.vmem, 97, rfl⟩
abbrev cc9_stg6_1 : Ref sig .tc := ⟨.vmem, 98, rfl⟩
abbrev cc9_stg7_0 : Ref sig .tc := ⟨.vmem, 99, rfl⟩
abbrev cc9_stg7_1 : Ref sig .tc := ⟨.vmem, 100, rfl⟩
abbrev cc10_stg0_0 : Ref sig .tc := ⟨.vmem, 101, rfl⟩
abbrev cc10_stg0_1 : Ref sig .tc := ⟨.vmem, 102, rfl⟩
abbrev cc10_stg1_0 : Ref sig .tc := ⟨.vmem, 103, rfl⟩
abbrev cc10_stg2_0 : Ref sig .tc := ⟨.vmem, 104, rfl⟩
abbrev cc10_stg3_0 : Ref sig .tc := ⟨.vmem, 105, rfl⟩
abbrev cc10_stg3_1 : Ref sig .tc := ⟨.vmem, 106, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem5_1 : DmaSem sig := 34
abbrev cc3_sem6_0 : DmaSem sig := 35
abbrev cc3_sem6_1 : DmaSem sig := 36
abbrev cc3_sem7_0 : DmaSem sig := 37
abbrev cc3_sem7_1 : DmaSem sig := 38
abbrev cc4_sem0_0 : DmaSem sig := 39
abbrev cc4_sem0_1 : DmaSem sig := 40
abbrev cc4_sem1_0 : DmaSem sig := 41
abbrev cc4_sem1_1 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47
abbrev cc5_sem0_0 : DmaSem sig := 48
abbrev cc5_sem0_1 : DmaSem sig := 49
abbrev cc5_sem1_0 : DmaSem sig := 50
abbrev cc5_sem1_1 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem3_0 : DmaSem sig := 62
abbrev cc6_sem4_0 : DmaSem sig := 63
abbrev cc6_sem5_0 : DmaSem sig := 64
abbrev cc6_sem5_1 : DmaSem sig := 65
abbrev cc6_sem6_0 : DmaSem sig := 66
abbrev cc6_sem6_1 : DmaSem sig := 67
abbrev cc6_sem7_0 : DmaSem sig := 68
abbrev cc6_sem7_1 : DmaSem sig := 69
abbrev cc7_sem0_0 : DmaSem sig := 70
abbrev cc7_sem0_1 : DmaSem sig := 71
abbrev cc7_sem1_0 : DmaSem sig := 72
abbrev cc7_sem1_1 : DmaSem sig := 73
abbrev cc7_sem2_0 : DmaSem sig := 74
abbrev cc7_sem3_0 : DmaSem sig := 75
abbrev cc7_sem4_0 : DmaSem sig := 76
abbrev cc7_sem5_0 : DmaSem sig := 77
abbrev cc7_sem5_1 : DmaSem sig := 78
abbrev cc8_sem0_0 : DmaSem sig := 79
abbrev cc8_sem0_1 : DmaSem sig := 80
abbrev cc8_sem1_0 : DmaSem sig := 81
abbrev cc8_sem1_1 : DmaSem sig := 82
abbrev cc8_sem2_0 : DmaSem sig := 83
abbrev cc8_sem3_0 : DmaSem sig := 84
abbrev cc8_sem4_0 : DmaSem sig := 85
abbrev cc8_sem5_0 : DmaSem sig := 86
abbrev cc8_sem5_1 : DmaSem sig := 87
abbrev cc9_sem0_0 : DmaSem sig := 88
abbrev cc9_sem0_1 : DmaSem sig := 89
abbrev cc9_sem1_0 : DmaSem sig := 90
abbrev cc9_sem1_1 : DmaSem sig := 91
abbrev cc9_sem2_0 : DmaSem sig := 92
abbrev cc9_sem3_0 : DmaSem sig := 93
abbrev cc9_sem4_0 : DmaSem sig := 94
abbrev cc9_sem5_0 : DmaSem sig := 95
abbrev cc9_sem5_1 : DmaSem sig := 96
abbrev cc9_sem6_0 : DmaSem sig := 97
abbrev cc9_sem6_1 : DmaSem sig := 98
abbrev cc9_sem7_0 : DmaSem sig := 99
abbrev cc9_sem7_1 : DmaSem sig := 100
abbrev cc10_sem0_0 : DmaSem sig := 101
abbrev cc10_sem0_1 : DmaSem sig := 102
abbrev cc10_sem1_0 : DmaSem sig := 103
abbrev cc10_sem2_0 : DmaSem sig := 104
abbrev cc10_sem3_0 : DmaSem sig := 105
abbrev cc10_sem3_1 : DmaSem sig := 106

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S5000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S5000x64 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S5000x64 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x64 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S64x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S64x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x64 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x64 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x64 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

abbrev stage9_7 : Fin 2 → Memref sig .tc .vmem S5000x64 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S64x2 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x2 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x2 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

class Facts₀ : Prop where
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  slices_S128x64_S64x64_0_0 : S128x64.Slices ![0, 0] S64x64
  slices_S128x64_S64x64_64_0 : S128x64.Slices ![64, 0] S64x64
  bcast_S_S100000x64 : S_.BroadcastsInDim S100000x64 (![] : Fin 0 → Fin S100000x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S5000x64_S5000x64 : S5000x64.ShapeCasts S5000x64
  shapeCasts_S64x64_S64x64 : S64x64.ShapeCasts S64x64
  slices_S3x1000000_S1x1000000_1_0 : S3x1000000.Slices ![1, 0] S1x1000000
  slices_S3x1000000_S1x1000000_2_0 : S3x1000000.Slices ![2, 0] S1x1000000
  shapeCasts_S2_S1x2 : S2.ShapeCasts S1x2
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x64_S64x64_S5000x64_1_0_0_1_n_n_wf : DotDims.WF S5000x64 S64x64 S5000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x2_S5000x2_1_0_0_1_n_n_wf : DotDims.WF S5000x64 S64x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x64.size a ≤ S64x64.size a
  hwx3_3 : ∀ i : grid3.Coords, EltTy.bits .f32 = 32 ∨ (Rect.block (s := S64x64) S64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S100000x64.size a
  hwx3_5 : ∀ i : grid3.Coords, EltTy.bits .f32 = 32 ∨ (Rect.block (s := S100000x64) S5000x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .f32 = 32 ∨ (Rect.block (s := S100000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S100000x64.size a
  hwx4_1 : ∀ i : grid4.Coords, EltTy.bits .f32 = 32 ∨ (Rect.block (s := S100000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S100000x64.size a
  hwx5_5 : ∀ i : grid5.Coords, EltTy.bits .f32 = 32 ∨ (Rect.block (s := S100000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .f32 = 32 ∨ (Rect.block (s := S100000x64) S5000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x64.size a ≤ S64x64.size a
  hwx6_3 : ∀ i : grid6.Coords, EltTy.bits .f32 = 32 ∨ (Rect.block (s := S64x64) S64x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x64.size a ≤ S1x64.size a
  hwx6_4 : ∀ i : grid6.Coords, EltTy.bits .f32 = 32 ∨ (Rect.block (s := S1x64) S1x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S100000x64.size a
  hwx6_5 : ∀ i : grid6.Coords, EltTy.bits .f32 = 32 ∨ (Rect.block (s := S100000x64) S5000x64.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S5000x64.size a ≤ S100000x64.size a
  hwx6_6 : ∀ i : grid6.Coords, EltTy.bits .f32 = 32 ∨ (Rect.block (s := S100000x64) S5000x64.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x64.size a ≤ S100000x64.size a
  hwx6_7 : ∀ i : grid6.Coords, EltTy.bits .f32 = 32 ∨ (Rect.block (s := S100000x64) S5000x64.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S100000x64.size a
  hwx7_1 : ∀ i : grid7.Coords, EltTy.bits .f32 = 32 ∨ (Rect.block (s := S100000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x64.size a ≤ S64x64.size a
  hwx7_3 : ∀ i : grid7.Coords, EltTy.bits .f32 = 32 ∨ (Rect.block (s := S64x64) S64x64.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S5000x64.size a ≤ S100000x64.size a
  hwx7_5 : ∀ i : grid7.Coords, EltTy.bits .f32 = 32 ∨ (Rect.block (s := S100000x64) S5000x64.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S100000x64.size a
  hwx8_0 : ∀ i : grid8.Coords, EltTy.bits .f32 = 32 ∨ (Rect.block (s := S100000x64) S5000x64.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x64.size a ≤ S100000x64.size a
  hwx8_1 : ∀ i : grid8.Coords, EltTy.bits .f32 = 32 ∨ (Rect.block (s := S100000x64) S5000x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S64x64.size a ≤ S64x64.size a
  hwx8_2 : ∀ i : grid8.Coords, EltTy.bits .f32 = 32 ∨ (Rect.block (s := S64x64) S64x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S64x64.size a ≤ S64x64.size a
  hwx8_3 : ∀ i : grid8.Coords, EltTy.bits .f32 = 32 ∨ (Rect.block (s := S64x64) S64x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x64.size a ≤ S100000x64.size a
  hwx8_5 : ∀ i : grid8.Coords, EltTy.bits .f32 = 32 ∨ (Rect.block (s := S100000x64) S5000x64.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S100000x64.size a
  hwx9_0 : ∀ i : grid9.Coords, EltTy.bits .f32 = 32 ∨ (Rect.block (s := S100000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S100000x64.size a
  hwx9_1 : ∀ i : grid9.Coords, EltTy.bits .f32 = 32 ∨ (Rect.block (s := S100000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x64.size a ≤ S64x64.size a
  hwx9_2 : ∀ i : grid9.Coords, EltTy.bits .f32 = 32 ∨ (Rect.block (s := S64x64) S64x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x64.size a ≤ S64x64.size a
  hwx9_3 : ∀ i : grid9.Coords, EltTy.bits .f32 = 32 ∨ (Rect.block (s := S64x64) S64x64.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x64.size a ≤ S1x64.size a
  hwx9_4 : ∀ i : grid9.Coords, EltTy.bits .f32 = 32 ∨ (Rect.block (s := S1x64) S1x64.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x64.size a ≤ S100000x64.size a
  hwx9_5 : ∀ i : grid9.Coords, EltTy.bits .f32 = 32 ∨ (Rect.block (s := S100000x64) S5000x64.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S100000x64.size a
  hwx9_6 : ∀ i : grid9.Coords, EltTy.bits .f32 = 32 ∨ (Rect.block (s := S100000x64) S5000x64.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S5000x64.size a ≤ S100000x64.size a
  hwx9_7 : ∀ i : grid9.Coords, EltTy.bits .f32 = 32 ∨ (Rect.block (s := S100000x64) S5000x64.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S100000x64.size a
  hwx10_0 : ∀ i : grid10.Coords, EltTy.bits .f32 = 32 ∨ (Rect.block (s := S100000x64) S5000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S64x2.size a ≤ S64x2.size a
  hwx10_1 : ∀ i : grid10.Coords, EltTy.bits .f32 = 32 ∨ (Rect.block (s := S64x2) S64x2.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x2.size a ≤ S1x2.size a
  hwx10_2 : ∀ i : grid10.Coords, EltTy.bits .f32 = 32 ∨ (Rect.block (s := S1x2) S1x2.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x2.size a ≤ S100000x2.size a
  hwx10_3 : ∀ i : grid10.Coords, EltTy.bits .f32 = 32 ∨ (Rect.block (s := S100000x2) S5000x2.size (cc10_transform_3 i) (hinb10_3 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x2_S5000x2_1_0_0_1_n_n : DotDims S5000x64 S64x2 S5000x2 where
  lhsContracting := [1]
  rhsContracting := [0]
  lhsNonContracting := [0]
  rhsNonContracting := [1]
  lhsBatch := []
  rhsBatch := []
  wf := dot_S5000x64_S64x2_S5000x2_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v40) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v65) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v6) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v66) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v67) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v67) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v7) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v8) S64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S5000x64.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v69_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v69_1) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v69_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v3) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v99) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v100) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v100) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v125) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v5) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v6) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v126) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v127) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v127) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v7) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v8) S64x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v128) S1x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v69_1) S5000x64.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v129_0) S5000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v129_1) S5000x64.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v129_0) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v158) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v3) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v4) S64x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v159) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v160) S5000x64.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v160) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v185) S5000x64.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v5) S64x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v6) S64x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v186) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v187) S5000x64.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v160) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v187) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v7) S64x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v8) S64x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v188) S1x64.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v129_1) S5000x64.size cc9_transform_5 reads9_5 false false 2 stage9_5 sem9_5
    hrank9 hreads9_5 hinb9_5 nbuf9_5 (Memref.isWhole_whole _) hwx9_5 hstage9_5

abbrev win9_6 : Pipeline.Window sig grid9 :=
  Pipeline.Window.ofSpec (Memref.whole main_v189_0) S5000x64.size cc9_transform_6 reads9_6 true false 2 stage9_6 sem9_6
    hrank9 hreads9_6 hinb9_6 nbuf9_6 (Memref.isWhole_whole _) hwx9_6 hstage9_6

abbrev win9_7 : Pipeline.Window sig grid9 :=
  Pipeline.Window.ofSpec (Memref.whole main_v189_1) S5000x64.size cc9_transform_7 reads9_7 true false 2 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v189_1) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S64x2.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v190) S1x2.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v191) S5000x2.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S100000x64 : Shape := ⟨2, ![100000, 64]⟩
abbrev S3x1000000 : Shape := ⟨2, ![3, 1000000]⟩
abbrev S64x64 : Shape := ⟨2, ![64, 64]⟩
abbrev S64 : Shape := ⟨1, ![64]⟩
abbrev S128x64 : Shape := ⟨2, ![128, 64]⟩
abbrev S64x2 : Shape := ⟨2, ![64, 2]⟩
abbrev S2 : Shape := ⟨1, ![2]⟩
abbrev S1x64 : Shape := ⟨2, ![1, 64]⟩
abbrev S_ : Shape := ⟨0, ![]⟩
abbrev S1x1000000 : Shape := ⟨2, ![1, 1000000]⟩
abbrev S1000000 : Shape := ⟨1, ![1000000]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S100000x128 : Shape := ⟨2, ![100000, 128]⟩
abbrev S100000x2 : Shape := ⟨2, ![100000, 2]⟩
abbrev S1x2 : Shape := ⟨2, ![1, 2]⟩

abbrev nBuf : Space → Nat
  | .hbm => 341
  | .vmem => 0
  | .smem => 0
  | _ => 0

abbrev hbmTy0_0 (i : Nat) : BufTy := match i % 128 with
  | 0 => ⟨S100000x64, .f32⟩
  | 1 => ⟨S3x1000000, .i32⟩
  | 2 => ⟨S3x1000000, .i32⟩
  | 3 => ⟨S64x64, .f32⟩
  | 4 => ⟨S64, .f32⟩
  | 5 => ⟨S64x64, .f32⟩
  | 6 => ⟨S64, .f32⟩
  | 7 => ⟨S128x64, .f32⟩
  | 8 => ⟨S64, .f32⟩
  | 9 => ⟨S128x64, .f32⟩
  | 10 => ⟨S64, .f32⟩
  | 11 => ⟨S128x64, .f32⟩
  | 12 => ⟨S64, .f32⟩
  | 13 => ⟨S64x2, .f32⟩
  | 14 => ⟨S2, .f32⟩
  | 15 => ⟨S100000x64, .f32⟩
  | 16 => ⟨S1x64, .f32⟩
  | 17 => ⟨S100000x64, .f32⟩
  | 18 => ⟨S100000x64, .f32⟩
  | 19 => ⟨S_, .f32⟩
  | 20 => ⟨S_, .f32⟩
  | 21 => ⟨S100000x64, .f32⟩
  | 22 => ⟨S100000x64, .i1⟩
  | 23 => ⟨S_, .f32⟩
  | 24 => ⟨S100000x64, .f32⟩
  | 25 => ⟨S100000x64, .f32⟩
  | 26 => ⟨S100000x64, .f32⟩
  | 27 => ⟨S100000x64, .f32⟩
  | 28 => ⟨S1x64, .f32⟩
  | 29 => ⟨S100000x64, .f32⟩
  | 30 => ⟨S100000x64, .f32⟩
  | 31 => ⟨S_, .f32⟩
  | 32 => ⟨S_, .f32⟩
  | 33 => ⟨S100000x64, .f32⟩
  | 34 => ⟨S100000x64, .i1⟩
  | 35 => ⟨S_, .f32⟩
  | 36 => ⟨S100000x64, .f32⟩
  | 37 => ⟨S100000x64, .f32⟩
  | 38 => ⟨S100000x64, .f32⟩
  | 39 => ⟨S_, .f32⟩
  | 40 => ⟨S100000x64, .f32⟩
  | 41 => ⟨S1x1000000, .i32⟩
  | 42 => ⟨S1000000, .i32⟩
  | 43 => ⟨S1x1000000, .i32⟩
  | 44 => ⟨S1000000, .i32⟩
  | 45 => ⟨S_, .f32⟩
  | 46 => ⟨S1000000, .f32⟩
  | 47 => ⟨S_, .f32⟩
  | 48 => ⟨S100000, .f32⟩
  | 49 => ⟨S1000000x1, .i32⟩
  | 50 => ⟨S100000, .f32⟩
  | 51 => ⟨S_, .f32⟩
  | 52 => ⟨S100000, .f32⟩
  | 53 => ⟨S100000, .i1⟩
  | 54 => ⟨S_, .f32⟩
  | 55 => ⟨S_, .f32⟩
  | 56 => ⟨S100000, .f32⟩
  | 57 => ⟨S100000, .f32⟩
  | 58 => ⟨S_, .f32⟩
  | 59 => ⟨S100000, .f32⟩
  | 60 => ⟨S100000, .f32⟩
  | 61 => ⟨S100000x1, .f32⟩
  | 62 => ⟨S100000x64, .f32⟩
  | 63 => ⟨S100000x64, .f32⟩
  | 64 => ⟨S_, .i32⟩
  | 65 => ⟨S1000000, .i32⟩
  | 66 => ⟨S1000000, .i1⟩
  | 67 => ⟨S_, .i32⟩
  | 68 => ⟨S1000000, .i32⟩
  | 69 => ⟨S1000000, .i32⟩
  | 70 => ⟨S1000000, .i32⟩
  | 71 => ⟨S1000000x1, .i32⟩
  | 72 => ⟨S1000000x64, .f32⟩
  | 73 => ⟨S100000x1, .f32⟩
  | 74 => ⟨S_, .f32⟩
  | 75 => ⟨S100000x64, .f32⟩
  | 76 => ⟨S1000000x1, .i32⟩
  | 77 => ⟨S100000x64, .f32⟩
  | 78 => ⟨S100000x64, .f32⟩
  | 79 => ⟨S100000x64, .f32⟩
  | 80 => ⟨S100000x64, .f32⟩
  | 81 => ⟨S100000x128, .f32⟩
  | 82 => ⟨S100000x64, .f32⟩
  | 83 => ⟨S1x64, .f32⟩
  | 84 => ⟨S100000x64, .f32⟩
  | 85 => ⟨S100000x64, .f32⟩
  | 86 => ⟨S1x1000000, .i32⟩
  | 87 => ⟨S1000000, .i32⟩
  | 88 => ⟨S1x1000000, .i32⟩
  | 89 => ⟨S1000000, .i32⟩
  | 90 => ⟨S_, .f32⟩
  | 91 => ⟨S1000000, .f32⟩
  | 92 => ⟨S_, .f32⟩
  | 93 => ⟨S100000, .f32⟩
  | 94 => ⟨S1000000x1, .i32⟩
  | 95 => ⟨S100000, .f32⟩
  | 96 => ⟨S_, .f32⟩
  | 97 => ⟨S100000, .f32⟩
  | 98 => ⟨S100000, .i1⟩
  | 99 => ⟨S_, .f32⟩
  | 100 => ⟨S_, .f32⟩
  | 101 => ⟨S100000, .f32⟩
  | 102 => ⟨S100000, .f32⟩
  | 103 => ⟨S_, .f32⟩
  | 104 => ⟨S100000, .f32⟩
  | 105 => ⟨S100000, .f32⟩
  | 106 => ⟨S100000x1, .f32⟩
  | 107 => ⟨S100000x64, .f32⟩
  | 108 => ⟨S100000x64, .f32⟩
  | 109 => ⟨S_, .i32⟩
  | 110 => ⟨S1000000, .i32⟩
  | 111 => ⟨S1000000, .i1⟩
  | 112 => ⟨S_, .i32⟩
  | 113 => ⟨S1000000, .i32⟩
  | 114 => ⟨S1000000, .i32⟩
  | 115 => ⟨S1000000, .i32⟩
  | 116 => ⟨S1000000x1, .i32⟩
  | 117 => ⟨S1000000x64, .f32⟩
  | 118 => ⟨S100000x1, .f32⟩
  | 119 => ⟨S_, .f32⟩
  | 120 => ⟨S100000x64, .f32⟩
  | 121 => ⟨S1000000x1, .i32⟩
  | 122 => ⟨S100000x64, .f32⟩
  | 123 => ⟨S100000x64, .f32⟩
  | 124 => ⟨S100000x64, .f32⟩
  | 125 => ⟨S100000x64, .f32⟩
  | 126 => ⟨S100000x128, .f32⟩
  | 127 => ⟨S100000x64, .f32⟩
  | _ => ⟨S100000x64, .f32⟩

abbrev hbmTy0_1 (i : Nat) : BufTy := match i % 128 with
  | 0 => ⟨S1x64, .f32⟩
  | 1 => ⟨S100000x64, .f32⟩
  | 2 => ⟨S100000x64, .f32⟩
  | 3 => ⟨S100000x128, .f32⟩
  | 4 => ⟨S100000x64, .f32⟩
  | 5 => ⟨S1x64, .f32⟩
  | 6 => ⟨S100000x64, .f32⟩
  | 7 => ⟨S100000x64, .f32⟩
  | 8 => ⟨S100000x64, .f32⟩
  | 9 => ⟨S1x1000000, .i32⟩
  | 10 => ⟨S1000000, .i32⟩
  | 11 => ⟨S1x1000000, .i32⟩
  | 12 => ⟨S1000000, .i32⟩
  | 13 => ⟨S_, .f32⟩
  | 14 => ⟨S1000000, .f32⟩
  | 15 => ⟨S_, .f32⟩
  | 16 => ⟨S100000, .f32⟩
  | 17 => ⟨S1000000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S100000x1, .f32⟩
  | 30 => ⟨S100000x64, .f32⟩
  | 31 => ⟨S100000x64, .f32⟩
  | 32 => ⟨S_, .i32⟩
  | 33 => ⟨S1000000, .i32⟩
  | 34 => ⟨S1000000, .i1⟩
  | 35 => ⟨S_, .i32⟩
  | 36 => ⟨S1000000, .i32⟩
  | 37 => ⟨S1000000, .i32⟩
  | 38 => ⟨S1000000, .i32⟩
  | 39 => ⟨S1000000x1, .i32⟩
  | 40 => ⟨S1000000x64, .f32⟩
  | 41 => ⟨S100000x1, .f32⟩
  | 42 => ⟨S_, .f32⟩
  | 43 => ⟨S100000x64, .f32⟩
  | 44 => ⟨S1000000x1, .i32⟩
  | 45 => ⟨S100000x64, .f32⟩
  | 46 => ⟨S100000x64, .f32⟩
  | 47 => ⟨S100000x64, .f32⟩
  | 48 => ⟨S100000x64, .f32⟩
  | 49 => ⟨S100000x128, .f32⟩
  | 50 => ⟨S100000x64, .f32⟩
  | 51 => ⟨S1x64, .f32⟩
  | 52 => ⟨S100000x64, .f32⟩
  | 53 => ⟨S100000x64, .f32⟩
  | 54 => ⟨S1x1000000, .i32⟩
  | 55 => ⟨S1000000, .i32⟩
  | 56 => ⟨S1x1000000, .i32⟩
  | 57 => ⟨S1000000, .i32⟩
  | 58 => ⟨S_, .f32⟩
  | 59 => ⟨S1000000, .f32⟩
  | 60 => ⟨S_, .f32⟩
  | 61 => ⟨S100000, .f32⟩
  | 62 => ⟨S1000000x1, .i32⟩
  | 63 => ⟨S100000, .f32⟩
  | 64 => ⟨S_, .f32⟩
  | 65 => ⟨S100000, .f32⟩
  | 66 => ⟨S100000, .i1⟩
  | 67 => ⟨S_, .f32⟩
  | 68 => ⟨S_, .f32⟩
  | 69 => ⟨S100000, .f32⟩
  | 70 => ⟨S100000, .f32⟩
  | 71 => ⟨S_, .f32⟩
  | 72 => ⟨S100000, .f32⟩
  | 73 => ⟨S100000, .f32⟩
  | 74 => ⟨S100000x1, .f32⟩
  | 75 => ⟨S100000x64, .f32⟩
  | 76 => ⟨S100000x64, .f32⟩
  | 77 => ⟨S_, .i32⟩
  | 78 => ⟨S1000000, .i32⟩
  | 79 => ⟨S1000000, .i1⟩
  | 80 => ⟨S_, .i32⟩
  | 81 => ⟨S1000000, .i32⟩
  | 82 => ⟨S1000000, .i32⟩
  | 83 => ⟨S1000000, .i32⟩
  | 84 => ⟨S1000000x1, .i32⟩
  | 85 => ⟨S1000000x64, .f32⟩
  | 86 => ⟨S100000x1, .f32⟩
  | 87 => ⟨S_, .f32⟩
  | 88 => ⟨S100000x64, .f32⟩
  | 89 => ⟨S1000000x1, .i32⟩
  | 90 => ⟨S100000x64, .f32⟩
  | 91 => ⟨S100000x64, .f32⟩
  | 92 => ⟨S100000x64, .f32⟩
  | 93 => ⟨S100000x64, .f32⟩
  | 94 => ⟨S100000x128, .f32⟩
  | 95 => ⟨S100000x64, .f32⟩
  | 96 => ⟨S1x64, .f32⟩
  | 97 => ⟨S100000x64, .f32⟩
  | 98 => ⟨S100000x64, .f32⟩
  | 99 => ⟨S100000x128, .f32⟩
  | 100 => ⟨S100000x64, .f32⟩
  | 101 => ⟨S1x64, .f32⟩
  | 102 => ⟨S100000x64, .f32⟩
  | 103 => ⟨S100000x64, .f32⟩
  | 104 => ⟨S100000x64, .f32⟩
  | 105 => ⟨S1x1000000, .i32⟩
  | 106 => ⟨S1000000, .i32⟩
  | 107 => ⟨S1x1000000, .i32⟩
  | 108 => ⟨S1000000, .i32⟩
  | 109 => ⟨S_, .f32⟩
  | 110 => ⟨S1000000, .f32⟩
  | 111 => ⟨S_, .f32⟩
  | 112 => ⟨S100000, .f32⟩
  | 113 => ⟨S1000000x1, .i32⟩
  | 114 => ⟨S100000, .f32⟩
  | 115 => ⟨S_, .f32⟩
  | 116 => ⟨S100000, .f32⟩
  | 117 => ⟨S100000, .i1⟩
  | 118 => ⟨S_, .f32⟩
  | 119 => ⟨S_, .f32⟩
  | 120 => ⟨S100000, .f32⟩
  | 121 => ⟨S100000, .f32⟩
  | 122 => ⟨S_, .f32⟩
  | 123 => ⟨S100000, .f32⟩
  | 124 => ⟨S100000, .f32⟩
  | 125 => ⟨S100000x1, .f32⟩
  | 126 => ⟨S100000x64, .f32⟩
  | 127 => ⟨S100000x64, .f32⟩
  | _ => ⟨S100000x64, .f32⟩

abbrev hbmTy0_2 (i : Nat) : BufTy := match i % 128 with
  | 0 => ⟨S_, .i32⟩
  | 1 => ⟨S1000000, .i32⟩
  | 2 => ⟨S1000000, .i1⟩
  | 3 => ⟨S_, .i32⟩
  | 4 => ⟨S1000000, .i32⟩
  | 5 => ⟨S1000000, .i32⟩
  | 6 => ⟨S1000000, .i32⟩
  | 7 => ⟨S1000000x1, .i32⟩
  | 8 => ⟨S1000000x64, .f32⟩
  | 9 => ⟨S100000x1, .f32⟩
  | 10 => ⟨S_, .f32⟩
  | 11 => ⟨S100000x64, .f32⟩
  | 12 => ⟨S1000000x1, .i32⟩
  | 13 => ⟨S100000x64, .f32⟩
  | 14 => ⟨S100000x64, .f32⟩
  | 15 => ⟨S100000x64, .f32⟩
  | 16 => ⟨S100000x64, .f32⟩
  | 17 => ⟨S100000x128, .f32⟩
  | 18 => ⟨S100000x64, .f32⟩
  | 19 => ⟨S1x64, .f32⟩
  | 20 => ⟨S100000x64, .f32⟩
  | 21 => ⟨S100000x64, .f32⟩
  | 22 => ⟨S1x1000000, .i32⟩
  | 23 => ⟨S1000000, .i32⟩
  | 24 => ⟨S1x1000000, .i32⟩
  | 25 => ⟨S1000000, .i32⟩
  | 26 => ⟨S_, .f32⟩
  | 27 => ⟨S1000000, .f32⟩
  | 28 => ⟨S_, .f32⟩
  | 29 => ⟨S100000, .f32⟩
  | 30 => ⟨S1000000x1, .i32⟩
  | 31 => ⟨S100000, .f32⟩
  | 32 => ⟨S_, .f32⟩
  | 33 => ⟨S100000, .f32⟩
  | 34 => ⟨S100000, .i1⟩
  | 35 => ⟨S_, .f32⟩
  | 36 => ⟨S_, .f32⟩
  | 37 => ⟨S100000, .f32⟩
  | 38 => ⟨S100000, .f32⟩
  | 39 => ⟨S_, .f32⟩
  | 40 => ⟨S100000, .f32⟩
  | 41 => ⟨S100000, .f32⟩
  | 42 => ⟨S100000x1, .f32⟩
  | 43 => ⟨S100000x64, .f32⟩
  | 44 => ⟨S100000x64, .f32⟩
  | 45 => ⟨S_, .i32⟩
  | 46 => ⟨S1000000, .i32⟩
  | 47 => ⟨S1000000, .i1⟩
  | 48 => ⟨S_, .i32⟩
  | 49 => ⟨S1000000, .i32⟩
  | 50 => ⟨S1000000, .i32⟩
  | 51 => ⟨S1000000, .i32⟩
  | 52 => ⟨S1000000x1, .i32⟩
  | 53 => ⟨S1000000x64, .f32⟩
  | 54 => ⟨S100000x1, .f32⟩
  | 55 => ⟨S_, .f32⟩
  | 56 => ⟨S100000x64, .f32⟩
  | 57 => ⟨S1000000x1, .i32⟩
  | 58 => ⟨S100000x64, .f32⟩
  | 59 => ⟨S100000x64, .f32⟩
  | 60 => ⟨S100000x64, .f32⟩
  | 61 => ⟨S100000x64, .f32⟩
  | 62 => ⟨S100000x128, .f32⟩
  | 63 => ⟨S100000x64, .f32⟩
  | 64 => ⟨S1x64, .f32⟩
  | 65 => ⟨S100000x64, .f32⟩
  | 66 => ⟨S100000x64, .f32⟩
  | 67 => ⟨S100000x128, .f32⟩
  | 68 => ⟨S100000x64, .f32⟩
  | 69 => ⟨S1x64, .f32⟩
  | 70 => ⟨S100000x64, .f32⟩
  | 71 => ⟨S100000x64, .f32⟩
  | 72 => ⟨S100000x64, .f32⟩
  | 73 => ⟨S_, .f32⟩
  | 74 => ⟨S_, .f32⟩
  | 75 => ⟨S100000x64, .f32⟩
  | 76 => ⟨S100000x64, .i1⟩
  | 77 => ⟨S_, .f32⟩
  | 78 => ⟨S100000x64, .f32⟩
  | 79 => ⟨S100000x64, .f32⟩
  | 80 => ⟨S100000x64, .f32⟩
  | 81 => ⟨S100000x2, .f32⟩
  | 82 => ⟨S1x2, .f32⟩
  | 83 => ⟨S100000x2, .f32⟩
  | 84 => ⟨S100000x2, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_cst_0 : Ref sig .tc := ⟨.hbm, 31, rfl⟩
abbrev main_call1_cst : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_cst_3 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_4 : Ref sig .tc := ⟨.hbm, 51, rfl⟩
abbrev main_v19 : Ref sig .tc := ⟨.hbm, 52, rfl⟩
abbrev main_v20 : Ref sig .tc := ⟨.hbm, 53, rfl⟩
abbrev main_cst_5 : Ref sig .tc := ⟨.hbm, 54, rfl⟩
abbrev main_call2_v0 : Ref sig .tc := ⟨.hbm, 55, rfl⟩
abbrev main_call2_v1 : Ref sig .tc := ⟨.hbm, 56, rfl⟩
abbrev main_v21 : Ref sig .tc := ⟨.hbm, 57, rfl⟩
abbrev main_cst_6 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_c : Ref sig .tc := ⟨.hbm, 64, rfl⟩
abbrev main_v27 : Ref sig .tc := ⟨.hbm, 65, rfl⟩
abbrev main_v28 : Ref sig .tc := ⟨.hbm, 66, rfl⟩
abbrev main_c_7 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_cst_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_cst_9 : Ref sig .tc := ⟨.hbm, 90, rfl⟩
abbrev main_v50 : Ref sig .tc := ⟨.hbm, 91, rfl⟩
abbrev main_cst_10 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_cst_11 : Ref sig .tc := ⟨.hbm, 96, rfl⟩
abbrev main_v54 : Ref sig .tc := ⟨.hbm, 97, rfl⟩
abbrev main_v55 : Ref sig .tc := ⟨.hbm, 98, rfl⟩
abbrev main_cst_12 : Ref sig .tc := ⟨.hbm, 99, rfl⟩
abbrev main_call3_v0 : Ref sig .tc := ⟨.hbm, 100, rfl⟩
abbrev main_call3_v1 : Ref sig .tc := ⟨.hbm, 101, rfl⟩
abbrev main_v56 : Ref sig .tc := ⟨.hbm, 102, rfl⟩
abbrev main_cst_13 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_c_14 : Ref sig .tc := ⟨.hbm, 109, rfl⟩
abbrev main_v62 : Ref sig .tc := ⟨.hbm, 110, rfl⟩
abbrev main_v63 : Ref sig .tc := ⟨.hbm, 111, rfl⟩
abbrev main_c_15 : Ref sig .tc := ⟨.hbm, 112, rfl⟩
abbrev main_v64 : Ref sig .tc := ⟨.hbm, 113, rfl⟩
abbrev main_v65 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_cst_16 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_17 : Ref sig .tc := ⟨.hbm, 141, rfl⟩
abbrev main_v91 : Ref sig .tc := ⟨.hbm, 142, rfl⟩
abbrev main_cst_18 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_19 : Ref sig .tc := ⟨.hbm, 147, rfl⟩
abbrev main_v95 : Ref sig .tc := ⟨.hbm, 148, rfl⟩
abbrev main_v96 : Ref sig .tc := ⟨.hbm, 149, rfl⟩
abbrev main_cst_20 : Ref sig .tc := ⟨.hbm, 150, rfl⟩
abbrev main_call4_v0 : Ref sig .tc := ⟨.hbm, 151, rfl⟩
abbrev main_call4_v1 : Ref sig .tc := ⟨.hbm, 152, rfl⟩
abbrev main_v97 : Ref sig .tc := ⟨.hbm, 153, rfl⟩
abbrev main_cst_21 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_22 : Ref sig .tc := ⟨.hbm, 160, rfl⟩
abbrev main_v103 : Ref sig .tc := ⟨.hbm, 161, rfl⟩
abbrev main_v104 : Ref sig .tc := ⟨.hbm, 162, rfl⟩
abbrev main_c_23 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_cst_24 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_cst_25 : Ref sig .tc := ⟨.hbm, 186, rfl⟩
abbrev main_v126 : Ref sig .tc := ⟨.hbm, 187, rfl⟩
abbrev main_cst_26 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_cst_27 : Ref sig .tc := ⟨.hbm, 192, rfl⟩
abbrev main_v130 : Ref sig .tc := ⟨.hbm, 193, rfl⟩
abbrev main_v131 : Ref sig .tc := ⟨.hbm, 194, rfl⟩
abbrev main_cst_28 : Ref sig .tc := ⟨.hbm, 195, rfl⟩
abbrev main_call5_v0 : Ref sig .tc := ⟨.hbm, 196, rfl⟩
abbrev main_call5_v1 : Ref sig .tc := ⟨.hbm, 197, rfl⟩
abbrev main_v132 : Ref sig .tc := ⟨.hbm, 198, rfl⟩
abbrev main_cst_29 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_v136 : Ref sig .tc := ⟨.hbm, 203, rfl⟩
abbrev main_v137 : Ref sig .tc := ⟨.hbm, 204, rfl⟩
abbrev main_c_30 : Ref sig .tc := ⟨.hbm, 205, rfl⟩
abbrev main_v138 : Ref sig .tc := ⟨.hbm, 206, rfl⟩
abbrev main_v139 : Ref sig .tc := ⟨.hbm, 207, rfl⟩
abbrev main_c_31 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_32 : Ref sig .tc := ⟨.hbm, 215, rfl⟩
abbrev main_v146 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_cst_33 : Ref sig .tc := ⟨.hbm, 237, rfl⟩
abbrev main_v167 : Ref sig .tc := ⟨.hbm, 238, rfl⟩
abbrev main_cst_34 : Ref sig .tc := ⟨.hbm, 239, rfl⟩
abbrev main_v168 : Ref sig .tc := ⟨.hbm, 240, rfl⟩
abbrev main_v169 : Ref sig .tc := ⟨.hbm, 241, rfl⟩
abbrev main_v170 : Ref sig .tc := ⟨.hbm, 242, rfl⟩
abbrev main_cst_35 : Ref sig .tc := ⟨.hbm, 243, rfl⟩
abbrev main_v171 : Ref sig .tc := ⟨.hbm, 244, rfl⟩
abbrev main_v172 : Ref sig .tc := ⟨.hbm, 245, rfl⟩
abbrev main_cst_36 : Ref sig .tc := ⟨.hbm, 246, rfl⟩
abbrev main_call6_v0 : Ref sig .tc := ⟨.hbm, 247, rfl⟩
abbrev main_call6_v1 : Ref sig .tc := ⟨.hbm, 248, rfl⟩
abbrev main_v173 : Ref sig .tc := ⟨.hbm, 249, rfl⟩
abbrev main_cst_37 : Ref sig .tc := ⟨.hbm, 250, rfl⟩
abbrev main_v174 : Ref sig .tc := ⟨.hbm, 251, rfl⟩
abbrev main_v175 : Ref sig .tc := ⟨.hbm, 252, rfl⟩
abbrev main_v176 : Ref sig .tc := ⟨.hbm, 253, rfl⟩
abbrev main_v177 : Ref sig .tc := ⟨.hbm, 254, rfl⟩
abbrev main_v178 : Ref sig .tc := ⟨.hbm, 255, rfl⟩
abbrev main_c_38 : Ref sig .tc := ⟨.hbm, 256, rfl⟩
abbrev main_v179 : Ref sig .tc := ⟨.hbm, 257, rfl⟩
abbrev main_v180 : Ref sig .tc := ⟨.hbm, 258, rfl⟩
abbrev main_c_39 : Ref sig .tc := ⟨.hbm, 259, rfl⟩
abbrev main_v181 : Ref sig .tc := ⟨.hbm, 260, rfl⟩
abbrev main_v182 : Ref sig .tc := ⟨.hbm, 261, rfl⟩
abbrev main_v183 : Ref sig .tc := ⟨.hbm, 262, rfl⟩
abbrev main_v184 : Ref sig .tc := ⟨.hbm, 263, rfl⟩
abbrev main_v185 : Ref sig .tc := ⟨.hbm, 264, rfl⟩
abbrev main_v186 : Ref sig .tc := ⟨.hbm, 265, rfl⟩
abbrev main_cst_40 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_cst_41 : Ref sig .tc := ⟨.hbm, 282, rfl⟩
abbrev main_v202 : Ref sig .tc := ⟨.hbm, 283, rfl⟩
abbrev main_cst_42 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_cst_43 : Ref sig .tc := ⟨.hbm, 288, rfl⟩
abbrev main_v206 : Ref sig .tc := ⟨.hbm, 289, rfl⟩
abbrev main_v207 : Ref sig .tc := ⟨.hbm, 290, rfl⟩
abbrev main_cst_44 : Ref sig .tc := ⟨.hbm, 291, rfl⟩
abbrev main_call7_v0 : Ref sig .tc := ⟨.hbm, 292, rfl⟩
abbrev main_call7_v1 : Ref sig .tc := ⟨.hbm, 293, rfl⟩
abbrev main_v208 : Ref sig .tc := ⟨.hbm, 294, rfl⟩
abbrev main_cst_45 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_v212 : Ref sig .tc := ⟨.hbm, 299, rfl⟩
abbrev main_v213 : Ref sig .tc := ⟨.hbm, 300, rfl⟩
abbrev main_c_46 : Ref sig .tc := ⟨.hbm, 301, rfl⟩
abbrev main_v214 : Ref sig .tc := ⟨.hbm, 302, rfl⟩
abbrev main_v215 : Ref sig .tc := ⟨.hbm, 303, rfl⟩
abbrev main_c_47 : Ref sig .tc := ⟨.hbm, 304, rfl⟩
abbrev main_v216 : Ref sig .tc := ⟨.hbm, 305, rfl⟩
abbrev main_v217 : Ref sig .tc := ⟨.hbm, 306, rfl⟩
abbrev main_v218 : Ref sig .tc := ⟨.hbm, 307, rfl⟩
abbrev main_v219 : Ref sig .tc := ⟨.hbm, 308, rfl⟩
abbrev main_v220 : Ref sig .tc := ⟨.hbm, 309, rfl⟩
abbrev main_v221 : Ref sig .tc := ⟨.hbm, 310, rfl⟩
abbrev main_cst_48 : Ref sig .tc := ⟨.hbm, 311, rfl⟩
abbrev main_v222 : Ref sig .tc := ⟨.hbm, 312, rfl⟩
abbrev main_v223 : Ref sig .tc := ⟨.hbm, 313, rfl⟩
abbrev main_v224 : Ref sig .tc := ⟨.hbm, 314, rfl⟩
abbrev main_v225 : Ref sig .tc := ⟨.hbm, 315, rfl⟩
abbrev main_v226 : Ref sig .tc := ⟨.hbm, 316, rfl⟩
abbrev main_v227 : Ref sig .tc := ⟨.hbm, 317, rfl⟩
abbrev main_v228 : Ref sig .tc := ⟨.hbm, 318, rfl⟩
abbrev main_v229 : Ref sig .tc := ⟨.hbm, 319, rfl⟩
abbrev main_v230 : Ref sig .tc := ⟨.hbm, 320, rfl⟩
abbrev main_v231 : Ref sig .tc := ⟨.hbm, 321, rfl⟩
abbrev main_v232 : Ref sig .tc := ⟨.hbm, 322, rfl⟩
abbrev main_v233 : Ref sig .tc := ⟨.hbm, 323, rfl⟩
abbrev main_v234 : Ref sig .tc := ⟨.hbm, 324, rfl⟩
abbrev main_v235 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_cst_49 : Ref sig .tc := ⟨.hbm, 329, rfl⟩
abbrev main_call8_cst : Ref sig .tc := ⟨.hbm, 330, rfl⟩
abbrev main_call8_v0 : Ref sig .tc := ⟨.hbm, 331, rfl⟩
abbrev main_call8_v1 : Ref sig .tc := ⟨.hbm, 332, rfl⟩
abbrev main_call8_v2 : Ref sig .tc := ⟨.hbm, 333, rfl⟩
abbrev main_call8_v3 : Ref sig .tc := ⟨.hbm, 334, rfl⟩
abbrev main_call8_v4 : Ref sig .tc := ⟨.hbm, 335, rfl⟩
abbrev main_v239 : Ref sig .tc := ⟨.hbm, 336, rfl⟩
abbrev main_v240 : Ref sig .tc := ⟨.hbm, 337, rfl⟩
abbrev main_v241 : Ref sig .tc := ⟨.hbm, 338, rfl⟩
abbrev main_v242 : Ref sig .tc := ⟨.hbm, 339, rfl⟩
abbrev main_v243 : Ref sig .tc := ⟨.hbm, 340, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  slices_S3x1000000_S1x1000000_0_0 : S3x1000000.Slices ![0, 0] S1x1000000
  shapeCasts_S1x1000000_S1000000 : S1x1000000.ShapeCasts S1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  slices_S3x1000000_S1x1000000_1_0 : S3x1000000.Slices ![1, 0] S1x1000000
  slices_S3x1000000_S1x1000000_2_0 : S3x1000000.Slices ![2, 0] S1x1000000
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  dot_S100000x64_S64x64_S100000x64_1_0_0_1_n_n_wf : DotDims.WF S100000x64 S64x64 S100000x64 [1] [0] [0] [1] [] []
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x128_S128x64_S100000x64_1_0_0_1_n_n_wf : DotDims.WF S100000x128 S128x64 S100000x64 [1] [0] [0] [1] [] []
  dot_S100000x64_S64x2_S100000x2_1_0_0_1_n_n_wf : DotDims.WF S100000x64 S64x2 S100000x2 [1] [0] [0] [1] [] []

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf

class Facts : Prop extends Facts₀ where

variable [Facts]
-- ==== Proof.Net.lean ====
/-
  The network both programs compute, named once, as functions of arrays, at any float instance `F`.

  Nodes carry 64 features; a relation is a pair of index rows (sources, destinations) of 1 000 000 edges.
  * `lrelu z`   : `z` where `z ≥ 0`, else `c · z` with the binary32 constant `c` nearest 0.01.
  * `dense x W b` : `x W + b` (64 → 64), `mlp` two such layers each followed by `lrelu`.
  * `agg feat s d` : the normalised neighbour sum `D^(-1/2) A D^(-1/2) feat`: `deg` counts the edges arriving at
    a node, `dinv` is `max(deg, 1)^(-1/2)`, the scaled features are gathered along the sources and summed at the
    destinations, and the sum is scaled again.
  * `cheb feat ah W b` : `[feat, -ah] W + b` over the 128 concatenated columns; `comb` the same with `[h0, h1]`.
  * `relH` : one relation's update of the node state; `net` : the whole map.
  `top`, `bot` are the two 64-row halves of a 128 × 64 matrix, `r64`, `r2` a bias vector as a one-row matrix.
-/
import proofs.«137448_j36043365548320_2_alg».proof.Proof.Gen.ReferenceIdeal
import Idealize.ShloMosaic.PureOps.Ideal

noncomputable section

namespace Cert.Net

open Idealize.ShloMosaic Cert.ReferenceIdeal Cert.ReferenceIdeal.Gen

variable {F : FTy → Type} [FloatOps F]

/-- The contents of a float array of shape `S`. -/
abbrev CF (F : FTy → Type) [FloatOps F] (S : Shape) : Type := (⟨S, .f32⟩ : BufTy).Contents (Elt F)
/-- The contents of a 32-bit integer array of shape `S`. -/
abbrev CI (F : FTy → Type) [FloatOps F] (S : Shape) : Type := (⟨S, .i32⟩ : BufTy).Contents (Elt F)

abbrev S5000x64 : Shape := ⟨2, ![5000, 64]⟩

theorem slices_top : S128x64.Slices ![0, 0] S64x64 := by decide
theorem slices_bot : S128x64.Slices ![64, 0] S64x64 := by decide
theorem casts_64 : S64.ShapeCasts S1x64 := by decide
theorem casts_2 : S2.ShapeCasts S1x2 := by decide

/-- The upper 64 rows of a 128 × 64 matrix. -/
def top (W : CF F S128x64) : CF F S64x64 := extractStridedSlice S64x64 ![0, 0] W slices_top
/-- The lower 64 rows of a 128 × 64 matrix. -/
def bot (W : CF F S128x64) : CF F S64x64 := extractStridedSlice S64x64 ![64, 0] W slices_bot
/-- A vector of 64 entries as a 1 × 64 matrix. -/
def r64 (b : CF F S64) : CF F S1x64 := fun i => shapeCast S1x64 b casts_64 i
/-- A vector of 2 entries as a 1 × 2 matrix. -/
def r2 (b : CF F S2) : CF F S1x2 := fun i => shapeCast S1x2 b casts_2 i

/-- All zeros over the nodes. -/
def zero : CF F S100000x64 := broadcastInDim S100000x64 ![] bcast_S_S100000x64 (constant S_ .f32 0x00000000#32)

/-- `z` where `z ≥ 0`, else `c · z`. -/
def lrelu (z : CF F S100000x64) : CF F S100000x64 :=
  select (cmpf .oge z (broadcastInDim S100000x64 ![] bcast_S_S100000x64 (constant S_ .f32 0x00000000#32))) z
    (mulf (broadcastInDim S100000x64 ![] bcast_S_S100000x64 (constant S_ .f32 0x3C23D70A#32)) z)

/-- A bias vector spread over the nodes. -/
def bias64 (b : CF F S64) : CF F S100000x64 :=
  broadcastInDim S100000x64 ![0, 1] bcast_S1x64_S100000x64_0_1 (broadcastInDim S1x64 ![1] bcast_S64_S1x64_1 b)

/-- `x W + b`, 64 → 64. -/
def dense (x : CF F S100000x64) (W : CF F S64x64) (b : CF F S64) : CF F S100000x64 :=
  addf (Host.dotGeneral dot_S100000x64_S64x64_S100000x64_1_0_0_1_n_n none x W) (bias64 b)

/-- Two dense layers, each followed by `lrelu`. -/
def mlp (x : CF F S100000x64) (W1 : CF F S64x64) (b1 : CF F S64) (W2 : CF F S64x64) (b2 : CF F S64) : CF F S100000x64 :=
  lrelu (dense (lrelu (dense x W1 b1)) W2 b2)

/-- Row `0` of a 3 × 1 000 000 index table. -/
def row0 (a : CI F S3x1000000) : CI F S1000000 :=
  fun i => shapeCast S1000000 (extractStridedSlice S1x1000000 ![0, 0] a slices_S3x1000000_S1x1000000_0_0) shapeCasts_S1x1000000_S1000000 i
/-- Row `1`. -/
def row1 (a : CI F S3x1000000) : CI F S1000000 :=
  fun i => shapeCast S1000000 (extractStridedSlice S1x1000000 ![1, 0] a slices_S3x1000000_S1x1000000_1_0) shapeCasts_S1x1000000_S1000000 i
/-- Row `2`. -/
def row2 (a : CI F S3x1000000) : CI F S1000000 :=
  fun i => shapeCast S1000000 (extractStridedSlice S1x1000000 ![2, 0] a slices_S3x1000000_S1x1000000_2_0) shapeCasts_S1x1000000_S1000000 i

/-- The number of edges arriving at each node. -/
def deg (d : CI F S1000000) : CF F S100000 :=
  Host.scatterAdd scatter_S100000_S1000000x1_S1000000_n_0_0_1
    (broadcastInDim S100000 ![] bcast_S_S100000 (constant S_ .f32 0x00000000#32))
    (broadcastInDim S1000000x1 ![0] bcast_S1000000_S1000000x1_0 d)
    (broadcastInDim S1000000 ![] bcast_S_S1000000 (constant S_ .f32 0x3F800000#32))

/-- `max(deg, 1)`: the degree where it is at least one, else one. -/
def degc (d : CI F S1000000) : CF F S100000 :=
  select (cmpf .olt (deg d) (broadcastInDim S100000 ![] bcast_S_S100000 (constant S_ .f32 0x3F800000#32)))
    (broadcastInDim S100000 ![] bcast_S_S100000 (constant S_ .f32 0x3F800000#32)) (deg d)

/-- `max(deg, 1)^(-1/2)`. -/
def dinv (d : CI F S1000000) : CF F S100000 :=
  Host.powf (degc d) (broadcastInDim S100000 ![] bcast_S_S100000 (constant S_ .f32 0xBF000000#32))

/-- `dinv` spread over a node's 64 features. -/
def dcol (d : CI F S1000000) : CF F S100000x64 :=
  broadcastInDim S100000x64 ![0, 1] bcast_S100000x1_S100000x64_0_1 (broadcastInDim S100000x1 ![0] bcast_S100000_S100000x1_0 (dinv d))

/-- The sources with negative entries wrapped once around the node count. -/
def srcn (s : CI F S1000000) : CI F S1000000 :=
  select (cmpi .slt s (broadcastInDim S1000000 ![] bcast_S_S1000000 (constantI S_ 32 0#32)))
    (addi s (broadcastInDim S1000000 ![] bcast_S_S1000000 (constantI S_ 32 100000#32))) s

/-- The scaled features gathered along the edges' sources. -/
def msg (feat : CF F S100000x64) (s d : CI F S1000000) : CF F S1000000x64 :=
  Host.gather gather_S100000x64_S1000000x1_S1000000x64_1_0_n_n_0_1_164 (mulf feat (dcol d))
    (broadcastInDim S1000000x1 ![0] bcast_S1000000_S1000000x1_0 (srcn s))

/-- The messages summed at the edges' destinations. -/
def ssum (feat : CF F S100000x64) (s d : CI F S1000000) : CF F S100000x64 :=
  Host.scatterAdd scatter_S100000x64_S1000000x1_S1000000x64_1_0_0_1 zero
    (broadcastInDim S1000000x1 ![0] bcast_S1000000_S1000000x1_0 d) (msg feat s d)

/-- The normalised neighbour sum. -/
def agg (feat : CF F S100000x64) (s d : CI F S1000000) : CF F S100000x64 := mulf (dcol d) (ssum feat s d)

/-- Two node arrays side by side: 128 columns. -/
def cat (a b : CF F S100000x64) : CF F S100000x128 :=
  concatenate S100000x128 1 [⟨S100000x64, a⟩, ⟨S100000x64, b⟩] concatenates_S100000x64_S100000x64_S100000x128_d1

/-- `[a, b] W + bias`, 128 → 64. -/
def dense2 (a b : CF F S100000x64) (W : CF F S128x64) (bias : CF F S64) : CF F S100000x64 :=
  addf (Host.dotGeneral dot_S100000x128_S128x64_S100000x64_1_0_0_1_n_n none (cat a b) W) (bias64 bias)

/-- `[feat, -ah] W + b`. -/
def cheb (feat ah : CF F S100000x64) (W : CF F S128x64) (b : CF F S64) : CF F S100000x64 := dense2 feat (Host.negf ah) W b

/-- The first convolution of a relation. -/
def conv1 (h : CF F S100000x64) (s d : CI F S1000000) (Wc1 : CF F S128x64) (bc1 : CF F S64) : CF F S100000x64 :=
  cheb h (agg h s d) Wc1 bc1

/-- One relation's update of the node state. -/
def relH (h : CF F S100000x64) (s d : CI F S1000000) (Wc1 : CF F S128x64) (bc1 : CF F S64) (Wc2 : CF F S128x64) (bc2 : CF F S64)
    (W3 : CF F S128x64) (b3 : CF F S64) : CF F S100000x64 :=
  dense2 (conv1 h s d Wc1 bc1) (cheb (conv1 h s d Wc1 bc1) (agg (conv1 h s d Wc1 bc1) s d) Wc2 bc2) W3 b3

/-- The head: `lrelu`, then 64 → 2. -/
def head (hall : CF F S100000x64) (W4 : CF F S64x2) (b4 : CF F S2) : CF F S100000x2 :=
  addf (Host.dotGeneral dot_S100000x64_S64x2_S100000x2_1_0_0_1_n_n none (lrelu hall) W4)
    (broadcastInDim S100000x2 ![0, 1] bcast_S1x2_S100000x2_0_1 (broadcastInDim S1x2 ![1] bcast_S2_S1x2_1 b4))

/-- The node state after the dense layers and after each of the three relations. -/
def g0 (x : CF F S100000x64) (W1 : CF F S64x64) (b1 : CF F S64) (W2 : CF F S64x64) (b2 : CF F S64) : CF F S100000x64 := mlp x W1 b1 W2 b2

/-- The whole map: the dense layers, three relations in turn, their states summed, the head. -/
def net (x : CF F S100000x64) (src dst : CI F S3x1000000) (W1 : CF F S64x64) (b1 : CF F S64) (W2 : CF F S64x64) (b2 : CF F S64)
    (Wc1 : CF F S128x64) (bc1 : CF F S64) (Wc2 : CF F S128x64) (bc2 : CF F S64) (W3 : CF F S128x64) (b3 : CF F S64)
    (W4 : CF F S64x2) (b4 : CF F S2) : CF F S100000x2 :=
  let h1 := relH (mlp x W1 b1 W2 b2) (row0 src) (row0 dst) Wc1 bc1 Wc2 bc2 W3 b3
  let h2 := relH h1 (row1 src) (row1 dst) Wc1 bc1 Wc2 bc2 W3 b3
  let h3 := relH h2 (row2 src) (row2 dst) Wc1 bc1 Wc2 bc2 W3 b3
  head (addf (addf (addf zero h1) h2) h3) W4 b4

/-- Every entry of a float array, read over the extended reals, is a real number (neither infinity). -/
def IsReal {S : Shape} (A : CF Ideal S) : Prop := ∀ i : S.Idx, (A i : EReal) ≠ ⊤ ∧ (A i : EReal) ≠ ⊥

end Cert.Net

end
-- ==== Proof.PreReal.lean ====
/-
  From the precondition to "every float argument is real".

  The precondition is the conjunction, over the thirteen float arguments `x`, of "all entries of `|x| < +∞`", read
  over the extended reals: `max x (-x) < ⊤` holds exactly when `x` is neither `⊤` nor `⊥`. Each conjunct is a
  reduction by `and` over the whole array, so it gives the entry fact at every index.
-/
import proofs.«137448_j36043365548320_2_alg».proof.Defs
import proofs.«137448_j36043365548320_2_alg».proof.Proof.Gen.Pre_finite_inputs
import proofs.«137448_j36043365548320_2_alg».proof.Proof.Net
import Idealize.ShloMosaic.Lib.ReduceAll
import Idealize.ShloMosaic.Lib.ValueIdx
import Idealize.ShloMosaic.Lib.IdealHost

namespace Cert.PreReal

open Idealize.ShloMosaic Idealize.ShloMosaic.ValueIdx Idealize.SL.Sem

/-- The rank-0 shape has one index. -/
instance g_subsingleton : Subsingleton (⟨0, ![]⟩ : Shape).Idx := ⟨fun a b => funext fun d => d.elim0⟩

/-- The binary32 pattern `0x7F800000` is `+∞`. -/
theorem g_inf : Ideal.ofBits .f32 0x7F800000#32 = ⊤ := by simp [Ideal.ofBits, Ideal.ieee]

/-- `|x| < +∞` over the extended reals: `x` is neither infinity. -/
theorem g_real_of_abs_lt (x : EReal) (h : Ideal.cmp .olt (max x (-x)) (Ideal.ofBits .f32 0x7F800000#32) = 1#1) :
    x ≠ ⊤ ∧ x ≠ ⊥ := by
  rw [g_inf] at h
  have hlt : max x (-x) < ⊤ := by
    by_contra hn
    simp [Ideal.cmp, hn] at h
  constructor
  · rintro rfl; simp at hlt
  · rintro rfl; simp at hlt

/-- `all (|x| < +∞)` is one: every entry of `x` is a real number. -/
theorem g_all_real {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (e : Host.reduce IntOp.andi (cmpf .olt (Host.absf x) (broadcastInDim S ![] hb (constant ⟨0, ![]⟩ .f32 0x7F800000#32)))
          (constantI ⟨0, ![]⟩ 1 1#1) hr hu ix0 = 1#1) (i : S.Idx) : (x i : EReal) ≠ ⊤ ∧ (x i : EReal) ≠ ⊥ := by
  have h := Host.reduce_andi_all _ _ hr hu ix0 e i
  rw [cmpf_apply, broadcastInDim_scalar_apply, constant_apply] at h
  exact g_real_of_abs_lt (x i) h

/-- A conjunction of two one-bit scalars that is one: both are. -/
theorem g_andi (a b : IVec (⟨0, ![]⟩ : Shape) 1) (h : andi a b ix0 = 1#1) : a ix0 = 1#1 ∧ b ix0 = 1#1 :=
  IntOp.andi_eq_one.1 h

/-- Under the precondition every float argument of the kernel is real at every entry. -/
theorem args_real [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.Net.IsReal (m ((c.tc : Thread Cert.KernelIdeal.nD Cert.KernelIdeal.τ).loc Cert.KernelIdeal.main_arg0)) ∧
    Cert.Net.IsReal (m ((c.tc : Thread Cert.KernelIdeal.nD Cert.KernelIdeal.τ).loc Cert.KernelIdeal.main_arg3)) ∧
    Cert.Net.IsReal (m ((c.tc : Thread Cert.KernelIdeal.nD Cert.KernelIdeal.τ).loc Cert.KernelIdeal.main_arg4)) ∧
    Cert.Net.IsReal (m ((c.tc : Thread Cert.KernelIdeal.nD Cert.KernelIdeal.τ).loc Cert.KernelIdeal.main_arg5)) ∧
    Cert.Net.IsReal (m ((c.tc : Thread Cert.KernelIdeal.nD Cert.KernelIdeal.τ).loc Cert.KernelIdeal.main_arg6)) ∧
    Cert.Net.IsReal (m ((c.tc : Thread Cert.KernelIdeal.nD Cert.KernelIdeal.τ).loc Cert.KernelIdeal.main_arg7)) ∧
    Cert.Net.IsReal (m ((c.tc : Thread Cert.KernelIdeal.nD Cert.KernelIdeal.τ).loc Cert.KernelIdeal.main_arg8)) ∧
    Cert.Net.IsReal (m ((c.tc : Thread Cert.KernelIdeal.nD Cert.KernelIdeal.τ).loc Cert.KernelIdeal.main_arg9)) ∧
    Cert.Net.IsReal (m ((c.tc : Thread Cert.KernelIdeal.nD Cert.KernelIdeal.τ).loc Cert.KernelIdeal.main_arg10)) ∧
    Cert.Net.IsReal (m ((c.tc : Thread Cert.KernelIdeal.nD Cert.KernelIdeal.τ).loc Cert.KernelIdeal.main_arg11)) ∧
    Cert.Net.IsReal (m ((c.tc : Thread Cert.KernelIdeal.nD Cert.KernelIdeal.τ).loc Cert.KernelIdeal.main_arg12)) ∧
    Cert.Net.IsReal (m ((c.tc : Thread Cert.KernelIdeal.nD Cert.KernelIdeal.τ).loc Cert.KernelIdeal.main_arg13)) ∧
    Cert.Net.IsReal (m ((c.tc : Thread Cert.KernelIdeal.nD Cert.KernelIdeal.τ).loc Cert.KernelIdeal.main_arg14)) := by
  have h0 := congrFun (h c) ix0
  dsimp only [Cert.Pre_finite_inputs.fn, Cert.Pre_finite_inputs.fn_part1, Cert.Pre_finite_inputs.fn_part2,
    Cert.Pre_finite_inputs.fn_part3] at h0
  obtain ⟨h0, e14⟩ := g_andi _ _ h0
  obtain ⟨h0, e13⟩ := g_andi _ _ h0
  obtain ⟨h0, e12⟩ := g_andi _ _ h0
  obtain ⟨h0, e11⟩ := g_andi _ _ h0
  obtain ⟨h0, e10⟩ := g_andi _ _ h0
  obtain ⟨h0, e9⟩ := g_andi _ _ h0
  obtain ⟨h0, e8⟩ := g_andi _ _ h0
  obtain ⟨h0, e7⟩ := g_andi _ _ h0
  obtain ⟨h0, e6⟩ := g_andi _ _ h0
  obtain ⟨h0, e5⟩ := g_andi _ _ h0
  obtain ⟨h0, e4⟩ := g_andi _ _ h0
  obtain ⟨e0, e3⟩ := g_andi _ _ h0
  exact ⟨fun i => g_all_real _ _ _ _ e0 i, fun i => g_all_real _ _ _ _ e3 i, fun i => g_all_real _ _ _ _ e4 i,
    fun i => g_all_real _ _ _ _ e5 i, fun i => g_all_real _ _ _ _ e6 i, fun i => g_all_real _ _ _ _ e7 i,
    fun i => g_all_real _ _ _ _ e8 i, fun i => g_all_real _ _ _ _ e9 i, fun i => g_all_real _ _ _ _ e10 i,
    fun i => g_all_real _ _ _ _ e11 i, fun i => g_all_real _ _ _ _ e12 i, fun i => g_all_real _ _ _ _ e13 i,
    fun i => g_all_real _ _ _ _ e14 i⟩

/-- The same for the reference's arguments. -/
theorem args_real_ref [Cert.Pre_finite_inputs.Facts]
    (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    Cert.Net.IsReal (m ((c.tc : Thread Cert.ReferenceIdeal.nD Cert.ReferenceIdeal.τ).loc Cert.ReferenceIdeal.main_arg0)) ∧
    Cert.Net.IsReal (m ((c.tc : Thread Cert.ReferenceIdeal.nD Cert.ReferenceIdeal.τ).loc Cert.ReferenceIdeal.main_arg3)) ∧
    Cert.Net.IsReal (m ((c.tc : Thread Cert.ReferenceIdeal.nD Cert.ReferenceIdeal.τ).loc Cert.ReferenceIdeal.main_arg4)) ∧
    Cert.Net.IsReal (m ((c.tc : Thread Cert.ReferenceIdeal.nD Cert.ReferenceIdeal.τ).loc Cert.ReferenceIdeal.main_arg5)) ∧
    Cert.Net.IsReal (m ((c.tc : Thread Cert.ReferenceIdeal.nD Cert.ReferenceIdeal.τ).loc Cert.ReferenceIdeal.main_arg6)) ∧
    Cert.Net.IsReal (m ((c.tc : Thread Cert.ReferenceIdeal.nD Cert.ReferenceIdeal.τ).loc Cert.ReferenceIdeal.main_arg7)) ∧
    Cert.Net.IsReal (m ((c.tc : Thread Cert.ReferenceIdeal.nD Cert.ReferenceIdeal.τ).loc Cert.ReferenceIdeal.main_arg8)) ∧
    Cert.Net.IsReal (m ((c.tc : Thread Cert.ReferenceIdeal.nD Cert.ReferenceIdeal.τ).loc Cert.ReferenceIdeal.main_arg9)) ∧
    Cert.Net.IsReal (m ((c.tc : Thread Cert.ReferenceIdeal.nD Cert.ReferenceIdeal.τ).loc Cert.ReferenceIdeal.main_arg10)) ∧
    Cert.Net.IsReal (m ((c.tc : Thread Cert.ReferenceIdeal.nD Cert.ReferenceIdeal.τ).loc Cert.ReferenceIdeal.main_arg11)) ∧
    Cert.Net.IsReal (m ((c.tc : Thread Cert.ReferenceIdeal.nD Cert.ReferenceIdeal.τ).loc Cert.ReferenceIdeal.main_arg12)) ∧
    Cert.Net.IsReal (m ((c.tc : Thread Cert.ReferenceIdeal.nD Cert.ReferenceIdeal.τ).loc Cert.ReferenceIdeal.main_arg13)) ∧
    Cert.Net.IsReal (m ((c.tc : Thread Cert.ReferenceIdeal.nD Cert.ReferenceIdeal.τ).loc Cert.ReferenceIdeal.main_arg14)) := by
  have h0 := congrFun (h c) ix0
  dsimp only [Cert.Pre_finite_inputs.fn, Cert.Pre_finite_inputs.fn_part1, Cert.Pre_finite_inputs.fn_part2,
    Cert.Pre_finite_inputs.fn_part3] at h0
  obtain ⟨h0, e14⟩ := g_andi _ _ h0
  obtain ⟨h0, e13⟩ := g_andi _ _ h0
  obtain ⟨h0, e12⟩ := g_andi _ _ h0
  obtain ⟨h0, e11⟩ := g_andi _ _ h0
  obtain ⟨h0, e10⟩ := g_andi _ _ h0
  obtain ⟨h0, e9⟩ := g_andi _ _ h0
  obtain ⟨h0, e8⟩ := g_andi _ _ h0
  obtain ⟨h0, e7⟩ := g_andi _ _ h0
  obtain ⟨h0, e6⟩ := g_andi _ _ h0
  obtain ⟨h0, e5⟩ := g_andi _ _ h0
  obtain ⟨h0, e4⟩ := g_andi _ _ h0
  obtain ⟨e0, e3⟩ := g_andi _ _ h0
  exact ⟨fun i => g_all_real _ _ _ _ e0 i, fun i => g_all_real _ _ _ _ e3 i, fun i => g_all_real _ _ _ _ e4 i,
    fun i => g_all_real _ _ _ _ e5 i, fun i => g_all_real _ _ _ _ e6 i, fun i => g_all_real _ _ _ _ e7 i,
    fun i => g_all_real _ _ _ _ e8 i, fun i => g_all_real _ _ _ _ e9 i, fun i => g_all_real _ _ _ _ e10 i,
    fun i => g_all_real _ _ _ _ e11 i, fun i => g_all_real _ _ _ _ e12 i, fun i => g_all_real _ _ _ _ e13 i,
    fun i => g_all_real _ _ _ _ e14 i⟩

end Cert.PreReal
-- ==== Proof.RefParts.lean ====
/-
  The reference program's @main, as five lists of host operations.

  @main is printed as five consecutive windows of statements. Each list below holds the operations of one
  window in order. A statement that applies an operation is that operation; a statement that calls a
  module-local function is the operations of the function's body, over the caller's operands and the buffers
  the call's record names: `@leaky_relu(x, c)` is seven — the scalar zero, its broadcast, the comparison
  `x ≥ 0`, the slope converted to its own type, its broadcast, the product `c · x`, and `@_where`'s select —,
  `@_where_0(p, s, y)` is three — the scalar converted to its own type, its broadcast, the select.
  `ops` is the five lists joined: all 326 operations of the reference, in order.
-/
import proofs.«137448_j36043365548320_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 4096 in
/-- The operations of @main's statements 1 … 60, in order (74). -/
def p0 : List (HloOp τ sig (Elt F)) :=
  [ StableHlo.binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg4 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
    StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
    StableHlo.nullary main_cst (constant S_ .f32 0x3C23D70A#32),
    StableHlo.TRef.nullary main_call0.cst (constant S_ .f32 0x00000000#32),
    StableHlo.TRef.unary main_call0.cst main_call0.v0 (broadcastInDim S100000x64 ![] bcast_S_S100000x64),
    StableHlo.TRef.binary (.of main_v3 : StableHlo.TRef sig ⟨S100000x64, .f32⟩) main_call0.v0 main_call0.v1 (cmpf .oge),
    StableHlo.TRef.unary (.of main_cst : StableHlo.TRef sig ⟨S_, .f32⟩) main_call0.v2 id,
    StableHlo.TRef.unary main_call0.v2 main_call0.v3 (broadcastInDim S100000x64 ![] bcast_S_S100000x64),
    StableHlo.TRef.binary main_call0.v3 (.of main_v3 : StableHlo.TRef sig ⟨S100000x64, .f32⟩) main_call0.v4 mulf,
    StableHlo.TRef.ternary main_call0.v1 (.of main_v3 : StableHlo.TRef sig ⟨S100000x64, .f32⟩) main_call0.v4 main_call0.call0.v0 select,
    StableHlo.binary main_v4 main_arg5 main_v5 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    StableHlo.unary main_arg6 main_v6 (broadcastInDim S1x64 ![1] bcast_S64_S1x64_1 : (⟨S64, .f32⟩ : BufTy).Contents (Elt F) → (⟨S1x64, .f32⟩ : BufTy).Contents (Elt F)),
    StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
    StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)),
    StableHlo.nullary main_cst_0 (constant S_ .f32 0x3C23D70A#32),
    StableHlo.TRef.nullary main_call1.cst (constant S_ .f32 0x00000000#32),
    StableHlo.TRef.unary main_call1.cst main_call1.v0 (broadcastInDim S100000x64 ![] bcast_S_S100000x64),
    StableHlo.TRef.binary (.of main_v8 : StableHlo.TRef sig ⟨S100000x64, .f32⟩) main_call1.v0 main_call1.v1 (cmpf .oge),
    StableHlo.TRef.unary (.of main_cst_0 : StableHlo.TRef sig ⟨S_, .f32⟩) main_call1.v2 id,
    StableHlo.TRef.unary main_call1.v2 main_call1.v3 (broadcastInDim S100000x64 ![] bcast_S_S100000x64),
    StableHlo.TRef.binary main_call1.v3 (.of main_v8 : StableHlo.TRef sig ⟨S100000x64, .f32⟩) main_call1.v4 mulf,
    StableHlo.TRef.ternary main_call1.v1 (.of main_v8 : StableHlo.TRef sig ⟨S100000x64, .f32⟩) main_call1.v4 main_call1.call0.v0 select,
    StableHlo.nullary main_cst_1 (constant S_ .f32 0x00000000#32),
    StableHlo.unary main_cst_1 main_v10 (broadcastInDim S100000x64 ![] bcast_S_S100000x64 : (⟨S_, .f32⟩ : BufTy).Contents (Elt F) → (⟨S100000x64, .f32⟩ : BufTy).Contents (Elt F)),
    StableHlo.unary main_arg1 main_v11 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v11 main_v12 rfl shapeCasts_S1x1000000_S1000000,
    StableHlo.unary main_arg2 main_v13 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v13 main_v14 rfl shapeCasts_S1x1000000_S1000000,
    StableHlo.nullary main_cst_2 (constant S_ .f32 0x3F800000#32),
    StableHlo.unary main_cst_2 main_v15 (broadcastInDim S1000000 ![] bcast_S_S1000000 : (⟨S_, .f32⟩ : BufTy).Contents (Elt F) → (⟨S1000000, .f32⟩ : BufTy).Contents (Elt F)),
    StableHlo.nullary main_cst_3 (constant S_ .f32 0x00000000#32),
    StableHlo.unary main_cst_3 main_v16 (broadcastInDim S100000 ![] bcast_S_S100000 : (⟨S_, .f32⟩ : BufTy).Contents (Elt F) → (⟨S100000, .f32⟩ : BufTy).Contents (Elt F)),
    StableHlo.unary main_v14 main_v17 (broadcastInDim S1000000x1 ![0] bcast_S1000000_S1000000x1_0 : (⟨S1000000, .i32⟩ : BufTy).Contents (Elt F) → (⟨S1000000x1, .i32⟩ : BufTy).Contents (Elt F)),
    StableHlo.ternary main_v16 main_v17 main_v15 main_v18 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_4 (constant S_ .f32 0x3F800000#32),
    StableHlo.unary main_cst_4 main_v19 (broadcastInDim S100000 ![] bcast_S_S100000 : (⟨S_, .f32⟩ : BufTy).Contents (Elt F) → (⟨S100000, .f32⟩ : BufTy).Contents (Elt F)),
    StableHlo.binary main_v18 main_v19 main_v20 (cmpf .olt : (⟨S100000, .f32⟩ : BufTy).Contents (Elt F) → (⟨S100000, .f32⟩ : BufTy).Contents (Elt F) → (⟨S100000, .i1⟩ : BufTy).Contents (Elt F)),
    StableHlo.nullary main_cst_5 (constant S_ .f32 0x3F800000#32),
    StableHlo.TRef.unary (.of main_cst_5 : StableHlo.TRef sig ⟨S_, .f32⟩) main_call2.v0 id,
    StableHlo.TRef.unary main_call2.v0 main_call2.v1 (broadcastInDim S100000 ![] bcast_S_S100000),
    StableHlo.TRef.ternary (.of main_v20 : StableHlo.TRef sig ⟨S100000, .i1⟩) main_call2.v1 (.of main_v18 : StableHlo.TRef sig ⟨S100000, .f32⟩) main_call2.v2 select,
    StableHlo.nullary main_cst_6 (constant S_ .f32 0xBF000000#32),
    StableHlo.unary main_cst_6 main_v22 (broadcastInDim S100000 ![] bcast_S_S100000 : (⟨S_, .f32⟩ : BufTy).Contents (Elt F) → (⟨S100000, .f32⟩ : BufTy).Contents (Elt F)),
    StableHlo.binary main_v21 main_v22 main_v23 (Host.powf : (⟨S100000, .f32⟩ : BufTy).Contents (Elt F) → (⟨S100000, .f32⟩ : BufTy).Contents (Elt F) → (⟨S100000, .f32⟩ : BufTy).Contents (Elt F)),
    StableHlo.unary main_v23 main_v24 (broadcastInDim S100000x1 ![0] bcast_S100000_S100000x1_0 : (⟨S100000, .f32⟩ : BufTy).Contents (Elt F) → (⟨S100000x1, .f32⟩ : BufTy).Contents (Elt F)),
    StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
    StableHlo.binary main_v9 main_v25 main_v26 (mulf : (⟨S100000x64, .f32⟩ : BufTy).Contents (Elt F) → (⟨S100000x64, .f32⟩ : BufTy).Contents (Elt F) → (⟨S100000x64, .f32⟩ : BufTy).Contents (Elt F)),
    StableHlo.nullary main_c (constantI S_ 32 0#32),
    StableHlo.unary main_c main_v27 (broadcastInDim S1000000 ![] bcast_S_S1000000 : (⟨S_, .i32⟩ : BufTy).Contents (Elt F) → (⟨S1000000, .i32⟩ : BufTy).Contents (Elt F)),
    StableHlo.binary main_v12 main_v27 main_v28 (cmpi .slt : (⟨S1000000, .i32⟩ : BufTy).Contents (Elt F) → (⟨S1000000, .i32⟩ : BufTy).Contents (Elt F) → (⟨S1000000, .i1⟩ : BufTy).Contents (Elt F)),
    StableHlo.nullary main_c_7 (constantI S_ 32 100000#32),
    StableHlo.unary main_c_7 main_v29 (broadcastInDim S1000000 ![] bcast_S_S1000000 : (⟨S_, .i32⟩ : BufTy).Contents (Elt F) → (⟨S1000000, .i32⟩ : BufTy).Contents (Elt F)),
    StableHlo.binary main_v12 main_v29 main_v30 (addi : (⟨S1000000, .i32⟩ : BufTy).Contents (Elt F) → (⟨S1000000, .i32⟩ : BufTy).Contents (Elt F) → (⟨S1000000, .i32⟩ : BufTy).Contents (Elt F)),
    StableHlo.ternary main_v28 main_v30 main_v12 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v31 main_v32 (broadcastInDim S1000000x1 ![0] bcast_S1000000_S1000000x1_0 : (⟨S1000000, .i32⟩ : BufTy).Contents (Elt F) → (⟨S1000000x1, .i32⟩ : BufTy).Contents (Elt F)),
    StableHlo.binary main_v26 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v23 main_v34 (broadcastInDim S100000x1 ![0] bcast_S100000_S100000x1_0 : (⟨S100000, .f32⟩ : BufTy).Contents (Elt F) → (⟨S100000x1, .f32⟩ : BufTy).Contents (Elt F)),
    StableHlo.nullary main_cst_8 (constant S_ .f32 0x00000000#32),
    StableHlo.unary main_cst_8 main_v35 (broadcastInDim S100000x64 ![] bcast_S_S100000x64 : (⟨S_, .f32⟩ : BufTy).Contents (Elt F) → (⟨S100000x64, .f32⟩ : BufTy).Contents (Elt F)),
    StableHlo.unary main_v14 main_v36 (broadcastInDim S1000000x1 ![0] bcast_S1000000_S1000000x1_0 : (⟨S1000000, .i32⟩ : BufTy).Contents (Elt F) → (⟨S1000000x1, .i32⟩ : BufTy).Contents (Elt F)),
    StableHlo.ternary main_v35 main_v36 main_v33 main_v37 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v34 main_v38 (broadcastInDim S100000x64 ![0, 1] bcast_S100000x1_S100000x64_0_1 : (⟨S100000x1, .f32⟩ : BufTy).Contents (Elt F) → (⟨S100000x64, .f32⟩ : BufTy).Contents (Elt F)),
    StableHlo.binary main_v38 main_v37 main_v39 (mulf : (⟨S100000x64, .f32⟩ : BufTy).Contents (Elt F) → (⟨S100000x64, .f32⟩ : BufTy).Contents (Elt F) → (⟨S100000x64, .f32⟩ : BufTy).Contents (Elt F)),
    StableHlo.unary main_v39 main_v40 (Host.negf : (⟨S100000x64, .f32⟩ : BufTy).Contents (Elt F) → (⟨S100000x64, .f32⟩ : BufTy).Contents (Elt F)),
    StableHlo.binary main_v9 main_v40 main_v41 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v41 main_arg7 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v43 (broadcastInDim S1x64 ![1] bcast_S64_S1x64_1 : (⟨S64, .f32⟩ : BufTy).Contents (Elt F) → (⟨S1x64, .f32⟩ : BufTy).Contents (Elt F)),
    StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
    StableHlo.binary main_v42 main_v44 main_v45 (addf : (⟨S100000x64, .f32⟩ : BufTy).Contents (Elt F) → (⟨S100000x64, .f32⟩ : BufTy).Contents (Elt F) → (⟨S100000x64, .f32⟩ : BufTy).Contents (Elt F)),
    StableHlo.unary main_arg1 main_v46 ((extractStridedSlice S1x1000000 ![0, 0] · slices_S3x1000000_S1x1000000_0_0) : (⟨S3x1000000, .i32⟩ : BufTy).Contents (Elt F) → (⟨S1x1000000, .i32⟩ : BufTy).Contents (Elt F)),
    StableHlo.reshape main_v46 main_v47 rfl shapeCasts_S1x1000000_S1000000,
    StableHlo.unary main_arg2 main_v48 ((extractStridedSlice S1x1000000 ![0, 0] · slices_S3x1000000_S1x1000000_0_0) : (⟨S3x1000000, .i32⟩ : BufTy).Contents (Elt F) → (⟨S1x1000000, .i32⟩ : BufTy).Contents (Elt F)) ]

set_option maxRecDepth 4096 in
/-- The operations of @main's statements 61 … 120, in order (62). -/
def p1 : List (HloOp τ sig (Elt F)) :=
  [ StableHlo.reshape main_v48 main_v49 rfl shapeCasts_S1x1000000_S1000000,
    StableHlo.nullary main_cst_9 (constant S_ .f32 0x3F800000#32),
    StableHlo.unary main_cst_9 main_v50 (broadcastInDim S1000000 ![] bcast_S_S1000000 : (⟨S_, .f32⟩ : BufTy).Contents (Elt F) → (⟨S1000000, .f32⟩ : BufTy).Contents (Elt F)),
    StableHlo.nullary main_cst_10 (constant S_ .f32 0x00000000#32),
    StableHlo.unary main_cst_10 main_v51 (broadcastInDim S100000 ![] bcast_S_S100000 : (⟨S_, .f32⟩ : BufTy).Contents (Elt F) → (⟨S100000, .f32⟩ : BufTy).Contents (Elt F)),
    StableHlo.unary main_v49 main_v52 (broadcastInDim S1000000x1 ![0] bcast_S1000000_S1000000x1_0 : (⟨S1000000, .i32⟩ : BufTy).Contents (Elt F) → (⟨S1000000x1, .i32⟩ : BufTy).Contents (Elt F)),
    StableHlo.ternary main_v51 main_v52 main_v50 main_v53 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_11 (constant S_ .f32 0x3F800000#32),
    StableHlo.unary main_cst_11 main_v54 (broadcastInDim S100000 ![] bcast_S_S100000 : (⟨S_, .f32⟩ : BufTy).Contents (Elt F) → (⟨S100000, .f32⟩ : BufTy).Contents (Elt F)),
    StableHlo.binary main_v53 main_v54 main_v55 (cmpf .olt : (⟨S100000, .f32⟩ : BufTy).Contents (Elt F) → (⟨S100000, .f32⟩ : BufTy).Contents (Elt F) → (⟨S100000, .i1⟩ : BufTy).Contents (Elt F)),
    StableHlo.nullary main_cst_12 (constant S_ .f32 0x3F800000#32),
    StableHlo.TRef.unary (.of main_cst_12 : StableHlo.TRef sig ⟨S_, .f32⟩) main_call3.v0 id,
    StableHlo.TRef.unary main_call3.v0 main_call3.v1 (broadcastInDim S100000 ![] bcast_S_S100000),
    StableHlo.TRef.ternary (.of main_v55 : StableHlo.TRef sig ⟨S100000, .i1⟩) main_call3.v1 (.of main_v53 : StableHlo.TRef sig ⟨S100000, .f32⟩) main_call3.v2 select,
    StableHlo.nullary main_cst_13 (constant S_ .f32 0xBF000000#32),
    StableHlo.unary main_cst_13 main_v57 (broadcastInDim S100000 ![] bcast_S_S100000 : (⟨S_, .f32⟩ : BufTy).Contents (Elt F) → (⟨S100000, .f32⟩ : BufTy).Contents (Elt F)),
    StableHlo.binary main_v56 main_v57 main_v58 (Host.powf : (⟨S100000, .f32⟩ : BufTy).Contents (Elt F) → (⟨S100000, .f32⟩ : BufTy).Contents (Elt F) → (⟨S100000, .f32⟩ : BufTy).Contents (Elt F)),
    StableHlo.unary main_v58 main_v59 (broadcastInDim S100000x1 ![0] bcast_S100000_S100000x1_0 : (⟨S100000, .f32⟩ : BufTy).Contents (Elt F) → (⟨S100000x1, .f32⟩ : BufTy).Contents (Elt F)),
    StableHlo.unary main_v59 main_v60 (broadcastInDim S100000x64 ![0, 1] bcast_S100000x1_S100000x64_0_1 : (⟨S100000x1, .f32⟩ : BufTy).Contents (Elt F) → (⟨S100000x64, .f32⟩ : BufTy).Contents (Elt F)),
    StableHlo.binary main_v45 main_v60 main_v61 (mulf : (⟨S100000x64, .f32⟩ : BufTy).Contents (Elt F) → (⟨S100000x64, .f32⟩ : BufTy).Contents (Elt F) → (⟨S100000x64, .f32⟩ : BufTy).Contents (Elt F)),
    StableHlo.nullary main_c_14 (constantI S_ 32 0#32),
    StableHlo.unary main_c_14 main_v62 (broadcastInDim S1000000 ![] bcast_S_S1000000 : (⟨S_, .i32⟩ : BufTy).Contents (Elt F) → (⟨S1000000, .i32⟩ : BufTy).Contents (Elt F)),
    StableHlo.binary main_v47 main_v62 main_v63 (cmpi .slt : (⟨S1000000, .i32⟩ : BufTy).Contents (Elt F) → (⟨S1000000, .i32⟩ : BufTy).Contents (Elt F) → (⟨S1000000, .i1⟩ : BufTy).Contents (Elt F)),
    StableHlo.nullary main_c_15 (constantI S_ 32 100000#32),
    StableHlo.unary main_c_15 main_v64 (broadcastInDim S1000000 ![] bcast_S_S1000000 : (⟨S_, .i32⟩ : BufTy).Contents (Elt F) → (⟨S1000000, .i32⟩ : BufTy).Contents (Elt F)),
    StableHlo.binary main_v47 main_v64 main_v65 (addi : (⟨S1000000, .i32⟩ : BufTy).Contents (Elt F) → (⟨S1000000, .i32⟩ : BufTy).Contents (Elt F) → (⟨S1000000, .i32⟩ : BufTy).Contents (Elt F)),
    StableHlo.ternary main_v63 main_v65 main_v47 main_v66 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v66 main_v67 (broadcastInDim S1000000x1 ![0] bcast_S1000000_S1000000x1_0 : (⟨S1000000, .i32⟩ : BufTy).Contents (Elt F) → (⟨S1000000x1, .i32⟩ : BufTy).Contents (Elt F)),
    StableHlo.binary main_v61 main_v67 main_v68 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v58 main_v69 (broadcastInDim S100000x1 ![0] bcast_S100000_S100000x1_0 : (⟨S100000, .f32⟩ : BufTy).Contents (Elt F) → (⟨S100000x1, .f32⟩ : BufTy).Contents (Elt F)),
    StableHlo.nullary main_cst_16 (constant S_ .f32 0x00000000#32),
    StableHlo.unary main_cst_16 main_v70 (broadcastInDim S100000x64 ![] bcast_S_S100000x64 : (⟨S_, .f32⟩ : BufTy).Contents (Elt F) → (⟨S100000x64, .f32⟩ : BufTy).Contents (Elt F)),
    StableHlo.unary main_v49 main_v71 (broadcastInDim S1000000x1 ![0] bcast_S1000000_S1000000x1_0 : (⟨S1000000, .i32⟩ : BufTy).Contents (Elt F) → (⟨S1000000x1, .i32⟩ : BufTy).Contents (Elt F)),
    StableHlo.ternary main_v70 main_v71 main_v68 main_v72 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v69 main_v73 (broadcastInDim S100000x64 ![0, 1] bcast_S100000x1_S100000x64_0_1 : (⟨S100000x1, .f32⟩ : BufTy).Contents (Elt F) → (⟨S100000x64, .f32⟩ : BufTy).Contents (Elt F)),
    StableHlo.binary main_v73 main_v72 main_v74 (mulf : (⟨S100000x64, .f32⟩ : BufTy).Contents (Elt F) → (⟨S100000x64, .f32⟩ : BufTy).Contents (Elt F) → (⟨S100000x64, .f32⟩ : BufTy).Contents (Elt F)),
    StableHlo.unary main_v74 main_v75 (Host.negf : (⟨S100000x64, .f32⟩ : BufTy).Contents (Elt F) → (⟨S100000x64, .f32⟩ : BufTy).Contents (Elt F)),
    StableHlo.binary main_v45 main_v75 main_v76 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v76 main_arg9 main_v77 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v78 (broadcastInDim S1x64 ![1] bcast_S64_S1x64_1 : (⟨S64, .f32⟩ : BufTy).Contents (Elt F) → (⟨S1x64, .f32⟩ : BufTy).Contents (Elt F)),
    StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
    StableHlo.binary main_v77 main_v79 main_v80 (addf : (⟨S100000x64, .f32⟩ : BufTy).Contents (Elt F) → (⟨S100000x64, .f32⟩ : BufTy).Contents (Elt F) → (⟨S100000x64, .f32⟩ : BufTy).Contents (Elt F)),
    StableHlo.binary main_v45 main_v80 main_v81 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v81 main_arg11 main_v82 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
    StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
    StableHlo.binary main_v10 main_v85 main_v86 (addf : (⟨S100000x64, .f32⟩ : BufTy).Contents (Elt F) → (⟨S100000x64, .f32⟩ : BufTy).Contents (Elt F) → (⟨S100000x64, .f32⟩ : BufTy).Contents (Elt F)),
    StableHlo.unary main_arg1 main_v87 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v87 main_v88 rfl shapeCasts_S1x1000000_S1000000,
    StableHlo.unary main_arg2 main_v89 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v89 main_v90 rfl shapeCasts_S1x1000000_S1000000,
    StableHlo.nullary main_cst_17 (constant S_ .f32 0x3F800000#32),
    StableHlo.unary main_cst_17 main_v91 (broadcastInDim S1000000 ![] bcast_S_S1000000 : (⟨S_, .f32⟩ : BufTy).Contents (Elt F) → (⟨S1000000, .f32⟩ : BufTy).Contents (Elt F)),
    StableHlo.nullary main_cst_18 (constant S_ .f32 0x00000000#32),
    StableHlo.unary main_cst_18 main_v92 (broadcastInDim S100000 ![] bcast_S_S100000 : (⟨S_, .f32⟩ : BufTy).Contents (Elt F) → (⟨S100000, .f32⟩ : BufTy).Contents (Elt F)),
    StableHlo.unary main_v90 main_v93 (broadcastInDim S1000000x1 ![0] bcast_S1000000_S1000000x1_0 : (⟨S1000000, .i32⟩ : BufTy).Contents (Elt F) → (⟨S1000000x1, .i32⟩ : BufTy).Contents (Elt F)),
    StableHlo.ternary main_v92 main_v93 main_v91 main_v94 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_19 (constant S_ .f32 0x3F800000#32),
    StableHlo.unary main_cst_19 main_v95 (broadcastInDim S100000 ![] bcast_S_S100000 : (⟨S_, .f32⟩ : BufTy).Contents (Elt F) → (⟨S100000, .f32⟩ : BufTy).Contents (Elt F)),
    StableHlo.binary main_v94 main_v95 main_v96 (cmpf .olt : (⟨S100000, .f32⟩ : BufTy).Contents (Elt F) → (⟨S100000, .f32⟩ : BufTy).Contents (Elt F) → (⟨S100000, .i1⟩ : BufTy).Contents (Elt F)),
    StableHlo.nullary main_cst_20 (constant S_ .f32 0x3F800000#32) ]

set_option maxRecDepth 4096 in
/-- The operations of @main's statements 121 … 180, in order (64). -/
def p2 : List (HloOp τ sig (Elt F)) :=
  [ StableHlo.TRef.unary (.of main_cst_20 : StableHlo.TRef sig ⟨S_, .f32⟩) main_call4.v0 id,
    StableHlo.TRef.unary main_call4.v0 main_call4.v1 (broadcastInDim S100000 ![] bcast_S_S100000),
    StableHlo.TRef.ternary (.of main_v96 : StableHlo.TRef sig ⟨S100000, .i1⟩) main_call4.v1 (.of main_v94 : StableHlo.TRef sig ⟨S100000, .f32⟩) main_call4.v2 select,
    StableHlo.nullary main_cst_21 (constant S_ .f32 0xBF000000#32),
    StableHlo.unary main_cst_21 main_v98 (broadcastInDim S100000 ![] bcast_S_S100000 : (⟨S_, .f32⟩ : BufTy).Contents (Elt F) → (⟨S100000, .f32⟩ : BufTy).Contents (Elt F)),
    StableHlo.binary main_v97 main_v98 main_v99 (Host.powf : (⟨S100000, .f32⟩ : BufTy).Contents (Elt F) → (⟨S100000, .f32⟩ : BufTy).Contents (Elt F) → (⟨S100000, .f32⟩ : BufTy).Contents (Elt F)),
    StableHlo.unary main_v99 main_v100 (broadcastInDim S100000x1 ![0] bcast_S100000_S100000x1_0 : (⟨S100000, .f32⟩ : BufTy).Contents (Elt F) → (⟨S100000x1, .f32⟩ : BufTy).Contents (Elt F)),
    StableHlo.unary main_v100 main_v101 (broadcastInDim S100000x64 ![0, 1] bcast_S100000x1_S100000x64_0_1 : (⟨S100000x1, .f32⟩ : BufTy).Contents (Elt F) → (⟨S100000x64, .f32⟩ : BufTy).Contents (Elt F)),
    StableHlo.binary main_v85 main_v101 main_v102 (mulf : (⟨S100000x64, .f32⟩ : BufTy).Contents (Elt F) → (⟨S100000x64, .f32⟩ : BufTy).Contents (Elt F) → (⟨S100000x64, .f32⟩ : BufTy).Contents (Elt F)),
    StableHlo.nullary main_c_22 (constantI S_ 32 0#32),
    StableHlo.unary main_c_22 main_v103 (broadcastInDim S1000000 ![] bcast_S_S1000000 : (⟨S_, .i32⟩ : BufTy).Contents (Elt F) → (⟨S1000000, .i32⟩ : BufTy).Contents (Elt F)),
    StableHlo.binary main_v88 main_v103 main_v104 (cmpi .slt : (⟨S1000000, .i32⟩ : BufTy).Contents (Elt F) → (⟨S1000000, .i32⟩ : BufTy).Contents (Elt F) → (⟨S1000000, .i1⟩ : BufTy).Contents (Elt F)),
    StableHlo.nullary main_c_23 (constantI S_ 32 100000#32),
    StableHlo.unary main_c_23 main_v105 (broadcastInDim S1000000 ![] bcast_S_S1000000 : (⟨S_, .i32⟩ : BufTy).Contents (Elt F) → (⟨S1000000, .i32⟩ : BufTy).Contents (Elt F)),
    StableHlo.binary main_v88 main_v105 main_v106 (addi : (⟨S1000000, .i32⟩ : BufTy).Contents (Elt F) → (⟨S1000000, .i32⟩ : BufTy).Contents (Elt F) → (⟨S1000000, .i32⟩ : BufTy).Contents (Elt F)),
    StableHlo.ternary main_v104 main_v106 main_v88 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v107 main_v108 (broadcastInDim S1000000x1 ![0] bcast_S1000000_S1000000x1_0 : (⟨S1000000, .i32⟩ : BufTy).Contents (Elt F) → (⟨S1000000x1, .i32⟩ : BufTy).Contents (Elt F)),
    StableHlo.binary main_v102 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v99 main_v110 (broadcastInDim S100000x1 ![0] bcast_S100000_S100000x1_0 : (⟨S100000, .f32⟩ : BufTy).Contents (Elt F) → (⟨S100000x1, .f32⟩ : BufTy).Contents (Elt F)),
    StableHlo.nullary main_cst_24 (constant S_ .f32 0x00000000#32),
    StableHlo.unary main_cst_24 main_v111 (broadcastInDim S100000x64 ![] bcast_S_S100000x64 : (⟨S_, .f32⟩ : BufTy).Contents (Elt F) → (⟨S100000x64, .f32⟩ : BufTy).Contents (Elt F)),
    StableHlo.unary main_v90 main_v112 (broadcastInDim S1000000x1 ![0] bcast_S1000000_S1000000x1_0 : (⟨S1000000, .i32⟩ : BufTy).Contents (Elt F) → (⟨S1000000x1, .i32⟩ : BufTy).Contents (Elt F)),
    StableHlo.ternary main_v111 main_v112 main_v109 main_v113 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v110 main_v114 (broadcastInDim S100000x64 ![0, 1] bcast_S100000x1_S100000x64_0_1 : (⟨S100000x1, .f32⟩ : BufTy).Contents (Elt F) → (⟨S100000x64, .f32⟩ : BufTy).Contents (Elt F)),
    StableHlo.binary main_v114 main_v113 main_v115 (mulf : (⟨S100000x64, .f32⟩ : BufTy).Contents (Elt F) → (⟨S100000x64, .f32⟩ : BufTy).Contents (Elt F) → (⟨S100000x64, .f32⟩ : BufTy).Contents (Elt F)),
    StableHlo.unary main_v115 main_v116 (Host.negf : (⟨S100000x64, .f32⟩ : BufTy).Contents (Elt F) → (⟨S100000x64, .f32⟩ : BufTy).Contents (Elt F)),
    StableHlo.binary main_v85 main_v116 main_v117 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v117 main_arg7 main_v118 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v119 (broadcastInDim S1x64 ![1] bcast_S64_S1x64_1 : (⟨S64, .f32⟩ : BufTy).Contents (Elt F) → (⟨S1x64, .f32⟩ : BufTy).Contents (Elt F)),
    StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
    StableHlo.binary main_v118 main_v120 main_v121 (addf : (⟨S100000x64, .f32⟩ : BufTy).Contents (Elt F) → (⟨S100000x64, .f32⟩ : BufTy).Contents (Elt F) → (⟨S100000x64, .f32⟩ : BufTy).Contents (Elt F)),
    StableHlo.unary main_arg1 main_v122 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v122 main_v123 rfl shapeCasts_S1x1000000_S1000000,
    StableHlo.unary main_arg2 main_v124 ((extractStridedSlice S1x1000000 ![1, 0] · slices_S3x1000000_S1x1000000_1_0) : (⟨S3x1000000, .i32⟩ : BufTy).Contents (Elt F) → (⟨S1x1000000, .i32⟩ : BufTy).Contents (Elt F)),
    StableHlo.reshape main_v124 main_v125 rfl shapeCasts_S1x1000000_S1000000,
    StableHlo.nullary main_cst_25 (constant S_ .f32 0x3F800000#32),
    StableHlo.unary main_cst_25 main_v126 (broadcastInDim S1000000 ![] bcast_S_S1000000 : (⟨S_, .f32⟩ : BufTy).Contents (Elt F) → (⟨S1000000, .f32⟩ : BufTy).Contents (Elt F)),
    StableHlo.nullary main_cst_26 (constant S_ .f32 0x00000000#32),
    StableHlo.unary main_cst_26 main_v127 (broadcastInDim S100000 ![] bcast_S_S100000 : (⟨S_, .f32⟩ : BufTy).Contents (Elt F) → (⟨S100000, .f32⟩ : BufTy).Contents (Elt F)),
    StableHlo.unary main_v125 main_v128 (broadcastInDim S1000000x1 ![0] bcast_S1000000_S1000000x1_0 : (⟨S1000000, .i32⟩ : BufTy).Contents (Elt F) → (⟨S1000000x1, .i32⟩ : BufTy).Contents (Elt F)),
    StableHlo.ternary main_v127 main_v128 main_v126 main_v129 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_27 (constant S_ .f32 0x3F800000#32),
    StableHlo.unary main_cst_27 main_v130 (broadcastInDim S100000 ![] bcast_S_S100000 : (⟨S_, .f32⟩ : BufTy).Contents (Elt F) → (⟨S100000, .f32⟩ : BufTy).Contents (Elt F)),
    StableHlo.binary main_v129 main_v130 main_v131 (cmpf .olt : (⟨S100000, .f32⟩ : BufTy).Contents (Elt F) → (⟨S100000, .f32⟩ : BufTy).Contents (Elt F) → (⟨S100000, .i1⟩ : BufTy).Contents (Elt F)),
    StableHlo.nullary main_cst_28 (constant S_ .f32 0x3F800000#32),
    StableHlo.TRef.unary (.of main_cst_28 : StableHlo.TRef sig ⟨S_, .f32⟩) main_call5.v0 id,
    StableHlo.TRef.unary main_call5.v0 main_call5.v1 (broadcastInDim S100000 ![] bcast_S_S100000),
    StableHlo.TRef.ternary (.of main_v131 : StableHlo.TRef sig ⟨S100000, .i1⟩) main_call5.v1 (.of main_v129 : StableHlo.TRef sig ⟨S100000, .f32⟩) main_call5.v2 select,
    StableHlo.nullary main_cst_29 (constant S_ .f32 0xBF000000#32),
    StableHlo.unary main_cst_29 main_v133 (broadcastInDim S100000 ![] bcast_S_S100000 : (⟨S_, .f32⟩ : BufTy).Contents (Elt F) → (⟨S100000, .f32⟩ : BufTy).Contents (Elt F)),
    StableHlo.binary main_v132 main_v133 main_v134 (Host.powf : (⟨S100000, .f32⟩ : BufTy).Contents (Elt F) → (⟨S100000, .f32⟩ : BufTy).Contents (Elt F) → (⟨S100000, .f32⟩ : BufTy).Contents (Elt F)),
    StableHlo.unary main_v134 main_v135 (broadcastInDim S100000x1 ![0] bcast_S100000_S100000x1_0 : (⟨S100000, .f32⟩ : BufTy).Contents (Elt F) → (⟨S100000x1, .f32⟩ : BufTy).Contents (Elt F)),
    StableHlo.unary main_v135 main_v136 (broadcastInDim S100000x64 ![0, 1] bcast_S100000x1_S100000x64_0_1 : (⟨S100000x1, .f32⟩ : BufTy).Contents (Elt F) → (⟨S100000x64, .f32⟩ : BufTy).Contents (Elt F)),
    StableHlo.binary main_v121 main_v136 main_v137 (mulf : (⟨S100000x64, .f32⟩ : BufTy).Contents (Elt F) → (⟨S100000x64, .f32⟩ : BufTy).Contents (Elt F) → (⟨S100000x64, .f32⟩ : BufTy).Contents (Elt F)),
    StableHlo.nullary main_c_30 (constantI S_ 32 0#32),
    StableHlo.unary main_c_30 main_v138 (broadcastInDim S1000000 ![] bcast_S_S1000000 : (⟨S_, .i32⟩ : BufTy).Contents (Elt F) → (⟨S1000000, .i32⟩ : BufTy).Contents (Elt F)),
    StableHlo.binary main_v123 main_v138 main_v139 (cmpi .slt : (⟨S1000000, .i32⟩ : BufTy).Contents (Elt F) → (⟨S1000000, .i32⟩ : BufTy).Contents (Elt F) → (⟨S1000000, .i1⟩ : BufTy).Contents (Elt F)),
    StableHlo.nullary main_c_31 (constantI S_ 32 100000#32),
    StableHlo.unary main_c_31 main_v140 (broadcastInDim S1000000 ![] bcast_S_S1000000 : (⟨S_, .i32⟩ : BufTy).Contents (Elt F) → (⟨S1000000, .i32⟩ : BufTy).Contents (Elt F)),
    StableHlo.binary main_v123 main_v140 main_v141 (addi : (⟨S1000000, .i32⟩ : BufTy).Contents (Elt F) → (⟨S1000000, .i32⟩ : BufTy).Contents (Elt F) → (⟨S1000000, .i32⟩ : BufTy).Contents (Elt F)),
    StableHlo.ternary main_v139 main_v141 main_v123 main_v142 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v142 main_v143 (broadcastInDim S1000000x1 ![0] bcast_S1000000_S1000000x1_0 : (⟨S1000000, .i32⟩ : BufTy).Contents (Elt F) → (⟨S1000000x1, .i32⟩ : BufTy).Contents (Elt F)),
    StableHlo.binary main_v137 main_v143 main_v144 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v134 main_v145 (broadcastInDim S100000x1 ![0] bcast_S100000_S100000x1_0 : (⟨S100000, .f32⟩ : BufTy).Contents (Elt F) → (⟨S100000x1, .f32⟩ : BufTy).Contents (Elt F)) ]

set_option maxRecDepth 4096 in
/-- The operations of @main's statements 181 … 240, in order (62). -/
def p3 : List (HloOp τ sig (Elt F)) :=
  [ StableHlo.nullary main_cst_32 (constant S_ .f32 0x00000000#32),
    StableHlo.unary main_cst_32 main_v146 (broadcastInDim S100000x64 ![] bcast_S_S100000x64 : (⟨S_, .f32⟩ : BufTy).Contents (Elt F) → (⟨S100000x64, .f32⟩ : BufTy).Contents (Elt F)),
    StableHlo.unary main_v125 main_v147 (broadcastInDim S1000000x1 ![0] bcast_S1000000_S1000000x1_0 : (⟨S1000000, .i32⟩ : BufTy).Contents (Elt F) → (⟨S1000000x1, .i32⟩ : BufTy).Contents (Elt F)),
    StableHlo.ternary main_v146 main_v147 main_v144 main_v148 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v145 main_v149 (broadcastInDim S100000x64 ![0, 1] bcast_S100000x1_S100000x64_0_1 : (⟨S100000x1, .f32⟩ : BufTy).Contents (Elt F) → (⟨S100000x64, .f32⟩ : BufTy).Contents (Elt F)),
    StableHlo.binary main_v149 main_v148 main_v150 (mulf : (⟨S100000x64, .f32⟩ : BufTy).Contents (Elt F) → (⟨S100000x64, .f32⟩ : BufTy).Contents (Elt F) → (⟨S100000x64, .f32⟩ : BufTy).Contents (Elt F)),
    StableHlo.unary main_v150 main_v151 (Host.negf : (⟨S100000x64, .f32⟩ : BufTy).Contents (Elt F) → (⟨S100000x64, .f32⟩ : BufTy).Contents (Elt F)),
    StableHlo.binary main_v121 main_v151 main_v152 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v152 main_arg9 main_v153 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v154 (broadcastInDim S1x64 ![1] bcast_S64_S1x64_1 : (⟨S64, .f32⟩ : BufTy).Contents (Elt F) → (⟨S1x64, .f32⟩ : BufTy).Contents (Elt F)),
    StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
    StableHlo.binary main_v153 main_v155 main_v156 (addf : (⟨S100000x64, .f32⟩ : BufTy).Contents (Elt F) → (⟨S100000x64, .f32⟩ : BufTy).Contents (Elt F) → (⟨S100000x64, .f32⟩ : BufTy).Contents (Elt F)),
    StableHlo.binary main_v121 main_v156 main_v157 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v157 main_arg11 main_v158 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v159 (broadcastInDim S1x64 ![1] bcast_S64_S1x64_1 : (⟨S64, .f32⟩ : BufTy).Contents (Elt F) → (⟨S1x64, .f32⟩ : BufTy).Contents (Elt F)),
    StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
    StableHlo.binary main_v158 main_v160 main_v161 (addf : (⟨S100000x64, .f32⟩ : BufTy).Contents (Elt F) → (⟨S100000x64, .f32⟩ : BufTy).Contents (Elt F) → (⟨S100000x64, .f32⟩ : BufTy).Contents (Elt F)),
    StableHlo.binary main_v86 main_v161 main_v162 (addf : (⟨S100000x64, .f32⟩ : BufTy).Contents (Elt F) → (⟨S100000x64, .f32⟩ : BufTy).Contents (Elt F) → (⟨S100000x64, .f32⟩ : BufTy).Contents (Elt F)),
    StableHlo.unary main_arg1 main_v163 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v163 main_v164 rfl shapeCasts_S1x1000000_S1000000,
    StableHlo.unary main_arg2 main_v165 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v165 main_v166 rfl shapeCasts_S1x1000000_S1000000,
    StableHlo.nullary main_cst_33 (constant S_ .f32 0x3F800000#32),
    StableHlo.unary main_cst_33 main_v167 (broadcastInDim S1000000 ![] bcast_S_S1000000 : (⟨S_, .f32⟩ : BufTy).Contents (Elt F) → (⟨S1000000, .f32⟩ : BufTy).Contents (Elt F)),
    StableHlo.nullary main_cst_34 (constant S_ .f32 0x00000000#32),
    StableHlo.unary main_cst_34 main_v168 (broadcastInDim S100000 ![] bcast_S_S100000 : (⟨S_, .f32⟩ : BufTy).Contents (Elt F) → (⟨S100000, .f32⟩ : BufTy).Contents (Elt F)),
    StableHlo.unary main_v166 main_v169 (broadcastInDim S1000000x1 ![0] bcast_S1000000_S1000000x1_0 : (⟨S1000000, .i32⟩ : BufTy).Contents (Elt F) → (⟨S1000000x1, .i32⟩ : BufTy).Contents (Elt F)),
    StableHlo.ternary main_v168 main_v169 main_v167 main_v170 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_35 (constant S_ .f32 0x3F800000#32),
    StableHlo.unary main_cst_35 main_v171 (broadcastInDim S100000 ![] bcast_S_S100000 : (⟨S_, .f32⟩ : BufTy).Contents (Elt F) → (⟨S100000, .f32⟩ : BufTy).Contents (Elt F)),
    StableHlo.binary main_v170 main_v171 main_v172 (cmpf .olt : (⟨S100000, .f32⟩ : BufTy).Contents (Elt F) → (⟨S100000, .f32⟩ : BufTy).Contents (Elt F) → (⟨S100000, .i1⟩ : BufTy).Contents (Elt F)),
    StableHlo.nullary main_cst_36 (constant S_ .f32 0x3F800000#32),
    StableHlo.TRef.unary (.of main_cst_36 : StableHlo.TRef sig ⟨S_, .f32⟩) main_call6.v0 id,
    StableHlo.TRef.unary main_call6.v0 main_call6.v1 (broadcastInDim S100000 ![] bcast_S_S100000),
    StableHlo.TRef.ternary (.of main_v172 : StableHlo.TRef sig ⟨S100000, .i1⟩) main_call6.v1 (.of main_v170 : StableHlo.TRef sig ⟨S100000, .f32⟩) main_call6.v2 select,
    StableHlo.nullary main_cst_37 (constant S_ .f32 0xBF000000#32),
    StableHlo.unary main_cst_37 main_v174 (broadcastInDim S100000 ![] bcast_S_S100000 : (⟨S_, .f32⟩ : BufTy).Contents (Elt F) → (⟨S100000, .f32⟩ : BufTy).Contents (Elt F)),
    StableHlo.binary main_v173 main_v174 main_v175 (Host.powf : (⟨S100000, .f32⟩ : BufTy).Contents (Elt F) → (⟨S100000, .f32⟩ : BufTy).Contents (Elt F) → (⟨S100000, .f32⟩ : BufTy).Contents (Elt F)),
    StableHlo.unary main_v175 main_v176 (broadcastInDim S100000x1 ![0] bcast_S100000_S100000x1_0 : (⟨S100000, .f32⟩ : BufTy).Contents (Elt F) → (⟨S100000x1, .f32⟩ : BufTy).Contents (Elt F)),
    StableHlo.unary main_v176 main_v177 (broadcastInDim S100000x64 ![0, 1] bcast_S100000x1_S100000x64_0_1 : (⟨S100000x1, .f32⟩ : BufTy).Contents (Elt F) → (⟨S100000x64, .f32⟩ : BufTy).Contents (Elt F)),
    StableHlo.binary main_v161 main_v177 main_v178 (mulf : (⟨S100000x64, .f32⟩ : BufTy).Contents (Elt F) → (⟨S100000x64, .f32⟩ : BufTy).Contents (Elt F) → (⟨S100000x64, .f32⟩ : BufTy).Contents (Elt F)),
    StableHlo.nullary main_c_38 (constantI S_ 32 0#32),
    StableHlo.unary main_c_38 main_v179 (broadcastInDim S1000000 ![] bcast_S_S1000000 : (⟨S_, .i32⟩ : BufTy).Contents (Elt F) → (⟨S1000000, .i32⟩ : BufTy).Contents (Elt F)),
    StableHlo.binary main_v164 main_v179 main_v180 (cmpi .slt : (⟨S1000000, .i32⟩ : BufTy).Contents (Elt F) → (⟨S1000000, .i32⟩ : BufTy).Contents (Elt F) → (⟨S1000000, .i1⟩ : BufTy).Contents (Elt F)),
    StableHlo.nullary main_c_39 (constantI S_ 32 100000#32),
    StableHlo.unary main_c_39 main_v181 (broadcastInDim S1000000 ![] bcast_S_S1000000 : (⟨S_, .i32⟩ : BufTy).Contents (Elt F) → (⟨S1000000, .i32⟩ : BufTy).Contents (Elt F)),
    StableHlo.binary main_v164 main_v181 main_v182 (addi : (⟨S1000000, .i32⟩ : BufTy).Contents (Elt F) → (⟨S1000000, .i32⟩ : BufTy).Contents (Elt F) → (⟨S1000000, .i32⟩ : BufTy).Contents (Elt F)),
    StableHlo.ternary main_v180 main_v182 main_v164 main_v183 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v183 main_v184 (broadcastInDim S1000000x1 ![0] bcast_S1000000_S1000000x1_0 : (⟨S1000000, .i32⟩ : BufTy).Contents (Elt F) → (⟨S1000000x1, .i32⟩ : BufTy).Contents (Elt F)),
    StableHlo.binary main_v178 main_v184 main_v185 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v175 main_v186 (broadcastInDim S100000x1 ![0] bcast_S100000_S100000x1_0 : (⟨S100000, .f32⟩ : BufTy).Contents (Elt F) → (⟨S100000x1, .f32⟩ : BufTy).Contents (Elt F)),
    StableHlo.nullary main_cst_40 (constant S_ .f32 0x00000000#32),
    StableHlo.unary main_cst_40 main_v187 (broadcastInDim S100000x64 ![] bcast_S_S100000x64 : (⟨S_, .f32⟩ : BufTy).Contents (Elt F) → (⟨S100000x64, .f32⟩ : BufTy).Contents (Elt F)),
    StableHlo.unary main_v166 main_v188 (broadcastInDim S1000000x1 ![0] bcast_S1000000_S1000000x1_0 : (⟨S1000000, .i32⟩ : BufTy).Contents (Elt F) → (⟨S1000000x1, .i32⟩ : BufTy).Contents (Elt F)),
    StableHlo.ternary main_v187 main_v188 main_v185 main_v189 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v186 main_v190 (broadcastInDim S100000x64 ![0, 1] bcast_S100000x1_S100000x64_0_1 : (⟨S100000x1, .f32⟩ : BufTy).Contents (Elt F) → (⟨S100000x64, .f32⟩ : BufTy).Contents (Elt F)),
    StableHlo.binary main_v190 main_v189 main_v191 (mulf : (⟨S100000x64, .f32⟩ : BufTy).Contents (Elt F) → (⟨S100000x64, .f32⟩ : BufTy).Contents (Elt F) → (⟨S100000x64, .f32⟩ : BufTy).Contents (Elt F)),
    StableHlo.unary main_v191 main_v192 (Host.negf : (⟨S100000x64, .f32⟩ : BufTy).Contents (Elt F) → (⟨S100000x64, .f32⟩ : BufTy).Contents (Elt F)),
    StableHlo.binary main_v161 main_v192 main_v193 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v193 main_arg7 main_v194 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg8 main_v195 (broadcastInDim S1x64 ![1] bcast_S64_S1x64_1 : (⟨S64, .f32⟩ : BufTy).Contents (Elt F) → (⟨S1x64, .f32⟩ : BufTy).Contents (Elt F)),
    StableHlo.unary main_v195 main_v196 (broadcastInDim S100000x64 ![0, 1] bcast_S1x64_S100000x64_0_1 : (⟨S1x64, .f32⟩ : BufTy).Contents (Elt F) → (⟨S100000x64, .f32⟩ : BufTy).Contents (Elt F)) ]

set_option maxRecDepth 4096 in
/-- The operations of @main's statements 241 … 297, in order (64). -/
def p4 : List (HloOp τ sig (Elt F)) :=
  [ StableHlo.binary main_v194 main_v196 main_v197 (addf : (⟨S100000x64, .f32⟩ : BufTy).Contents (Elt F) → (⟨S100000x64, .f32⟩ : BufTy).Contents (Elt F) → (⟨S100000x64, .f32⟩ : BufTy).Contents (Elt F)),
    StableHlo.unary main_arg1 main_v198 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v198 main_v199 rfl shapeCasts_S1x1000000_S1000000,
    StableHlo.unary main_arg2 main_v200 ((extractStridedSlice S1x1000000 ![2, 0] · slices_S3x1000000_S1x1000000_2_0) : (⟨S3x1000000, .i32⟩ : BufTy).Contents (Elt F) → (⟨S1x1000000, .i32⟩ : BufTy).Contents (Elt F)),
    StableHlo.reshape main_v200 main_v201 rfl shapeCasts_S1x1000000_S1000000,
    StableHlo.nullary main_cst_41 (constant S_ .f32 0x3F800000#32),
    StableHlo.unary main_cst_41 main_v202 (broadcastInDim S1000000 ![] bcast_S_S1000000 : (⟨S_, .f32⟩ : BufTy).Contents (Elt F) → (⟨S1000000, .f32⟩ : BufTy).Contents (Elt F)),
    StableHlo.nullary main_cst_42 (constant S_ .f32 0x00000000#32),
    StableHlo.unary main_cst_42 main_v203 (broadcastInDim S100000 ![] bcast_S_S100000 : (⟨S_, .f32⟩ : BufTy).Contents (Elt F) → (⟨S100000, .f32⟩ : BufTy).Contents (Elt F)),
    StableHlo.unary main_v201 main_v204 (broadcastInDim S1000000x1 ![0] bcast_S1000000_S1000000x1_0 : (⟨S1000000, .i32⟩ : BufTy).Contents (Elt F) → (⟨S1000000x1, .i32⟩ : BufTy).Contents (Elt F)),
    StableHlo.ternary main_v203 main_v204 main_v202 main_v205 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
    StableHlo.nullary main_cst_43 (constant S_ .f32 0x3F800000#32),
    StableHlo.unary main_cst_43 main_v206 (broadcastInDim S100000 ![] bcast_S_S100000 : (⟨S_, .f32⟩ : BufTy).Contents (Elt F) → (⟨S100000, .f32⟩ : BufTy).Contents (Elt F)),
    StableHlo.binary main_v205 main_v206 main_v207 (cmpf .olt : (⟨S100000, .f32⟩ : BufTy).Contents (Elt F) → (⟨S100000, .f32⟩ : BufTy).Contents (Elt F) → (⟨S100000, .i1⟩ : BufTy).Contents (Elt F)),
    StableHlo.nullary main_cst_44 (constant S_ .f32 0x3F800000#32),
    StableHlo.TRef.unary (.of main_cst_44 : StableHlo.TRef sig ⟨S_, .f32⟩) main_call7.v0 id,
    StableHlo.TRef.unary main_call7.v0 main_call7.v1 (broadcastInDim S100000 ![] bcast_S_S100000),
    StableHlo.TRef.ternary (.of main_v207 : StableHlo.TRef sig ⟨S100000, .i1⟩) main_call7.v1 (.of main_v205 : StableHlo.TRef sig ⟨S100000, .f32⟩) main_call7.v2 select,
    StableHlo.nullary main_cst_45 (constant S_ .f32 0xBF000000#32),
    StableHlo.unary main_cst_45 main_v209 (broadcastInDim S100000 ![] bcast_S_S100000 : (⟨S_, .f32⟩ : BufTy).Contents (Elt F) → (⟨S100000, .f32⟩ : BufTy).Contents (Elt F)),
    StableHlo.binary main_v208 main_v209 main_v210 (Host.powf : (⟨S100000, .f32⟩ : BufTy).Contents (Elt F) → (⟨S100000, .f32⟩ : BufTy).Contents (Elt F) → (⟨S100000, .f32⟩ : BufTy).Contents (Elt F)),
    StableHlo.unary main_v210 main_v211 (broadcastInDim S100000x1 ![0] bcast_S100000_S100000x1_0 : (⟨S100000, .f32⟩ : BufTy).Contents (Elt F) → (⟨S100000x1, .f32⟩ : BufTy).Contents (Elt F)),
    StableHlo.unary main_v211 main_v212 (broadcastInDim S100000x64 ![0, 1] bcast_S100000x1_S100000x64_0_1 : (⟨S100000x1, .f32⟩ : BufTy).Contents (Elt F) → (⟨S100000x64, .f32⟩ : BufTy).Contents (Elt F)),
    StableHlo.binary main_v197 main_v212 main_v213 (mulf : (⟨S100000x64, .f32⟩ : BufTy).Contents (Elt F) → (⟨S100000x64, .f32⟩ : BufTy).Contents (Elt F) → (⟨S100000x64, .f32⟩ : BufTy).Contents (Elt F)),
    StableHlo.nullary main_c_46 (constantI S_ 32 0#32),
    StableHlo.unary main_c_46 main_v214 (broadcastInDim S1000000 ![] bcast_S_S1000000 : (⟨S_, .i32⟩ : BufTy).Contents (Elt F) → (⟨S1000000, .i32⟩ : BufTy).Contents (Elt F)),
    StableHlo.binary main_v199 main_v214 main_v215 (cmpi .slt : (⟨S1000000, .i32⟩ : BufTy).Contents (Elt F) → (⟨S1000000, .i32⟩ : BufTy).Contents (Elt F) → (⟨S1000000, .i1⟩ : BufTy).Contents (Elt F)),
    StableHlo.nullary main_c_47 (constantI S_ 32 100000#32),
    StableHlo.unary main_c_47 main_v216 (broadcastInDim S1000000 ![] bcast_S_S1000000 : (⟨S_, .i32⟩ : BufTy).Contents (Elt F) → (⟨S1000000, .i32⟩ : BufTy).Contents (Elt F)),
    StableHlo.binary main_v199 main_v216 main_v217 (addi : (⟨S1000000, .i32⟩ : BufTy).Contents (Elt F) → (⟨S1000000, .i32⟩ : BufTy).Contents (Elt F) → (⟨S1000000, .i32⟩ : BufTy).Contents (Elt F)),
    StableHlo.ternary main_v215 main_v217 main_v199 main_v218 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    StableHlo.unary main_v218 main_v219 (broadcastInDim S1000000x1 ![0] bcast_S1000000_S1000000x1_0 : (⟨S1000000, .i32⟩ : BufTy).Contents (Elt F) → (⟨S1000000x1, .i32⟩ : BufTy).Contents (Elt F)),
    StableHlo.binary main_v213 main_v219 main_v220 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
    StableHlo.unary main_v210 main_v221 (broadcastInDim S100000x1 ![0] bcast_S100000_S100000x1_0 : (⟨S100000, .f32⟩ : BufTy).Contents (Elt F) → (⟨S100000x1, .f32⟩ : BufTy).Contents (Elt F)),
    StableHlo.nullary main_cst_48 (constant S_ .f32 0x00000000#32),
    StableHlo.unary main_cst_48 main_v222 (broadcastInDim S100000x64 ![] bcast_S_S100000x64 : (⟨S_, .f32⟩ : BufTy).Contents (Elt F) → (⟨S100000x64, .f32⟩ : BufTy).Contents (Elt F)),
    StableHlo.unary main_v201 main_v223 (broadcastInDim S1000000x1 ![0] bcast_S1000000_S1000000x1_0 : (⟨S1000000, .i32⟩ : BufTy).Contents (Elt F) → (⟨S1000000x1, .i32⟩ : BufTy).Contents (Elt F)),
    StableHlo.ternary main_v222 main_v223 main_v220 main_v224 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
    StableHlo.unary main_v221 main_v225 (broadcastInDim S100000x64 ![0, 1] bcast_S100000x1_S100000x64_0_1 : (⟨S100000x1, .f32⟩ : BufTy).Contents (Elt F) → (⟨S100000x64, .f32⟩ : BufTy).Contents (Elt F)),
    StableHlo.binary main_v225 main_v224 main_v226 (mulf : (⟨S100000x64, .f32⟩ : BufTy).Contents (Elt F) → (⟨S100000x64, .f32⟩ : BufTy).Contents (Elt F) → (⟨S100000x64, .f32⟩ : BufTy).Contents (Elt F)),
    StableHlo.unary main_v226 main_v227 (Host.negf : (⟨S100000x64, .f32⟩ : BufTy).Contents (Elt F) → (⟨S100000x64, .f32⟩ : BufTy).Contents (Elt F)),
    StableHlo.binary main_v197 main_v227 main_v228 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v228 main_arg9 main_v229 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg10 main_v230 (broadcastInDim S1x64 ![1] bcast_S64_S1x64_1 : (⟨S64, .f32⟩ : BufTy).Contents (Elt F) → (⟨S1x64, .f32⟩ : BufTy).Contents (Elt F)),
    StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
    StableHlo.binary main_v229 main_v231 main_v232 (addf : (⟨S100000x64, .f32⟩ : BufTy).Contents (Elt F) → (⟨S100000x64, .f32⟩ : BufTy).Contents (Elt F) → (⟨S100000x64, .f32⟩ : BufTy).Contents (Elt F)),
    StableHlo.binary main_v197 main_v232 main_v233 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    StableHlo.binary main_v233 main_arg11 main_v234 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    StableHlo.unary main_arg12 main_v235 (broadcastInDim S1x64 ![1] bcast_S64_S1x64_1 : (⟨S64, .f32⟩ : BufTy).Contents (Elt F) → (⟨S1x64, .f32⟩ : BufTy).Contents (Elt F)),
    StableHlo.unary main_v235 main_v236 (broadcastInDim S100000x64 ![0, 1] bcast_S1x64_S100000x64_0_1 : (⟨S1x64, .f32⟩ : BufTy).Contents (Elt F) → (⟨S100000x64, .f32⟩ : BufTy).Contents (Elt F)),
    StableHlo.binary main_v234 main_v236 main_v237 (addf : (⟨S100000x64, .f32⟩ : BufTy).Contents (Elt F) → (⟨S100000x64, .f32⟩ : BufTy).Contents (Elt F) → (⟨S100000x64, .f32⟩ : BufTy).Contents (Elt F)),
    StableHlo.binary main_v162 main_v237 main_v238 (addf : (⟨S100000x64, .f32⟩ : BufTy).Contents (Elt F) → (⟨S100000x64, .f32⟩ : BufTy).Contents (Elt F) → (⟨S100000x64, .f32⟩ : BufTy).Contents (Elt F)),
    StableHlo.nullary main_cst_49 (constant S_ .f32 0x3C23D70A#32),
    StableHlo.TRef.nullary main_call8.cst (constant S_ .f32 0x00000000#32),
    StableHlo.TRef.unary main_call8.cst main_call8.v0 (broadcastInDim S100000x64 ![] bcast_S_S100000x64),
    StableHlo.TRef.binary (.of main_v238 : StableHlo.TRef sig ⟨S100000x64, .f32⟩) main_call8.v0 main_call8.v1 (cmpf .oge),
    StableHlo.TRef.unary (.of main_cst_49 : StableHlo.TRef sig ⟨S_, .f32⟩) main_call8.v2 id,
    StableHlo.TRef.unary main_call8.v2 main_call8.v3 (broadcastInDim S100000x64 ![] bcast_S_S100000x64),
    StableHlo.TRef.binary main_call8.v3 (.of main_v238 : StableHlo.TRef sig ⟨S100000x64, .f32⟩) main_call8.v4 mulf,
    StableHlo.TRef.ternary main_call8.v1 (.of main_v238 : StableHlo.TRef sig ⟨S100000x64, .f32⟩) main_call8.v4 main_call8.call0.v0 select,
    StableHlo.binary main_v239 main_arg13 main_v240 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
    StableHlo.unary main_arg14 main_v241 (broadcastInDim S1x2 ![1] bcast_S2_S1x2_1 : (⟨S2, .f32⟩ : BufTy).Contents (Elt F) → (⟨S1x2, .f32⟩ : BufTy).Contents (Elt F)),
    StableHlo.unary main_v241 main_v242 (broadcastInDim S100000x2 ![0, 1] bcast_S1x2_S100000x2_0_1 : (⟨S1x2, .f32⟩ : BufTy).Contents (Elt F) → (⟨S100000x2, .f32⟩ : BufTy).Contents (Elt F)),
    StableHlo.binary main_v240 main_v242 main_v243 (addf : (⟨S100000x2, .f32⟩ : BufTy).Contents (Elt F) → (⟨S100000x2, .f32⟩ : BufTy).Contents (Elt F) → (⟨S100000x2, .f32⟩ : BufTy).Contents (Elt F)) ]

/-- @main's operations, in order. -/
abbrev ops : List (HloOp τ sig (Elt F)) := p0 ++ p1 ++ p2 ++ p3 ++ p4

end Cert.ReferenceIdeal.RefRun

end
-- ==== Proof.RefRun.lean ====
/-
  The reference program's run.

  @main is a straight line of host operations: each of its five windows is the line of one list of
  RefParts (the functions it calls unfolded at their calls), and the five in order are the line of the lists
  joined. Every operation reads and writes TensorCore references only, determines what it writes, and writes
  none of @main's fifteen arguments. So from any memory with zero counters every weakly fair execution
  terminates, the result buffer ends at the operations' fold over the launch contents — left as that fold, not
  computed here — and every argument ends as it began.
-/
import proofs.«137448_j36043365548320_2_alg».proof.Proof.RefParts

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Each window is its list -/

set_option maxRecDepth 8192 in
set_option maxHeartbeats 4000000 in
/-- Window 0 of @main is the straight line of `p0`: the called functions' definitions unfolded at their calls, both
    sides are one chain of operation steps once sequencing is reassociated. -/
theorem part0_eq (c : Dev nD) : main_part0 (F := F) c = seq p0 := by
  simp only [main_part0, fn_leaky_relu.body, fn_where.body, fn_where_0.body, p0, seq, bind_assoc, pure_bind]
  rfl

set_option maxRecDepth 8192 in
set_option maxHeartbeats 4000000 in
/-- Window 1 of @main is the straight line of `p1`: the called functions' definitions unfolded at their calls, both
    sides are one chain of operation steps once sequencing is reassociated. -/
theorem part1_eq (c : Dev nD) : main_part1 (F := F) c = seq p1 := by
  simp only [main_part1, fn_leaky_relu.body, fn_where.body, fn_where_0.body, p1, seq, bind_assoc, pure_bind]
  rfl

set_option maxRecDepth 8192 in
set_option maxHeartbeats 4000000 in
/-- Window 2 of @main is the straight line of `p2`: the called functions' definitions unfolded at their calls, both
    sides are one chain of operation steps once sequencing is reassociated. -/
theorem part2_eq (c : Dev nD) : main_part2 (F := F) c = seq p2 := by
  simp only [main_part2, fn_leaky_relu.body, fn_where.body, fn_where_0.body, p2, seq, bind_assoc, pure_bind]
  rfl

set_option maxRecDepth 8192 in
set_option maxHeartbeats 4000000 in
/-- Window 3 of @main is the straight line of `p3`: the called functions' definitions unfolded at their calls, both
    sides are one chain of operation steps once sequencing is reassociated. -/
theorem part3_eq (c : Dev nD) : main_part3 (F := F) c = seq p3 := by
  simp only [main_part3, fn_leaky_relu.body, fn_where.body, fn_where_0.body, p3, seq, bind_assoc, pure_bind]
  rfl

set_option maxRecDepth 8192 in
set_option maxHeartbeats 4000000 in
/-- Window 4 of @main is the straight line of `p4`: the called functions' definitions unfolded at their calls, both
    sides are one chain of operation steps once sequencing is reassociated. -/
theorem part4_eq (c : Dev nD) : main_part4 (F := F) c = seq p4 := by
  simp only [main_part4, fn_leaky_relu.body, fn_where.body, fn_where_0.body, p4, seq, bind_assoc, pure_bind]

/-- @main runs its five windows in order, so it is the straight line of the five lists joined. -/
theorem main_eq (c : Dev nD) : main (F := F) c = seq ops := by
  simp only [ops, seq_append, ← part0_eq c, ← part1_eq c, ← part2_eq c, ← part3_eq c, ← part4_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The side conditions of the run, list by list

Every operation touches TensorCore references only, determines all it writes, and writes none of @main's arguments. -/

theorem p0_sub : (p0 : List (HloOp τ sig (Elt F))).Forall fun op => op.bufs ⊆ tcRefs τ sig :=
  ⟨binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub .., nullary_bufs_sub .., nullary_bufs_sub ..,
    unary_bufs_sub .., binary_bufs_sub .., unary_bufs_sub .., unary_bufs_sub .., binary_bufs_sub .., ternary_bufs_sub ..,
    nullary_bufs_sub .., unary_bufs_sub .., unary_bufs_sub .., reshape_bufs_sub .., unary_bufs_sub .., reshape_bufs_sub ..,
    nullary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., nullary_bufs_sub ..,
    unary_bufs_sub .., unary_bufs_sub .., ternary_bufs_sub .., unary_bufs_sub .., binary_bufs_sub .., unary_bufs_sub ..,
    binary_bufs_sub .., binary_bufs_sub .., unary_bufs_sub .., unary_bufs_sub .., binary_bufs_sub .., unary_bufs_sub ..,
    reshape_bufs_sub .., unary_bufs_sub ..⟩

theorem p0_fresh : (p0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

theorem p1_sub : (p1 : List (HloOp τ sig (Elt F))).Forall fun op => op.bufs ⊆ tcRefs τ sig :=
  ⟨reshape_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    unary_bufs_sub .., ternary_bufs_sub .., nullary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    nullary_bufs_sub .., unary_bufs_sub .., unary_bufs_sub .., ternary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., unary_bufs_sub .., unary_bufs_sub .., binary_bufs_sub .., binary_bufs_sub ..,
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub ..⟩

theorem p1_fresh : (p1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

theorem p2_sub : (p2 : List (HloOp τ sig (Elt F))).Forall fun op => op.bufs ⊆ tcRefs τ sig :=
  ⟨unary_bufs_sub .., unary_bufs_sub .., ternary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., nullary_bufs_sub .., unary_bufs_sub .., unary_bufs_sub .., ternary_bufs_sub .., unary_bufs_sub ..,
    binary_bufs_sub .., unary_bufs_sub .., binary_bufs_sub .., binary_bufs_sub .., unary_bufs_sub .., unary_bufs_sub ..,
    binary_bufs_sub .., unary_bufs_sub .., reshape_bufs_sub .., unary_bufs_sub .., reshape_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub ..⟩

theorem p2_fresh : (p2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

theorem p3_sub : (p3 : List (HloOp τ sig (Elt F))).Forall fun op => op.bufs ⊆ tcRefs τ sig :=
  ⟨nullary_bufs_sub .., unary_bufs_sub .., unary_bufs_sub .., ternary_bufs_sub .., unary_bufs_sub .., binary_bufs_sub ..,
    unary_bufs_sub .., binary_bufs_sub .., binary_bufs_sub .., unary_bufs_sub .., unary_bufs_sub .., binary_bufs_sub ..,
    binary_bufs_sub .., binary_bufs_sub .., unary_bufs_sub .., unary_bufs_sub .., binary_bufs_sub .., binary_bufs_sub ..,
    unary_bufs_sub .., reshape_bufs_sub .., unary_bufs_sub .., reshape_bufs_sub .., nullary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., nullary_bufs_sub .., unary_bufs_sub .., unary_bufs_sub ..,
    ternary_bufs_sub .., unary_bufs_sub .., binary_bufs_sub .., unary_bufs_sub .., binary_bufs_sub .., binary_bufs_sub ..,
    unary_bufs_sub .., unary_bufs_sub ..⟩

theorem p3_fresh : (p3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl⟩

theorem p4_sub : (p4 : List (HloOp τ sig (Elt F))).Forall fun op => op.bufs ⊆ tcRefs τ sig :=
  ⟨binary_bufs_sub .., unary_bufs_sub .., reshape_bufs_sub .., unary_bufs_sub .., reshape_bufs_sub .., nullary_bufs_sub ..,
    unary_bufs_sub .., nullary_bufs_sub .., unary_bufs_sub .., unary_bufs_sub .., ternary_bufs_sub .., nullary_bufs_sub ..,
    unary_bufs_sub .., binary_bufs_sub .., nullary_bufs_sub .., unary_bufs_sub .., unary_bufs_sub .., ternary_bufs_sub ..,
    nullary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., nullary_bufs_sub .., unary_bufs_sub ..,
    unary_bufs_sub .., ternary_bufs_sub .., unary_bufs_sub .., binary_bufs_sub .., unary_bufs_sub .., binary_bufs_sub ..,
    binary_bufs_sub .., unary_bufs_sub .., unary_bufs_sub .., binary_bufs_sub .., binary_bufs_sub .., binary_bufs_sub ..,
    unary_bufs_sub .., unary_bufs_sub .., binary_bufs_sub .., binary_bufs_sub .., nullary_bufs_sub .., nullary_bufs_sub ..,
    unary_bufs_sub .., binary_bufs_sub .., unary_bufs_sub .., unary_bufs_sub .., binary_bufs_sub .., ternary_bufs_sub ..,
    binary_bufs_sub .., unary_bufs_sub .., unary_bufs_sub .., binary_bufs_sub ..⟩

theorem p4_fresh : (p4 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- @main's fifteen arguments. -/
def argRefs : List (Ref sig .tc) :=
  [main_arg0, main_arg1, main_arg2, main_arg3, main_arg4, main_arg5, main_arg6, main_arg7, main_arg8, main_arg9, main_arg10, main_arg11, main_arg12, main_arg13, main_arg14]

/-- An operation whose one written buffer is not an argument's writes no argument. -/
theorem keeps_of {op : HloOp τ sig (Elt F)} {y : Ref sig .tc} (h : op.writes = {Proc.devRef .tc y}) (hy : y ∉ argRefs) :
    ∀ r ∈ argRefs, (Proc.devRef .tc r : DevRef τ sig) ∉ op.writes := by
  intro r hr hmem
  rw [h, Finset.mem_singleton] at hmem
  exact hy (Proc.devRef_injective _ hmem ▸ hr)

theorem p0_keeps : (p0 : List (HloOp τ sig (Elt F))).Forall fun op => ∀ r ∈ argRefs, (Proc.devRef .tc r : DevRef τ sig) ∉ op.writes :=
  ⟨keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide)⟩

theorem p1_keeps : (p1 : List (HloOp τ sig (Elt F))).Forall fun op => ∀ r ∈ argRefs, (Proc.devRef .tc r : DevRef τ sig) ∉ op.writes :=
  ⟨keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide)⟩

theorem p2_keeps : (p2 : List (HloOp τ sig (Elt F))).Forall fun op => ∀ r ∈ argRefs, (Proc.devRef .tc r : DevRef τ sig) ∉ op.writes :=
  ⟨keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide)⟩

theorem p3_keeps : (p3 : List (HloOp τ sig (Elt F))).Forall fun op => ∀ r ∈ argRefs, (Proc.devRef .tc r : DevRef τ sig) ∉ op.writes :=
  ⟨keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide)⟩

theorem p4_keeps : (p4 : List (HloOp τ sig (Elt F))).Forall fun op => ∀ r ∈ argRefs, (Proc.devRef .tc r : DevRef τ sig) ∉ op.writes :=
  ⟨keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide),
    keeps_of rfl (by decide), keeps_of rfl (by decide), keeps_of rfl (by decide), keeps_of rfl (by decide)⟩

/-! ## The five lists joined -/

/-- What holds of every operation of each list holds of every operation of @main. -/
theorem forall_ops {P : HloOp τ sig (Elt F) → Prop} (h0 : (p0 (F := F)).Forall P) (h1 : (p1 (F := F)).Forall P)
    (h2 : (p2 (F := F)).Forall P) (h3 : (p3 (F := F)).Forall P) (h4 : (p4 (F := F)).Forall P) : (ops (F := F)).Forall P :=
  List.forall_append.2 ⟨List.forall_append.2 ⟨List.forall_append.2 ⟨List.forall_append.2 ⟨h0, h1⟩, h2⟩, h3⟩, h4⟩

theorem ops_sub : (ops : List (HloOp τ sig (Elt F))).Forall fun op => op.bufs ⊆ tcRefs τ sig :=
  forall_ops p0_sub p1_sub p2_sub p3_sub p4_sub

theorem ops_fresh : ∀ op ∈ (ops : List (HloOp τ sig (Elt F))), op.fresh = ∅ :=
  List.forall_iff_forall_mem.1 (forall_ops p0_fresh p1_fresh p2_fresh p3_fresh p4_fresh)

/-- No operation of @main writes an argument, so the whole line leaves each argument's contents as they were. -/
theorem arg_keeps (V : Valuation τ sig (Elt F)) {r : Ref sig .tc} (hr : r ∈ argRefs) :
    after ops V (Proc.devRef .tc r) = V (Proc.devRef .tc r) :=
  after_of_forall_not_mem ops V fun op hop =>
    List.forall_iff_forall_mem.1 (forall_ops p0_keeps p1_keeps p2_keeps p3_keeps p4_keeps) op hop r hr

/-! ## The run -/

/-- On every device, for any float values, from any memory with zero counters: every weakly fair execution of
    @main terminates with the result buffer at the operations' fold over the launch contents, read at that buffer,
    and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v243) = StableHlo.after ops (fun b => m ((c : Dev nD), b)) (Proc.devRef .tc main_v243)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨h c main_v243,
      (h c main_arg0).trans (arg_keeps _ (by decide)),
      (h c main_arg1).trans (arg_keeps _ (by decide)),
      (h c main_arg2).trans (arg_keeps _ (by decide)),
      (h c main_arg3).trans (arg_keeps _ (by decide)),
      (h c main_arg4).trans (arg_keeps _ (by decide)),
      (h c main_arg5).trans (arg_keeps _ (by decide)),
      (h c main_arg6).trans (arg_keeps _ (by decide)),
      (h c main_arg7).trans (arg_keeps _ (by decide)),
      (h c main_arg8).trans (arg_keeps _ (by decide)),
      (h c main_arg9).trans (arg_keeps _ (by decide)),
      (h c main_arg10).trans (arg_keeps _ (by decide)),
      (h c main_arg11).trans (arg_keeps _ (by decide)),
      (h c main_arg12).trans (arg_keeps _ (by decide)),
      (h c main_arg13).trans (arg_keeps _ (by decide)),
      (h c main_arg14).trans (arg_keeps _ (by decide))⟩)
    (run_seq scopedRefs_eq scopedSems_eq defs main (fun _ => ops) main_eq (fun _ => ops_sub) m ρ (fun _ => ops_fresh))

end Cert.ReferenceIdeal.RefRun

end
-- ==== Proof.LibAfter.lean ====
/-
  Two general facts about a list of host operations run as a fold over buffer contents.
-/
import Idealize.ShloMosaic.Lib.StableHlo.Run

namespace Cert.Lib

open Idealize.ShloMosaic Idealize.ShloMosaic.StableHlo

variable {τ : Topo} {sig : RefSig} {Val : EltTy → Type}

/-- The fold of a concatenation of two operation lists is the second list's fold over the first's: the operations run
    in order, so splitting the list anywhere splits the run there. -/
theorem after_append (l₁ l₂ : List (HloOp τ sig Val)) (X : Valuation τ sig Val) :
    after (l₁ ++ l₂) X = after l₂ (after l₁ X) := by
  induction l₁ generalizing X with
  | nil => rfl
  | cons op l ih => exact ih (op.result X)

/-- A typed reference's view of a buffer's contents undoes its own embedding: reading back what was written through the
    same typed reference is the identity. -/
theorem ofBuf_toBuf {T : BufTy} (x : TRef sig T) (v : T.Contents Val) : x.ofBuf (x.toBuf v) = v := by
  obtain ⟨ref, hty, hd, hu⟩ := x
  subst hty
  rfl

end Cert.Lib
-- ==== Proof.RefFold.lean ====
/-
  The reference's operations, read as the network.

  The reference is a straight line of 326 array operations; running them is a fold over the buffer contents.
  The line is cut at the points where a value of the network is complete:
  * the two dense layers (their result, and the all-zero accumulator);
  * for each of the three relations: the first convolution (rows of the two index tables, degrees, the
    normalised neighbour sum, the 128-column dense layer), the second convolution (the same operations on the
    first one's result), and the combination of the two with the running sum of the states;
  * the head.
  For each stretch, over ANY contents `W` before it: the value it leaves in its result buffer is the network's
  function of what `W` holds in the buffers it reads (each operation of the stretch is the corresponding
  operation of the function, so the two sides are the same term once the fold is unfolded), and every buffer it
  does not write keeps what `W` holds there. Chaining the stretches — a value is read where it was last written,
  an argument is never written — gives the result buffer as `Net.net` of the fifteen arguments.
-/
import proofs.«137448_j36043365548320_2_alg».proof.Proof.Net
import proofs.«137448_j36043365548320_2_alg».proof.Proof.LibAfter
import proofs.«137448_j36043365548320_2_alg».proof.Proof.RefParts

noncomputable section

namespace Cert.ReferenceIdeal.RefFold

open Idealize.ShloMosaic Idealize.ShloMosaic.StableHlo Cert.ReferenceIdeal Cert.ReferenceIdeal.Gen

variable {F : FTy → Type} [FloatOps F]

/-! ### The stretches -/

/-- The two dense layers and the all-zero accumulator. -/
def b_s0 : List (HloOp τ sig (Elt F)) := [
  StableHlo.binary main_arg0 main_arg3 main_v0 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
  StableHlo.unary main_arg4 main_v1 (broadcastInDim S1x64 ![1] bcast_S64_S1x64_1 : (⟨S64, .f32⟩ : BufTy).Contents (Elt F) → (⟨S1x64, .f32⟩ : BufTy).Contents (Elt F)),
  StableHlo.unary main_v1 main_v2 (broadcastInDim S100000x64 ![0, 1] bcast_S1x64_S100000x64_0_1 : (⟨S1x64, .f32⟩ : BufTy).Contents (Elt F) → (⟨S100000x64, .f32⟩ : BufTy).Contents (Elt F)),
  StableHlo.binary main_v0 main_v2 main_v3 (addf : (⟨S100000x64, .f32⟩ : BufTy).Contents (Elt F) → (⟨S100000x64, .f32⟩ : BufTy).Contents (Elt F) → (⟨S100000x64, .f32⟩ : BufTy).Contents (Elt F)),
  StableHlo.nullary main_cst (constant S_ .f32 0x3C23D70A#32),
  StableHlo.TRef.nullary main_call0.cst (constant S_ .f32 0x00000000#32),
  StableHlo.TRef.unary main_call0.cst main_call0.v0 (broadcastInDim S100000x64 ![] bcast_S_S100000x64),
  StableHlo.TRef.binary (StableHlo.TRef.of main_v3 : StableHlo.TRef sig ⟨S100000x64, .f32⟩) main_call0.v0 main_call0.v1 (cmpf .oge),
  StableHlo.TRef.unary (StableHlo.TRef.of main_cst : StableHlo.TRef sig ⟨S_, .f32⟩) main_call0.v2 id,
  StableHlo.TRef.unary main_call0.v2 main_call0.v3 (broadcastInDim S100000x64 ![] bcast_S_S100000x64),
  StableHlo.TRef.binary main_call0.v3 (StableHlo.TRef.of main_v3 : StableHlo.TRef sig ⟨S100000x64, .f32⟩) main_call0.v4 mulf,
  StableHlo.TRef.ternary main_call0.v1 (StableHlo.TRef.of main_v3 : StableHlo.TRef sig ⟨S100000x64, .f32⟩) main_call0.v4 main_call0.call0.v0 select,
  StableHlo.binary main_v4 main_arg5 main_v5 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
  StableHlo.unary main_arg6 main_v6 (broadcastInDim S1x64 ![1] bcast_S64_S1x64_1 : (⟨S64, .f32⟩ : BufTy).Contents (Elt F) → (⟨S1x64, .f32⟩ : BufTy).Contents (Elt F)),
  StableHlo.unary main_v6 main_v7 (broadcastInDim S100000x64 ![0, 1] bcast_S1x64_S100000x64_0_1 : (⟨S1x64, .f32⟩ : BufTy).Contents (Elt F) → (⟨S100000x64, .f32⟩ : BufTy).Contents (Elt F)),
  StableHlo.binary main_v5 main_v7 main_v8 (addf : (⟨S100000x64, .f32⟩ : BufTy).Contents (Elt F) → (⟨S100000x64, .f32⟩ : BufTy).Contents (Elt F) → (⟨S100000x64, .f32⟩ : BufTy).Contents (Elt F)),
  StableHlo.nullary main_cst_0 (constant S_ .f32 0x3C23D70A#32),
  StableHlo.TRef.nullary main_call1.cst (constant S_ .f32 0x00000000#32),
  StableHlo.TRef.unary main_call1.cst main_call1.v0 (broadcastInDim S100000x64 ![] bcast_S_S100000x64),
  StableHlo.TRef.binary (StableHlo.TRef.of main_v8 : StableHlo.TRef sig ⟨S100000x64, .f32⟩) main_call1.v0 main_call1.v1 (cmpf .oge),
  StableHlo.TRef.unary (StableHlo.TRef.of main_cst_0 : StableHlo.TRef sig ⟨S_, .f32⟩) main_call1.v2 id,
  StableHlo.TRef.unary main_call1.v2 main_call1.v3 (broadcastInDim S100000x64 ![] bcast_S_S100000x64),
  StableHlo.TRef.binary main_call1.v3 (StableHlo.TRef.of main_v8 : StableHlo.TRef sig ⟨S100000x64, .f32⟩) main_call1.v4 mulf,
  StableHlo.TRef.ternary main_call1.v1 (StableHlo.TRef.of main_v8 : StableHlo.TRef sig ⟨S100000x64, .f32⟩) main_call1.v4 main_call1.call0.v0 select,
  StableHlo.nullary main_cst_1 (constant S_ .f32 0x00000000#32),
  StableHlo.unary main_cst_1 main_v10 (broadcastInDim S100000x64 ![] bcast_S_S100000x64 : (⟨S_, .f32⟩ : BufTy).Contents (Elt F) → (⟨S100000x64, .f32⟩ : BufTy).Contents (Elt F))]

/-- The buffers these operations write. -/
abbrev b_s0_W : List (Ref sig .tc) := [main_v0, main_v1, main_v2, main_v3, main_cst, main_call0.cst.ref, main_call0.v0.ref, main_call0.v1.ref, main_call0.v2.ref, main_call0.v3.ref, main_call0.v4.ref, main_call0.call0.v0.ref, main_v5, main_v6, main_v7, main_v8, main_cst_0, main_call1.cst.ref, main_call1.v0.ref, main_call1.v1.ref, main_call1.v2.ref, main_call1.v3.ref, main_call1.v4.ref, main_call1.call0.v0.ref, main_cst_1, main_v10]

set_option maxRecDepth 8192 in
theorem b_s0_writes : (b_s0 : List (HloOp τ sig (Elt F))).Forall fun op => op.writes ⊆ (b_s0_W.map (Proc.devRef (τ := τ) .tc)).toFinset := by
  simp only [b_s0, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_s0_keep (W : Valuation τ sig (Elt F)) (r : Ref sig .tc) (h : r ∉ b_s0_W) :
    after b_s0 W (Proc.devRef .tc r) = W (Proc.devRef .tc r) :=
  after_of_writes_sub b_s0 W b_s0_writes h

set_option maxRecDepth 8192 in
set_option maxHeartbeats 4000000 in
theorem b_s0_v9 (W : Valuation τ sig (Elt F)) :
    after b_s0 W (Proc.devRef .tc main_v9) = Cert.Net.mlp (W (Proc.devRef .tc main_arg0)) (W (Proc.devRef .tc main_arg3)) (W (Proc.devRef .tc main_arg4)) (W (Proc.devRef .tc main_arg5)) (W (Proc.devRef .tc main_arg6)) := by
  unfold b_s0; after_results_simp; try simp only [Cert.Lib.ofBuf_toBuf]
  rfl

set_option maxRecDepth 8192 in
set_option maxHeartbeats 4000000 in
theorem b_s0_v10 (W : Valuation τ sig (Elt F)) :
    after b_s0 W (Proc.devRef .tc main_v10) = Cert.Net.zero := by
  unfold b_s0; after_results_simp; try simp only [Cert.Lib.ofBuf_toBuf]
  rfl

/-- Relation 0, first convolution: the rows, the degrees, the neighbour sum, the 128-column dense layer. -/
def b_ca0 : List (HloOp τ sig (Elt F)) := [
  StableHlo.unary main_arg1 main_v11 ((extractStridedSlice S1x1000000 ![0, 0] · slices_S3x1000000_S1x1000000_0_0) : (⟨S3x1000000, .i32⟩ : BufTy).Contents (Elt F) → (⟨S1x1000000, .i32⟩ : BufTy).Contents (Elt F)),
  StableHlo.reshape main_v11 main_v12 rfl shapeCasts_S1x1000000_S1000000,
  StableHlo.unary main_arg2 main_v13 ((extractStridedSlice S1x1000000 ![0, 0] · slices_S3x1000000_S1x1000000_0_0) : (⟨S3x1000000, .i32⟩ : BufTy).Contents (Elt F) → (⟨S1x1000000, .i32⟩ : BufTy).Contents (Elt F)),
  StableHlo.reshape main_v13 main_v14 rfl shapeCasts_S1x1000000_S1000000,
  StableHlo.nullary main_cst_2 (constant S_ .f32 0x3F800000#32),
  StableHlo.unary main_cst_2 main_v15 (broadcastInDim S1000000 ![] bcast_S_S1000000 : (⟨S_, .f32⟩ : BufTy).Contents (Elt F) → (⟨S1000000, .f32⟩ : BufTy).Contents (Elt F)),
  StableHlo.nullary main_cst_3 (constant S_ .f32 0x00000000#32),
  StableHlo.unary main_cst_3 main_v16 (broadcastInDim S100000 ![] bcast_S_S100000 : (⟨S_, .f32⟩ : BufTy).Contents (Elt F) → (⟨S100000, .f32⟩ : BufTy).Contents (Elt F)),
  StableHlo.unary main_v14 main_v17 (broadcastInDim S1000000x1 ![0] bcast_S1000000_S1000000x1_0 : (⟨S1000000, .i32⟩ : BufTy).Contents (Elt F) → (⟨S1000000x1, .i32⟩ : BufTy).Contents (Elt F)),
  StableHlo.ternary main_v16 main_v17 main_v15 main_v18 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_4 (constant S_ .f32 0x3F800000#32),
  StableHlo.unary main_cst_4 main_v19 (broadcastInDim S100000 ![] bcast_S_S100000 : (⟨S_, .f32⟩ : BufTy).Contents (Elt F) → (⟨S100000, .f32⟩ : BufTy).Contents (Elt F)),
  StableHlo.binary main_v18 main_v19 main_v20 (cmpf .olt : (⟨S100000, .f32⟩ : BufTy).Contents (Elt F) → (⟨S100000, .f32⟩ : BufTy).Contents (Elt F) → (⟨S100000, .i1⟩ : BufTy).Contents (Elt F)),
  StableHlo.nullary main_cst_5 (constant S_ .f32 0x3F800000#32),
  StableHlo.TRef.unary (StableHlo.TRef.of main_cst_5 : StableHlo.TRef sig ⟨S_, .f32⟩) main_call2.v0 id,
  StableHlo.TRef.unary main_call2.v0 main_call2.v1 (broadcastInDim S100000 ![] bcast_S_S100000),
  StableHlo.TRef.ternary (StableHlo.TRef.of main_v20 : StableHlo.TRef sig ⟨S100000, .i1⟩) main_call2.v1 (StableHlo.TRef.of main_v18 : StableHlo.TRef sig ⟨S100000, .f32⟩) main_call2.v2 select,
  StableHlo.nullary main_cst_6 (constant S_ .f32 0xBF000000#32),
  StableHlo.unary main_cst_6 main_v22 (broadcastInDim S100000 ![] bcast_S_S100000 : (⟨S_, .f32⟩ : BufTy).Contents (Elt F) → (⟨S100000, .f32⟩ : BufTy).Contents (Elt F)),
  StableHlo.binary main_v21 main_v22 main_v23 (Host.powf : (⟨S100000, .f32⟩ : BufTy).Contents (Elt F) → (⟨S100000, .f32⟩ : BufTy).Contents (Elt F) → (⟨S100000, .f32⟩ : BufTy).Contents (Elt F)),
  StableHlo.unary main_v23 main_v24 (broadcastInDim S100000x1 ![0] bcast_S100000_S100000x1_0 : (⟨S100000, .f32⟩ : BufTy).Contents (Elt F) → (⟨S100000x1, .f32⟩ : BufTy).Contents (Elt F)),
  StableHlo.unary main_v24 main_v25 (broadcastInDim S100000x64 ![0, 1] bcast_S100000x1_S100000x64_0_1 : (⟨S100000x1, .f32⟩ : BufTy).Contents (Elt F) → (⟨S100000x64, .f32⟩ : BufTy).Contents (Elt F)),
  StableHlo.binary main_v9 main_v25 main_v26 (mulf : (⟨S100000x64, .f32⟩ : BufTy).Contents (Elt F) → (⟨S100000x64, .f32⟩ : BufTy).Contents (Elt F) → (⟨S100000x64, .f32⟩ : BufTy).Contents (Elt F)),
  StableHlo.nullary main_c (constantI S_ 32 0#32),
  StableHlo.unary main_c main_v27 (broadcastInDim S1000000 ![] bcast_S_S1000000 : (⟨S_, .i32⟩ : BufTy).Contents (Elt F) → (⟨S1000000, .i32⟩ : BufTy).Contents (Elt F)),
  StableHlo.binary main_v12 main_v27 main_v28 (cmpi .slt : (⟨S1000000, .i32⟩ : BufTy).Contents (Elt F) → (⟨S1000000, .i32⟩ : BufTy).Contents (Elt F) → (⟨S1000000, .i1⟩ : BufTy).Contents (Elt F)),
  StableHlo.nullary main_c_7 (constantI S_ 32 100000#32),
  StableHlo.unary main_c_7 main_v29 (broadcastInDim S1000000 ![] bcast_S_S1000000 : (⟨S_, .i32⟩ : BufTy).Contents (Elt F) → (⟨S1000000, .i32⟩ : BufTy).Contents (Elt F)),
  StableHlo.binary main_v12 main_v29 main_v30 (addi : (⟨S1000000, .i32⟩ : BufTy).Contents (Elt F) → (⟨S1000000, .i32⟩ : BufTy).Contents (Elt F) → (⟨S1000000, .i32⟩ : BufTy).Contents (Elt F)),
  StableHlo.ternary main_v28 main_v30 main_v12 main_v31 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v31 main_v32 (broadcastInDim S1000000x1 ![0] bcast_S1000000_S1000000x1_0 : (⟨S1000000, .i32⟩ : BufTy).Contents (Elt F) → (⟨S1000000x1, .i32⟩ : BufTy).Contents (Elt F)),
  StableHlo.binary main_v26 main_v32 main_v33 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v23 main_v34 (broadcastInDim S100000x1 ![0] bcast_S100000_S100000x1_0 : (⟨S100000, .f32⟩ : BufTy).Contents (Elt F) → (⟨S100000x1, .f32⟩ : BufTy).Contents (Elt F)),
  StableHlo.nullary main_cst_8 (constant S_ .f32 0x00000000#32),
  StableHlo.unary main_cst_8 main_v35 (broadcastInDim S100000x64 ![] bcast_S_S100000x64 : (⟨S_, .f32⟩ : BufTy).Contents (Elt F) → (⟨S100000x64, .f32⟩ : BufTy).Contents (Elt F)),
  StableHlo.unary main_v14 main_v36 (broadcastInDim S1000000x1 ![0] bcast_S1000000_S1000000x1_0 : (⟨S1000000, .i32⟩ : BufTy).Contents (Elt F) → (⟨S1000000x1, .i32⟩ : BufTy).Contents (Elt F)),
  StableHlo.ternary main_v35 main_v36 main_v33 main_v37 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v34 main_v38 (broadcastInDim S100000x64 ![0, 1] bcast_S100000x1_S100000x64_0_1 : (⟨S100000x1, .f32⟩ : BufTy).Contents (Elt F) → (⟨S100000x64, .f32⟩ : BufTy).Contents (Elt F)),
  StableHlo.binary main_v38 main_v37 main_v39 (mulf : (⟨S100000x64, .f32⟩ : BufTy).Contents (Elt F) → (⟨S100000x64, .f32⟩ : BufTy).Contents (Elt F) → (⟨S100000x64, .f32⟩ : BufTy).Contents (Elt F)),
  StableHlo.unary main_v39 main_v40 (Host.negf : (⟨S100000x64, .f32⟩ : BufTy).Contents (Elt F) → (⟨S100000x64, .f32⟩ : BufTy).Contents (Elt F)),
  StableHlo.binary main_v9 main_v40 main_v41 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v41 main_arg7 main_v42 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg8 main_v43 (broadcastInDim S1x64 ![1] bcast_S64_S1x64_1 : (⟨S64, .f32⟩ : BufTy).Contents (Elt F) → (⟨S1x64, .f32⟩ : BufTy).Contents (Elt F)),
  StableHlo.unary main_v43 main_v44 (broadcastInDim S100000x64 ![0, 1] bcast_S1x64_S100000x64_0_1 : (⟨S1x64, .f32⟩ : BufTy).Contents (Elt F) → (⟨S100000x64, .f32⟩ : BufTy).Contents (Elt F)),
  StableHlo.binary main_v42 main_v44 main_v45 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_ca0_W : List (Ref sig .tc) := [main_v11, main_v12, main_v13, main_v14, main_cst_2, main_v15, main_cst_3, main_v16, main_v17, main_v18, main_cst_4, main_v19, main_v20, main_cst_5, main_call2.v0.ref, main_call2.v1.ref, main_call2.v2.ref, main_cst_6, main_v22, main_v23, main_v24, main_v25, main_v26, main_c, main_v27, main_v28, main_c_7, main_v29, main_v30, main_v31, main_v32, main_v33, main_v34, main_cst_8, main_v35, main_v36, main_v37, main_v38, main_v39, main_v40, main_v41, main_v42, main_v43, main_v44, main_v45]

set_option maxRecDepth 8192 in
theorem b_ca0_writes : (b_ca0 : List (HloOp τ sig (Elt F))).Forall fun op => op.writes ⊆ (b_ca0_W.map (Proc.devRef (τ := τ) .tc)).toFinset := by
  simp only [b_ca0, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_ca0_keep (W : Valuation τ sig (Elt F)) (r : Ref sig .tc) (h : r ∉ b_ca0_W) :
    after b_ca0 W (Proc.devRef .tc r) = W (Proc.devRef .tc r) :=
  after_of_writes_sub b_ca0 W b_ca0_writes h

set_option maxRecDepth 8192 in
set_option maxHeartbeats 4000000 in
theorem b_ca0_v45 (W : Valuation τ sig (Elt F)) :
    after b_ca0 W (Proc.devRef .tc main_v45) = Cert.Net.conv1 (W (Proc.devRef .tc main_v9)) (Cert.Net.row0 (W (Proc.devRef .tc main_arg1))) (Cert.Net.row0 (W (Proc.devRef .tc main_arg2))) (W (Proc.devRef .tc main_arg7)) (W (Proc.devRef .tc main_arg8)) := by
  unfold b_ca0; after_results_simp; try simp only [Cert.Lib.ofBuf_toBuf]
  rfl

/-- Relation 0, second convolution: the same operations on the first one's result. -/
def b_cb0 : List (HloOp τ sig (Elt F)) := [
  StableHlo.unary main_arg1 main_v46 ((extractStridedSlice S1x1000000 ![0, 0] · slices_S3x1000000_S1x1000000_0_0) : (⟨S3x1000000, .i32⟩ : BufTy).Contents (Elt F) → (⟨S1x1000000, .i32⟩ : BufTy).Contents (Elt F)),
  StableHlo.reshape main_v46 main_v47 rfl shapeCasts_S1x1000000_S1000000,
  StableHlo.unary main_arg2 main_v48 ((extractStridedSlice S1x1000000 ![0, 0] · slices_S3x1000000_S1x1000000_0_0) : (⟨S3x1000000, .i32⟩ : BufTy).Contents (Elt F) → (⟨S1x1000000, .i32⟩ : BufTy).Contents (Elt F)),
  StableHlo.reshape main_v48 main_v49 rfl shapeCasts_S1x1000000_S1000000,
  StableHlo.nullary main_cst_9 (constant S_ .f32 0x3F800000#32),
  StableHlo.unary main_cst_9 main_v50 (broadcastInDim S1000000 ![] bcast_S_S1000000 : (⟨S_, .f32⟩ : BufTy).Contents (Elt F) → (⟨S1000000, .f32⟩ : BufTy).Contents (Elt F)),
  StableHlo.nullary main_cst_10 (constant S_ .f32 0x00000000#32),
  StableHlo.unary main_cst_10 main_v51 (broadcastInDim S100000 ![] bcast_S_S100000 : (⟨S_, .f32⟩ : BufTy).Contents (Elt F) → (⟨S100000, .f32⟩ : BufTy).Contents (Elt F)),
  StableHlo.unary main_v49 main_v52 (broadcastInDim S1000000x1 ![0] bcast_S1000000_S1000000x1_0 : (⟨S1000000, .i32⟩ : BufTy).Contents (Elt F) → (⟨S1000000x1, .i32⟩ : BufTy).Contents (Elt F)),
  StableHlo.ternary main_v51 main_v52 main_v50 main_v53 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_11 (constant S_ .f32 0x3F800000#32),
  StableHlo.unary main_cst_11 main_v54 (broadcastInDim S100000 ![] bcast_S_S100000 : (⟨S_, .f32⟩ : BufTy).Contents (Elt F) → (⟨S100000, .f32⟩ : BufTy).Contents (Elt F)),
  StableHlo.binary main_v53 main_v54 main_v55 (cmpf .olt : (⟨S100000, .f32⟩ : BufTy).Contents (Elt F) → (⟨S100000, .f32⟩ : BufTy).Contents (Elt F) → (⟨S100000, .i1⟩ : BufTy).Contents (Elt F)),
  StableHlo.nullary main_cst_12 (constant S_ .f32 0x3F800000#32),
  StableHlo.TRef.unary (StableHlo.TRef.of main_cst_12 : StableHlo.TRef sig ⟨S_, .f32⟩) main_call3.v0 id,
  StableHlo.TRef.unary main_call3.v0 main_call3.v1 (broadcastInDim S100000 ![] bcast_S_S100000),
  StableHlo.TRef.ternary (StableHlo.TRef.of main_v55 : StableHlo.TRef sig ⟨S100000, .i1⟩) main_call3.v1 (StableHlo.TRef.of main_v53 : StableHlo.TRef sig ⟨S100000, .f32⟩) main_call3.v2 select,
  StableHlo.nullary main_cst_13 (constant S_ .f32 0xBF000000#32),
  StableHlo.unary main_cst_13 main_v57 (broadcastInDim S100000 ![] bcast_S_S100000 : (⟨S_, .f32⟩ : BufTy).Contents (Elt F) → (⟨S100000, .f32⟩ : BufTy).Contents (Elt F)),
  StableHlo.binary main_v56 main_v57 main_v58 (Host.powf : (⟨S100000, .f32⟩ : BufTy).Contents (Elt F) → (⟨S100000, .f32⟩ : BufTy).Contents (Elt F) → (⟨S100000, .f32⟩ : BufTy).Contents (Elt F)),
  StableHlo.unary main_v58 main_v59 (broadcastInDim S100000x1 ![0] bcast_S100000_S100000x1_0 : (⟨S100000, .f32⟩ : BufTy).Contents (Elt F) → (⟨S100000x1, .f32⟩ : BufTy).Contents (Elt F)),
  StableHlo.unary main_v59 main_v60 (broadcastInDim S100000x64 ![0, 1] bcast_S100000x1_S100000x64_0_1 : (⟨S100000x1, .f32⟩ : BufTy).Contents (Elt F) → (⟨S100000x64, .f32⟩ : BufTy).Contents (Elt F)),
  StableHlo.binary main_v45 main_v60 main_v61 (mulf : (⟨S100000x64, .f32⟩ : BufTy).Contents (Elt F) → (⟨S100000x64, .f32⟩ : BufTy).Contents (Elt F) → (⟨S100000x64, .f32⟩ : BufTy).Contents (Elt F)),
  StableHlo.nullary main_c_14 (constantI S_ 32 0#32),
  StableHlo.unary main_c_14 main_v62 (broadcastInDim S1000000 ![] bcast_S_S1000000 : (⟨S_, .i32⟩ : BufTy).Contents (Elt F) → (⟨S1000000, .i32⟩ : BufTy).Contents (Elt F)),
  StableHlo.binary main_v47 main_v62 main_v63 (cmpi .slt : (⟨S1000000, .i32⟩ : BufTy).Contents (Elt F) → (⟨S1000000, .i32⟩ : BufTy).Contents (Elt F) → (⟨S1000000, .i1⟩ : BufTy).Contents (Elt F)),
  StableHlo.nullary main_c_15 (constantI S_ 32 100000#32),
  StableHlo.unary main_c_15 main_v64 (broadcastInDim S1000000 ![] bcast_S_S1000000 : (⟨S_, .i32⟩ : BufTy).Contents (Elt F) → (⟨S1000000, .i32⟩ : BufTy).Contents (Elt F)),
  StableHlo.binary main_v47 main_v64 main_v65 (addi : (⟨S1000000, .i32⟩ : BufTy).Contents (Elt F) → (⟨S1000000, .i32⟩ : BufTy).Contents (Elt F) → (⟨S1000000, .i32⟩ : BufTy).Contents (Elt F)),
  StableHlo.ternary main_v63 main_v65 main_v47 main_v66 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v66 main_v67 (broadcastInDim S1000000x1 ![0] bcast_S1000000_S1000000x1_0 : (⟨S1000000, .i32⟩ : BufTy).Contents (Elt F) → (⟨S1000000x1, .i32⟩ : BufTy).Contents (Elt F)),
  StableHlo.binary main_v61 main_v67 main_v68 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v58 main_v69 (broadcastInDim S100000x1 ![0] bcast_S100000_S100000x1_0 : (⟨S100000, .f32⟩ : BufTy).Contents (Elt F) → (⟨S100000x1, .f32⟩ : BufTy).Contents (Elt F)),
  StableHlo.nullary main_cst_16 (constant S_ .f32 0x00000000#32),
  StableHlo.unary main_cst_16 main_v70 (broadcastInDim S100000x64 ![] bcast_S_S100000x64 : (⟨S_, .f32⟩ : BufTy).Contents (Elt F) → (⟨S100000x64, .f32⟩ : BufTy).Contents (Elt F)),
  StableHlo.unary main_v49 main_v71 (broadcastInDim S1000000x1 ![0] bcast_S1000000_S1000000x1_0 : (⟨S1000000, .i32⟩ : BufTy).Contents (Elt F) → (⟨S1000000x1, .i32⟩ : BufTy).Contents (Elt F)),
  StableHlo.ternary main_v70 main_v71 main_v68 main_v72 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v69 main_v73 (broadcastInDim S100000x64 ![0, 1] bcast_S100000x1_S100000x64_0_1 : (⟨S100000x1, .f32⟩ : BufTy).Contents (Elt F) → (⟨S100000x64, .f32⟩ : BufTy).Contents (Elt F)),
  StableHlo.binary main_v73 main_v72 main_v74 (mulf : (⟨S100000x64, .f32⟩ : BufTy).Contents (Elt F) → (⟨S100000x64, .f32⟩ : BufTy).Contents (Elt F) → (⟨S100000x64, .f32⟩ : BufTy).Contents (Elt F)),
  StableHlo.unary main_v74 main_v75 (Host.negf : (⟨S100000x64, .f32⟩ : BufTy).Contents (Elt F) → (⟨S100000x64, .f32⟩ : BufTy).Contents (Elt F)),
  StableHlo.binary main_v45 main_v75 main_v76 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v76 main_arg9 main_v77 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg10 main_v78 (broadcastInDim S1x64 ![1] bcast_S64_S1x64_1 : (⟨S64, .f32⟩ : BufTy).Contents (Elt F) → (⟨S1x64, .f32⟩ : BufTy).Contents (Elt F)),
  StableHlo.unary main_v78 main_v79 (broadcastInDim S100000x64 ![0, 1] bcast_S1x64_S100000x64_0_1 : (⟨S1x64, .f32⟩ : BufTy).Contents (Elt F) → (⟨S100000x64, .f32⟩ : BufTy).Contents (Elt F)),
  StableHlo.binary main_v77 main_v79 main_v80 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cb0_W : List (Ref sig .tc) := [main_v46, main_v47, main_v48, main_v49, main_cst_9, main_v50, main_cst_10, main_v51, main_v52, main_v53, main_cst_11, main_v54, main_v55, main_cst_12, main_call3.v0.ref, main_call3.v1.ref, main_call3.v2.ref, main_cst_13, main_v57, main_v58, main_v59, main_v60, main_v61, main_c_14, main_v62, main_v63, main_c_15, main_v64, main_v65, main_v66, main_v67, main_v68, main_v69, main_cst_16, main_v70, main_v71, main_v72, main_v73, main_v74, main_v75, main_v76, main_v77, main_v78, main_v79, main_v80]

set_option maxRecDepth 8192 in
theorem b_cb0_writes : (b_cb0 : List (HloOp τ sig (Elt F))).Forall fun op => op.writes ⊆ (b_cb0_W.map (Proc.devRef (τ := τ) .tc)).toFinset := by
  simp only [b_cb0, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cb0_keep (W : Valuation τ sig (Elt F)) (r : Ref sig .tc) (h : r ∉ b_cb0_W) :
    after b_cb0 W (Proc.devRef .tc r) = W (Proc.devRef .tc r) :=
  after_of_writes_sub b_cb0 W b_cb0_writes h

set_option maxRecDepth 8192 in
set_option maxHeartbeats 4000000 in
theorem b_cb0_v80 (W : Valuation τ sig (Elt F)) :
    after b_cb0 W (Proc.devRef .tc main_v80) = Cert.Net.conv1 (W (Proc.devRef .tc main_v45)) (Cert.Net.row0 (W (Proc.devRef .tc main_arg1))) (Cert.Net.row0 (W (Proc.devRef .tc main_arg2))) (W (Proc.devRef .tc main_arg9)) (W (Proc.devRef .tc main_arg10)) := by
  unfold b_cb0; after_results_simp; try simp only [Cert.Lib.ofBuf_toBuf]
  rfl

/-- Relation 0: the two convolutions combined, and the sum of the states so far. -/
def b_cc0 : List (HloOp τ sig (Elt F)) := [
  StableHlo.binary main_v45 main_v80 main_v81 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v81 main_arg11 main_v82 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg12 main_v83 (broadcastInDim S1x64 ![1] bcast_S64_S1x64_1 : (⟨S64, .f32⟩ : BufTy).Contents (Elt F) → (⟨S1x64, .f32⟩ : BufTy).Contents (Elt F)),
  StableHlo.unary main_v83 main_v84 (broadcastInDim S100000x64 ![0, 1] bcast_S1x64_S100000x64_0_1 : (⟨S1x64, .f32⟩ : BufTy).Contents (Elt F) → (⟨S100000x64, .f32⟩ : BufTy).Contents (Elt F)),
  StableHlo.binary main_v82 main_v84 main_v85 (addf : (⟨S100000x64, .f32⟩ : BufTy).Contents (Elt F) → (⟨S100000x64, .f32⟩ : BufTy).Contents (Elt F) → (⟨S100000x64, .f32⟩ : BufTy).Contents (Elt F)),
  StableHlo.binary main_v10 main_v85 main_v86 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cc0_W : List (Ref sig .tc) := [main_v81, main_v82, main_v83, main_v84, main_v85, main_v86]

set_option maxRecDepth 8192 in
theorem b_cc0_writes : (b_cc0 : List (HloOp τ sig (Elt F))).Forall fun op => op.writes ⊆ (b_cc0_W.map (Proc.devRef (τ := τ) .tc)).toFinset := by
  simp only [b_cc0, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cc0_keep (W : Valuation τ sig (Elt F)) (r : Ref sig .tc) (h : r ∉ b_cc0_W) :
    after b_cc0 W (Proc.devRef .tc r) = W (Proc.devRef .tc r) :=
  after_of_writes_sub b_cc0 W b_cc0_writes h

set_option maxRecDepth 8192 in
set_option maxHeartbeats 4000000 in
theorem b_cc0_v85 (W : Valuation τ sig (Elt F)) :
    after b_cc0 W (Proc.devRef .tc main_v85) = Cert.Net.dense2 (W (Proc.devRef .tc main_v45)) (W (Proc.devRef .tc main_v80)) (W (Proc.devRef .tc main_arg11)) (W (Proc.devRef .tc main_arg12)) := by
  unfold b_cc0; after_results_simp; try simp only [Cert.Lib.ofBuf_toBuf]
  rfl

set_option maxRecDepth 8192 in
set_option maxHeartbeats 4000000 in
theorem b_cc0_v86 (W : Valuation τ sig (Elt F)) :
    after b_cc0 W (Proc.devRef .tc main_v86) = addf (W (Proc.devRef .tc main_v10)) (Cert.Net.dense2 (W (Proc.devRef .tc main_v45)) (W (Proc.devRef .tc main_v80)) (W (Proc.devRef .tc main_arg11)) (W (Proc.devRef .tc main_arg12))) := by
  unfold b_cc0; after_results_simp; try simp only [Cert.Lib.ofBuf_toBuf]
  rfl

/-- Relation 1, first convolution: the rows, the degrees, the neighbour sum, the 128-column dense layer. -/
def b_ca1 : List (HloOp τ sig (Elt F)) := [
  StableHlo.unary main_arg1 main_v87 ((extractStridedSlice S1x1000000 ![1, 0] · slices_S3x1000000_S1x1000000_1_0) : (⟨S3x1000000, .i32⟩ : BufTy).Contents (Elt F) → (⟨S1x1000000, .i32⟩ : BufTy).Contents (Elt F)),
  StableHlo.reshape main_v87 main_v88 rfl shapeCasts_S1x1000000_S1000000,
  StableHlo.unary main_arg2 main_v89 ((extractStridedSlice S1x1000000 ![1, 0] · slices_S3x1000000_S1x1000000_1_0) : (⟨S3x1000000, .i32⟩ : BufTy).Contents (Elt F) → (⟨S1x1000000, .i32⟩ : BufTy).Contents (Elt F)),
  StableHlo.reshape main_v89 main_v90 rfl shapeCasts_S1x1000000_S1000000,
  StableHlo.nullary main_cst_17 (constant S_ .f32 0x3F800000#32),
  StableHlo.unary main_cst_17 main_v91 (broadcastInDim S1000000 ![] bcast_S_S1000000 : (⟨S_, .f32⟩ : BufTy).Contents (Elt F) → (⟨S1000000, .f32⟩ : BufTy).Contents (Elt F)),
  StableHlo.nullary main_cst_18 (constant S_ .f32 0x00000000#32),
  StableHlo.unary main_cst_18 main_v92 (broadcastInDim S100000 ![] bcast_S_S100000 : (⟨S_, .f32⟩ : BufTy).Contents (Elt F) → (⟨S100000, .f32⟩ : BufTy).Contents (Elt F)),
  StableHlo.unary main_v90 main_v93 (broadcastInDim S1000000x1 ![0] bcast_S1000000_S1000000x1_0 : (⟨S1000000, .i32⟩ : BufTy).Contents (Elt F) → (⟨S1000000x1, .i32⟩ : BufTy).Contents (Elt F)),
  StableHlo.ternary main_v92 main_v93 main_v91 main_v94 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_19 (constant S_ .f32 0x3F800000#32),
  StableHlo.unary main_cst_19 main_v95 (broadcastInDim S100000 ![] bcast_S_S100000 : (⟨S_, .f32⟩ : BufTy).Contents (Elt F) → (⟨S100000, .f32⟩ : BufTy).Contents (Elt F)),
  StableHlo.binary main_v94 main_v95 main_v96 (cmpf .olt : (⟨S100000, .f32⟩ : BufTy).Contents (Elt F) → (⟨S100000, .f32⟩ : BufTy).Contents (Elt F) → (⟨S100000, .i1⟩ : BufTy).Contents (Elt F)),
  StableHlo.nullary main_cst_20 (constant S_ .f32 0x3F800000#32),
  StableHlo.TRef.unary (StableHlo.TRef.of main_cst_20 : StableHlo.TRef sig ⟨S_, .f32⟩) main_call4.v0 id,
  StableHlo.TRef.unary main_call4.v0 main_call4.v1 (broadcastInDim S100000 ![] bcast_S_S100000),
  StableHlo.TRef.ternary (StableHlo.TRef.of main_v96 : StableHlo.TRef sig ⟨S100000, .i1⟩) main_call4.v1 (StableHlo.TRef.of main_v94 : StableHlo.TRef sig ⟨S100000, .f32⟩) main_call4.v2 select,
  StableHlo.nullary main_cst_21 (constant S_ .f32 0xBF000000#32),
  StableHlo.unary main_cst_21 main_v98 (broadcastInDim S100000 ![] bcast_S_S100000 : (⟨S_, .f32⟩ : BufTy).Contents (Elt F) → (⟨S100000, .f32⟩ : BufTy).Contents (Elt F)),
  StableHlo.binary main_v97 main_v98 main_v99 (Host.powf : (⟨S100000, .f32⟩ : BufTy).Contents (Elt F) → (⟨S100000, .f32⟩ : BufTy).Contents (Elt F) → (⟨S100000, .f32⟩ : BufTy).Contents (Elt F)),
  StableHlo.unary main_v99 main_v100 (broadcastInDim S100000x1 ![0] bcast_S100000_S100000x1_0 : (⟨S100000, .f32⟩ : BufTy).Contents (Elt F) → (⟨S100000x1, .f32⟩ : BufTy).Contents (Elt F)),
  StableHlo.unary main_v100 main_v101 (broadcastInDim S100000x64 ![0, 1] bcast_S100000x1_S100000x64_0_1 : (⟨S100000x1, .f32⟩ : BufTy).Contents (Elt F) → (⟨S100000x64, .f32⟩ : BufTy).Contents (Elt F)),
  StableHlo.binary main_v85 main_v101 main_v102 (mulf : (⟨S100000x64, .f32⟩ : BufTy).Contents (Elt F) → (⟨S100000x64, .f32⟩ : BufTy).Contents (Elt F) → (⟨S100000x64, .f32⟩ : BufTy).Contents (Elt F)),
  StableHlo.nullary main_c_22 (constantI S_ 32 0#32),
  StableHlo.unary main_c_22 main_v103 (broadcastInDim S1000000 ![] bcast_S_S1000000 : (⟨S_, .i32⟩ : BufTy).Contents (Elt F) → (⟨S1000000, .i32⟩ : BufTy).Contents (Elt F)),
  StableHlo.binary main_v88 main_v103 main_v104 (cmpi .slt : (⟨S1000000, .i32⟩ : BufTy).Contents (Elt F) → (⟨S1000000, .i32⟩ : BufTy).Contents (Elt F) → (⟨S1000000, .i1⟩ : BufTy).Contents (Elt F)),
  StableHlo.nullary main_c_23 (constantI S_ 32 100000#32),
  StableHlo.unary main_c_23 main_v105 (broadcastInDim S1000000 ![] bcast_S_S1000000 : (⟨S_, .i32⟩ : BufTy).Contents (Elt F) → (⟨S1000000, .i32⟩ : BufTy).Contents (Elt F)),
  StableHlo.binary main_v88 main_v105 main_v106 (addi : (⟨S1000000, .i32⟩ : BufTy).Contents (Elt F) → (⟨S1000000, .i32⟩ : BufTy).Contents (Elt F) → (⟨S1000000, .i32⟩ : BufTy).Contents (Elt F)),
  StableHlo.ternary main_v104 main_v106 main_v88 main_v107 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v107 main_v108 (broadcastInDim S1000000x1 ![0] bcast_S1000000_S1000000x1_0 : (⟨S1000000, .i32⟩ : BufTy).Contents (Elt F) → (⟨S1000000x1, .i32⟩ : BufTy).Contents (Elt F)),
  StableHlo.binary main_v102 main_v108 main_v109 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v99 main_v110 (broadcastInDim S100000x1 ![0] bcast_S100000_S100000x1_0 : (⟨S100000, .f32⟩ : BufTy).Contents (Elt F) → (⟨S100000x1, .f32⟩ : BufTy).Contents (Elt F)),
  StableHlo.nullary main_cst_24 (constant S_ .f32 0x00000000#32),
  StableHlo.unary main_cst_24 main_v111 (broadcastInDim S100000x64 ![] bcast_S_S100000x64 : (⟨S_, .f32⟩ : BufTy).Contents (Elt F) → (⟨S100000x64, .f32⟩ : BufTy).Contents (Elt F)),
  StableHlo.unary main_v90 main_v112 (broadcastInDim S1000000x1 ![0] bcast_S1000000_S1000000x1_0 : (⟨S1000000, .i32⟩ : BufTy).Contents (Elt F) → (⟨S1000000x1, .i32⟩ : BufTy).Contents (Elt F)),
  StableHlo.ternary main_v111 main_v112 main_v109 main_v113 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v110 main_v114 (broadcastInDim S100000x64 ![0, 1] bcast_S100000x1_S100000x64_0_1 : (⟨S100000x1, .f32⟩ : BufTy).Contents (Elt F) → (⟨S100000x64, .f32⟩ : BufTy).Contents (Elt F)),
  StableHlo.binary main_v114 main_v113 main_v115 (mulf : (⟨S100000x64, .f32⟩ : BufTy).Contents (Elt F) → (⟨S100000x64, .f32⟩ : BufTy).Contents (Elt F) → (⟨S100000x64, .f32⟩ : BufTy).Contents (Elt F)),
  StableHlo.unary main_v115 main_v116 (Host.negf : (⟨S100000x64, .f32⟩ : BufTy).Contents (Elt F) → (⟨S100000x64, .f32⟩ : BufTy).Contents (Elt F)),
  StableHlo.binary main_v85 main_v116 main_v117 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v117 main_arg7 main_v118 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg8 main_v119 (broadcastInDim S1x64 ![1] bcast_S64_S1x64_1 : (⟨S64, .f32⟩ : BufTy).Contents (Elt F) → (⟨S1x64, .f32⟩ : BufTy).Contents (Elt F)),
  StableHlo.unary main_v119 main_v120 (broadcastInDim S100000x64 ![0, 1] bcast_S1x64_S100000x64_0_1 : (⟨S1x64, .f32⟩ : BufTy).Contents (Elt F) → (⟨S100000x64, .f32⟩ : BufTy).Contents (Elt F)),
  StableHlo.binary main_v118 main_v120 main_v121 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_ca1_W : List (Ref sig .tc) := [main_v87, main_v88, main_v89, main_v90, main_cst_17, main_v91, main_cst_18, main_v92, main_v93, main_v94, main_cst_19, main_v95, main_v96, main_cst_20, main_call4.v0.ref, main_call4.v1.ref, main_call4.v2.ref, main_cst_21, main_v98, main_v99, main_v100, main_v101, main_v102, main_c_22, main_v103, main_v104, main_c_23, main_v105, main_v106, main_v107, main_v108, main_v109, main_v110, main_cst_24, main_v111, main_v112, main_v113, main_v114, main_v115, main_v116, main_v117, main_v118, main_v119, main_v120, main_v121]

set_option maxRecDepth 8192 in
theorem b_ca1_writes : (b_ca1 : List (HloOp τ sig (Elt F))).Forall fun op => op.writes ⊆ (b_ca1_W.map (Proc.devRef (τ := τ) .tc)).toFinset := by
  simp only [b_ca1, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_ca1_keep (W : Valuation τ sig (Elt F)) (r : Ref sig .tc) (h : r ∉ b_ca1_W) :
    after b_ca1 W (Proc.devRef .tc r) = W (Proc.devRef .tc r) :=
  after_of_writes_sub b_ca1 W b_ca1_writes h

set_option maxRecDepth 8192 in
set_option maxHeartbeats 4000000 in
theorem b_ca1_v121 (W : Valuation τ sig (Elt F)) :
    after b_ca1 W (Proc.devRef .tc main_v121) = Cert.Net.conv1 (W (Proc.devRef .tc main_v85)) (Cert.Net.row1 (W (Proc.devRef .tc main_arg1))) (Cert.Net.row1 (W (Proc.devRef .tc main_arg2))) (W (Proc.devRef .tc main_arg7)) (W (Proc.devRef .tc main_arg8)) := by
  unfold b_ca1; after_results_simp; try simp only [Cert.Lib.ofBuf_toBuf]
  rfl

/-- Relation 1, second convolution: the same operations on the first one's result. -/
def b_cb1 : List (HloOp τ sig (Elt F)) := [
  StableHlo.unary main_arg1 main_v122 ((extractStridedSlice S1x1000000 ![1, 0] · slices_S3x1000000_S1x1000000_1_0) : (⟨S3x1000000, .i32⟩ : BufTy).Contents (Elt F) → (⟨S1x1000000, .i32⟩ : BufTy).Contents (Elt F)),
  StableHlo.reshape main_v122 main_v123 rfl shapeCasts_S1x1000000_S1000000,
  StableHlo.unary main_arg2 main_v124 ((extractStridedSlice S1x1000000 ![1, 0] · slices_S3x1000000_S1x1000000_1_0) : (⟨S3x1000000, .i32⟩ : BufTy).Contents (Elt F) → (⟨S1x1000000, .i32⟩ : BufTy).Contents (Elt F)),
  StableHlo.reshape main_v124 main_v125 rfl shapeCasts_S1x1000000_S1000000,
  StableHlo.nullary main_cst_25 (constant S_ .f32 0x3F800000#32),
  StableHlo.unary main_cst_25 main_v126 (broadcastInDim S1000000 ![] bcast_S_S1000000 : (⟨S_, .f32⟩ : BufTy).Contents (Elt F) → (⟨S1000000, .f32⟩ : BufTy).Contents (Elt F)),
  StableHlo.nullary main_cst_26 (constant S_ .f32 0x00000000#32),
  StableHlo.unary main_cst_26 main_v127 (broadcastInDim S100000 ![] bcast_S_S100000 : (⟨S_, .f32⟩ : BufTy).Contents (Elt F) → (⟨S100000, .f32⟩ : BufTy).Contents (Elt F)),
  StableHlo.unary main_v125 main_v128 (broadcastInDim S1000000x1 ![0] bcast_S1000000_S1000000x1_0 : (⟨S1000000, .i32⟩ : BufTy).Contents (Elt F) → (⟨S1000000x1, .i32⟩ : BufTy).Contents (Elt F)),
  StableHlo.ternary main_v127 main_v128 main_v126 main_v129 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_27 (constant S_ .f32 0x3F800000#32),
  StableHlo.unary main_cst_27 main_v130 (broadcastInDim S100000 ![] bcast_S_S100000 : (⟨S_, .f32⟩ : BufTy).Contents (Elt F) → (⟨S100000, .f32⟩ : BufTy).Contents (Elt F)),
  StableHlo.binary main_v129 main_v130 main_v131 (cmpf .olt : (⟨S100000, .f32⟩ : BufTy).Contents (Elt F) → (⟨S100000, .f32⟩ : BufTy).Contents (Elt F) → (⟨S100000, .i1⟩ : BufTy).Contents (Elt F)),
  StableHlo.nullary main_cst_28 (constant S_ .f32 0x3F800000#32),
  StableHlo.TRef.unary (StableHlo.TRef.of main_cst_28 : StableHlo.TRef sig ⟨S_, .f32⟩) main_call5.v0 id,
  StableHlo.TRef.unary main_call5.v0 main_call5.v1 (broadcastInDim S100000 ![] bcast_S_S100000),
  StableHlo.TRef.ternary (StableHlo.TRef.of main_v131 : StableHlo.TRef sig ⟨S100000, .i1⟩) main_call5.v1 (StableHlo.TRef.of main_v129 : StableHlo.TRef sig ⟨S100000, .f32⟩) main_call5.v2 select,
  StableHlo.nullary main_cst_29 (constant S_ .f32 0xBF000000#32),
  StableHlo.unary main_cst_29 main_v133 (broadcastInDim S100000 ![] bcast_S_S100000 : (⟨S_, .f32⟩ : BufTy).Contents (Elt F) → (⟨S100000, .f32⟩ : BufTy).Contents (Elt F)),
  StableHlo.binary main_v132 main_v133 main_v134 (Host.powf : (⟨S100000, .f32⟩ : BufTy).Contents (Elt F) → (⟨S100000, .f32⟩ : BufTy).Contents (Elt F) → (⟨S100000, .f32⟩ : BufTy).Contents (Elt F)),
  StableHlo.unary main_v134 main_v135 (broadcastInDim S100000x1 ![0] bcast_S100000_S100000x1_0 : (⟨S100000, .f32⟩ : BufTy).Contents (Elt F) → (⟨S100000x1, .f32⟩ : BufTy).Contents (Elt F)),
  StableHlo.unary main_v135 main_v136 (broadcastInDim S100000x64 ![0, 1] bcast_S100000x1_S100000x64_0_1 : (⟨S100000x1, .f32⟩ : BufTy).Contents (Elt F) → (⟨S100000x64, .f32⟩ : BufTy).Contents (Elt F)),
  StableHlo.binary main_v121 main_v136 main_v137 (mulf : (⟨S100000x64, .f32⟩ : BufTy).Contents (Elt F) → (⟨S100000x64, .f32⟩ : BufTy).Contents (Elt F) → (⟨S100000x64, .f32⟩ : BufTy).Contents (Elt F)),
  StableHlo.nullary main_c_30 (constantI S_ 32 0#32),
  StableHlo.unary main_c_30 main_v138 (broadcastInDim S1000000 ![] bcast_S_S1000000 : (⟨S_, .i32⟩ : BufTy).Contents (Elt F) → (⟨S1000000, .i32⟩ : BufTy).Contents (Elt F)),
  StableHlo.binary main_v123 main_v138 main_v139 (cmpi .slt : (⟨S1000000, .i32⟩ : BufTy).Contents (Elt F) → (⟨S1000000, .i32⟩ : BufTy).Contents (Elt F) → (⟨S1000000, .i1⟩ : BufTy).Contents (Elt F)),
  StableHlo.nullary main_c_31 (constantI S_ 32 100000#32),
  StableHlo.unary main_c_31 main_v140 (broadcastInDim S1000000 ![] bcast_S_S1000000 : (⟨S_, .i32⟩ : BufTy).Contents (Elt F) → (⟨S1000000, .i32⟩ : BufTy).Contents (Elt F)),
  StableHlo.binary main_v123 main_v140 main_v141 (addi : (⟨S1000000, .i32⟩ : BufTy).Contents (Elt F) → (⟨S1000000, .i32⟩ : BufTy).Contents (Elt F) → (⟨S1000000, .i32⟩ : BufTy).Contents (Elt F)),
  StableHlo.ternary main_v139 main_v141 main_v123 main_v142 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v142 main_v143 (broadcastInDim S1000000x1 ![0] bcast_S1000000_S1000000x1_0 : (⟨S1000000, .i32⟩ : BufTy).Contents (Elt F) → (⟨S1000000x1, .i32⟩ : BufTy).Contents (Elt F)),
  StableHlo.binary main_v137 main_v143 main_v144 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v134 main_v145 (broadcastInDim S100000x1 ![0] bcast_S100000_S100000x1_0 : (⟨S100000, .f32⟩ : BufTy).Contents (Elt F) → (⟨S100000x1, .f32⟩ : BufTy).Contents (Elt F)),
  StableHlo.nullary main_cst_32 (constant S_ .f32 0x00000000#32),
  StableHlo.unary main_cst_32 main_v146 (broadcastInDim S100000x64 ![] bcast_S_S100000x64 : (⟨S_, .f32⟩ : BufTy).Contents (Elt F) → (⟨S100000x64, .f32⟩ : BufTy).Contents (Elt F)),
  StableHlo.unary main_v125 main_v147 (broadcastInDim S1000000x1 ![0] bcast_S1000000_S1000000x1_0 : (⟨S1000000, .i32⟩ : BufTy).Contents (Elt F) → (⟨S1000000x1, .i32⟩ : BufTy).Contents (Elt F)),
  StableHlo.ternary main_v146 main_v147 main_v144 main_v148 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v145 main_v149 (broadcastInDim S100000x64 ![0, 1] bcast_S100000x1_S100000x64_0_1 : (⟨S100000x1, .f32⟩ : BufTy).Contents (Elt F) → (⟨S100000x64, .f32⟩ : BufTy).Contents (Elt F)),
  StableHlo.binary main_v149 main_v148 main_v150 (mulf : (⟨S100000x64, .f32⟩ : BufTy).Contents (Elt F) → (⟨S100000x64, .f32⟩ : BufTy).Contents (Elt F) → (⟨S100000x64, .f32⟩ : BufTy).Contents (Elt F)),
  StableHlo.unary main_v150 main_v151 (Host.negf : (⟨S100000x64, .f32⟩ : BufTy).Contents (Elt F) → (⟨S100000x64, .f32⟩ : BufTy).Contents (Elt F)),
  StableHlo.binary main_v121 main_v151 main_v152 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v152 main_arg9 main_v153 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg10 main_v154 (broadcastInDim S1x64 ![1] bcast_S64_S1x64_1 : (⟨S64, .f32⟩ : BufTy).Contents (Elt F) → (⟨S1x64, .f32⟩ : BufTy).Contents (Elt F)),
  StableHlo.unary main_v154 main_v155 (broadcastInDim S100000x64 ![0, 1] bcast_S1x64_S100000x64_0_1 : (⟨S1x64, .f32⟩ : BufTy).Contents (Elt F) → (⟨S100000x64, .f32⟩ : BufTy).Contents (Elt F)),
  StableHlo.binary main_v153 main_v155 main_v156 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cb1_W : List (Ref sig .tc) := [main_v122, main_v123, main_v124, main_v125, main_cst_25, main_v126, main_cst_26, main_v127, main_v128, main_v129, main_cst_27, main_v130, main_v131, main_cst_28, main_call5.v0.ref, main_call5.v1.ref, main_call5.v2.ref, main_cst_29, main_v133, main_v134, main_v135, main_v136, main_v137, main_c_30, main_v138, main_v139, main_c_31, main_v140, main_v141, main_v142, main_v143, main_v144, main_v145, main_cst_32, main_v146, main_v147, main_v148, main_v149, main_v150, main_v151, main_v152, main_v153, main_v154, main_v155, main_v156]

set_option maxRecDepth 8192 in
theorem b_cb1_writes : (b_cb1 : List (HloOp τ sig (Elt F))).Forall fun op => op.writes ⊆ (b_cb1_W.map (Proc.devRef (τ := τ) .tc)).toFinset := by
  simp only [b_cb1, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cb1_keep (W : Valuation τ sig (Elt F)) (r : Ref sig .tc) (h : r ∉ b_cb1_W) :
    after b_cb1 W (Proc.devRef .tc r) = W (Proc.devRef .tc r) :=
  after_of_writes_sub b_cb1 W b_cb1_writes h

set_option maxRecDepth 8192 in
set_option maxHeartbeats 4000000 in
theorem b_cb1_v156 (W : Valuation τ sig (Elt F)) :
    after b_cb1 W (Proc.devRef .tc main_v156) = Cert.Net.conv1 (W (Proc.devRef .tc main_v121)) (Cert.Net.row1 (W (Proc.devRef .tc main_arg1))) (Cert.Net.row1 (W (Proc.devRef .tc main_arg2))) (W (Proc.devRef .tc main_arg9)) (W (Proc.devRef .tc main_arg10)) := by
  unfold b_cb1; after_results_simp; try simp only [Cert.Lib.ofBuf_toBuf]
  rfl

/-- Relation 1: the two convolutions combined, and the sum of the states so far. -/
def b_cc1 : List (HloOp τ sig (Elt F)) := [
  StableHlo.binary main_v121 main_v156 main_v157 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v157 main_arg11 main_v158 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg12 main_v159 (broadcastInDim S1x64 ![1] bcast_S64_S1x64_1 : (⟨S64, .f32⟩ : BufTy).Contents (Elt F) → (⟨S1x64, .f32⟩ : BufTy).Contents (Elt F)),
  StableHlo.unary main_v159 main_v160 (broadcastInDim S100000x64 ![0, 1] bcast_S1x64_S100000x64_0_1 : (⟨S1x64, .f32⟩ : BufTy).Contents (Elt F) → (⟨S100000x64, .f32⟩ : BufTy).Contents (Elt F)),
  StableHlo.binary main_v158 main_v160 main_v161 (addf : (⟨S100000x64, .f32⟩ : BufTy).Contents (Elt F) → (⟨S100000x64, .f32⟩ : BufTy).Contents (Elt F) → (⟨S100000x64, .f32⟩ : BufTy).Contents (Elt F)),
  StableHlo.binary main_v86 main_v161 main_v162 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cc1_W : List (Ref sig .tc) := [main_v157, main_v158, main_v159, main_v160, main_v161, main_v162]

set_option maxRecDepth 8192 in
theorem b_cc1_writes : (b_cc1 : List (HloOp τ sig (Elt F))).Forall fun op => op.writes ⊆ (b_cc1_W.map (Proc.devRef (τ := τ) .tc)).toFinset := by
  simp only [b_cc1, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cc1_keep (W : Valuation τ sig (Elt F)) (r : Ref sig .tc) (h : r ∉ b_cc1_W) :
    after b_cc1 W (Proc.devRef .tc r) = W (Proc.devRef .tc r) :=
  after_of_writes_sub b_cc1 W b_cc1_writes h

set_option maxRecDepth 8192 in
set_option maxHeartbeats 4000000 in
theorem b_cc1_v161 (W : Valuation τ sig (Elt F)) :
    after b_cc1 W (Proc.devRef .tc main_v161) = Cert.Net.dense2 (W (Proc.devRef .tc main_v121)) (W (Proc.devRef .tc main_v156)) (W (Proc.devRef .tc main_arg11)) (W (Proc.devRef .tc main_arg12)) := by
  unfold b_cc1; after_results_simp; try simp only [Cert.Lib.ofBuf_toBuf]
  rfl

set_option maxRecDepth 8192 in
set_option maxHeartbeats 4000000 in
theorem b_cc1_v162 (W : Valuation τ sig (Elt F)) :
    after b_cc1 W (Proc.devRef .tc main_v162) = addf (W (Proc.devRef .tc main_v86)) (Cert.Net.dense2 (W (Proc.devRef .tc main_v121)) (W (Proc.devRef .tc main_v156)) (W (Proc.devRef .tc main_arg11)) (W (Proc.devRef .tc main_arg12))) := by
  unfold b_cc1; after_results_simp; try simp only [Cert.Lib.ofBuf_toBuf]
  rfl

/-- Relation 2, first convolution: the rows, the degrees, the neighbour sum, the 128-column dense layer. -/
def b_ca2 : List (HloOp τ sig (Elt F)) := [
  StableHlo.unary main_arg1 main_v163 ((extractStridedSlice S1x1000000 ![2, 0] · slices_S3x1000000_S1x1000000_2_0) : (⟨S3x1000000, .i32⟩ : BufTy).Contents (Elt F) → (⟨S1x1000000, .i32⟩ : BufTy).Contents (Elt F)),
  StableHlo.reshape main_v163 main_v164 rfl shapeCasts_S1x1000000_S1000000,
  StableHlo.unary main_arg2 main_v165 ((extractStridedSlice S1x1000000 ![2, 0] · slices_S3x1000000_S1x1000000_2_0) : (⟨S3x1000000, .i32⟩ : BufTy).Contents (Elt F) → (⟨S1x1000000, .i32⟩ : BufTy).Contents (Elt F)),
  StableHlo.reshape main_v165 main_v166 rfl shapeCasts_S1x1000000_S1000000,
  StableHlo.nullary main_cst_33 (constant S_ .f32 0x3F800000#32),
  StableHlo.unary main_cst_33 main_v167 (broadcastInDim S1000000 ![] bcast_S_S1000000 : (⟨S_, .f32⟩ : BufTy).Contents (Elt F) → (⟨S1000000, .f32⟩ : BufTy).Contents (Elt F)),
  StableHlo.nullary main_cst_34 (constant S_ .f32 0x00000000#32),
  StableHlo.unary main_cst_34 main_v168 (broadcastInDim S100000 ![] bcast_S_S100000 : (⟨S_, .f32⟩ : BufTy).Contents (Elt F) → (⟨S100000, .f32⟩ : BufTy).Contents (Elt F)),
  StableHlo.unary main_v166 main_v169 (broadcastInDim S1000000x1 ![0] bcast_S1000000_S1000000x1_0 : (⟨S1000000, .i32⟩ : BufTy).Contents (Elt F) → (⟨S1000000x1, .i32⟩ : BufTy).Contents (Elt F)),
  StableHlo.ternary main_v168 main_v169 main_v167 main_v170 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_35 (constant S_ .f32 0x3F800000#32),
  StableHlo.unary main_cst_35 main_v171 (broadcastInDim S100000 ![] bcast_S_S100000 : (⟨S_, .f32⟩ : BufTy).Contents (Elt F) → (⟨S100000, .f32⟩ : BufTy).Contents (Elt F)),
  StableHlo.binary main_v170 main_v171 main_v172 (cmpf .olt : (⟨S100000, .f32⟩ : BufTy).Contents (Elt F) → (⟨S100000, .f32⟩ : BufTy).Contents (Elt F) → (⟨S100000, .i1⟩ : BufTy).Contents (Elt F)),
  StableHlo.nullary main_cst_36 (constant S_ .f32 0x3F800000#32),
  StableHlo.TRef.unary (StableHlo.TRef.of main_cst_36 : StableHlo.TRef sig ⟨S_, .f32⟩) main_call6.v0 id,
  StableHlo.TRef.unary main_call6.v0 main_call6.v1 (broadcastInDim S100000 ![] bcast_S_S100000),
  StableHlo.TRef.ternary (StableHlo.TRef.of main_v172 : StableHlo.TRef sig ⟨S100000, .i1⟩) main_call6.v1 (StableHlo.TRef.of main_v170 : StableHlo.TRef sig ⟨S100000, .f32⟩) main_call6.v2 select,
  StableHlo.nullary main_cst_37 (constant S_ .f32 0xBF000000#32),
  StableHlo.unary main_cst_37 main_v174 (broadcastInDim S100000 ![] bcast_S_S100000 : (⟨S_, .f32⟩ : BufTy).Contents (Elt F) → (⟨S100000, .f32⟩ : BufTy).Contents (Elt F)),
  StableHlo.binary main_v173 main_v174 main_v175 (Host.powf : (⟨S100000, .f32⟩ : BufTy).Contents (Elt F) → (⟨S100000, .f32⟩ : BufTy).Contents (Elt F) → (⟨S100000, .f32⟩ : BufTy).Contents (Elt F)),
  StableHlo.unary main_v175 main_v176 (broadcastInDim S100000x1 ![0] bcast_S100000_S100000x1_0 : (⟨S100000, .f32⟩ : BufTy).Contents (Elt F) → (⟨S100000x1, .f32⟩ : BufTy).Contents (Elt F)),
  StableHlo.unary main_v176 main_v177 (broadcastInDim S100000x64 ![0, 1] bcast_S100000x1_S100000x64_0_1 : (⟨S100000x1, .f32⟩ : BufTy).Contents (Elt F) → (⟨S100000x64, .f32⟩ : BufTy).Contents (Elt F)),
  StableHlo.binary main_v161 main_v177 main_v178 (mulf : (⟨S100000x64, .f32⟩ : BufTy).Contents (Elt F) → (⟨S100000x64, .f32⟩ : BufTy).Contents (Elt F) → (⟨S100000x64, .f32⟩ : BufTy).Contents (Elt F)),
  StableHlo.nullary main_c_38 (constantI S_ 32 0#32),
  StableHlo.unary main_c_38 main_v179 (broadcastInDim S1000000 ![] bcast_S_S1000000 : (⟨S_, .i32⟩ : BufTy).Contents (Elt F) → (⟨S1000000, .i32⟩ : BufTy).Contents (Elt F)),
  StableHlo.binary main_v164 main_v179 main_v180 (cmpi .slt : (⟨S1000000, .i32⟩ : BufTy).Contents (Elt F) → (⟨S1000000, .i32⟩ : BufTy).Contents (Elt F) → (⟨S1000000, .i1⟩ : BufTy).Contents (Elt F)),
  StableHlo.nullary main_c_39 (constantI S_ 32 100000#32),
  StableHlo.unary main_c_39 main_v181 (broadcastInDim S1000000 ![] bcast_S_S1000000 : (⟨S_, .i32⟩ : BufTy).Contents (Elt F) → (⟨S1000000, .i32⟩ : BufTy).Contents (Elt F)),
  StableHlo.binary main_v164 main_v181 main_v182 (addi : (⟨S1000000, .i32⟩ : BufTy).Contents (Elt F) → (⟨S1000000, .i32⟩ : BufTy).Contents (Elt F) → (⟨S1000000, .i32⟩ : BufTy).Contents (Elt F)),
  StableHlo.ternary main_v180 main_v182 main_v164 main_v183 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v183 main_v184 (broadcastInDim S1000000x1 ![0] bcast_S1000000_S1000000x1_0 : (⟨S1000000, .i32⟩ : BufTy).Contents (Elt F) → (⟨S1000000x1, .i32⟩ : BufTy).Contents (Elt F)),
  StableHlo.binary main_v178 main_v184 main_v185 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v175 main_v186 (broadcastInDim S100000x1 ![0] bcast_S100000_S100000x1_0 : (⟨S100000, .f32⟩ : BufTy).Contents (Elt F) → (⟨S100000x1, .f32⟩ : BufTy).Contents (Elt F)),
  StableHlo.nullary main_cst_40 (constant S_ .f32 0x00000000#32),
  StableHlo.unary main_cst_40 main_v187 (broadcastInDim S100000x64 ![] bcast_S_S100000x64 : (⟨S_, .f32⟩ : BufTy).Contents (Elt F) → (⟨S100000x64, .f32⟩ : BufTy).Contents (Elt F)),
  StableHlo.unary main_v166 main_v188 (broadcastInDim S1000000x1 ![0] bcast_S1000000_S1000000x1_0 : (⟨S1000000, .i32⟩ : BufTy).Contents (Elt F) → (⟨S1000000x1, .i32⟩ : BufTy).Contents (Elt F)),
  StableHlo.ternary main_v187 main_v188 main_v185 main_v189 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v186 main_v190 (broadcastInDim S100000x64 ![0, 1] bcast_S100000x1_S100000x64_0_1 : (⟨S100000x1, .f32⟩ : BufTy).Contents (Elt F) → (⟨S100000x64, .f32⟩ : BufTy).Contents (Elt F)),
  StableHlo.binary main_v190 main_v189 main_v191 (mulf : (⟨S100000x64, .f32⟩ : BufTy).Contents (Elt F) → (⟨S100000x64, .f32⟩ : BufTy).Contents (Elt F) → (⟨S100000x64, .f32⟩ : BufTy).Contents (Elt F)),
  StableHlo.unary main_v191 main_v192 (Host.negf : (⟨S100000x64, .f32⟩ : BufTy).Contents (Elt F) → (⟨S100000x64, .f32⟩ : BufTy).Contents (Elt F)),
  StableHlo.binary main_v161 main_v192 main_v193 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v193 main_arg7 main_v194 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg8 main_v195 (broadcastInDim S1x64 ![1] bcast_S64_S1x64_1 : (⟨S64, .f32⟩ : BufTy).Contents (Elt F) → (⟨S1x64, .f32⟩ : BufTy).Contents (Elt F)),
  StableHlo.unary main_v195 main_v196 (broadcastInDim S100000x64 ![0, 1] bcast_S1x64_S100000x64_0_1 : (⟨S1x64, .f32⟩ : BufTy).Contents (Elt F) → (⟨S100000x64, .f32⟩ : BufTy).Contents (Elt F)),
  StableHlo.binary main_v194 main_v196 main_v197 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_ca2_W : List (Ref sig .tc) := [main_v163, main_v164, main_v165, main_v166, main_cst_33, main_v167, main_cst_34, main_v168, main_v169, main_v170, main_cst_35, main_v171, main_v172, main_cst_36, main_call6.v0.ref, main_call6.v1.ref, main_call6.v2.ref, main_cst_37, main_v174, main_v175, main_v176, main_v177, main_v178, main_c_38, main_v179, main_v180, main_c_39, main_v181, main_v182, main_v183, main_v184, main_v185, main_v186, main_cst_40, main_v187, main_v188, main_v189, main_v190, main_v191, main_v192, main_v193, main_v194, main_v195, main_v196, main_v197]

set_option maxRecDepth 8192 in
theorem b_ca2_writes : (b_ca2 : List (HloOp τ sig (Elt F))).Forall fun op => op.writes ⊆ (b_ca2_W.map (Proc.devRef (τ := τ) .tc)).toFinset := by
  simp only [b_ca2, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_ca2_keep (W : Valuation τ sig (Elt F)) (r : Ref sig .tc) (h : r ∉ b_ca2_W) :
    after b_ca2 W (Proc.devRef .tc r) = W (Proc.devRef .tc r) :=
  after_of_writes_sub b_ca2 W b_ca2_writes h

set_option maxRecDepth 8192 in
set_option maxHeartbeats 4000000 in
theorem b_ca2_v197 (W : Valuation τ sig (Elt F)) :
    after b_ca2 W (Proc.devRef .tc main_v197) = Cert.Net.conv1 (W (Proc.devRef .tc main_v161)) (Cert.Net.row2 (W (Proc.devRef .tc main_arg1))) (Cert.Net.row2 (W (Proc.devRef .tc main_arg2))) (W (Proc.devRef .tc main_arg7)) (W (Proc.devRef .tc main_arg8)) := by
  unfold b_ca2; after_results_simp; try simp only [Cert.Lib.ofBuf_toBuf]
  rfl

/-- Relation 2, second convolution: the same operations on the first one's result. -/
def b_cb2 : List (HloOp τ sig (Elt F)) := [
  StableHlo.unary main_arg1 main_v198 ((extractStridedSlice S1x1000000 ![2, 0] · slices_S3x1000000_S1x1000000_2_0) : (⟨S3x1000000, .i32⟩ : BufTy).Contents (Elt F) → (⟨S1x1000000, .i32⟩ : BufTy).Contents (Elt F)),
  StableHlo.reshape main_v198 main_v199 rfl shapeCasts_S1x1000000_S1000000,
  StableHlo.unary main_arg2 main_v200 ((extractStridedSlice S1x1000000 ![2, 0] · slices_S3x1000000_S1x1000000_2_0) : (⟨S3x1000000, .i32⟩ : BufTy).Contents (Elt F) → (⟨S1x1000000, .i32⟩ : BufTy).Contents (Elt F)),
  StableHlo.reshape main_v200 main_v201 rfl shapeCasts_S1x1000000_S1000000,
  StableHlo.nullary main_cst_41 (constant S_ .f32 0x3F800000#32),
  StableHlo.unary main_cst_41 main_v202 (broadcastInDim S1000000 ![] bcast_S_S1000000 : (⟨S_, .f32⟩ : BufTy).Contents (Elt F) → (⟨S1000000, .f32⟩ : BufTy).Contents (Elt F)),
  StableHlo.nullary main_cst_42 (constant S_ .f32 0x00000000#32),
  StableHlo.unary main_cst_42 main_v203 (broadcastInDim S100000 ![] bcast_S_S100000 : (⟨S_, .f32⟩ : BufTy).Contents (Elt F) → (⟨S100000, .f32⟩ : BufTy).Contents (Elt F)),
  StableHlo.unary main_v201 main_v204 (broadcastInDim S1000000x1 ![0] bcast_S1000000_S1000000x1_0 : (⟨S1000000, .i32⟩ : BufTy).Contents (Elt F) → (⟨S1000000x1, .i32⟩ : BufTy).Contents (Elt F)),
  StableHlo.ternary main_v203 main_v204 main_v202 main_v205 ((fun x i u => Host.scatterAdd scatter_S100000_S1000000x1_S1000000_n_0_0_1 x i u) : (⟨S100000, .f32⟩ : BufTy).Contents (Elt F) → (⟨S1000000x1, .i32⟩ : BufTy).Contents (Elt F) → (⟨S1000000, .f32⟩ : BufTy).Contents (Elt F) → (⟨S100000, .f32⟩ : BufTy).Contents (Elt F)),
  StableHlo.nullary main_cst_43 (constant S_ .f32 0x3F800000#32),
  StableHlo.unary main_cst_43 main_v206 (broadcastInDim S100000 ![] bcast_S_S100000 : (⟨S_, .f32⟩ : BufTy).Contents (Elt F) → (⟨S100000, .f32⟩ : BufTy).Contents (Elt F)),
  StableHlo.binary main_v205 main_v206 main_v207 (cmpf .olt : (⟨S100000, .f32⟩ : BufTy).Contents (Elt F) → (⟨S100000, .f32⟩ : BufTy).Contents (Elt F) → (⟨S100000, .i1⟩ : BufTy).Contents (Elt F)),
  StableHlo.nullary main_cst_44 (constant S_ .f32 0x3F800000#32),
  StableHlo.TRef.unary (StableHlo.TRef.of main_cst_44 : StableHlo.TRef sig ⟨S_, .f32⟩) main_call7.v0 id,
  StableHlo.TRef.unary main_call7.v0 main_call7.v1 (broadcastInDim S100000 ![] bcast_S_S100000),
  StableHlo.TRef.ternary (StableHlo.TRef.of main_v207 : StableHlo.TRef sig ⟨S100000, .i1⟩) main_call7.v1 (StableHlo.TRef.of main_v205 : StableHlo.TRef sig ⟨S100000, .f32⟩) main_call7.v2 select,
  StableHlo.nullary main_cst_45 (constant S_ .f32 0xBF000000#32),
  StableHlo.unary main_cst_45 main_v209 (broadcastInDim S100000 ![] bcast_S_S100000 : (⟨S_, .f32⟩ : BufTy).Contents (Elt F) → (⟨S100000, .f32⟩ : BufTy).Contents (Elt F)),
  StableHlo.binary main_v208 main_v209 main_v210 (Host.powf : (⟨S100000, .f32⟩ : BufTy).Contents (Elt F) → (⟨S100000, .f32⟩ : BufTy).Contents (Elt F) → (⟨S100000, .f32⟩ : BufTy).Contents (Elt F)),
  StableHlo.unary main_v210 main_v211 (broadcastInDim S100000x1 ![0] bcast_S100000_S100000x1_0 : (⟨S100000, .f32⟩ : BufTy).Contents (Elt F) → (⟨S100000x1, .f32⟩ : BufTy).Contents (Elt F)),
  StableHlo.unary main_v211 main_v212 (broadcastInDim S100000x64 ![0, 1] bcast_S100000x1_S100000x64_0_1 : (⟨S100000x1, .f32⟩ : BufTy).Contents (Elt F) → (⟨S100000x64, .f32⟩ : BufTy).Contents (Elt F)),
  StableHlo.binary main_v197 main_v212 main_v213 (mulf : (⟨S100000x64, .f32⟩ : BufTy).Contents (Elt F) → (⟨S100000x64, .f32⟩ : BufTy).Contents (Elt F) → (⟨S100000x64, .f32⟩ : BufTy).Contents (Elt F)),
  StableHlo.nullary main_c_46 (constantI S_ 32 0#32),
  StableHlo.unary main_c_46 main_v214 (broadcastInDim S1000000 ![] bcast_S_S1000000 : (⟨S_, .i32⟩ : BufTy).Contents (Elt F) → (⟨S1000000, .i32⟩ : BufTy).Contents (Elt F)),
  StableHlo.binary main_v199 main_v214 main_v215 (cmpi .slt : (⟨S1000000, .i32⟩ : BufTy).Contents (Elt F) → (⟨S1000000, .i32⟩ : BufTy).Contents (Elt F) → (⟨S1000000, .i1⟩ : BufTy).Contents (Elt F)),
  StableHlo.nullary main_c_47 (constantI S_ 32 100000#32),
  StableHlo.unary main_c_47 main_v216 (broadcastInDim S1000000 ![] bcast_S_S1000000 : (⟨S_, .i32⟩ : BufTy).Contents (Elt F) → (⟨S1000000, .i32⟩ : BufTy).Contents (Elt F)),
  StableHlo.binary main_v199 main_v216 main_v217 (addi : (⟨S1000000, .i32⟩ : BufTy).Contents (Elt F) → (⟨S1000000, .i32⟩ : BufTy).Contents (Elt F) → (⟨S1000000, .i32⟩ : BufTy).Contents (Elt F)),
  StableHlo.ternary main_v215 main_v217 main_v199 main_v218 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
  StableHlo.unary main_v218 main_v219 (broadcastInDim S1000000x1 ![0] bcast_S1000000_S1000000x1_0 : (⟨S1000000, .i32⟩ : BufTy).Contents (Elt F) → (⟨S1000000x1, .i32⟩ : BufTy).Contents (Elt F)),
  StableHlo.binary main_v213 main_v219 main_v220 ((fun x i => Host.gather gather_S100000x64_S1000000x1_S1000000x64_1_0_n_n_0_1_164 x i) : (⟨S100000x64, .f32⟩ : BufTy).Contents (Elt F) → (⟨S1000000x1, .i32⟩ : BufTy).Contents (Elt F) → (⟨S1000000x64, .f32⟩ : BufTy).Contents (Elt F)),
  StableHlo.unary main_v210 main_v221 (broadcastInDim S100000x1 ![0] bcast_S100000_S100000x1_0 : (⟨S100000, .f32⟩ : BufTy).Contents (Elt F) → (⟨S100000x1, .f32⟩ : BufTy).Contents (Elt F)),
  StableHlo.nullary main_cst_48 (constant S_ .f32 0x00000000#32),
  StableHlo.unary main_cst_48 main_v222 (broadcastInDim S100000x64 ![] bcast_S_S100000x64 : (⟨S_, .f32⟩ : BufTy).Contents (Elt F) → (⟨S100000x64, .f32⟩ : BufTy).Contents (Elt F)),
  StableHlo.unary main_v201 main_v223 (broadcastInDim S1000000x1 ![0] bcast_S1000000_S1000000x1_0 : (⟨S1000000, .i32⟩ : BufTy).Contents (Elt F) → (⟨S1000000x1, .i32⟩ : BufTy).Contents (Elt F)),
  StableHlo.ternary main_v222 main_v223 main_v220 main_v224 ((fun x i u => Host.scatterAdd scatter_S100000x64_S1000000x1_S1000000x64_1_0_0_1 x i u) : (⟨S100000x64, .f32⟩ : BufTy).Contents (Elt F) → (⟨S1000000x1, .i32⟩ : BufTy).Contents (Elt F) → (⟨S1000000x64, .f32⟩ : BufTy).Contents (Elt F) → (⟨S100000x64, .f32⟩ : BufTy).Contents (Elt F)),
  StableHlo.unary main_v221 main_v225 (broadcastInDim S100000x64 ![0, 1] bcast_S100000x1_S100000x64_0_1 : (⟨S100000x1, .f32⟩ : BufTy).Contents (Elt F) → (⟨S100000x64, .f32⟩ : BufTy).Contents (Elt F)),
  StableHlo.binary main_v225 main_v224 main_v226 (mulf : (⟨S100000x64, .f32⟩ : BufTy).Contents (Elt F) → (⟨S100000x64, .f32⟩ : BufTy).Contents (Elt F) → (⟨S100000x64, .f32⟩ : BufTy).Contents (Elt F)),
  StableHlo.unary main_v226 main_v227 (Host.negf : (⟨S100000x64, .f32⟩ : BufTy).Contents (Elt F) → (⟨S100000x64, .f32⟩ : BufTy).Contents (Elt F)),
  StableHlo.binary main_v197 main_v227 main_v228 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v228 main_arg9 main_v229 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg10 main_v230 (broadcastInDim S1x64 ![1] bcast_S64_S1x64_1 : (⟨S64, .f32⟩ : BufTy).Contents (Elt F) → (⟨S1x64, .f32⟩ : BufTy).Contents (Elt F)),
  StableHlo.unary main_v230 main_v231 (broadcastInDim S100000x64 ![0, 1] bcast_S1x64_S100000x64_0_1 : (⟨S1x64, .f32⟩ : BufTy).Contents (Elt F) → (⟨S100000x64, .f32⟩ : BufTy).Contents (Elt F)),
  StableHlo.binary main_v229 main_v231 main_v232 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cb2_W : List (Ref sig .tc) := [main_v198, main_v199, main_v200, main_v201, main_cst_41, main_v202, main_cst_42, main_v203, main_v204, main_v205, main_cst_43, main_v206, main_v207, main_cst_44, main_call7.v0.ref, main_call7.v1.ref, main_call7.v2.ref, main_cst_45, main_v209, main_v210, main_v211, main_v212, main_v213, main_c_46, main_v214, main_v215, main_c_47, main_v216, main_v217, main_v218, main_v219, main_v220, main_v221, main_cst_48, main_v222, main_v223, main_v224, main_v225, main_v226, main_v227, main_v228, main_v229, main_v230, main_v231, main_v232]

set_option maxRecDepth 8192 in
theorem b_cb2_writes : (b_cb2 : List (HloOp τ sig (Elt F))).Forall fun op => op.writes ⊆ (b_cb2_W.map (Proc.devRef (τ := τ) .tc)).toFinset := by
  simp only [b_cb2, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cb2_keep (W : Valuation τ sig (Elt F)) (r : Ref sig .tc) (h : r ∉ b_cb2_W) :
    after b_cb2 W (Proc.devRef .tc r) = W (Proc.devRef .tc r) :=
  after_of_writes_sub b_cb2 W b_cb2_writes h

set_option maxRecDepth 8192 in
set_option maxHeartbeats 4000000 in
theorem b_cb2_v232 (W : Valuation τ sig (Elt F)) :
    after b_cb2 W (Proc.devRef .tc main_v232) = Cert.Net.conv1 (W (Proc.devRef .tc main_v197)) (Cert.Net.row2 (W (Proc.devRef .tc main_arg1))) (Cert.Net.row2 (W (Proc.devRef .tc main_arg2))) (W (Proc.devRef .tc main_arg9)) (W (Proc.devRef .tc main_arg10)) := by
  unfold b_cb2; after_results_simp; try simp only [Cert.Lib.ofBuf_toBuf]
  rfl

/-- Relation 2: the two convolutions combined, and the sum of the states so far. -/
def b_cc2 : List (HloOp τ sig (Elt F)) := [
  StableHlo.binary main_v197 main_v232 main_v233 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
  StableHlo.binary main_v233 main_arg11 main_v234 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
  StableHlo.unary main_arg12 main_v235 (broadcastInDim S1x64 ![1] bcast_S64_S1x64_1 : (⟨S64, .f32⟩ : BufTy).Contents (Elt F) → (⟨S1x64, .f32⟩ : BufTy).Contents (Elt F)),
  StableHlo.unary main_v235 main_v236 (broadcastInDim S100000x64 ![0, 1] bcast_S1x64_S100000x64_0_1 : (⟨S1x64, .f32⟩ : BufTy).Contents (Elt F) → (⟨S100000x64, .f32⟩ : BufTy).Contents (Elt F)),
  StableHlo.binary main_v234 main_v236 main_v237 (addf : (⟨S100000x64, .f32⟩ : BufTy).Contents (Elt F) → (⟨S100000x64, .f32⟩ : BufTy).Contents (Elt F) → (⟨S100000x64, .f32⟩ : BufTy).Contents (Elt F)),
  StableHlo.binary main_v162 main_v237 main_v238 (addf : (⟨S100000x64, .f32⟩ : BufTy).Contents (Elt F) → (⟨S100000x64, .f32⟩ : BufTy).Contents (Elt F) → (⟨S100000x64, .f32⟩ : BufTy).Contents (Elt F))]

/-- The buffers these operations write. -/
abbrev b_cc2_W : List (Ref sig .tc) := [main_v233, main_v234, main_v235, main_v236, main_v237, main_v238]

set_option maxRecDepth 8192 in
theorem b_cc2_writes : (b_cc2 : List (HloOp τ sig (Elt F))).Forall fun op => op.writes ⊆ (b_cc2_W.map (Proc.devRef (τ := τ) .tc)).toFinset := by
  simp only [b_cc2, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_cc2_keep (W : Valuation τ sig (Elt F)) (r : Ref sig .tc) (h : r ∉ b_cc2_W) :
    after b_cc2 W (Proc.devRef .tc r) = W (Proc.devRef .tc r) :=
  after_of_writes_sub b_cc2 W b_cc2_writes h

set_option maxRecDepth 8192 in
set_option maxHeartbeats 4000000 in
theorem b_cc2_v237 (W : Valuation τ sig (Elt F)) :
    after b_cc2 W (Proc.devRef .tc main_v237) = Cert.Net.dense2 (W (Proc.devRef .tc main_v197)) (W (Proc.devRef .tc main_v232)) (W (Proc.devRef .tc main_arg11)) (W (Proc.devRef .tc main_arg12)) := by
  unfold b_cc2; after_results_simp; try simp only [Cert.Lib.ofBuf_toBuf]
  rfl

set_option maxRecDepth 8192 in
set_option maxHeartbeats 4000000 in
theorem b_cc2_v238 (W : Valuation τ sig (Elt F)) :
    after b_cc2 W (Proc.devRef .tc main_v238) = addf (W (Proc.devRef .tc main_v162)) (Cert.Net.dense2 (W (Proc.devRef .tc main_v197)) (W (Proc.devRef .tc main_v232)) (W (Proc.devRef .tc main_arg11)) (W (Proc.devRef .tc main_arg12))) := by
  unfold b_cc2; after_results_simp; try simp only [Cert.Lib.ofBuf_toBuf]
  rfl

/-- The head. -/
def b_hd : List (HloOp τ sig (Elt F)) := [
  StableHlo.nullary main_cst_49 (constant S_ .f32 0x3C23D70A#32),
  StableHlo.TRef.nullary main_call8.cst (constant S_ .f32 0x00000000#32),
  StableHlo.TRef.unary main_call8.cst main_call8.v0 (broadcastInDim S100000x64 ![] bcast_S_S100000x64),
  StableHlo.TRef.binary (StableHlo.TRef.of main_v238 : StableHlo.TRef sig ⟨S100000x64, .f32⟩) main_call8.v0 main_call8.v1 (cmpf .oge),
  StableHlo.TRef.unary (StableHlo.TRef.of main_cst_49 : StableHlo.TRef sig ⟨S_, .f32⟩) main_call8.v2 id,
  StableHlo.TRef.unary main_call8.v2 main_call8.v3 (broadcastInDim S100000x64 ![] bcast_S_S100000x64),
  StableHlo.TRef.binary main_call8.v3 (StableHlo.TRef.of main_v238 : StableHlo.TRef sig ⟨S100000x64, .f32⟩) main_call8.v4 mulf,
  StableHlo.TRef.ternary main_call8.v1 (StableHlo.TRef.of main_v238 : StableHlo.TRef sig ⟨S100000x64, .f32⟩) main_call8.v4 main_call8.call0.v0 select,
  StableHlo.binary main_v239 main_arg13 main_v240 ((fun l r => Host.dotGeneral dot_S100000x64_S64x2_S100000x2_1_0_0_1_n_n none l r) : (⟨S100000x64, .f32⟩ : BufTy).Contents (Elt F) → (⟨S64x2, .f32⟩ : BufTy).Contents (Elt F) → (⟨S100000x2, .f32⟩ : BufTy).Contents (Elt F)),
  StableHlo.unary main_arg14 main_v241 (broadcastInDim S1x2 ![1] bcast_S2_S1x2_1 : (⟨S2, .f32⟩ : BufTy).Contents (Elt F) → (⟨S1x2, .f32⟩ : BufTy).Contents (Elt F)),
  StableHlo.unary main_v241 main_v242 (broadcastInDim S100000x2 ![0, 1] bcast_S1x2_S100000x2_0_1 : (⟨S1x2, .f32⟩ : BufTy).Contents (Elt F) → (⟨S100000x2, .f32⟩ : BufTy).Contents (Elt F)),
  StableHlo.binary main_v240 main_v242 main_v243 (addf : (⟨S100000x2, .f32⟩ : BufTy).Contents (Elt F) → (⟨S100000x2, .f32⟩ : BufTy).Contents (Elt F) → (⟨S100000x2, .f32⟩ : BufTy).Contents (Elt F))]

/-- The buffers these operations write. -/
abbrev b_hd_W : List (Ref sig .tc) := [main_cst_49, main_call8.cst.ref, main_call8.v0.ref, main_call8.v1.ref, main_call8.v2.ref, main_call8.v3.ref, main_call8.v4.ref, main_call8.call0.v0.ref, main_v240, main_v241, main_v242, main_v243]

set_option maxRecDepth 8192 in
theorem b_hd_writes : (b_hd : List (HloOp τ sig (Elt F))).Forall fun op => op.writes ⊆ (b_hd_W.map (Proc.devRef (τ := τ) .tc)).toFinset := by
  simp only [b_hd, List.Forall, nullary_writes, unary_writes, binary_writes, ternary_writes, reshape_writes,
    Finset.singleton_subset_iff, List.mem_toFinset]
  repeat' apply And.intro
  all_goals exact List.mem_map_of_mem (by decide)

/-- A buffer these operations do not write keeps its contents through them. -/
theorem b_hd_keep (W : Valuation τ sig (Elt F)) (r : Ref sig .tc) (h : r ∉ b_hd_W) :
    after b_hd W (Proc.devRef .tc r) = W (Proc.devRef .tc r) :=
  after_of_writes_sub b_hd W b_hd_writes h

set_option maxRecDepth 8192 in
set_option maxHeartbeats 4000000 in
theorem b_hd_v243 (W : Valuation τ sig (Elt F)) :
    after b_hd W (Proc.devRef .tc main_v243) = Cert.Net.head (W (Proc.devRef .tc main_v238)) (W (Proc.devRef .tc main_arg13)) (W (Proc.devRef .tc main_arg14)) := by
  unfold b_hd; after_results_simp; try simp only [Cert.Lib.ofBuf_toBuf]
  rfl

/-! ### The reference's operations are the eleven stretches in order -/

set_option maxRecDepth 65536 in
theorem b_ops_eq : (RefRun.ops (F := F)) = b_s0 ++ b_ca0 ++ b_cb0 ++ b_cc0 ++ b_ca1 ++ b_cb1 ++ b_cc1 ++ b_ca2 ++ b_cb2 ++ b_cc2 ++ b_hd := by
  simp only [RefRun.ops, RefRun.p0, RefRun.p1, RefRun.p2, RefRun.p3, RefRun.p4, b_s0, b_ca0, b_cb0, b_cc0, b_ca1, b_cb1, b_cc1, b_ca2, b_cb2, b_cc2, b_hd,
    List.cons_append, List.nil_append]

section Chain

variable (Wr : Valuation τ sig (Elt F))

/-! ### The buffer contents after each stretch, and what the buffers read later hold there -/

/-- The contents before the first operation. -/
def b_V0 : Valuation τ sig (Elt F) := Wr
/-- The contents after the first 1 of the eleven stretches. -/
def b_V1 : Valuation τ sig (Elt F) := after b_s0 (b_V0 Wr)
/-- The contents after the first 2 of the eleven stretches. -/
def b_V2 : Valuation τ sig (Elt F) := after b_ca0 (b_V1 Wr)
/-- The contents after the first 3 of the eleven stretches. -/
def b_V3 : Valuation τ sig (Elt F) := after b_cb0 (b_V2 Wr)
/-- The contents after the first 4 of the eleven stretches. -/
def b_V4 : Valuation τ sig (Elt F) := after b_cc0 (b_V3 Wr)
/-- The contents after the first 5 of the eleven stretches. -/
def b_V5 : Valuation τ sig (Elt F) := after b_ca1 (b_V4 Wr)
/-- The contents after the first 6 of the eleven stretches. -/
def b_V6 : Valuation τ sig (Elt F) := after b_cb1 (b_V5 Wr)
/-- The contents after the first 7 of the eleven stretches. -/
def b_V7 : Valuation τ sig (Elt F) := after b_cc1 (b_V6 Wr)
/-- The contents after the first 8 of the eleven stretches. -/
def b_V8 : Valuation τ sig (Elt F) := after b_ca2 (b_V7 Wr)
/-- The contents after the first 9 of the eleven stretches. -/
def b_V9 : Valuation τ sig (Elt F) := after b_cb2 (b_V8 Wr)
/-- The contents after the first 10 of the eleven stretches. -/
def b_V10 : Valuation τ sig (Elt F) := after b_cc2 (b_V9 Wr)
/-- The contents after the first 11 of the eleven stretches. -/
def b_V11 : Valuation τ sig (Elt F) := after b_hd (b_V10 Wr)

theorem b_V0_arg0 : b_V0 Wr (Proc.devRef .tc main_arg0) = (Wr (Proc.devRef .tc main_arg0)) := rfl
theorem b_V0_arg3 : b_V0 Wr (Proc.devRef .tc main_arg3) = (Wr (Proc.devRef .tc main_arg3)) := rfl
theorem b_V0_arg4 : b_V0 Wr (Proc.devRef .tc main_arg4) = (Wr (Proc.devRef .tc main_arg4)) := rfl
theorem b_V0_arg5 : b_V0 Wr (Proc.devRef .tc main_arg5) = (Wr (Proc.devRef .tc main_arg5)) := rfl
theorem b_V0_arg6 : b_V0 Wr (Proc.devRef .tc main_arg6) = (Wr (Proc.devRef .tc main_arg6)) := rfl
theorem b_V0_arg1 : b_V0 Wr (Proc.devRef .tc main_arg1) = (Wr (Proc.devRef .tc main_arg1)) := rfl
theorem b_V0_arg2 : b_V0 Wr (Proc.devRef .tc main_arg2) = (Wr (Proc.devRef .tc main_arg2)) := rfl
theorem b_V0_arg7 : b_V0 Wr (Proc.devRef .tc main_arg7) = (Wr (Proc.devRef .tc main_arg7)) := rfl
theorem b_V0_arg8 : b_V0 Wr (Proc.devRef .tc main_arg8) = (Wr (Proc.devRef .tc main_arg8)) := rfl
theorem b_V0_arg9 : b_V0 Wr (Proc.devRef .tc main_arg9) = (Wr (Proc.devRef .tc main_arg9)) := rfl
theorem b_V0_arg10 : b_V0 Wr (Proc.devRef .tc main_arg10) = (Wr (Proc.devRef .tc main_arg10)) := rfl
theorem b_V0_arg11 : b_V0 Wr (Proc.devRef .tc main_arg11) = (Wr (Proc.devRef .tc main_arg11)) := rfl
theorem b_V0_arg12 : b_V0 Wr (Proc.devRef .tc main_arg12) = (Wr (Proc.devRef .tc main_arg12)) := rfl
theorem b_V0_arg13 : b_V0 Wr (Proc.devRef .tc main_arg13) = (Wr (Proc.devRef .tc main_arg13)) := rfl
theorem b_V0_arg14 : b_V0 Wr (Proc.devRef .tc main_arg14) = (Wr (Proc.devRef .tc main_arg14)) := rfl

theorem b_V1_v10 : b_V1 Wr (Proc.devRef .tc main_v10) = Cert.Net.zero :=
  b_s0_v10 (b_V0 Wr)
theorem b_V1_v9 : b_V1 Wr (Proc.devRef .tc main_v9) = (Cert.Net.mlp (Wr (Proc.devRef .tc main_arg0)) (Wr (Proc.devRef .tc main_arg3)) (Wr (Proc.devRef .tc main_arg4)) (Wr (Proc.devRef .tc main_arg5)) (Wr (Proc.devRef .tc main_arg6))) :=
  (b_s0_v9 (b_V0 Wr)).trans (by
    rw [b_V0_arg0 Wr, b_V0_arg3 Wr, b_V0_arg4 Wr, b_V0_arg5 Wr, b_V0_arg6 Wr])
theorem b_V1_arg1 : b_V1 Wr (Proc.devRef .tc main_arg1) = (Wr (Proc.devRef .tc main_arg1)) :=
  (b_s0_keep (b_V0 Wr) main_arg1 (by decide)).trans (b_V0_arg1 Wr)
theorem b_V1_arg2 : b_V1 Wr (Proc.devRef .tc main_arg2) = (Wr (Proc.devRef .tc main_arg2)) :=
  (b_s0_keep (b_V0 Wr) main_arg2 (by decide)).trans (b_V0_arg2 Wr)
theorem b_V1_arg7 : b_V1 Wr (Proc.devRef .tc main_arg7) = (Wr (Proc.devRef .tc main_arg7)) :=
  (b_s0_keep (b_V0 Wr) main_arg7 (by decide)).trans (b_V0_arg7 Wr)
theorem b_V1_arg8 : b_V1 Wr (Proc.devRef .tc main_arg8) = (Wr (Proc.devRef .tc main_arg8)) :=
  (b_s0_keep (b_V0 Wr) main_arg8 (by decide)).trans (b_V0_arg8 Wr)
theorem b_V1_arg9 : b_V1 Wr (Proc.devRef .tc main_arg9) = (Wr (Proc.devRef .tc main_arg9)) :=
  (b_s0_keep (b_V0 Wr) main_arg9 (by decide)).trans (b_V0_arg9 Wr)
theorem b_V1_arg10 : b_V1 Wr (Proc.devRef .tc main_arg10) = (Wr (Proc.devRef .tc main_arg10)) :=
  (b_s0_keep (b_V0 Wr) main_arg10 (by decide)).trans (b_V0_arg10 Wr)
theorem b_V1_arg11 : b_V1 Wr (Proc.devRef .tc main_arg11) = (Wr (Proc.devRef .tc main_arg11)) :=
  (b_s0_keep (b_V0 Wr) main_arg11 (by decide)).trans (b_V0_arg11 Wr)
theorem b_V1_arg12 : b_V1 Wr (Proc.devRef .tc main_arg12) = (Wr (Proc.devRef .tc main_arg12)) :=
  (b_s0_keep (b_V0 Wr) main_arg12 (by decide)).trans (b_V0_arg12 Wr)
theorem b_V1_arg13 : b_V1 Wr (Proc.devRef .tc main_arg13) = (Wr (Proc.devRef .tc main_arg13)) :=
  (b_s0_keep (b_V0 Wr) main_arg13 (by decide)).trans (b_V0_arg13 Wr)
theorem b_V1_arg14 : b_V1 Wr (Proc.devRef .tc main_arg14) = (Wr (Proc.devRef .tc main_arg14)) :=
  (b_s0_keep (b_V0 Wr) main_arg14 (by decide)).trans (b_V0_arg14 Wr)

theorem b_V2_v10 : b_V2 Wr (Proc.devRef .tc main_v10) = Cert.Net.zero :=
  (b_ca0_keep (b_V1 Wr) main_v10 (by decide)).trans (b_V1_v10 Wr)
theorem b_V2_v45 : b_V2 Wr (Proc.devRef .tc main_v45) = (Cert.Net.conv1 (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8))) :=
  (b_ca0_v45 (b_V1 Wr)).trans (by
    rw [b_V1_v9 Wr, b_V1_arg1 Wr, b_V1_arg2 Wr, b_V1_arg7 Wr, b_V1_arg8 Wr])
theorem b_V2_arg1 : b_V2 Wr (Proc.devRef .tc main_arg1) = (Wr (Proc.devRef .tc main_arg1)) :=
  (b_ca0_keep (b_V1 Wr) main_arg1 (by decide)).trans (b_V1_arg1 Wr)
theorem b_V2_arg2 : b_V2 Wr (Proc.devRef .tc main_arg2) = (Wr (Proc.devRef .tc main_arg2)) :=
  (b_ca0_keep (b_V1 Wr) main_arg2 (by decide)).trans (b_V1_arg2 Wr)
theorem b_V2_arg9 : b_V2 Wr (Proc.devRef .tc main_arg9) = (Wr (Proc.devRef .tc main_arg9)) :=
  (b_ca0_keep (b_V1 Wr) main_arg9 (by decide)).trans (b_V1_arg9 Wr)
theorem b_V2_arg10 : b_V2 Wr (Proc.devRef .tc main_arg10) = (Wr (Proc.devRef .tc main_arg10)) :=
  (b_ca0_keep (b_V1 Wr) main_arg10 (by decide)).trans (b_V1_arg10 Wr)
theorem b_V2_arg11 : b_V2 Wr (Proc.devRef .tc main_arg11) = (Wr (Proc.devRef .tc main_arg11)) :=
  (b_ca0_keep (b_V1 Wr) main_arg11 (by decide)).trans (b_V1_arg11 Wr)
theorem b_V2_arg12 : b_V2 Wr (Proc.devRef .tc main_arg12) = (Wr (Proc.devRef .tc main_arg12)) :=
  (b_ca0_keep (b_V1 Wr) main_arg12 (by decide)).trans (b_V1_arg12 Wr)
theorem b_V2_arg7 : b_V2 Wr (Proc.devRef .tc main_arg7) = (Wr (Proc.devRef .tc main_arg7)) :=
  (b_ca0_keep (b_V1 Wr) main_arg7 (by decide)).trans (b_V1_arg7 Wr)
theorem b_V2_arg8 : b_V2 Wr (Proc.devRef .tc main_arg8) = (Wr (Proc.devRef .tc main_arg8)) :=
  (b_ca0_keep (b_V1 Wr) main_arg8 (by decide)).trans (b_V1_arg8 Wr)
theorem b_V2_arg13 : b_V2 Wr (Proc.devRef .tc main_arg13) = (Wr (Proc.devRef .tc main_arg13)) :=
  (b_ca0_keep (b_V1 Wr) main_arg13 (by decide)).trans (b_V1_arg13 Wr)
theorem b_V2_arg14 : b_V2 Wr (Proc.devRef .tc main_arg14) = (Wr (Proc.devRef .tc main_arg14)) :=
  (b_ca0_keep (b_V1 Wr) main_arg14 (by decide)).trans (b_V1_arg14 Wr)

theorem b_V3_v10 : b_V3 Wr (Proc.devRef .tc main_v10) = Cert.Net.zero :=
  (b_cb0_keep (b_V2 Wr) main_v10 (by decide)).trans (b_V2_v10 Wr)
theorem b_V3_v45 : b_V3 Wr (Proc.devRef .tc main_v45) = (Cert.Net.conv1 (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8))) :=
  (b_cb0_keep (b_V2 Wr) main_v45 (by decide)).trans (b_V2_v45 Wr)
theorem b_V3_v80 : b_V3 Wr (Proc.devRef .tc main_v80) = (Cert.Net.conv1 (Cert.Net.conv1 (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8))) (Cert.Net.row0 (Wr (Proc.devRef .tc main_arg1))) (Cert.Net.row0 (Wr (Proc.devRef .tc main_arg2))) (Wr (Proc.devRef .tc main_arg9)) (Wr (Proc.devRef .tc main_arg10))) :=
  (b_cb0_v80 (b_V2 Wr)).trans (by
    rw [b_V2_v45 Wr, b_V2_arg1 Wr, b_V2_arg2 Wr, b_V2_arg9 Wr, b_V2_arg10 Wr])
theorem b_V3_arg11 : b_V3 Wr (Proc.devRef .tc main_arg11) = (Wr (Proc.devRef .tc main_arg11)) :=
  (b_cb0_keep (b_V2 Wr) main_arg11 (by decide)).trans (b_V2_arg11 Wr)
theorem b_V3_arg12 : b_V3 Wr (Proc.devRef .tc main_arg12) = (Wr (Proc.devRef .tc main_arg12)) :=
  (b_cb0_keep (b_V2 Wr) main_arg12 (by decide)).trans (b_V2_arg12 Wr)
theorem b_V3_arg1 : b_V3 Wr (Proc.devRef .tc main_arg1) = (Wr (Proc.devRef .tc main_arg1)) :=
  (b_cb0_keep (b_V2 Wr) main_arg1 (by decide)).trans (b_V2_arg1 Wr)
theorem b_V3_arg2 : b_V3 Wr (Proc.devRef .tc main_arg2) = (Wr (Proc.devRef .tc main_arg2)) :=
  (b_cb0_keep (b_V2 Wr) main_arg2 (by decide)).trans (b_V2_arg2 Wr)
theorem b_V3_arg7 : b_V3 Wr (Proc.devRef .tc main_arg7) = (Wr (Proc.devRef .tc main_arg7)) :=
  (b_cb0_keep (b_V2 Wr) main_arg7 (by decide)).trans (b_V2_arg7 Wr)
theorem b_V3_arg8 : b_V3 Wr (Proc.devRef .tc main_arg8) = (Wr (Proc.devRef .tc main_arg8)) :=
  (b_cb0_keep (b_V2 Wr) main_arg8 (by decide)).trans (b_V2_arg8 Wr)
theorem b_V3_arg9 : b_V3 Wr (Proc.devRef .tc main_arg9) = (Wr (Proc.devRef .tc main_arg9)) :=
  (b_cb0_keep (b_V2 Wr) main_arg9 (by decide)).trans (b_V2_arg9 Wr)
theorem b_V3_arg10 : b_V3 Wr (Proc.devRef .tc main_arg10) = (Wr (Proc.devRef .tc main_arg10)) :=
  (b_cb0_keep (b_V2 Wr) main_arg10 (by decide)).trans (b_V2_arg10 Wr)
theorem b_V3_arg13 : b_V3 Wr (Proc.devRef .tc main_arg13) = (Wr (Proc.devRef .tc main_arg13)) :=
  (b_cb0_keep (b_V2 Wr) main_arg13 (by decide)).trans (b_V2_arg13 Wr)
theorem b_V3_arg14 : b_V3 Wr (Proc.devRef .tc main_arg14) = (Wr (Proc.devRef .tc main_arg14)) :=
  (b_cb0_keep (b_V2 Wr) main_arg14 (by decide)).trans (b_V2_arg14 Wr)

theorem b_V4_v86 : b_V4 Wr (Proc.devRef .tc main_v86) = (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_cc0_v86 (b_V3 Wr)).trans (by
    rw [b_V3_v10 Wr, b_V3_v45 Wr, b_V3_v80 Wr, b_V3_arg11 Wr, b_V3_arg12 Wr]
    rfl)
theorem b_V4_v85 : b_V4 Wr (Proc.devRef .tc main_v85) = (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) :=
  (b_cc0_v85 (b_V3 Wr)).trans (by
    rw [b_V3_v45 Wr, b_V3_v80 Wr, b_V3_arg11 Wr, b_V3_arg12 Wr]
    rfl)
theorem b_V4_arg1 : b_V4 Wr (Proc.devRef .tc main_arg1) = (Wr (Proc.devRef .tc main_arg1)) :=
  (b_cc0_keep (b_V3 Wr) main_arg1 (by decide)).trans (b_V3_arg1 Wr)
theorem b_V4_arg2 : b_V4 Wr (Proc.devRef .tc main_arg2) = (Wr (Proc.devRef .tc main_arg2)) :=
  (b_cc0_keep (b_V3 Wr) main_arg2 (by decide)).trans (b_V3_arg2 Wr)
theorem b_V4_arg7 : b_V4 Wr (Proc.devRef .tc main_arg7) = (Wr (Proc.devRef .tc main_arg7)) :=
  (b_cc0_keep (b_V3 Wr) main_arg7 (by decide)).trans (b_V3_arg7 Wr)
theorem b_V4_arg8 : b_V4 Wr (Proc.devRef .tc main_arg8) = (Wr (Proc.devRef .tc main_arg8)) :=
  (b_cc0_keep (b_V3 Wr) main_arg8 (by decide)).trans (b_V3_arg8 Wr)
theorem b_V4_arg9 : b_V4 Wr (Proc.devRef .tc main_arg9) = (Wr (Proc.devRef .tc main_arg9)) :=
  (b_cc0_keep (b_V3 Wr) main_arg9 (by decide)).trans (b_V3_arg9 Wr)
theorem b_V4_arg10 : b_V4 Wr (Proc.devRef .tc main_arg10) = (Wr (Proc.devRef .tc main_arg10)) :=
  (b_cc0_keep (b_V3 Wr) main_arg10 (by decide)).trans (b_V3_arg10 Wr)
theorem b_V4_arg11 : b_V4 Wr (Proc.devRef .tc main_arg11) = (Wr (Proc.devRef .tc main_arg11)) :=
  (b_cc0_keep (b_V3 Wr) main_arg11 (by decide)).trans (b_V3_arg11 Wr)
theorem b_V4_arg12 : b_V4 Wr (Proc.devRef .tc main_arg12) = (Wr (Proc.devRef .tc main_arg12)) :=
  (b_cc0_keep (b_V3 Wr) main_arg12 (by decide)).trans (b_V3_arg12 Wr)
theorem b_V4_arg13 : b_V4 Wr (Proc.devRef .tc main_arg13) = (Wr (Proc.devRef .tc main_arg13)) :=
  (b_cc0_keep (b_V3 Wr) main_arg13 (by decide)).trans (b_V3_arg13 Wr)
theorem b_V4_arg14 : b_V4 Wr (Proc.devRef .tc main_arg14) = (Wr (Proc.devRef .tc main_arg14)) :=
  (b_cc0_keep (b_V3 Wr) main_arg14 (by decide)).trans (b_V3_arg14 Wr)

theorem b_V5_v86 : b_V5 Wr (Proc.devRef .tc main_v86) = (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_ca1_keep (b_V4 Wr) main_v86 (by decide)).trans (b_V4_v86 Wr)
theorem b_V5_v121 : b_V5 Wr (Proc.devRef .tc main_v121) = (Cert.Net.conv1 (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8))) :=
  (b_ca1_v121 (b_V4 Wr)).trans (by
    rw [b_V4_v85 Wr, b_V4_arg1 Wr, b_V4_arg2 Wr, b_V4_arg7 Wr, b_V4_arg8 Wr])
theorem b_V5_arg1 : b_V5 Wr (Proc.devRef .tc main_arg1) = (Wr (Proc.devRef .tc main_arg1)) :=
  (b_ca1_keep (b_V4 Wr) main_arg1 (by decide)).trans (b_V4_arg1 Wr)
theorem b_V5_arg2 : b_V5 Wr (Proc.devRef .tc main_arg2) = (Wr (Proc.devRef .tc main_arg2)) :=
  (b_ca1_keep (b_V4 Wr) main_arg2 (by decide)).trans (b_V4_arg2 Wr)
theorem b_V5_arg9 : b_V5 Wr (Proc.devRef .tc main_arg9) = (Wr (Proc.devRef .tc main_arg9)) :=
  (b_ca1_keep (b_V4 Wr) main_arg9 (by decide)).trans (b_V4_arg9 Wr)
theorem b_V5_arg10 : b_V5 Wr (Proc.devRef .tc main_arg10) = (Wr (Proc.devRef .tc main_arg10)) :=
  (b_ca1_keep (b_V4 Wr) main_arg10 (by decide)).trans (b_V4_arg10 Wr)
theorem b_V5_arg11 : b_V5 Wr (Proc.devRef .tc main_arg11) = (Wr (Proc.devRef .tc main_arg11)) :=
  (b_ca1_keep (b_V4 Wr) main_arg11 (by decide)).trans (b_V4_arg11 Wr)
theorem b_V5_arg12 : b_V5 Wr (Proc.devRef .tc main_arg12) = (Wr (Proc.devRef .tc main_arg12)) :=
  (b_ca1_keep (b_V4 Wr) main_arg12 (by decide)).trans (b_V4_arg12 Wr)
theorem b_V5_arg7 : b_V5 Wr (Proc.devRef .tc main_arg7) = (Wr (Proc.devRef .tc main_arg7)) :=
  (b_ca1_keep (b_V4 Wr) main_arg7 (by decide)).trans (b_V4_arg7 Wr)
theorem b_V5_arg8 : b_V5 Wr (Proc.devRef .tc main_arg8) = (Wr (Proc.devRef .tc main_arg8)) :=
  (b_ca1_keep (b_V4 Wr) main_arg8 (by decide)).trans (b_V4_arg8 Wr)
theorem b_V5_arg13 : b_V5 Wr (Proc.devRef .tc main_arg13) = (Wr (Proc.devRef .tc main_arg13)) :=
  (b_ca1_keep (b_V4 Wr) main_arg13 (by decide)).trans (b_V4_arg13 Wr)
theorem b_V5_arg14 : b_V5 Wr (Proc.devRef .tc main_arg14) = (Wr (Proc.devRef .tc main_arg14)) :=
  (b_ca1_keep (b_V4 Wr) main_arg14 (by decide)).trans (b_V4_arg14 Wr)

theorem b_V6_v86 : b_V6 Wr (Proc.devRef .tc main_v86) = (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_cb1_keep (b_V5 Wr) main_v86 (by decide)).trans (b_V5_v86 Wr)
theorem b_V6_v121 : b_V6 Wr (Proc.devRef .tc main_v121) = (Cert.Net.conv1 (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8))) :=
  (b_cb1_keep (b_V5 Wr) main_v121 (by decide)).trans (b_V5_v121 Wr)
theorem b_V6_v156 : b_V6 Wr (Proc.devRef .tc main_v156) = (Cert.Net.conv1 (Cert.Net.conv1 (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8))) (Cert.Net.row1 (Wr (Proc.devRef .tc main_arg1))) (Cert.Net.row1 (Wr (Proc.devRef .tc main_arg2))) (Wr (Proc.devRef .tc main_arg9)) (Wr (Proc.devRef .tc main_arg10))) :=
  (b_cb1_v156 (b_V5 Wr)).trans (by
    rw [b_V5_v121 Wr, b_V5_arg1 Wr, b_V5_arg2 Wr, b_V5_arg9 Wr, b_V5_arg10 Wr])
theorem b_V6_arg11 : b_V6 Wr (Proc.devRef .tc main_arg11) = (Wr (Proc.devRef .tc main_arg11)) :=
  (b_cb1_keep (b_V5 Wr) main_arg11 (by decide)).trans (b_V5_arg11 Wr)
theorem b_V6_arg12 : b_V6 Wr (Proc.devRef .tc main_arg12) = (Wr (Proc.devRef .tc main_arg12)) :=
  (b_cb1_keep (b_V5 Wr) main_arg12 (by decide)).trans (b_V5_arg12 Wr)
theorem b_V6_arg1 : b_V6 Wr (Proc.devRef .tc main_arg1) = (Wr (Proc.devRef .tc main_arg1)) :=
  (b_cb1_keep (b_V5 Wr) main_arg1 (by decide)).trans (b_V5_arg1 Wr)
theorem b_V6_arg2 : b_V6 Wr (Proc.devRef .tc main_arg2) = (Wr (Proc.devRef .tc main_arg2)) :=
  (b_cb1_keep (b_V5 Wr) main_arg2 (by decide)).trans (b_V5_arg2 Wr)
theorem b_V6_arg7 : b_V6 Wr (Proc.devRef .tc main_arg7) = (Wr (Proc.devRef .tc main_arg7)) :=
  (b_cb1_keep (b_V5 Wr) main_arg7 (by decide)).trans (b_V5_arg7 Wr)
theorem b_V6_arg8 : b_V6 Wr (Proc.devRef .tc main_arg8) = (Wr (Proc.devRef .tc main_arg8)) :=
  (b_cb1_keep (b_V5 Wr) main_arg8 (by decide)).trans (b_V5_arg8 Wr)
theorem b_V6_arg9 : b_V6 Wr (Proc.devRef .tc main_arg9) = (Wr (Proc.devRef .tc main_arg9)) :=
  (b_cb1_keep (b_V5 Wr) main_arg9 (by decide)).trans (b_V5_arg9 Wr)
theorem b_V6_arg10 : b_V6 Wr (Proc.devRef .tc main_arg10) = (Wr (Proc.devRef .tc main_arg10)) :=
  (b_cb1_keep (b_V5 Wr) main_arg10 (by decide)).trans (b_V5_arg10 Wr)
theorem b_V6_arg13 : b_V6 Wr (Proc.devRef .tc main_arg13) = (Wr (Proc.devRef .tc main_arg13)) :=
  (b_cb1_keep (b_V5 Wr) main_arg13 (by decide)).trans (b_V5_arg13 Wr)
theorem b_V6_arg14 : b_V6 Wr (Proc.devRef .tc main_arg14) = (Wr (Proc.devRef .tc main_arg14)) :=
  (b_cb1_keep (b_V5 Wr) main_arg14 (by decide)).trans (b_V5_arg14 Wr)

theorem b_V7_v162 : b_V7 Wr (Proc.devRef .tc main_v162) = (addf (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_cc1_v162 (b_V6 Wr)).trans (by
    rw [b_V6_v86 Wr, b_V6_v121 Wr, b_V6_v156 Wr, b_V6_arg11 Wr, b_V6_arg12 Wr]
    rfl)
theorem b_V7_v161 : b_V7 Wr (Proc.devRef .tc main_v161) = (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) :=
  (b_cc1_v161 (b_V6 Wr)).trans (by
    rw [b_V6_v121 Wr, b_V6_v156 Wr, b_V6_arg11 Wr, b_V6_arg12 Wr]
    rfl)
theorem b_V7_arg1 : b_V7 Wr (Proc.devRef .tc main_arg1) = (Wr (Proc.devRef .tc main_arg1)) :=
  (b_cc1_keep (b_V6 Wr) main_arg1 (by decide)).trans (b_V6_arg1 Wr)
theorem b_V7_arg2 : b_V7 Wr (Proc.devRef .tc main_arg2) = (Wr (Proc.devRef .tc main_arg2)) :=
  (b_cc1_keep (b_V6 Wr) main_arg2 (by decide)).trans (b_V6_arg2 Wr)
theorem b_V7_arg7 : b_V7 Wr (Proc.devRef .tc main_arg7) = (Wr (Proc.devRef .tc main_arg7)) :=
  (b_cc1_keep (b_V6 Wr) main_arg7 (by decide)).trans (b_V6_arg7 Wr)
theorem b_V7_arg8 : b_V7 Wr (Proc.devRef .tc main_arg8) = (Wr (Proc.devRef .tc main_arg8)) :=
  (b_cc1_keep (b_V6 Wr) main_arg8 (by decide)).trans (b_V6_arg8 Wr)
theorem b_V7_arg9 : b_V7 Wr (Proc.devRef .tc main_arg9) = (Wr (Proc.devRef .tc main_arg9)) :=
  (b_cc1_keep (b_V6 Wr) main_arg9 (by decide)).trans (b_V6_arg9 Wr)
theorem b_V7_arg10 : b_V7 Wr (Proc.devRef .tc main_arg10) = (Wr (Proc.devRef .tc main_arg10)) :=
  (b_cc1_keep (b_V6 Wr) main_arg10 (by decide)).trans (b_V6_arg10 Wr)
theorem b_V7_arg11 : b_V7 Wr (Proc.devRef .tc main_arg11) = (Wr (Proc.devRef .tc main_arg11)) :=
  (b_cc1_keep (b_V6 Wr) main_arg11 (by decide)).trans (b_V6_arg11 Wr)
theorem b_V7_arg12 : b_V7 Wr (Proc.devRef .tc main_arg12) = (Wr (Proc.devRef .tc main_arg12)) :=
  (b_cc1_keep (b_V6 Wr) main_arg12 (by decide)).trans (b_V6_arg12 Wr)
theorem b_V7_arg13 : b_V7 Wr (Proc.devRef .tc main_arg13) = (Wr (Proc.devRef .tc main_arg13)) :=
  (b_cc1_keep (b_V6 Wr) main_arg13 (by decide)).trans (b_V6_arg13 Wr)
theorem b_V7_arg14 : b_V7 Wr (Proc.devRef .tc main_arg14) = (Wr (Proc.devRef .tc main_arg14)) :=
  (b_cc1_keep (b_V6 Wr) main_arg14 (by decide)).trans (b_V6_arg14 Wr)

theorem b_V8_v162 : b_V8 Wr (Proc.devRef .tc main_v162) = (addf (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_ca2_keep (b_V7 Wr) main_v162 (by decide)).trans (b_V7_v162 Wr)
theorem b_V8_v197 : b_V8 Wr (Proc.devRef .tc main_v197) = (Cert.Net.conv1 (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row2 (Wr (Proc.devRef .tc main_arg1))) (Cert.Net.row2 (Wr (Proc.devRef .tc main_arg2))) (Wr (Proc.devRef .tc main_arg7)) (Wr (Proc.devRef .tc main_arg8))) :=
  (b_ca2_v197 (b_V7 Wr)).trans (by
    rw [b_V7_v161 Wr, b_V7_arg1 Wr, b_V7_arg2 Wr, b_V7_arg7 Wr, b_V7_arg8 Wr])
theorem b_V8_arg1 : b_V8 Wr (Proc.devRef .tc main_arg1) = (Wr (Proc.devRef .tc main_arg1)) :=
  (b_ca2_keep (b_V7 Wr) main_arg1 (by decide)).trans (b_V7_arg1 Wr)
theorem b_V8_arg2 : b_V8 Wr (Proc.devRef .tc main_arg2) = (Wr (Proc.devRef .tc main_arg2)) :=
  (b_ca2_keep (b_V7 Wr) main_arg2 (by decide)).trans (b_V7_arg2 Wr)
theorem b_V8_arg9 : b_V8 Wr (Proc.devRef .tc main_arg9) = (Wr (Proc.devRef .tc main_arg9)) :=
  (b_ca2_keep (b_V7 Wr) main_arg9 (by decide)).trans (b_V7_arg9 Wr)
theorem b_V8_arg10 : b_V8 Wr (Proc.devRef .tc main_arg10) = (Wr (Proc.devRef .tc main_arg10)) :=
  (b_ca2_keep (b_V7 Wr) main_arg10 (by decide)).trans (b_V7_arg10 Wr)
theorem b_V8_arg11 : b_V8 Wr (Proc.devRef .tc main_arg11) = (Wr (Proc.devRef .tc main_arg11)) :=
  (b_ca2_keep (b_V7 Wr) main_arg11 (by decide)).trans (b_V7_arg11 Wr)
theorem b_V8_arg12 : b_V8 Wr (Proc.devRef .tc main_arg12) = (Wr (Proc.devRef .tc main_arg12)) :=
  (b_ca2_keep (b_V7 Wr) main_arg12 (by decide)).trans (b_V7_arg12 Wr)
theorem b_V8_arg13 : b_V8 Wr (Proc.devRef .tc main_arg13) = (Wr (Proc.devRef .tc main_arg13)) :=
  (b_ca2_keep (b_V7 Wr) main_arg13 (by decide)).trans (b_V7_arg13 Wr)
theorem b_V8_arg14 : b_V8 Wr (Proc.devRef .tc main_arg14) = (Wr (Proc.devRef .tc main_arg14)) :=
  (b_ca2_keep (b_V7 Wr) main_arg14 (by decide)).trans (b_V7_arg14 Wr)

theorem b_V9_v162 : b_V9 Wr (Proc.devRef .tc main_v162) = (addf (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_cb2_keep (b_V8 Wr) main_v162 (by decide)).trans (b_V8_v162 Wr)
theorem b_V9_v197 : b_V9 Wr (Proc.devRef .tc main_v197) = (Cert.Net.conv1 (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row2 (Wr (Proc.devRef .tc main_arg1))) (Cert.Net.row2 (Wr (Proc.devRef .tc main_arg2))) (Wr (Proc.devRef .tc main_arg7)) (Wr (Proc.devRef .tc main_arg8))) :=
  (b_cb2_keep (b_V8 Wr) main_v197 (by decide)).trans (b_V8_v197 Wr)
theorem b_V9_v232 : b_V9 Wr (Proc.devRef .tc main_v232) = (Cert.Net.conv1 (Cert.Net.conv1 (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row2 (Wr (Proc.devRef .tc main_arg1))) (Cert.Net.row2 (Wr (Proc.devRef .tc main_arg2))) (Wr (Proc.devRef .tc main_arg7)) (Wr (Proc.devRef .tc main_arg8))) (Cert.Net.row2 (Wr (Proc.devRef .tc main_arg1))) (Cert.Net.row2 (Wr (Proc.devRef .tc main_arg2))) (Wr (Proc.devRef .tc main_arg9)) (Wr (Proc.devRef .tc main_arg10))) :=
  (b_cb2_v232 (b_V8 Wr)).trans (by
    rw [b_V8_v197 Wr, b_V8_arg1 Wr, b_V8_arg2 Wr, b_V8_arg9 Wr, b_V8_arg10 Wr])
theorem b_V9_arg11 : b_V9 Wr (Proc.devRef .tc main_arg11) = (Wr (Proc.devRef .tc main_arg11)) :=
  (b_cb2_keep (b_V8 Wr) main_arg11 (by decide)).trans (b_V8_arg11 Wr)
theorem b_V9_arg12 : b_V9 Wr (Proc.devRef .tc main_arg12) = (Wr (Proc.devRef .tc main_arg12)) :=
  (b_cb2_keep (b_V8 Wr) main_arg12 (by decide)).trans (b_V8_arg12 Wr)
theorem b_V9_arg13 : b_V9 Wr (Proc.devRef .tc main_arg13) = (Wr (Proc.devRef .tc main_arg13)) :=
  (b_cb2_keep (b_V8 Wr) main_arg13 (by decide)).trans (b_V8_arg13 Wr)
theorem b_V9_arg14 : b_V9 Wr (Proc.devRef .tc main_arg14) = (Wr (Proc.devRef .tc main_arg14)) :=
  (b_cb2_keep (b_V8 Wr) main_arg14 (by decide)).trans (b_V8_arg14 Wr)

theorem b_V10_v238 : b_V10 Wr (Proc.devRef .tc main_v238) = (addf (addf (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row2 (Wr (Proc.devRef .tc main_arg1))) (Cert.Net.row2 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) :=
  (b_cc2_v238 (b_V9 Wr)).trans (by
    rw [b_V9_v162 Wr, b_V9_v197 Wr, b_V9_v232 Wr, b_V9_arg11 Wr, b_V9_arg12 Wr]
    rfl)
theorem b_V10_arg13 : b_V10 Wr (Proc.devRef .tc main_arg13) = (Wr (Proc.devRef .tc main_arg13)) :=
  (b_cc2_keep (b_V9 Wr) main_arg13 (by decide)).trans (b_V9_arg13 Wr)
theorem b_V10_arg14 : b_V10 Wr (Proc.devRef .tc main_arg14) = (Wr (Proc.devRef .tc main_arg14)) :=
  (b_cc2_keep (b_V9 Wr) main_arg14 (by decide)).trans (b_V9_arg14 Wr)

theorem b_V11_v243 : b_V11 Wr (Proc.devRef .tc main_v243) = (Cert.Net.head (addf (addf (addf Cert.Net.zero (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Cert.Net.relH (Cert.Net.relH (Cert.Net.relH (Cert.Net.mlp (Wr (Proc.devRef .tc main_arg0)) (Wr (Proc.devRef .tc main_arg3)) (Wr (Proc.devRef .tc main_arg4)) (Wr (Proc.devRef .tc main_arg5)) (Wr (Proc.devRef .tc main_arg6))) (Cert.Net.row0 (Wr (Proc.devRef .tc main_arg1))) (Cert.Net.row0 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row1 (Wr (Proc.devRef .tc main_arg1))) (Cert.Net.row1 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12))) (Cert.Net.row2 (Wr (Proc.devRef .tc main_arg1))) (Cert.Net.row2 (Wr (Proc.devRef .tc main_arg2))) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)))) (Wr (Proc.devRef .tc main_arg13)) (Wr (Proc.devRef .tc main_arg14))) :=
  (b_hd_v243 (b_V10 Wr)).trans (by
    rw [b_V10_v238 Wr, b_V10_arg13 Wr, b_V10_arg14 Wr])

end Chain

/-- The reference's result buffer after its operations is the network applied to the fifteen arguments. -/
theorem fold (Wr : Valuation τ sig (Elt F)) :
    StableHlo.after (RefRun.ops (F := F)) Wr (Proc.devRef .tc main_v243)
      = Cert.Net.net (Wr (Proc.devRef .tc main_arg0)) (Wr (Proc.devRef .tc main_arg1)) (Wr (Proc.devRef .tc main_arg2)) (Wr (Proc.devRef .tc main_arg3)) (Wr (Proc.devRef .tc main_arg4)) (Wr (Proc.devRef .tc main_arg5)) (Wr (Proc.devRef .tc main_arg6)) (Wr (Proc.devRef .tc main_arg7)) (Wr (Proc.devRef .tc main_arg8)) (Wr (Proc.devRef .tc main_arg9)) (Wr (Proc.devRef .tc main_arg10)) (Wr (Proc.devRef .tc main_arg11)) (Wr (Proc.devRef .tc main_arg12)) (Wr (Proc.devRef .tc main_arg13)) (Wr (Proc.devRef .tc main_arg14)) := by
  rw [b_ops_eq]
  simp only [Cert.Lib.after_append]
  exact (b_V11_v243 Wr).trans rfl

end Cert.ReferenceIdeal.RefFold

end
-- ==== Proof.KRun.lean ====
/-
  The idealized kernel's run with its result named: from any memory with zero counters every weakly fair execution of
  @main terminates without a fault, the argument arrays end as launched, and the result buffer ends at the contents
  the last segment boundary gives it — the fold of the host stretches and of the eleven regions' write-backs from the
  launch memory (`W34`). The launch is the one of the frame; only the post names one more buffer.
-/
import proofs.«137448_j36043365548320_2_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over the segments, the last thread state read against the final state: the result buffer at the
    last boundary's contents, each argument at its launch contents. -/
theorem run : θ_run defs (onTc (τ := τ) (main (F := F))) ⟨m, fun _ => 0, ρ⟩ (fun r => ∀ c : Dev nD,
      r.2.mem ((c.tc : Thread nD τ).loc main_v191) = W34 m ρ c (Proc.devRef .tc main_v191)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W34 m ρ c b)
    (hfin := fun c s' => by
      iintro ⟨⟨Hh, -⟩, HSI⟩
      unfold StableHlo.held
      imodintro
      iapply (pointsTo_read_all (Pipeline.ucRefs τ sig) (fun b => (((c : Thread nD τ)).1, b)) (W34 m ρ c) s')
      isplitl [Hh] <;> iassumption)
    (hQ := fun s h c =>
      ⟨h c _ (mem_uc main_v191 (by decide)),
       (h c _ (mem_uc main_arg0 (by decide))).trans (W34_main_arg0 m ρ c),
       (h c _ (mem_uc main_arg1 (by decide))).trans (W34_main_arg1 m ρ c),
       (h c _ (mem_uc main_arg2 (by decide))).trans (W34_main_arg2 m ρ c),
       (h c _ (mem_uc main_arg3 (by decide))).trans (W34_main_arg3 m ρ c),
       (h c _ (mem_uc main_arg4 (by decide))).trans (W34_main_arg4 m ρ c),
       (h c _ (mem_uc main_arg5 (by decide))).trans (W34_main_arg5 m ρ c),
       (h c _ (mem_uc main_arg6 (by decide))).trans (W34_main_arg6 m ρ c),
       (h c _ (mem_uc main_arg7 (by decide))).trans (W34_main_arg7 m ρ c),
       (h c _ (mem_uc main_arg8 (by decide))).trans (W34_main_arg8 m ρ c),
       (h c _ (mem_uc main_arg9 (by decide))).trans (W34_main_arg9 m ρ c),
       (h c _ (mem_uc main_arg10 (by decide))).trans (W34_main_arg10 m ρ c),
       (h c _ (mem_uc main_arg11 (by decide))).trans (W34_main_arg11 m ρ c),
       (h c _ (mem_uc main_arg12 (by decide))).trans (W34_main_arg12 m ρ c),
       (h c _ (mem_uc main_arg13 (by decide))).trans (W34_main_arg13 m ρ c),
       (h c _ (mem_uc main_arg14 (by decide))).trans (W34_main_arg14 m ρ c)⟩)

end Cert.KernelIdeal.KRun

end
-- ==== Proof.NetRealOps.lean ====
/-
  Finiteness at the ideal float values (the extended reals), operation by operation.

  An extended real is REAL when it is neither infinity; an array is real when every entry is.
  The reals are closed under sum, product, negation, finite sums and real powers; a bit pattern
  whose exponent field is not all ones denotes a real; and every re-indexing (broadcast, slice,
  shape cast, gather, concatenation, select) only reads entries of its operands. Hence each
  operation below maps real arrays to real arrays:
  * a host product is, at each index, a finite sum of products of entries;
  * an accumulating scatter is, at each index, the operand's entry plus a finite sum of update entries;
  * a host power of two reals is Mathlib's real power.
-/
import Idealize.ShloMosaic.PureOps.Ideal.Laws

namespace Cert.Net

open Idealize.ShloMosaic
open scoped BigOperators

/-- An extended real that is a real number: neither infinity. -/
def fFin (x : EReal) : Prop := x ≠ ⊤ ∧ x ≠ ⊥

/-- Every entry of an array of extended reals is a real number. -/
def fReal {ι : Type} (A : ι → EReal) : Prop := ∀ i, fFin (A i)

/-! ### Scalars -/

theorem fFin_coe (r : ℝ) : fFin (r : EReal) := ⟨EReal.coe_ne_top r, EReal.coe_ne_bot r⟩

/-- The real extended reals are the images of the reals. -/
theorem fFin_iff {x : EReal} : fFin x ↔ ∃ r : ℝ, x = (r : EReal) :=
  ⟨fun h => ⟨x.toReal, (EReal.coe_toReal h.1 h.2).symm⟩, fun ⟨r, hr⟩ => hr ▸ fFin_coe r⟩

theorem fFin_zero : fFin 0 := by
  rw [← EReal.coe_zero]; exact fFin_coe 0

theorem fFin_add {x y : EReal} (hx : fFin x) (hy : fFin y) : fFin (x + y) := by
  obtain ⟨a, rfl⟩ := fFin_iff.1 hx
  obtain ⟨b, rfl⟩ := fFin_iff.1 hy
  rw [← EReal.coe_add]; exact fFin_coe _

theorem fFin_mul {x y : EReal} (hx : fFin x) (hy : fFin y) : fFin (x * y) := by
  obtain ⟨a, rfl⟩ := fFin_iff.1 hx
  obtain ⟨b, rfl⟩ := fFin_iff.1 hy
  rw [← EReal.coe_mul]; exact fFin_coe _

theorem fFin_neg {x : EReal} (hx : fFin x) : fFin (-x) := by
  obtain ⟨a, rfl⟩ := fFin_iff.1 hx
  rw [← EReal.coe_neg]; exact fFin_coe _

/-- A finite sum of reals is real. -/
theorem fFin_sum {ι : Type} (s : Finset ι) (f : ι → EReal) (h : ∀ i ∈ s, fFin (f i)) : fFin (∑ i ∈ s, f i) :=
  Finset.sum_induction f fFin (fun _ _ => fFin_add) fFin_zero h

/-- The power of two reals is Mathlib's real power, a real. -/
theorem fFin_pow {x y : EReal} (hx : fFin x) (hy : fFin y) : fFin (Ideal.pow x y) := by
  obtain ⟨a, rfl⟩ := fFin_iff.1 hx
  obtain ⟨b, rfl⟩ := fFin_iff.1 hy
  rw [Ideal.pow_coe_coe]; exact fFin_coe _

/-- A pattern whose exponent field is not all ones denotes a real: a zero, a subnormal or a normal. -/
theorem fFin_ieee (e m : Nat) {w : Nat} (b : BitVec w) (h : (b.extractLsb' m e).toNat ≠ 2 ^ e - 1) :
    fFin (Ideal.ieee e m b) := by
  unfold Ideal.ieee
  simp only [if_neg h]
  split_ifs <;> exact fFin_coe _

theorem fFin_ofBits_f32 (b : BitVec 32) (h : (b.extractLsb' 23 8).toNat ≠ 2 ^ 8 - 1) :
    fFin (Ideal.ofBits .f32 b) := fFin_ieee 8 23 b h

/-! ### Arrays -/

section Arrays
variable {s t : Shape} {φ : FTy}

/-- A constant of a finite binary32 pattern. -/
theorem fReal_constant (s : Shape) (b : BitVec 32) (h : (b.extractLsb' 23 8).toNat ≠ 2 ^ 8 - 1) :
    fReal (constant (F := Ideal) s .f32 b) := fun _ => fFin_ofBits_f32 b h

theorem fReal_addf {x y : FVec Ideal s φ} (hx : fReal x) (hy : fReal y) : fReal (addf x y) :=
  fun i => fFin_add (hx i) (hy i)

theorem fReal_mulf {x y : FVec Ideal s φ} (hx : fReal x) (hy : fReal y) : fReal (mulf x y) :=
  fun i => fFin_mul (hx i) (hy i)

theorem fReal_negf {x : FVec Ideal s φ} (hx : fReal x) : fReal (Host.negf x) :=
  fun i => fFin_neg (hx i)

theorem fReal_powf {x y : FVec Ideal s φ} (hx : fReal x) (hy : fReal y) : fReal (Host.powf x y) :=
  fun i => fFin_pow (hx i) (hy i)

/-- A select reads one of its two branches at each index, whatever the mask. -/
theorem fReal_select (c : IVec s 1) {a b : s.Idx → EReal} (ha : fReal a) (hb : fReal b) : fReal (select c a b) := by
  intro i
  show fFin (if c i = 1 then a i else b i)
  split_ifs
  · exact ha i
  · exact hb i

theorem fReal_broadcastInDim (t : Shape) (dims : Fin s.rank → Fin t.rank) (h : s.BroadcastsInDim t dims)
    {x : s.Idx → EReal} (hx : fReal x) : fReal (broadcastInDim t dims h x) := fun _ => hx _

theorem fReal_extractStridedSlice (t : Shape) (off : Fin s.rank → Nat) {x : s.Idx → EReal} (h : s.Slices off t)
    (hx : fReal x) : fReal (extractStridedSlice t off x h) := fun _ => hx _

theorem fReal_shapeCast (t : Shape) {x : s.Idx → EReal} (h : s.ShapeCasts t) (hx : fReal x) :
    fReal (shapeCast t x h) := fun _ => hx _

/-- A gather reads an operand entry at each index. -/
theorem fReal_gather {si : Shape} {w : Nat} (d : GatherDims s si t) {x : s.Idx → EReal} (idx : IVec si w)
    (hx : fReal x) : fReal (Host.gather d x idx) := fun _ => hx _

/-- A concatenation reads an entry of one of its operands at each index. -/
theorem fReal_concatenate (t : Shape) (a : Fin t.rank) (xs : List ((s : Shape) × (s.Idx → EReal)))
    (h : Shape.Concatenates (xs.map (·.1)) t a) (hxs : ∀ p ∈ xs, fReal p.2) : fReal (concatenate t a xs h) := by
  intro j
  unfold concatenate
  exact hxs _ (List.getElem_mem _) _

/-- A host product: at each index a finite sum, over the contracted index, of products of entries. -/
theorem fReal_dotGeneral {sl sr so : Shape} {φ₁ φ₂ : FTy} (d : DotDims sl sr so) (prec : Option ContractPrecision)
    {x : FVec Ideal sl φ₁} {y : FVec Ideal sr φ₂} (hx : fReal x) (hy : fReal y) :
    fReal (Host.dotGeneral d prec x y) := by
  intro j
  show fFin (FloatOps.dotGeneral d prec .single x y j)
  rw [Ideal.dotGeneral_apply]
  exact fFin_sum _ _ fun k _ => fFin_mul (hx _) (hy _)

/-- An accumulating scatter: at each index the operand's entry plus a finite sum of update entries. -/
theorem fReal_scatterAdd {si u : Shape} {w : Nat} (d : ScatterDims s si u) {x : FVec Ideal s φ} (idx : IVec si w)
    {upd : FVec Ideal u φ} (hx : fReal x) (hu : fReal upd) : fReal (Host.scatterAdd d x idx upd) := by
  intro i
  rw [Host.scatterAdd, Ideal.hostScatterAdd_def]
  unfold Ideal.hostScatterAdd
  exact fFin_add (hx i) (fFin_sum _ _ fun j _ => hu j)

end Arrays

end Cert.Net
-- ==== Proof.NetReal.lean ====
/-
  The network maps real arrays to real arrays, at the ideal float values.

  Every function of the network is a composition of the operations shown, one by one, to keep the
  reals (no entry an infinity): the four constants are finite patterns; the leaky rectifier selects
  between an entry and a product of two reals; a dense layer is a host product plus a broadcast bias;
  the degree is a scatter of ones onto zeros, its clamp a select, its inverse square root a real power;
  the neighbour sum gathers and scatters products of reals; a concatenation reads its two operands.
-/
import proofs.«137448_j36043365548320_2_alg».proof.Proof.Net
import proofs.«137448_j36043365548320_2_alg».proof.Proof.NetRealOps

namespace Cert.Net

open Idealize.ShloMosaic Cert.ReferenceIdeal Cert.ReferenceIdeal.Gen

/-- The network's finiteness predicate is the entrywise one of the operation lemmas. -/
theorem isReal_iff_fReal {S : Shape} (A : CF Ideal S) : IsReal A ↔ fReal A := Iff.rfl

/-! ### The four constants: zero, one, minus one half, and the slope nearest 0.01 -/

theorem fReal_c0 (s : Shape) : fReal (constant (F := Ideal) s .f32 0x00000000#32) := fReal_constant s _ (by decide)
theorem fReal_c1 (s : Shape) : fReal (constant (F := Ideal) s .f32 0x3F800000#32) := fReal_constant s _ (by decide)
theorem fReal_cmh (s : Shape) : fReal (constant (F := Ideal) s .f32 0xBF000000#32) := fReal_constant s _ (by decide)
theorem fReal_cslope (s : Shape) : fReal (constant (F := Ideal) s .f32 0x3C23D70A#32) := fReal_constant s _ (by decide)

/-! ### The dense part -/

theorem isReal_zero : IsReal (zero (F := Ideal)) := by
  unfold zero
  exact fReal_broadcastInDim _ _ _ (fReal_c0 _)

theorem isReal_lrelu {z : CF Ideal S100000x64} (hz : IsReal z) : IsReal (lrelu (F := Ideal) z) := by
  unfold lrelu
  exact fReal_select _ hz (fReal_mulf (fReal_broadcastInDim _ _ _ (fReal_cslope _)) hz)

theorem isReal_bias64 {b : CF Ideal S64} (hb : IsReal b) : IsReal (bias64 (F := Ideal) b) := by
  unfold bias64
  exact fReal_broadcastInDim _ _ _ (fReal_broadcastInDim _ _ _ hb)

theorem isReal_dense {x : CF Ideal S100000x64} {W : CF Ideal S64x64} {b : CF Ideal S64}
    (hx : IsReal x) (hW : IsReal W) (hb : IsReal b) : IsReal (dense (F := Ideal) x W b) := by
  unfold dense
  exact fReal_addf (fReal_dotGeneral _ _ hx hW) (isReal_bias64 hb)

theorem isReal_mlp {x : CF Ideal S100000x64} {W1 : CF Ideal S64x64} {b1 : CF Ideal S64} {W2 : CF Ideal S64x64}
    {b2 : CF Ideal S64} : IsReal x → IsReal W1 → IsReal b1 → IsReal W2 → IsReal b2 →
    IsReal (mlp (F := Ideal) x W1 b1 W2 b2) := by
  intro hx hW1 hb1 hW2 hb2
  unfold mlp
  exact isReal_lrelu (isReal_dense (isReal_lrelu (isReal_dense hx hW1 hb1)) hW2 hb2)

/-! ### The normalised neighbour sum -/

theorem isReal_deg (d : CI Ideal S1000000) : IsReal (deg (F := Ideal) d) := by
  unfold deg
  exact fReal_scatterAdd _ _ (fReal_broadcastInDim _ _ _ (fReal_c0 _)) (fReal_broadcastInDim _ _ _ (fReal_c1 _))

theorem isReal_degc (d : CI Ideal S1000000) : IsReal (degc (F := Ideal) d) := by
  unfold degc
  exact fReal_select _ (fReal_broadcastInDim _ _ _ (fReal_c1 _)) (isReal_deg d)

theorem isReal_dinv (d : CI Ideal S1000000) : IsReal (dinv (F := Ideal) d) := by
  unfold dinv
  exact fReal_powf (isReal_degc d) (fReal_broadcastInDim _ _ _ (fReal_cmh _))

theorem isReal_dcol (d : CI Ideal S1000000) : IsReal (dcol (F := Ideal) d) := by
  unfold dcol
  exact fReal_broadcastInDim _ _ _ (fReal_broadcastInDim _ _ _ (isReal_dinv d))

theorem isReal_msg {feat : CF Ideal S100000x64} (s d : CI Ideal S1000000) (hf : IsReal feat) :
    IsReal (msg (F := Ideal) feat s d) := by
  unfold msg
  exact fReal_gather _ _ (fReal_mulf hf (isReal_dcol d))

theorem isReal_ssum {feat : CF Ideal S100000x64} (s d : CI Ideal S1000000) (hf : IsReal feat) :
    IsReal (ssum (F := Ideal) feat s d) := by
  unfold ssum
  exact fReal_scatterAdd _ _ isReal_zero (isReal_msg s d hf)

theorem isReal_agg {feat : CF Ideal S100000x64} (s d : CI Ideal S1000000) : IsReal feat → IsReal (agg (F := Ideal) feat s d) := by
  intro hf
  unfold agg
  exact fReal_mulf (isReal_dcol d) (isReal_ssum s d hf)

/-! ### The 128-column layers and a relation's update -/

theorem isReal_cat {a b : CF Ideal S100000x64} (ha : IsReal a) (hb : IsReal b) : IsReal (cat (F := Ideal) a b) := by
  unfold cat
  refine fReal_concatenate _ _ _ _ ?_
  intro p hp
  rcases List.mem_cons.1 hp with rfl | hp
  · exact ha
  · rcases List.mem_cons.1 hp with rfl | hp
    · exact hb
    · cases hp

theorem isReal_dense2 {a b : CF Ideal S100000x64} {W : CF Ideal S128x64} {bias : CF Ideal S64} :
    IsReal a → IsReal b → IsReal W → IsReal bias → IsReal (dense2 (F := Ideal) a b W bias) := by
  intro ha hb hW hbias
  unfold dense2
  exact fReal_addf (fReal_dotGeneral _ _ (isReal_cat ha hb) hW) (isReal_bias64 hbias)

theorem isReal_negf {a : CF Ideal S100000x64} (ha : IsReal a) : IsReal (Host.negf (F := Ideal) (φ := .f32) a) :=
  fReal_negf ha

theorem isReal_cheb {feat ah : CF Ideal S100000x64} {W : CF Ideal S128x64} {b : CF Ideal S64} :
    IsReal feat → IsReal ah → IsReal W → IsReal b → IsReal (cheb (F := Ideal) feat ah W b) := by
  intro hf ha hW hb
  unfold cheb
  exact isReal_dense2 hf (isReal_negf ha) hW hb

theorem isReal_conv1 {h : CF Ideal S100000x64} (s d : CI Ideal S1000000) {Wc1 : CF Ideal S128x64} {bc1 : CF Ideal S64} :
    IsReal h → IsReal Wc1 → IsReal bc1 → IsReal (conv1 (F := Ideal) h s d Wc1 bc1) := by
  intro hh hW hb
  unfold conv1
  exact isReal_cheb hh (isReal_agg s d hh) hW hb

theorem isReal_relH {h : CF Ideal S100000x64} (s d : CI Ideal S1000000) {Wc1 : CF Ideal S128x64} {bc1 : CF Ideal S64}
    {Wc2 : CF Ideal S128x64} {bc2 : CF Ideal S64} {W3 : CF Ideal S128x64} {b3 : CF Ideal S64} :
    IsReal h → IsReal Wc1 → IsReal bc1 → IsReal Wc2 → IsReal bc2 → IsReal W3 → IsReal b3 →
    IsReal (relH (F := Ideal) h s d Wc1 bc1 Wc2 bc2 W3 b3) := by
  intro hh hW1 hb1 hW2 hb2 hW3 hb3
  unfold relH
  have hc : IsReal (conv1 (F := Ideal) h s d Wc1 bc1) := isReal_conv1 s d hh hW1 hb1
  exact isReal_dense2 hc (isReal_cheb hc (isReal_agg s d hc) hW2 hb2) hW3 hb3

/-! ### Slices, one-row views and sums of real arrays (for the kernel's side) -/

theorem isReal_top {W : CF Ideal S128x64} (hW : IsReal W) : IsReal (top (F := Ideal) W) := by
  unfold top
  exact fReal_extractStridedSlice _ _ _ hW

theorem isReal_bot {W : CF Ideal S128x64} (hW : IsReal W) : IsReal (bot (F := Ideal) W) := by
  unfold bot
  exact fReal_extractStridedSlice _ _ _ hW

theorem isReal_r64 {b : CF Ideal S64} (hb : IsReal b) : IsReal (r64 (F := Ideal) b) := by
  unfold r64
  exact fReal_shapeCast _ _ hb

theorem isReal_r2 {b : CF Ideal S2} (hb : IsReal b) : IsReal (r2 (F := Ideal) b) := by
  unfold r2
  exact fReal_shapeCast _ _ hb

theorem isReal_addf {S : Shape} {a b : CF Ideal S} (ha : IsReal a) (hb : IsReal b) :
    IsReal (addf (F := Ideal) (φ := .f32) a b) := fReal_addf ha hb

theorem isReal_g0 {x : CF Ideal S100000x64} {W1 : CF Ideal S64x64} {b1 : CF Ideal S64} {W2 : CF Ideal S64x64}
    {b2 : CF Ideal S64} : IsReal x → IsReal W1 → IsReal b1 → IsReal W2 → IsReal b2 →
    IsReal (g0 (F := Ideal) x W1 b1 W2 b2) := by
  intro hx hW1 hb1 hW2 hb2
  unfold g0
  exact isReal_mlp hx hW1 hb1 hW2 hb2

end Cert.Net
-- ==== Proof.KHost0.lean ====
/-
  The short stretches of host operations of the kernel's program, read as functions of the buffer contents they
  start from: each turns a bias vector into a one-row matrix. The fold of the operation list, evaluated at the
  written buffer, is the named function by unfolding; a buffer the list does not write keeps its contents.
-/
import proofs.«137448_j36043365548320_2_alg».proof.Proof.Gen.KernelIdeal.Launch
import proofs.«137448_j36043365548320_2_alg».proof.Proof.Net
import proofs.«137448_j36043365548320_2_alg».proof.Proof.LibAfter

-- deciding that one reference is none of some fifty takes more than the default recursion depth
set_option maxRecDepth 4096

noncomputable section

namespace Cert.KernelIdeal.KHost

open Idealize.ShloMosaic Cert.KernelIdeal Cert.KernelIdeal.Gen

variable {F : FTy → Type} [FloatOps F]
variable (Wk : Valuation τ sig (Elt F))

/-- An operation whose one written buffer is a reference of the list `W` writes inside `W`'s buffers. -/
private theorem c_writes_sub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The first dense layer's bias as a 1 × 64 matrix. -/
theorem h0_v0 :
    StableHlo.after hostOps0 Wk (Proc.devRef .tc main_v0)
      = Cert.Net.r64 (Wk (Proc.devRef .tc main_arg4)) := by
  after_results_simp
  rfl

/-- The second dense layer's bias as a 1 × 64 matrix. -/
theorem h0_v1 :
    StableHlo.after hostOps0 Wk (Proc.devRef .tc main_v1)
      = Cert.Net.r64 (Wk (Proc.devRef .tc main_arg6)) := by
  after_results_simp
  rfl

/-- The buffers the two operations before the dense layers write, in order. -/
abbrev c_w0 : List (Ref sig .tc) :=
  [main_v0, main_v1]
theorem c_w0_sub : (hostOps0 : List (HloOp τ sig (Elt F))).Forall fun op =>
    op.writes ⊆ (c_w0.map (Proc.devRef (τ := τ) .tc)).toFinset :=
  ⟨c_writes_sub main_v0 rfl (by decide), c_writes_sub main_v1 rfl (by decide)⟩
/-- A buffer the two operations before the dense layers do not write holds afterwards what it held before. -/
theorem keep0 (b : Ref sig .tc) (hb : b ∉ c_w0) :
    StableHlo.after hostOps0 Wk (Proc.devRef .tc b) = Wk (Proc.devRef .tc b) :=
  StableHlo.after_of_writes_sub hostOps0 Wk c_w0_sub hb

/-- The combining layer's bias as a 1 × 64 matrix (first relation). -/
theorem g3_v68 :
    StableHlo.after hostOps3 Wk (Proc.devRef .tc main_v68)
      = Cert.Net.r64 (Wk (Proc.devRef .tc main_arg12)) := by
  after_results_simp
  rfl

/-- The buffers the one operation before the first relation's combining layer writes, in order. -/
abbrev c_w3 : List (Ref sig .tc) :=
  [main_v68]
theorem c_w3_sub : (hostOps3 : List (HloOp τ sig (Elt F))).Forall fun op =>
    op.writes ⊆ (c_w3.map (Proc.devRef (τ := τ) .tc)).toFinset :=
  c_writes_sub main_v68 rfl (by decide)
/-- A buffer the one operation before the first relation's combining layer does not write holds afterwards what it held before. -/
theorem keep3 (b : Ref sig .tc) (hb : b ∉ c_w3) :
    StableHlo.after hostOps3 Wk (Proc.devRef .tc b) = Wk (Proc.devRef .tc b) :=
  StableHlo.after_of_writes_sub hostOps3 Wk c_w3_sub hb

/-- The combining layer's bias as a 1 × 64 matrix (second relation). -/
theorem g6_v128 :
    StableHlo.after hostOps6 Wk (Proc.devRef .tc main_v128)
      = Cert.Net.r64 (Wk (Proc.devRef .tc main_arg12)) := by
  after_results_simp
  rfl

/-- The buffers the one operation before the second relation's combining layer writes, in order. -/
abbrev c_w6 : List (Ref sig .tc) :=
  [main_v128]
theorem c_w6_sub : (hostOps6 : List (HloOp τ sig (Elt F))).Forall fun op =>
    op.writes ⊆ (c_w6.map (Proc.devRef (τ := τ) .tc)).toFinset :=
  c_writes_sub main_v128 rfl (by decide)
/-- A buffer the one operation before the second relation's combining layer does not write holds afterwards what it held before. -/
theorem keep6 (b : Ref sig .tc) (hb : b ∉ c_w6) :
    StableHlo.after hostOps6 Wk (Proc.devRef .tc b) = Wk (Proc.devRef .tc b) :=
  StableHlo.after_of_writes_sub hostOps6 Wk c_w6_sub hb

/-- The combining layer's bias as a 1 × 64 matrix (third relation). -/
theorem g9_v188 :
    StableHlo.after hostOps9 Wk (Proc.devRef .tc main_v188)
      = Cert.Net.r64 (Wk (Proc.devRef .tc main_arg12)) := by
  after_results_simp
  rfl

/-- The buffers the one operation before the third relation's combining layer writes, in order. -/
abbrev c_w9 : List (Ref sig .tc) :=
  [main_v188]
theorem c_w9_sub : (hostOps9 : List (HloOp τ sig (Elt F))).Forall fun op =>
    op.writes ⊆ (c_w9.map (Proc.devRef (τ := τ) .tc)).toFinset :=
  c_writes_sub main_v188 rfl (by decide)
/-- A buffer the one operation before the third relation's combining layer does not write holds afterwards what it held before. -/
theorem keep9 (b : Ref sig .tc) (hb : b ∉ c_w9) :
    StableHlo.after hostOps9 Wk (Proc.devRef .tc b) = Wk (Proc.devRef .tc b) :=
  StableHlo.after_of_writes_sub hostOps9 Wk c_w9_sub hb

/-- The head's bias as a 1 × 2 matrix. -/
theorem h10_v190 :
    StableHlo.after hostOps10 Wk (Proc.devRef .tc main_v190)
      = Cert.Net.r2 (Wk (Proc.devRef .tc main_arg14)) := by
  after_results_simp
  rfl

/-- The buffers the one operation before the head writes, in order. -/
abbrev c_w10 : List (Ref sig .tc) :=
  [main_v190]
theorem c_w10_sub : (hostOps10 : List (HloOp τ sig (Elt F))).Forall fun op =>
    op.writes ⊆ (c_w10.map (Proc.devRef (τ := τ) .tc)).toFinset :=
  c_writes_sub main_v190 rfl (by decide)
/-- A buffer the one operation before the head does not write holds afterwards what it held before. -/
theorem keep10 (b : Ref sig .tc) (hb : b ∉ c_w10) :
    StableHlo.after hostOps10 Wk (Proc.devRef .tc b) = Wk (Proc.devRef .tc b) :=
  StableHlo.after_of_writes_sub hostOps10 Wk c_w10_sub hb

end Cert.KernelIdeal.KHost

end
-- ==== Proof.KHost1.lean ====
/-
  The two long stretches of host operations of the first relation, read as functions of the buffer contents they
  start from. The stretch before the relation's first convolution cuts each 128 × 64 weight matrix into its two
  64-row halves, makes the zero array, takes row 0 of the two index tables, forms the normalised neighbour sum of the
  node state along that row (degrees counted at the destinations, clamped below at one, raised to -1/2; the scaled
  state gathered along the sources and summed at the destinations; scaled again) and turns a bias vector into a
  one-row matrix. The stretch before the second convolution forms the same neighbour sum of the first convolution's
  result. Each is the fold of the operation lists evaluated at the written buffer, which is the named function by
  unfolding (the three operations of the clamp's called function read and write through typed references whose casts
  cancel). A buffer a stretch does not write keeps its contents.
-/
import proofs.«137448_j36043365548320_2_alg».proof.Proof.Gen.KernelIdeal.Launch
import proofs.«137448_j36043365548320_2_alg».proof.Proof.Net
import proofs.«137448_j36043365548320_2_alg».proof.Proof.LibAfter

-- deciding that one reference is none of some fifty takes more than the default recursion depth
set_option maxRecDepth 4096

noncomputable section

namespace Cert.KernelIdeal.KHost

open Idealize.ShloMosaic Cert.KernelIdeal Cert.KernelIdeal.Gen

variable {F : FTy → Type} [FloatOps F]
variable (Wk : Valuation τ sig (Elt F))

/-- An operation whose one written buffer is a reference of the list `W` writes inside `W`'s buffers. -/
private theorem c_writes_sub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- The upper 64 rows of a 128 × 64 weight matrix. -/
theorem g1_v3 :
    StableHlo.after hostOps1_2 (StableHlo.after hostOps1_1 (StableHlo.after hostOps1 Wk)) (Proc.devRef .tc main_v3)
      = Cert.Net.top (Wk (Proc.devRef .tc main_arg7)) := by
  after_results_simp
  try simp only [Cert.Lib.ofBuf_toBuf]
  rfl

/-- The lower 64 rows of a 128 × 64 weight matrix. -/
theorem g1_v4 :
    StableHlo.after hostOps1_2 (StableHlo.after hostOps1_1 (StableHlo.after hostOps1 Wk)) (Proc.devRef .tc main_v4)
      = Cert.Net.bot (Wk (Proc.devRef .tc main_arg7)) := by
  after_results_simp
  try simp only [Cert.Lib.ofBuf_toBuf]
  rfl

/-- The upper 64 rows of a 128 × 64 weight matrix. -/
theorem g1_v5 :
    StableHlo.after hostOps1_2 (StableHlo.after hostOps1_1 (StableHlo.after hostOps1 Wk)) (Proc.devRef .tc main_v5)
      = Cert.Net.top (Wk (Proc.devRef .tc main_arg9)) := by
  after_results_simp
  try simp only [Cert.Lib.ofBuf_toBuf]
  rfl

/-- The lower 64 rows of a 128 × 64 weight matrix. -/
theorem g1_v6 :
    StableHlo.after hostOps1_2 (StableHlo.after hostOps1_1 (StableHlo.after hostOps1 Wk)) (Proc.devRef .tc main_v6)
      = Cert.Net.bot (Wk (Proc.devRef .tc main_arg9)) := by
  after_results_simp
  try simp only [Cert.Lib.ofBuf_toBuf]
  rfl

/-- The upper 64 rows of a 128 × 64 weight matrix. -/
theorem g1_v7 :
    StableHlo.after hostOps1_2 (StableHlo.after hostOps1_1 (StableHlo.after hostOps1 Wk)) (Proc.devRef .tc main_v7)
      = Cert.Net.top (Wk (Proc.devRef .tc main_arg11)) := by
  after_results_simp
  try simp only [Cert.Lib.ofBuf_toBuf]
  rfl

/-- The lower 64 rows of a 128 × 64 weight matrix. -/
theorem g1_v8 :
    StableHlo.after hostOps1_2 (StableHlo.after hostOps1_1 (StableHlo.after hostOps1 Wk)) (Proc.devRef .tc main_v8)
      = Cert.Net.bot (Wk (Proc.devRef .tc main_arg11)) := by
  after_results_simp
  try simp only [Cert.Lib.ofBuf_toBuf]
  rfl

/-- All zeros over the nodes. -/
theorem g1_v9 :
    StableHlo.after hostOps1_2 (StableHlo.after hostOps1_1 (StableHlo.after hostOps1 Wk)) (Proc.devRef .tc main_v9)
      = Cert.Net.zero (F := F) := by
  after_results_simp
  try simp only [Cert.Lib.ofBuf_toBuf]
  rfl

/-- Row 0 of the sources' table. -/
theorem g1_v11 :
    StableHlo.after hostOps1_2 (StableHlo.after hostOps1_1 (StableHlo.after hostOps1 Wk)) (Proc.devRef .tc main_v11)
      = Cert.Net.row0 (Wk (Proc.devRef .tc main_arg1)) := by
  after_results_simp
  try simp only [Cert.Lib.ofBuf_toBuf]
  rfl

/-- Row 0 of the destinations' table. -/
theorem g1_v13 :
    StableHlo.after hostOps1_2 (StableHlo.after hostOps1_1 (StableHlo.after hostOps1 Wk)) (Proc.devRef .tc main_v13)
      = Cert.Net.row0 (Wk (Proc.devRef .tc main_arg2)) := by
  after_results_simp
  try simp only [Cert.Lib.ofBuf_toBuf]
  rfl

/-- The normalised neighbour sum of the node state along row 0. -/
theorem g1_v38 :
    StableHlo.after hostOps1_2 (StableHlo.after hostOps1_1 (StableHlo.after hostOps1 Wk)) (Proc.devRef .tc main_v38)
      = Cert.Net.agg (Wk (Proc.devRef .tc main_v2)) (Cert.Net.row0 (Wk (Proc.devRef .tc main_arg1)))
          (Cert.Net.row0 (Wk (Proc.devRef .tc main_arg2))) := by
  after_results_simp
  try simp only [Cert.Lib.ofBuf_toBuf]
  rfl

/-- The first convolution's bias as a 1 × 64 matrix. -/
theorem g1_v39 :
    StableHlo.after hostOps1_2 (StableHlo.after hostOps1_1 (StableHlo.after hostOps1 Wk)) (Proc.devRef .tc main_v39)
      = Cert.Net.r64 (Wk (Proc.devRef .tc main_arg8)) := by
  after_results_simp
  try simp only [Cert.Lib.ofBuf_toBuf]
  rfl

/-- The buffers the operations before the relation's first convolution write, in order. -/
abbrev c_w1 : List (Ref sig .tc) :=
  [main_v3, main_v4, main_v5, main_v6, main_v7, main_v8, main_cst, main_v9, main_v10, main_v11, main_v12,
   main_v13, main_cst_0, main_v14, main_cst_1, main_v15, main_v16, main_v17, main_cst_2, main_v18, main_v19,
   main_cst_3, main_call0_v0, main_call0_v1, main_v20, main_cst_4, main_v21, main_v22, main_v23, main_v24,
   main_v25, main_c, main_v26, main_v27, main_c_5, main_v28, main_v29, main_v30, main_v31, main_v32,
   main_v33, main_cst_6, main_v34, main_v35, main_v36, main_v37, main_v38, main_v39]
theorem c_w1_sub : (hostOps1 : List (HloOp τ sig (Elt F))).Forall fun op =>
    op.writes ⊆ (c_w1.map (Proc.devRef (τ := τ) .tc)).toFinset :=
  ⟨c_writes_sub main_v3 rfl (by decide), c_writes_sub main_v4 rfl (by decide),
   c_writes_sub main_v5 rfl (by decide), c_writes_sub main_v6 rfl (by decide),
   c_writes_sub main_v7 rfl (by decide), c_writes_sub main_v8 rfl (by decide),
   c_writes_sub main_cst rfl (by decide), c_writes_sub main_v9 rfl (by decide),
   c_writes_sub main_v10 rfl (by decide), c_writes_sub main_v11 rfl (by decide),
   c_writes_sub main_v12 rfl (by decide), c_writes_sub main_v13 rfl (by decide),
   c_writes_sub main_cst_0 rfl (by decide), c_writes_sub main_v14 rfl (by decide),
   c_writes_sub main_cst_1 rfl (by decide), c_writes_sub main_v15 rfl (by decide),
   c_writes_sub main_v16 rfl (by decide), c_writes_sub main_v17 rfl (by decide),
   c_writes_sub main_cst_2 rfl (by decide), c_writes_sub main_v18 rfl (by decide),
   c_writes_sub main_v19 rfl (by decide), c_writes_sub main_cst_3 rfl (by decide)⟩
theorem c_w1_1_sub : (hostOps1_1 : List (HloOp τ sig (Elt F))).Forall fun op =>
    op.writes ⊆ (c_w1.map (Proc.devRef (τ := τ) .tc)).toFinset :=
  ⟨c_writes_sub main_call0_v0 rfl (by decide), c_writes_sub main_call0_v1 rfl (by decide),
   c_writes_sub main_v20 rfl (by decide)⟩
theorem c_w1_2_sub : (hostOps1_2 : List (HloOp τ sig (Elt F))).Forall fun op =>
    op.writes ⊆ (c_w1.map (Proc.devRef (τ := τ) .tc)).toFinset :=
  ⟨c_writes_sub main_cst_4 rfl (by decide), c_writes_sub main_v21 rfl (by decide),
   c_writes_sub main_v22 rfl (by decide), c_writes_sub main_v23 rfl (by decide),
   c_writes_sub main_v24 rfl (by decide), c_writes_sub main_v25 rfl (by decide),
   c_writes_sub main_c rfl (by decide), c_writes_sub main_v26 rfl (by decide),
   c_writes_sub main_v27 rfl (by decide), c_writes_sub main_c_5 rfl (by decide),
   c_writes_sub main_v28 rfl (by decide), c_writes_sub main_v29 rfl (by decide),
   c_writes_sub main_v30 rfl (by decide), c_writes_sub main_v31 rfl (by decide),
   c_writes_sub main_v32 rfl (by decide), c_writes_sub main_v33 rfl (by decide),
   c_writes_sub main_cst_6 rfl (by decide), c_writes_sub main_v34 rfl (by decide),
   c_writes_sub main_v35 rfl (by decide), c_writes_sub main_v36 rfl (by decide),
   c_writes_sub main_v37 rfl (by decide), c_writes_sub main_v38 rfl (by decide),
   c_writes_sub main_v39 rfl (by decide)⟩
/-- A buffer the operations before the relation's first convolution do not write holds afterwards what it held before. -/
theorem keep1 (b : Ref sig .tc) (hb : b ∉ c_w1) :
    StableHlo.after hostOps1_2 (StableHlo.after hostOps1_1 (StableHlo.after hostOps1 Wk)) (Proc.devRef .tc b) = Wk (Proc.devRef .tc b) :=
  (StableHlo.after_of_writes_sub hostOps1_2 _ c_w1_2_sub hb).trans
    ((StableHlo.after_of_writes_sub hostOps1_1 _ c_w1_1_sub hb).trans
    (StableHlo.after_of_writes_sub hostOps1 Wk c_w1_sub hb))

/-- The normalised neighbour sum of the first convolution's result along the same row. -/
theorem g2_v65 :
    StableHlo.after hostOps2_2 (StableHlo.after hostOps2_1 (StableHlo.after hostOps2 Wk)) (Proc.devRef .tc main_v65)
      = Cert.Net.agg (Wk (Proc.devRef .tc main_v40)) (Wk (Proc.devRef .tc main_v11))
          (Wk (Proc.devRef .tc main_v13)) := by
  after_results_simp
  try simp only [Cert.Lib.ofBuf_toBuf]
  rfl

/-- The second convolution's bias as a 1 × 64 matrix. -/
theorem g2_v66 :
    StableHlo.after hostOps2_2 (StableHlo.after hostOps2_1 (StableHlo.after hostOps2 Wk)) (Proc.devRef .tc main_v66)
      = Cert.Net.r64 (Wk (Proc.devRef .tc main_arg10)) := by
  after_results_simp
  try simp only [Cert.Lib.ofBuf_toBuf]
  rfl

/-- The buffers the operations before the relation's second convolution write, in order. -/
abbrev c_w2 : List (Ref sig .tc) :=
  [main_cst_7, main_v41, main_cst_8, main_v42, main_v43, main_v44, main_cst_9, main_v45, main_v46,
   main_cst_10, main_call1_v0, main_call1_v1, main_v47, main_cst_11, main_v48, main_v49, main_v50, main_v51,
   main_v52, main_c_12, main_v53, main_v54, main_c_13, main_v55, main_v56, main_v57, main_v58, main_v59,
   main_v60, main_cst_14, main_v61, main_v62, main_v63, main_v64, main_v65, main_v66]
theorem c_w2_sub : (hostOps2 : List (HloOp τ sig (Elt F))).Forall fun op =>
    op.writes ⊆ (c_w2.map (Proc.devRef (τ := τ) .tc)).toFinset :=
  ⟨c_writes_sub main_cst_7 rfl (by decide), c_writes_sub main_v41 rfl (by decide),
   c_writes_sub main_cst_8 rfl (by decide), c_writes_sub main_v42 rfl (by decide),
   c_writes_sub main_v43 rfl (by decide), c_writes_sub main_v44 rfl (by decide),
   c_writes_sub main_cst_9 rfl (by decide), c_writes_sub main_v45 rfl (by decide),
   c_writes_sub main_v46 rfl (by decide), c_writes_sub main_cst_10 rfl (by decide)⟩
theorem c_w2_1_sub : (hostOps2_1 : List (HloOp τ sig (Elt F))).Forall fun op =>
    op.writes ⊆ (c_w2.map (Proc.devRef (τ := τ) .tc)).toFinset :=
  ⟨c_writes_sub main_call1_v0 rfl (by decide), c_writes_sub main_call1_v1 rfl (by decide),
   c_writes_sub main_v47 rfl (by decide)⟩
theorem c_w2_2_sub : (hostOps2_2 : List (HloOp τ sig (Elt F))).Forall fun op =>
    op.writes ⊆ (c_w2.map (Proc.devRef (τ := τ) .tc)).toFinset :=
  ⟨c_writes_sub main_cst_11 rfl (by decide), c_writes_sub main_v48 rfl (by decide),
   c_writes_sub main_v49 rfl (by decide), c_writes_sub main_v50 rfl (by decide),
   c_writes_sub main_v51 rfl (by decide), c_writes_sub main_v52 rfl (by decide),
   c_writes_sub main_c_12 rfl (by decide), c_writes_sub main_v53 rfl (by decide),
   c_writes_sub main_v54 rfl (by decide), c_writes_sub main_c_13 rfl (by decide),
   c_writes_sub main_v55 rfl (by decide), c_writes_sub main_v56 rfl (by decide),
   c_writes_sub main_v57 rfl (by decide), c_writes_sub main_v58 rfl (by decide),
   c_writes_sub main_v59 rfl (by decide), c_writes_sub main_v60 rfl (by decide),
   c_writes_sub main_cst_14 rfl (by decide), c_writes_sub main_v61 rfl (by decide),
   c_writes_sub main_v62 rfl (by decide), c_writes_sub main_v63 rfl (by decide),
   c_writes_sub main_v64 rfl (by decide), c_writes_sub main_v65 rfl (by decide),
   c_writes_sub main_v66 rfl (by decide)⟩
/-- A buffer the operations before the relation's second convolution do not write holds afterwards what it held before. -/
theorem keep2 (b : Ref sig .tc) (hb : b ∉ c_w2) :
    StableHlo.after hostOps2_2 (StableHlo.after hostOps2_1 (StableHlo.after hostOps2 Wk)) (Proc.devRef .tc b) = Wk (Proc.devRef .tc b) :=
  (StableHlo.after_of_writes_sub hostOps2_2 _ c_w2_2_sub hb).trans
    ((StableHlo.after_of_writes_sub hostOps2_1 _ c_w2_1_sub hb).trans
    (StableHlo.after_of_writes_sub hostOps2 Wk c_w2_sub hb))

end Cert.KernelIdeal.KHost

end
-- ==== Proof.KHost4.lean ====
/-
  The two long stretches of host operations of the second relation, read as functions of the buffer contents they
  start from. The stretch before the relation's first convolution takes row 1 of the two index tables, forms the normalised neighbour sum of the
  node state along that row (degrees counted at the destinations, clamped below at one, raised to -1/2; the scaled
  state gathered along the sources and summed at the destinations; scaled again) and turns a bias vector into a
  one-row matrix. The stretch before the second convolution forms the same neighbour sum of the first convolution's
  result. Each is the fold of the operation lists evaluated at the written buffer, which is the named function by
  unfolding (the three operations of the clamp's called function read and write through typed references whose casts
  cancel). A buffer a stretch does not write keeps its contents.
-/
import proofs.«137448_j36043365548320_2_alg».proof.Proof.Gen.KernelIdeal.Launch
import proofs.«137448_j36043365548320_2_alg».proof.Proof.Net
import proofs.«137448_j36043365548320_2_alg».proof.Proof.LibAfter

-- deciding that one reference is none of some fifty takes more than the default recursion depth
set_option maxRecDepth 4096

noncomputable section

namespace Cert.KernelIdeal.KHost

open Idealize.ShloMosaic Cert.KernelIdeal Cert.KernelIdeal.Gen

variable {F : FTy → Type} [FloatOps F]
variable (Wk : Valuation τ sig (Elt F))

/-- An operation whose one written buffer is a reference of the list `W` writes inside `W`'s buffers. -/
private theorem c_writes_sub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Row 1 of the sources' table. -/
theorem g4_v71 :
    StableHlo.after hostOps4_2 (StableHlo.after hostOps4_1 (StableHlo.after hostOps4 Wk)) (Proc.devRef .tc main_v71)
      = Cert.Net.row1 (Wk (Proc.devRef .tc main_arg1)) := by
  after_results_simp
  try simp only [Cert.Lib.ofBuf_toBuf]
  rfl

/-- Row 1 of the destinations' table. -/
theorem g4_v73 :
    StableHlo.after hostOps4_2 (StableHlo.after hostOps4_1 (StableHlo.after hostOps4 Wk)) (Proc.devRef .tc main_v73)
      = Cert.Net.row1 (Wk (Proc.devRef .tc main_arg2)) := by
  after_results_simp
  try simp only [Cert.Lib.ofBuf_toBuf]
  rfl

/-- The normalised neighbour sum of the node state along row 1. -/
theorem g4_v98 :
    StableHlo.after hostOps4_2 (StableHlo.after hostOps4_1 (StableHlo.after hostOps4 Wk)) (Proc.devRef .tc main_v98)
      = Cert.Net.agg (Wk (Proc.devRef .tc main_v69_0)) (Cert.Net.row1 (Wk (Proc.devRef .tc main_arg1)))
          (Cert.Net.row1 (Wk (Proc.devRef .tc main_arg2))) := by
  after_results_simp
  try simp only [Cert.Lib.ofBuf_toBuf]
  rfl

/-- The first convolution's bias as a 1 × 64 matrix. -/
theorem g4_v99 :
    StableHlo.after hostOps4_2 (StableHlo.after hostOps4_1 (StableHlo.after hostOps4 Wk)) (Proc.devRef .tc main_v99)
      = Cert.Net.r64 (Wk (Proc.devRef .tc main_arg8)) := by
  after_results_simp
  try simp only [Cert.Lib.ofBuf_toBuf]
  rfl

/-- The buffers the operations before the relation's first convolution write, in order. -/
abbrev c_w4 : List (Ref sig .tc) :=
  [main_v70, main_v71, main_v72, main_v73, main_cst_15, main_v74, main_cst_16, main_v75, main_v76, main_v77,
   main_cst_17, main_v78, main_v79, main_cst_18, main_call2_v0, main_call2_v1, main_v80, main_cst_19,
   main_v81, main_v82, main_v83, main_v84, main_v85, main_c_20, main_v86, main_v87, main_c_21, main_v88,
   main_v89, main_v90, main_v91, main_v92, main_v93, main_cst_22, main_v94, main_v95, main_v96, main_v97,
   main_v98, main_v99]
theorem c_w4_sub : (hostOps4 : List (HloOp τ sig (Elt F))).Forall fun op =>
    op.writes ⊆ (c_w4.map (Proc.devRef (τ := τ) .tc)).toFinset :=
  ⟨c_writes_sub main_v70 rfl (by decide), c_writes_sub main_v71 rfl (by decide),
   c_writes_sub main_v72 rfl (by decide), c_writes_sub main_v73 rfl (by decide),
   c_writes_sub main_cst_15 rfl (by decide), c_writes_sub main_v74 rfl (by decide),
   c_writes_sub main_cst_16 rfl (by decide), c_writes_sub main_v75 rfl (by decide),
   c_writes_sub main_v76 rfl (by decide), c_writes_sub main_v77 rfl (by decide),
   c_writes_sub main_cst_17 rfl (by decide), c_writes_sub main_v78 rfl (by decide),
   c_writes_sub main_v79 rfl (by decide), c_writes_sub main_cst_18 rfl (by decide)⟩
theorem c_w4_1_sub : (hostOps4_1 : List (HloOp τ sig (Elt F))).Forall fun op =>
    op.writes ⊆ (c_w4.map (Proc.devRef (τ := τ) .tc)).toFinset :=
  ⟨c_writes_sub main_call2_v0 rfl (by decide), c_writes_sub main_call2_v1 rfl (by decide),
   c_writes_sub main_v80 rfl (by decide)⟩
theorem c_w4_2_sub : (hostOps4_2 : List (HloOp τ sig (Elt F))).Forall fun op =>
    op.writes ⊆ (c_w4.map (Proc.devRef (τ := τ) .tc)).toFinset :=
  ⟨c_writes_sub main_cst_19 rfl (by decide), c_writes_sub main_v81 rfl (by decide),
   c_writes_sub main_v82 rfl (by decide), c_writes_sub main_v83 rfl (by decide),
   c_writes_sub main_v84 rfl (by decide), c_writes_sub main_v85 rfl (by decide),
   c_writes_sub main_c_20 rfl (by decide), c_writes_sub main_v86 rfl (by decide),
   c_writes_sub main_v87 rfl (by decide), c_writes_sub main_c_21 rfl (by decide),
   c_writes_sub main_v88 rfl (by decide), c_writes_sub main_v89 rfl (by decide),
   c_writes_sub main_v90 rfl (by decide), c_writes_sub main_v91 rfl (by decide),
   c_writes_sub main_v92 rfl (by decide), c_writes_sub main_v93 rfl (by decide),
   c_writes_sub main_cst_22 rfl (by decide), c_writes_sub main_v94 rfl (by decide),
   c_writes_sub main_v95 rfl (by decide), c_writes_sub main_v96 rfl (by decide),
   c_writes_sub main_v97 rfl (by decide), c_writes_sub main_v98 rfl (by decide),
   c_writes_sub main_v99 rfl (by decide)⟩
/-- A buffer the operations before the relation's first convolution do not write holds afterwards what it held before. -/
theorem keep4 (b : Ref sig .tc) (hb : b ∉ c_w4) :
    StableHlo.after hostOps4_2 (StableHlo.after hostOps4_1 (StableHlo.after hostOps4 Wk)) (Proc.devRef .tc b) = Wk (Proc.devRef .tc b) :=
  (StableHlo.after_of_writes_sub hostOps4_2 _ c_w4_2_sub hb).trans
    ((StableHlo.after_of_writes_sub hostOps4_1 _ c_w4_1_sub hb).trans
    (StableHlo.after_of_writes_sub hostOps4 Wk c_w4_sub hb))

/-- The normalised neighbour sum of the first convolution's result along the same row. -/
theorem g5_v125 :
    StableHlo.after hostOps5_2 (StableHlo.after hostOps5_1 (StableHlo.after hostOps5 Wk)) (Proc.devRef .tc main_v125)
      = Cert.Net.agg (Wk (Proc.devRef .tc main_v100)) (Wk (Proc.devRef .tc main_v71))
          (Wk (Proc.devRef .tc main_v73)) := by
  after_results_simp
  try simp only [Cert.Lib.ofBuf_toBuf]
  rfl

/-- The second convolution's bias as a 1 × 64 matrix. -/
theorem g5_v126 :
    StableHlo.after hostOps5_2 (StableHlo.after hostOps5_1 (StableHlo.after hostOps5 Wk)) (Proc.devRef .tc main_v126)
      = Cert.Net.r64 (Wk (Proc.devRef .tc main_arg10)) := by
  after_results_simp
  try simp only [Cert.Lib.ofBuf_toBuf]
  rfl

/-- The buffers the operations before the relation's second convolution write, in order. -/
abbrev c_w5 : List (Ref sig .tc) :=
  [main_cst_23, main_v101, main_cst_24, main_v102, main_v103, main_v104, main_cst_25, main_v105, main_v106,
   main_cst_26, main_call3_v0, main_call3_v1, main_v107, main_cst_27, main_v108, main_v109, main_v110,
   main_v111, main_v112, main_c_28, main_v113, main_v114, main_c_29, main_v115, main_v116, main_v117,
   main_v118, main_v119, main_v120, main_cst_30, main_v121, main_v122, main_v123, main_v124, main_v125,
   main_v126]
theorem c_w5_sub : (hostOps5 : List (HloOp τ sig (Elt F))).Forall fun op =>
    op.writes ⊆ (c_w5.map (Proc.devRef (τ := τ) .tc)).toFinset :=
  ⟨c_writes_sub main_cst_23 rfl (by decide), c_writes_sub main_v101 rfl (by decide),
   c_writes_sub main_cst_24 rfl (by decide), c_writes_sub main_v102 rfl (by decide),
   c_writes_sub main_v103 rfl (by decide), c_writes_sub main_v104 rfl (by decide),
   c_writes_sub main_cst_25 rfl (by decide), c_writes_sub main_v105 rfl (by decide),
   c_writes_sub main_v106 rfl (by decide), c_writes_sub main_cst_26 rfl (by decide)⟩
theorem c_w5_1_sub : (hostOps5_1 : List (HloOp τ sig (Elt F))).Forall fun op =>
    op.writes ⊆ (c_w5.map (Proc.devRef (τ := τ) .tc)).toFinset :=
  ⟨c_writes_sub main_call3_v0 rfl (by decide), c_writes_sub main_call3_v1 rfl (by decide),
   c_writes_sub main_v107 rfl (by decide)⟩
theorem c_w5_2_sub : (hostOps5_2 : List (HloOp τ sig (Elt F))).Forall fun op =>
    op.writes ⊆ (c_w5.map (Proc.devRef (τ := τ) .tc)).toFinset :=
  ⟨c_writes_sub main_cst_27 rfl (by decide), c_writes_sub main_v108 rfl (by decide),
   c_writes_sub main_v109 rfl (by decide), c_writes_sub main_v110 rfl (by decide),
   c_writes_sub main_v111 rfl (by decide), c_writes_sub main_v112 rfl (by decide),
   c_writes_sub main_c_28 rfl (by decide), c_writes_sub main_v113 rfl (by decide),
   c_writes_sub main_v114 rfl (by decide), c_writes_sub main_c_29 rfl (by decide),
   c_writes_sub main_v115 rfl (by decide), c_writes_sub main_v116 rfl (by decide),
   c_writes_sub main_v117 rfl (by decide), c_writes_sub main_v118 rfl (by decide),
   c_writes_sub main_v119 rfl (by decide), c_writes_sub main_v120 rfl (by decide),
   c_writes_sub main_cst_30 rfl (by decide), c_writes_sub main_v121 rfl (by decide),
   c_writes_sub main_v122 rfl (by decide), c_writes_sub main_v123 rfl (by decide),
   c_writes_sub main_v124 rfl (by decide), c_writes_sub main_v125 rfl (by decide),
   c_writes_sub main_v126 rfl (by decide)⟩
/-- A buffer the operations before the relation's second convolution do not write holds afterwards what it held before. -/
theorem keep5 (b : Ref sig .tc) (hb : b ∉ c_w5) :
    StableHlo.after hostOps5_2 (StableHlo.after hostOps5_1 (StableHlo.after hostOps5 Wk)) (Proc.devRef .tc b) = Wk (Proc.devRef .tc b) :=
  (StableHlo.after_of_writes_sub hostOps5_2 _ c_w5_2_sub hb).trans
    ((StableHlo.after_of_writes_sub hostOps5_1 _ c_w5_1_sub hb).trans
    (StableHlo.after_of_writes_sub hostOps5 Wk c_w5_sub hb))

end Cert.KernelIdeal.KHost

end
-- ==== Proof.KHost7.lean ====
/-
  The two long stretches of host operations of the third relation, read as functions of the buffer contents they
  start from. The stretch before the relation's first convolution takes row 2 of the two index tables, forms the normalised neighbour sum of the
  node state along that row (degrees counted at the destinations, clamped below at one, raised to -1/2; the scaled
  state gathered along the sources and summed at the destinations; scaled again) and turns a bias vector into a
  one-row matrix. The stretch before the second convolution forms the same neighbour sum of the first convolution's
  result. Each is the fold of the operation lists evaluated at the written buffer, which is the named function by
  unfolding (the three operations of the clamp's called function read and write through typed references whose casts
  cancel). A buffer a stretch does not write keeps its contents.
-/
import proofs.«137448_j36043365548320_2_alg».proof.Proof.Gen.KernelIdeal.Launch
import proofs.«137448_j36043365548320_2_alg».proof.Proof.Net
import proofs.«137448_j36043365548320_2_alg».proof.Proof.LibAfter

-- deciding that one reference is none of some fifty takes more than the default recursion depth
set_option maxRecDepth 4096

noncomputable section

namespace Cert.KernelIdeal.KHost

open Idealize.ShloMosaic Cert.KernelIdeal Cert.KernelIdeal.Gen

variable {F : FTy → Type} [FloatOps F]
variable (Wk : Valuation τ sig (Elt F))

/-- An operation whose one written buffer is a reference of the list `W` writes inside `W`'s buffers. -/
private theorem c_writes_sub {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw, Finset.singleton_subset_iff, List.mem_toFinset]
  exact List.mem_map.mpr ⟨y, hy, rfl⟩

/-- Row 2 of the sources' table. -/
theorem g7_v131 :
    StableHlo.after hostOps7_2 (StableHlo.after hostOps7_1 (StableHlo.after hostOps7 Wk)) (Proc.devRef .tc main_v131)
      = Cert.Net.row2 (Wk (Proc.devRef .tc main_arg1)) := by
  after_results_simp
  try simp only [Cert.Lib.ofBuf_toBuf]
  rfl

/-- Row 2 of the destinations' table. -/
theorem g7_v133 :
    StableHlo.after hostOps7_2 (StableHlo.after hostOps7_1 (StableHlo.after hostOps7 Wk)) (Proc.devRef .tc main_v133)
      = Cert.Net.row2 (Wk (Proc.devRef .tc main_arg2)) := by
  after_results_simp
  try simp only [Cert.Lib.ofBuf_toBuf]
  rfl

/-- The normalised neighbour sum of the node state along row 2. -/
theorem g7_v158 :
    StableHlo.after hostOps7_2 (StableHlo.after hostOps7_1 (StableHlo.after hostOps7 Wk)) (Proc.devRef .tc main_v158)
      = Cert.Net.agg (Wk (Proc.devRef .tc main_v129_0)) (Cert.Net.row2 (Wk (Proc.devRef .tc main_arg1)))
          (Cert.Net.row2 (Wk (Proc.devRef .tc main_arg2))) := by
  after_results_simp
  try simp only [Cert.Lib.ofBuf_toBuf]
  rfl

/-- The first convolution's bias as a 1 × 64 matrix. -/
theorem g7_v159 :
    StableHlo.after hostOps7_2 (StableHlo.after hostOps7_1 (StableHlo.after hostOps7 Wk)) (Proc.devRef .tc main_v159)
      = Cert.Net.r64 (Wk (Proc.devRef .tc main_arg8)) := by
  after_results_simp
  try simp only [Cert.Lib.ofBuf_toBuf]
  rfl

/-- The buffers the operations before the relation's first convolution write, in order. -/
abbrev c_w7 : List (Ref sig .tc) :=
  [main_v130, main_v131, main_v132, main_v133, main_cst_31, main_v134, main_cst_32, main_v135, main_v136,
   main_v137, main_cst_33, main_v138, main_v139, main_cst_34, main_call4_v0, main_call4_v1, main_v140,
   main_cst_35, main_v141, main_v142, main_v143, main_v144, main_v145, main_c_36, main_v146, main_v147,
   main_c_37, main_v148, main_v149, main_v150, main_v151, main_v152, main_v153, main_cst_38, main_v154,
   main_v155, main_v156, main_v157, main_v158, main_v159]
theorem c_w7_sub : (hostOps7 : List (HloOp τ sig (Elt F))).Forall fun op =>
    op.writes ⊆ (c_w7.map (Proc.devRef (τ := τ) .tc)).toFinset :=
  ⟨c_writes_sub main_v130 rfl (by decide), c_writes_sub main_v131 rfl (by decide),
   c_writes_sub main_v132 rfl (by decide), c_writes_sub main_v133 rfl (by decide),
   c_writes_sub main_cst_31 rfl (by decide), c_writes_sub main_v134 rfl (by decide),
   c_writes_sub main_cst_32 rfl (by decide), c_writes_sub main_v135 rfl (by decide),
   c_writes_sub main_v136 rfl (by decide), c_writes_sub main_v137 rfl (by decide),
   c_writes_sub main_cst_33 rfl (by decide), c_writes_sub main_v138 rfl (by decide),
   c_writes_sub main_v139 rfl (by decide), c_writes_sub main_cst_34 rfl (by decide)⟩
theorem c_w7_1_sub : (hostOps7_1 : List (HloOp τ sig (Elt F))).Forall fun op =>
    op.writes ⊆ (c_w7.map (Proc.devRef (τ := τ) .tc)).toFinset :=
  ⟨c_writes_sub main_call4_v0 rfl (by decide), c_writes_sub main_call4_v1 rfl (by decide),
   c_writes_sub main_v140 rfl (by decide)⟩
theorem c_w7_2_sub : (hostOps7_2 : List (HloOp τ sig (Elt F))).Forall fun op =>
    op.writes ⊆ (c_w7.map (Proc.devRef (τ := τ) .tc)).toFinset :=
  ⟨c_writes_sub main_cst_35 rfl (by decide), c_writes_sub main_v141 rfl (by decide),
   c_writes_sub main_v142 rfl (by decide), c_writes_sub main_v143 rfl (by decide),
   c_writes_sub main_v144 rfl (by decide), c_writes_sub main_v145 rfl (by decide),
   c_writes_sub main_c_36 rfl (by decide), c_writes_sub main_v146 rfl (by decide),
   c_writes_sub main_v147 rfl (by decide), c_writes_sub main_c_37 rfl (by decide),
   c_writes_sub main_v148 rfl (by decide), c_writes_sub main_v149 rfl (by decide),
   c_writes_sub main_v150 rfl (by decide), c_writes_sub main_v151 rfl (by decide),
   c_writes_sub main_v152 rfl (by decide), c_writes_sub main_v153 rfl (by decide),
   c_writes_sub main_cst_38 rfl (by decide), c_writes_sub main_v154 rfl (by decide),
   c_writes_sub main_v155 rfl (by decide), c_writes_sub main_v156 rfl (by decide),
   c_writes_sub main_v157 rfl (by decide), c_writes_sub main_v158 rfl (by decide),
   c_writes_sub main_v159 rfl (by decide)⟩
/-- A buffer the operations before the relation's first convolution do not write holds afterwards what it held before. -/
theorem keep7 (b : Ref sig .tc) (hb : b ∉ c_w7) :
    StableHlo.after hostOps7_2 (StableHlo.after hostOps7_1 (StableHlo.after hostOps7 Wk)) (Proc.devRef .tc b) = Wk (Proc.devRef .tc b) :=
  (StableHlo.after_of_writes_sub hostOps7_2 _ c_w7_2_sub hb).trans
    ((StableHlo.after_of_writes_sub hostOps7_1 _ c_w7_1_sub hb).trans
    (StableHlo.after_of_writes_sub hostOps7 Wk c_w7_sub hb))

/-- The normalised neighbour sum of the first convolution's result along the same row. -/
theorem g8_v185 :
    StableHlo.after hostOps8_2 (StableHlo.after hostOps8_1 (StableHlo.after hostOps8 Wk)) (Proc.devRef .tc main_v185)
      = Cert.Net.agg (Wk (Proc.devRef .tc main_v160)) (Wk (Proc.devRef .tc main_v131))
          (Wk (Proc.devRef .tc main_v133)) := by
  after_results_simp
  try simp only [Cert.Lib.ofBuf_toBuf]
  rfl

/-- The second convolution's bias as a 1 × 64 matrix. -/
theorem g8_v186 :
    StableHlo.after hostOps8_2 (StableHlo.after hostOps8_1 (StableHlo.after hostOps8 Wk)) (Proc.devRef .tc main_v186)
      = Cert.Net.r64 (Wk (Proc.devRef .tc main_arg10)) := by
  after_results_simp
  try simp only [Cert.Lib.ofBuf_toBuf]
  rfl

/-- The buffers the operations before the relation's second convolution write, in order. -/
abbrev c_w8 : List (Ref sig .tc) :=
  [main_cst_39, main_v161, main_cst_40, main_v162, main_v163, main_v164, main_cst_41, main_v165, main_v166,
   main_cst_42, main_call5_v0, main_call5_v1, main_v167, main_cst_43, main_v168, main_v169, main_v170,
   main_v171, main_v172, main_c_44, main_v173, main_v174, main_c_45, main_v175, main_v176, main_v177,
   main_v178, main_v179, main_v180, main_cst_46, main_v181, main_v182, main_v183, main_v184, main_v185,
   main_v186]
theorem c_w8_sub : (hostOps8 : List (HloOp τ sig (Elt F))).Forall fun op =>
    op.writes ⊆ (c_w8.map (Proc.devRef (τ := τ) .tc)).toFinset :=
  ⟨c_writes_sub main_cst_39 rfl (by decide), c_writes_sub main_v161 rfl (by decide),
   c_writes_sub main_cst_40 rfl (by decide), c_writes_sub main_v162 rfl (by decide),
   c_writes_sub main_v163 rfl (by decide), c_writes_sub main_v164 rfl (by decide),
   c_writes_sub main_cst_41 rfl (by decide), c_writes_sub main_v165 rfl (by decide),
   c_writes_sub main_v166 rfl (by decide), c_writes_sub main_cst_42 rfl (by decide)⟩
theorem c_w8_1_sub : (hostOps8_1 : List (HloOp τ sig (Elt F))).Forall fun op =>
    op.writes ⊆ (c_w8.map (Proc.devRef (τ := τ) .tc)).toFinset :=
  ⟨c_writes_sub main_call5_v0 rfl (by decide), c_writes_sub main_call5_v1 rfl (by decide),
   c_writes_sub main_v167 rfl (by decide)⟩
theorem c_w8_2_sub : (hostOps8_2 : List (HloOp τ sig (Elt F))).Forall fun op =>
    op.writes ⊆ (c_w8.map (Proc.devRef (τ := τ) .tc)).toFinset :=
  ⟨c_writes_sub main_cst_43 rfl (by decide), c_writes_sub main_v168 rfl (by decide),
   c_writes_sub main_v169 rfl (by decide), c_writes_sub main_v170 rfl (by decide),
   c_writes_sub main_v171 rfl (by decide), c_writes_sub main_v172 rfl (by decide),
   c_writes_sub main_c_44 rfl (by decide), c_writes_sub main_v173 rfl (by decide),
   c_writes_sub main_v174 rfl (by decide), c_writes_sub main_c_45 rfl (by decide),
   c_writes_sub main_v175 rfl (by decide), c_writes_sub main_v176 rfl (by decide),
   c_writes_sub main_v177 rfl (by decide), c_writes_sub main_v178 rfl (by decide),
   c_writes_sub main_v179 rfl (by decide), c_writes_sub main_v180 rfl (by decide),
   c_writes_sub main_cst_46 rfl (by decide), c_writes_sub main_v181 rfl (by decide),
   c_writes_sub main_v182 rfl (by decide), c_writes_sub main_v183 rfl (by decide),
   c_writes_sub main_v184 rfl (by decide), c_writes_sub main_v185 rfl (by decide),
   c_writes_sub main_v186 rfl (by decide)⟩
/-- A buffer the operations before the relation's second convolution do not write holds afterwards what it held before. -/
theorem keep8 (b : Ref sig .tc) (hb : b ∉ c_w8) :
    StableHlo.after hostOps8_2 (StableHlo.after hostOps8_1 (StableHlo.after hostOps8 Wk)) (Proc.devRef .tc b) = Wk (Proc.devRef .tc b) :=
  (StableHlo.after_of_writes_sub hostOps8_2 _ c_w8_2_sub hb).trans
    ((StableHlo.after_of_writes_sub hostOps8_1 _ c_w8_1_sub hb).trans
    (StableHlo.after_of_writes_sub hostOps8 Wk c_w8_sub hb))

end Cert.KernelIdeal.KHost

end
-- ==== Proof.KHost.lean ====
/-
  The kernel's host stretches read as functions of the buffer contents they start from: the four modules together.
-/
import proofs.«137448_j36043365548320_2_alg».proof.Proof.KHost0
import proofs.«137448_j36043365548320_2_alg».proof.Proof.KHost1
import proofs.«137448_j36043365548320_2_alg».proof.Proof.KHost4
import proofs.«137448_j36043365548320_2_alg».proof.Proof.KHost7
-- ==== Proof.NetIdx1.lean ====
/-
  The dense layers of the network read one entry at a time, over the extended reals.

  * `lr z` is the leaky rectifier on one number: `z` where `0 ≤ z`, else `slope · z`. Testing `0 < z` instead gives
    the same number, because the two tests differ only at `z = 0`, where both branches are `0` (`slope · 0 = 0`).
  * A product of an `M × K` by a `K × N` matrix at entry `(p, q)` is `∑ k, x (p, k) · W (k, q)`: the contraction index
    of such a product is one coordinate, and the sum is re-indexed through it.
  * A bias vector spread over the rows reads its entry at the column.
  From these: `dense`, `lrelu`, `mlp` and `head` at an entry.
-/
import proofs.«137448_j36043365548320_2_alg».proof.Proof.Net
import Idealize.ShloMosaic.Lib.ValueIdx
import Idealize.ShloMosaic.Lib.Pipeline.Value
import Idealize.ShloMosaic.PureOps.Ideal.Laws

noncomputable section

open scoped BigOperators

namespace Cert.Net

open Idealize.ShloMosaic Idealize.ShloMosaic.ValueIdx Cert.ReferenceIdeal Cert.ReferenceIdeal.Gen

/-! ## The leaky rectifier on one number -/

/-- The slope of the negative branch: the binary32 number nearest 0.01, kept as its word. -/
abbrev slope : EReal := Ideal.ofBits .f32 0x3C23D70A#32

/-- `z` where `0 ≤ z`, else `slope · z`. -/
def lr (z : EReal) : EReal := if 0 ≤ z then z else slope * z

/-- The strict test gives the same number: at `z = 0` both branches are `0`. -/
theorem lr_eq_strict (z : EReal) : lr z = if 0 < z then z else slope * z := by
  unfold lr
  by_cases h : 0 < z
  · rw [if_pos h, if_pos h.le]
  · rw [if_neg h]
    by_cases h0 : 0 ≤ z
    · have hz : z = 0 := le_antisymm (not_lt.mp h) h0
      rw [if_pos h0, hz, mul_zero]
    · rw [if_neg h0]

/-- A select on "`y ≤ x`" is the `if`. -/
theorem select_cmp_oge {α : Type} (x y : EReal) (a b : α) :
    Scalar.select (Ideal.cmp .oge x y) a b = if y ≤ x then a else b := by
  unfold Scalar.select Ideal.cmp
  by_cases h : y ≤ x <;> simp [h]

/-- A select on "`y < x`" is the `if`. -/
theorem select_cmp_ogt {α : Type} (x y : EReal) (a b : α) :
    Scalar.select (Ideal.cmp .ogt x y) a b = if y < x then a else b := by
  unfold Scalar.select Ideal.cmp
  by_cases h : y < x <;> simp [h]

/-! ## A plain matrix product at an entry -/

/-- The left operand's index at entry `(p, q)` and contraction coordinate `k` is `(p, k)`. -/
theorem plain_lhsIdx {M K N : Nat} (p : Fin M) (q : Fin N) (k : Fin K) :
    (DotDims.plain M K N).lhsIdx (ix2 p q) ((contrEquiv1 (DotDims.plain M K N) K rfl rfl).symm k) = ix2 p k := by
  funext a
  apply Fin.ext
  match a with
  | ⟨0, _⟩ => rfl
  | ⟨1, _⟩ =>
    exact ((DotDims.plain M K N).lhsIdx_val_of_single (cl := 1) rfl (ix2 p q) _).trans
      (contrEquiv1_symm_val (DotDims.plain M K N) K rfl rfl k)

/-- The right operand's index at entry `(p, q)` and contraction coordinate `k` is `(k, q)`. -/
theorem plain_rhsIdx {M K N : Nat} (p : Fin M) (q : Fin N) (k : Fin K) :
    (DotDims.plain M K N).rhsIdx (ix2 p q) ((contrEquiv1 (DotDims.plain M K N) K rfl rfl).symm k) = ix2 k q := by
  funext a
  apply Fin.ext
  match a with
  | ⟨0, _⟩ =>
    exact ((DotDims.plain M K N).rhsIdx_val_of_single (cr := 0) rfl (ix2 p q) _).trans
      (contrEquiv1_symm_val (DotDims.plain M K N) K rfl rfl k)
  | ⟨1, _⟩ => rfl

/-- The contraction's sum, re-indexed by its one coordinate. -/
theorem plain_sum {M K N : Nat} (f : (⟨2, ![M, K]⟩ : Shape).Idx → (⟨2, ![K, N]⟩ : Shape).Idx → EReal) (p : Fin M) (q : Fin N) :
    ∑ k : (DotDims.plain M K N).contr.Idx, f ((DotDims.plain M K N).lhsIdx (ix2 p q) k) ((DotDims.plain M K N).rhsIdx (ix2 p q) k)
      = ∑ k : Fin K, f (ix2 p k) (ix2 k q) := by
  rw [← Equiv.sum_comp (contrEquiv1 (DotDims.plain M K N) K rfl rfl).symm]
  exact Finset.sum_congr rfl fun k _ => by rw [plain_lhsIdx, plain_rhsIdx]

/-- The host's product of two matrices at entry `(p, q)`. -/
theorem dotGeneral_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (W : FVec Ideal ⟨2, ![K, N]⟩ φ₂) (p : Fin M) (q : Fin N) :
    Host.dotGeneral d prec x W (ix2 p q) = ∑ k : Fin K, x (ix2 p k) * W (ix2 k q) := by
  subst hd
  exact (Ideal.dotGeneral_apply (DotDims.plain M K N) prec .single x W (ix2 p q)).trans (plain_sum (fun a b => x a * W b) p q)

/-- The matrix unit's product into a zero accumulator at entry `(p, q)`: the same sum. -/
theorem matmul_plain_apply {M K N : Nat} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (W : FVec Ideal ⟨2, ![K, N]⟩ φ₂) (p : Fin M) (q : Fin N) :
    matmul d prec x W (constant ⟨2, ![M, N]⟩ .f32 0x00000000#32) (ix2 p q) = ∑ k : Fin K, x (ix2 p k) * W (ix2 k q) := by
  subst hd
  exact (Ideal.matmul_constant_zero_apply (DotDims.plain M K N) prec x W (ix2 p q)).trans (plain_sum (fun a b => x a * W b) p q)

/-! ## The network's dense operations at an entry -/

/-- The leaky rectifier of an array, at an entry. -/
theorem lrelu_apply (z : CF Ideal S100000x64) (i : S100000x64.Idx) : lrelu z i = lr (z i) := by
  show Scalar.select (Ideal.cmp .oge (z i) (Ideal.ofBits .f32 0x00000000#32)) (z i) (Ideal.ofBits .f32 0x3C23D70A#32 * z i) = _
  rw [select_cmp_oge, Ideal.ofBits_zero_f32]
  rfl

/-- A bias vector spread over the rows reads its entry at the column. -/
theorem bias64_apply (b : CF Ideal S64) (p : Fin 100000) (q : Fin 64) : bias64 b (ix2 p q) = b (ix1 q) := by
  unfold bias64
  refine (broadcastInDim_apply _ _ _ (ix2 p q) (ix2 (0 : Fin 1) q) fun a => ?_).trans
    (broadcastInDim_apply _ _ _ (ix2 (0 : Fin 1) q) (ix1 q) fun a => ?_)
  · match a with
    | ⟨0, _⟩ => rfl
    | ⟨1, _⟩ => rfl
  · match a with
    | ⟨0, _⟩ => rfl

/-- `x W + b` at entry `(p, q)`. -/
theorem dense_apply (x : CF Ideal S100000x64) (W : CF Ideal S64x64) (b : CF Ideal S64) (p : Fin 100000) (q : Fin 64) :
    dense x W b (ix2 p q) = (∑ k : Fin 64, x (ix2 p k) * W (ix2 k q)) + b (ix1 q) := by
  unfold dense
  rw [addf_apply, bias64_apply]
  exact congrArg (· + b (ix1 q)) (dotGeneral_plain_apply (M := 100000) (K := 64) (N := 64) _ rfl none x W p q)

/-- The two dense layers at entry `(p, q)`. -/
theorem mlp_apply (x : CF Ideal S100000x64) (W1 : CF Ideal S64x64) (b1 : CF Ideal S64) (W2 : CF Ideal S64x64) (b2 : CF Ideal S64)
    (p : Fin 100000) (q : Fin 64) :
    mlp x W1 b1 W2 b2 (ix2 p q)
      = lr ((∑ j : Fin 64, lr ((∑ k : Fin 64, x (ix2 p k) * W1 (ix2 k j)) + b1 (ix1 j)) * W2 (ix2 j q)) + b2 (ix1 q)) := by
  unfold mlp
  rw [lrelu_apply, dense_apply]
  refine congrArg (fun s => lr (s + b2 (ix1 q))) (Finset.sum_congr rfl fun j _ => ?_)
  rw [lrelu_apply, dense_apply]

/-- The head at entry `(p, q)`. -/
theorem head_apply (hall : CF Ideal S100000x64) (W4 : CF Ideal S64x2) (b4 : CF Ideal S2) (p : Fin 100000) (q : Fin 2) :
    head hall W4 b4 (ix2 p q) = (∑ k : Fin 64, lr (hall (ix2 p k)) * W4 (ix2 k q)) + b4 (ix1 q) := by
  unfold head
  rw [addf_apply]
  refine congrArg₂ (· + ·) ?_ ?_
  · refine (dotGeneral_plain_apply (M := 100000) (K := 64) (N := 2) _ rfl none (lrelu hall) W4 p q).trans
      (Finset.sum_congr rfl fun k _ => ?_)
    rw [lrelu_apply]
  · refine (broadcastInDim_apply _ _ _ (ix2 p q) (ix2 (0 : Fin 1) q) fun a => ?_).trans
      (broadcastInDim_apply _ _ _ (ix2 (0 : Fin 1) q) (ix1 q) fun a => ?_)
    · match a with
      | ⟨0, _⟩ => rfl
      | ⟨1, _⟩ => rfl
    · match a with
      | ⟨0, _⟩ => rfl

end Cert.Net

end
-- ==== Proof.RegMlpPay.lean ====
/-
  The arithmetic of the two dense-layer bodies (the first region's two layers, the last region's head) on one block of
  5000 rows, read one entry at a time over the extended reals: a matrix product into a zero accumulator is the sum over
  the contracted coordinate, narrowing to bfloat16 changes nothing there, a bias row spread over the rows reads its
  column, and the rectifier with the strict test is the network's.
-/
import proofs.«137448_j36043365548320_2_alg».proof.Proof.Gen.KernelIdeal.Skeleton
import proofs.«137448_j36043365548320_2_alg».proof.Proof.NetIdx1

noncomputable section

open scoped BigOperators

namespace Cert.KernelIdeal.RegVal

open Idealize.ShloMosaic Idealize.ShloMosaic.ValueIdx Cert.KernelIdeal Cert.KernelIdeal.Gen

/-! ## The body's arithmetic on a block of 5000 rows

One layer of the body is a matrix product with the weights (both operands narrowed to bfloat16 and widened back, which
over the extended reals changes nothing), plus the bias row spread over the block's rows, then the leaky rectifier with
the strict test. -/

/-- A layer before the rectifier: `x W + bias` on the block. -/
def e_pre (x : FVec Ideal S5000x64 .f32) (W : FVec Ideal S64x64 .f32) (bb : FVec Ideal S1x64 .f32) : FVec Ideal S5000x64 .f32 :=
  addf (matmul dot_S5000x64_S64x64_S5000x64_1_0_0_1_n_n none (truncf .bf16 x bitsLt_bf16_f32) (truncf .bf16 W bitsLt_bf16_f32)
      (constant S5000x64 .f32 0x00000000#32))
    (broadcastTo S5000x64 (shapeCast S1x64 bb shapeCasts_S1x64_S1x64) broadcasts_S1x64_S5000x64)

/-- The body's rectifier on the block: `z` where `0 < z`, else `slope · z`. -/
def e_act (z : FVec Ideal S5000x64 .f32) : FVec Ideal S5000x64 .f32 :=
  select (cmpf .ogt z (broadcast S5000x64 (Scalar.ofBits .f32 0x00000000#32))) z
    (mulf (broadcast S5000x64 (Scalar.ofBits .f32 0x3C23D70A#32)) z)

/-- The body of the two dense layers is two such layers. -/
theorem k0_pay1_eq (v0 : Vec Ideal S5000x64 .f32) (v2 : Vec Ideal S64x64 .f32) (v5 : Vec Ideal S1x64 .f32)
    (v15 : Vec Ideal S64x64 .f32) (v18 : Vec Ideal S1x64 .f32) :
    k0_pay1 (F := Ideal) v0 v2 v5 v15 v18 = e_act (e_pre (e_act (e_pre v0 v2 v5)) v15 v18) := rfl

/-- The body's rectifier at an entry is the network's. -/
theorem e_act_apply (z : FVec Ideal S5000x64 .f32) (i : S5000x64.Idx) : e_act z i = Cert.Net.lr (z i) := by
  show Scalar.select (Ideal.cmp .ogt (z i) (Ideal.ofBits .f32 0x00000000#32)) (z i) (Ideal.ofBits .f32 0x3C23D70A#32 * z i) = _
  rw [Cert.Net.select_cmp_ogt, Ideal.ofBits_zero_f32, Cert.Net.lr_eq_strict]

/-- A layer before the rectifier, at entry `(r, q)` of the block. -/
theorem e_pre_apply (x : FVec Ideal S5000x64 .f32) (W : FVec Ideal S64x64 .f32) (bb : FVec Ideal S1x64 .f32) (r : Fin 5000) (q : Fin 64) :
    e_pre x W bb (ix2 r q) = (∑ k : Fin 64, x (ix2 r k) * W (ix2 k q)) + bb (ix2 (0 : Fin 1) q) := by
  unfold e_pre
  refine (addf_apply _ _ _).trans (congrArg₂ (· + ·) ?_ ?_)
  · exact Cert.Net.matmul_plain_apply (M := 5000) (K := 64) (N := 64) dot_S5000x64_S64x64_S5000x64_1_0_0_1_n_n rfl none
      (truncf .bf16 x bitsLt_bf16_f32) (truncf .bf16 W bitsLt_bf16_f32) r q
  · refine (broadcastTo_apply _ _ (ix2 r q) (ix2 (0 : Fin 1) q) fun a => ?_).trans ?_
    · match a with
      | ⟨0, _⟩ => rfl
      | ⟨1, _⟩ => rfl
    · rw [shapeCast_self]

/-- The body of the two dense layers at entry `(r, q)` of the block. -/
theorem k0_pay1_apply (v0 : Vec Ideal S5000x64 .f32) (W1 : Vec Ideal S64x64 .f32) (bb1 : Vec Ideal S1x64 .f32)
    (W2 : Vec Ideal S64x64 .f32) (bb2 : Vec Ideal S1x64 .f32) (r : Fin 5000) (q : Fin 64) :
    k0_pay1 (F := Ideal) v0 W1 bb1 W2 bb2 (ix2 r q)
      = Cert.Net.lr ((∑ j : Fin 64, Cert.Net.lr ((∑ k : Fin 64, v0 (ix2 r k) * W1 (ix2 k j)) + bb1 (ix2 (0 : Fin 1) j)) * W2 (ix2 j q))
          + bb2 (ix2 (0 : Fin 1) q)) := by
  rw [k0_pay1_eq, e_act_apply, e_pre_apply]
  refine congrArg (fun s => Cert.Net.lr (s + bb2 (ix2 (0 : Fin 1) q))) (Finset.sum_congr rfl fun j _ => ?_)
  rw [e_act_apply, e_pre_apply]

/-! ## The head's arithmetic on a block of 5000 rows -/

/-- The head's body: the rectifier, the product with the 64 × 2 weights, the bias row spread over the rows. -/
theorem k10_pay1_eq (v0 : Vec Ideal S5000x64 .f32) (v8 : Vec Ideal S64x2 .f32) (v11 : Vec Ideal S1x2 .f32) :
    k10_pay1 (F := Ideal) v0 v8 v11
      = addf (matmul dot_S5000x64_S64x2_S5000x2_1_0_0_1_n_n none
            (truncf .bf16 (e_act (shapeCast S5000x64 v0 shapeCasts_S5000x64_S5000x64)) bitsLt_bf16_f32)
            (truncf .bf16 v8 bitsLt_bf16_f32) (constant S5000x2 .f32 0x00000000#32))
          (broadcastTo S5000x2 (shapeCast S1x2 v11 shapeCasts_S1x2_S1x2) broadcasts_S1x2_S5000x2) := rfl

/-- The head's body at entry `(r, q)` of the block. -/
theorem k10_pay1_apply (v0 : Vec Ideal S5000x64 .f32) (W4 : Vec Ideal S64x2 .f32) (bb4 : Vec Ideal S1x2 .f32) (r : Fin 5000) (q : Fin 2) :
    k10_pay1 (F := Ideal) v0 W4 bb4 (ix2 r q)
      = (∑ k : Fin 64, Cert.Net.lr (v0 (ix2 r k)) * W4 (ix2 k q)) + bb4 (ix2 (0 : Fin 1) q) := by
  rw [k10_pay1_eq]
  refine (addf_apply _ _ _).trans (congrArg₂ (· + ·) ?_ ?_)
  · refine (Cert.Net.matmul_plain_apply (M := 5000) (K := 64) (N := 2) dot_S5000x64_S64x2_S5000x2_1_0_0_1_n_n rfl none
      (truncf .bf16 (e_act (shapeCast S5000x64 v0 shapeCasts_S5000x64_S5000x64)) bitsLt_bf16_f32) (truncf .bf16 W4 bitsLt_bf16_f32) r q).trans
      (Finset.sum_congr rfl fun k _ => ?_)
    refine congrArg (· * W4 (ix2 k q)) ?_
    refine (e_act_apply _ _).trans ?_
    rw [shapeCast_self]
  · refine (broadcastTo_apply _ _ (ix2 r q) (ix2 (0 : Fin 1) q) fun a => ?_).trans ?_
    · match a with
      | ⟨0, _⟩ => rfl
      | ⟨1, _⟩ => rfl
    · rw [shapeCast_self]

end Cert.KernelIdeal.RegVal

end
-- ==== Proof.RegMlpBlk.lean ====
/-
  The first region's blocks, without the run: where each window's block at a grid point sits in its array, that the
  body's arithmetic on the blocks of point `t` is block `t` of the two dense layers of the whole arrays, and that the
  result's twenty blocks of 5000 rows cover it.
-/
import proofs.«137448_j36043365548320_2_alg».proof.Proof.Gen.KernelIdeal.Launch
import proofs.«137448_j36043365548320_2_alg».proof.Proof.Gen.KernelIdeal.Points
import proofs.«137448_j36043365548320_2_alg».proof.Proof.RegMlpPay
import Idealize.ShloMosaic.Lib.Pipeline.Value
import Idealize.ShloMosaic.Lib.ValueIdx
import Idealize.ShloMosaic.Lib.ValueLayout
import Idealize.ShloMosaic.Lib.Tactic

set_option maxRecDepth 16384

noncomputable section

open scoped BigOperators

namespace Cert.KernelIdeal.RegVal

open Idealize.ShloMosaic Idealize.ShloMosaic.TcCoe Idealize.ShloMosaic.ValueIdx Idealize.SL.Sem
open Cert.KernelIdeal Cert.KernelIdeal.Gen

theorem e_hz : (![0, 0] : Fin 2 → Nat) = fun _ => 0 := funext fun a => by fin_cases a <;> rfl

/-- The block indices of the six windows at grid point `t`: the input rows' and the result's windows move with the
    point, one block of 5000 rows each; the weights and the bias rows stay. -/
theorem e_idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (c : Dev nD) (t : Fin cfg0.N)

/-- Entry `(r, k)` of the input rows' block at point `t` is entry `(5000 t + r, k)` of the array. -/
theorem e_read0_apply (A : Buf (Elt Ideal) ((c : Thread nD τ).loc (Pipeline.arrRef spec0 0))) (r : Fin 5000) (k : Fin 64)
    (R : Fin 100000) (hR : R.val = 5000 * t.val + r.val) :
    (((cfg0.win 0).blk t).view.read (Elt Ideal) A : Vec Ideal S5000x64 .f32) (ix2 r k) = (A : S100000x64.Idx → Ideal .f32) (ix2 R k) := by
  obtain ⟨h0, h1, -⟩ := e_idx0 t
  show (A : S100000x64.Idx → Ideal .f32) (((cfg0.win 0).blk t).view.emb (ix2 r k)) = _
  refine congrArg (A : S100000x64.Idx → Ideal .f32) (funext fun a => Fin.ext ?_)
  match a with
  | ⟨0, _⟩ => show win0_0.index t 0 * 5000 + 1 * r.val = R.val; rw [h0, hR]; omega
  | ⟨1, _⟩ => show win0_0.index t 1 * 64 + 1 * k.val = k.val; rw [h1]; omega

/-- The first weights' block at any point is the whole matrix. -/
theorem e_read1_apply (A : Buf (Elt Ideal) ((c : Thread nD τ).loc (Pipeline.arrRef spec0 1))) (k j : Fin 64) :
    (((cfg0.win 1).blk t).view.read (Elt Ideal) A : Vec Ideal S64x64 .f32) (ix2 k j) = (A : S64x64.Idx → Ideal .f32) (ix2 k j) := by
  obtain ⟨-, -, h0, h1, -⟩ := e_idx0 t
  show (A : S64x64.Idx → Ideal .f32) (((cfg0.win 1).blk t).view.emb (ix2 k j)) = _
  refine congrArg (A : S64x64.Idx → Ideal .f32) (funext fun a => Fin.ext ?_)
  match a with
  | ⟨0, _⟩ => show win0_1.index t 0 * 64 + 1 * k.val = k.val; rw [h0]; omega
  | ⟨1, _⟩ => show win0_1.index t 1 * 64 + 1 * j.val = j.val; rw [h1]; omega

/-- The first bias row's block at any point is the whole row. -/
theorem e_read2_apply (A : Buf (Elt Ideal) ((c : Thread nD τ).loc (Pipeline.arrRef spec0 2))) (j : Fin 64) :
    (((cfg0.win 2).blk t).view.read (Elt Ideal) A : Vec Ideal S1x64 .f32) (ix2 (0 : Fin 1) j) = (A : S1x64.Idx → Ideal .f32) (ix2 (0 : Fin 1) j) := by
  obtain ⟨-, -, -, -, h0, h1, -⟩ := e_idx0 t
  show (A : S1x64.Idx → Ideal .f32) (((cfg0.win 2).blk t).view.emb (ix2 (0 : Fin 1) j)) = _
  refine congrArg (A : S1x64.Idx → Ideal .f32) (funext fun a => Fin.ext ?_)
  match a with
  | ⟨0, _⟩ => show win0_2.index t 0 * 1 + 1 * 0 = 0; rw [h0]
  | ⟨1, _⟩ => show win0_2.index t 1 * 64 + 1 * j.val = j.val; rw [h1]; omega

/-- The second weights' block at any point is the whole matrix. -/
theorem e_read3_apply (A : Buf (Elt Ideal) ((c : Thread nD τ).loc (Pipeline.arrRef spec0 3))) (k j : Fin 64) :
    (((cfg0.win 3).blk t).view.read (Elt Ideal) A : Vec Ideal S64x64 .f32) (ix2 k j) = (A : S64x64.Idx → Ideal .f32) (ix2 k j) := by
  obtain ⟨-, -, -, -, -, -, h0, h1, -⟩ := e_idx0 t
  show (A : S64x64.Idx → Ideal .f32) (((cfg0.win 3).blk t).view.emb (ix2 k j)) = _
  refine congrArg (A : S64x64.Idx → Ideal .f32) (funext fun a => Fin.ext ?_)
  match a with
  | ⟨0, _⟩ => show win0_3.index t 0 * 64 + 1 * k.val = k.val; rw [h0]; omega
  | ⟨1, _⟩ => show win0_3.index t 1 * 64 + 1 * j.val = j.val; rw [h1]; omega

/-- The second bias row's block at any point is the whole row. -/
theorem e_read4_apply (A : Buf (Elt Ideal) ((c : Thread nD τ).loc (Pipeline.arrRef spec0 4))) (j : Fin 64) :
    (((cfg0.win 4).blk t).view.read (Elt Ideal) A : Vec Ideal S1x64 .f32) (ix2 (0 : Fin 1) j) = (A : S1x64.Idx → Ideal .f32) (ix2 (0 : Fin 1) j) := by
  obtain ⟨-, -, -, -, -, -, -, -, h0, h1, -⟩ := e_idx0 t
  show (A : S1x64.Idx → Ideal .f32) (((cfg0.win 4).blk t).view.emb (ix2 (0 : Fin 1) j)) = _
  refine congrArg (A : S1x64.Idx → Ideal .f32) (funext fun a => Fin.ext ?_)
  match a with
  | ⟨0, _⟩ => show win0_4.index t 0 * 1 + 1 * 0 = 0; rw [h0]
  | ⟨1, _⟩ => show win0_4.index t 1 * 64 + 1 * j.val = j.val; rw [h1]; omega

/-- Entry `(r, q)` of the result's block at point `t` is entry `(5000 t + r, q)` of the array. -/
theorem e_read5_apply (G : Buf (Elt Ideal) ((c : Thread nD τ).loc (Pipeline.arrRef spec0 5))) (r : Fin 5000) (q : Fin 64)
    (R : Fin 100000) (hR : R.val = 5000 * t.val + r.val) :
    (((cfg0.win 5).blk t).view.read (Elt Ideal) G : Vec Ideal S5000x64 .f32) (ix2 r q) = (G : S100000x64.Idx → Ideal .f32) (ix2 R q) := by
  obtain ⟨-, -, -, -, -, -, -, -, -, -, h0, h1⟩ := e_idx0 t
  show (G : S100000x64.Idx → Ideal .f32) (((cfg0.win 5).blk t).view.emb (ix2 r q)) = _
  refine congrArg (G : S100000x64.Idx → Ideal .f32) (funext fun a => Fin.ext ?_)
  match a with
  | ⟨0, _⟩ => show win0_5.index t 0 * 5000 + 1 * r.val = R.val; rw [h0, hR]; omega
  | ⟨1, _⟩ => show win0_5.index t 1 * 64 + 1 * q.val = q.val; rw [h1]; omega

/-- A bias vector as a one-row matrix reads the vector at the column. -/
theorem e_r64_apply (b : Cert.Net.CF Ideal Cert.ReferenceIdeal.S64) (j : Fin 64) :
    (Cert.Net.r64 b : S1x64.Idx → Ideal .f32) (ix2 (0 : Fin 1) j) = b (ix1 j) := by
  show shapeCast ⟨2, ![1, 64]⟩ b Cert.Net.casts_64 (ix2 (0 : Fin 1) j) = _
  exact shapeCast_a_1a_apply b Cert.Net.casts_64 (0 : Fin 1) j

/-- THE BODY ON THE BLOCKS OF POINT `t` IS BLOCK `t` OF THE TWO DENSE LAYERS of the whole arrays: row `r` of the block is
    row `5000 t + r` of the input, the weights and biases are whole, and entry by entry the body's arithmetic is the
    network's. -/
theorem e_block_eq (X : Buf (Elt Ideal) ((c : Thread nD τ).loc (Pipeline.arrRef spec0 0)))
    (W1 : Buf (Elt Ideal) ((c : Thread nD τ).loc (Pipeline.arrRef spec0 1)))
    (B1 : Buf (Elt Ideal) ((c : Thread nD τ).loc (Pipeline.arrRef spec0 2)))
    (W2 : Buf (Elt Ideal) ((c : Thread nD τ).loc (Pipeline.arrRef spec0 3)))
    (B2 : Buf (Elt Ideal) ((c : Thread nD τ).loc (Pipeline.arrRef spec0 4)))
    (b1 b2 : Cert.Net.CF Ideal Cert.ReferenceIdeal.S64) (hB1 : B1 = Cert.Net.r64 b1) (hB2 : B2 = Cert.Net.r64 b2) :
    k0_pay1 (F := Ideal) (((cfg0.win 0).blk t).view.read (Elt Ideal) X) (((cfg0.win 1).blk t).view.read (Elt Ideal) W1)
        (((cfg0.win 2).blk t).view.read (Elt Ideal) B1) (((cfg0.win 3).blk t).view.read (Elt Ideal) W2)
        (((cfg0.win 4).blk t).view.read (Elt Ideal) B2)
      = (((cfg0.win 5).blk t).view.read (Elt Ideal) (Cert.Net.mlp X W1 b1 W2 b2) : Vec Ideal S5000x64 .f32) := by
  funext j
  obtain ⟨r, q, rfl⟩ : ∃ (r : Fin 5000) (q : Fin 64), j = ix2 r q := ⟨j 0, j 1, eq_ix2 (n0 := 5000) (n1 := 64) j⟩
  have hN : cfg0.N = 20 := N_0
  have ht : t.val < 20 := hN ▸ t.isLt
  refine (k0_pay1_apply _ _ _ _ _ r q).trans ?_
  refine Eq.trans ?_ (e_read5_apply c t (Cert.Net.mlp X W1 b1 W2 b2) r q ⟨5000 * t.val + r.val, by have := r.isLt; omega⟩ rfl).symm
  refine Eq.trans ?_ (Cert.Net.mlp_apply X W1 b1 W2 b2 ⟨5000 * t.val + r.val, by have := r.isLt; omega⟩ q).symm
  refine congrArg Cert.Net.lr (congrArg₂ (· + ·) (Finset.sum_congr rfl fun j _ => congrArg₂ (· * ·)
    (congrArg Cert.Net.lr (congrArg₂ (· + ·) (Finset.sum_congr rfl fun k _ => congrArg₂ (· * ·) ?_ ?_) ?_)) ?_) ?_)
  · exact e_read0_apply c t X r k _ rfl
  · exact e_read1_apply c t W1 k j
  · exact (e_read2_apply c t B1 j).trans (by rw [hB1]; exact e_r64_apply b1 j)
  · exact e_read3_apply c t W2 j q
  · exact (e_read4_apply c t B2 q).trans (by rw [hB2]; exact e_r64_apply b2 q)

end Blocks

/-- An index of the result array is in point `t`'s block iff each coordinate is in the block's range. -/
theorem e_mem_blk0 (t : Fin cfg0.N) (i : S100000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v2).slice (win0_5.rect t)).set ↔ _
  rw [View.set_slice_whole, Rect.mem_set_unit]
  exact Iff.rfl

/-- Row `R` of the result lies in the block of point `R / 5000`, and every point writes its block back: the twenty
    blocks cover the array. -/
theorem e_cover0 (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_5 _, ?_⟩
  rw [e_mem_blk0]
  obtain ⟨-, -, -, -, -, -, -, -, -, -, h0, h1⟩ := e_idx0 ⟨(i 0).val / 5000, by rw [hN]; omega⟩
  intro a
  match a with
  | ⟨0, _⟩ =>
    show win0_5.index _ (0 : Fin 2) * 5000 ≤ (i 0).val ∧ (i 0).val < win0_5.index _ (0 : Fin 2) * 5000 + 5000
    rw [h0]; dsimp only; omega
  | ⟨1, _⟩ =>
    show win0_5.index _ (1 : Fin 2) * 64 ≤ (i 1).val ∧ (i 1).val < win0_5.index _ (1 : Fin 2) * 64 + 64
    rw [h1]; omega

end Cert.KernelIdeal.RegVal

end
-- ==== Proof.RegMlp.lean ====
/-
  The first region's result array. At every grid point the body leaves, in the result's staging buffer, the two dense
  layers of the point's 5000 input rows; each point writes its block back, and the twenty blocks cover the array: so
  after the region the array holds the two dense layers of the whole input.
-/
import proofs.«137448_j36043365548320_2_alg».proof.Proof.Gen.KernelIdeal.Frame
import proofs.«137448_j36043365548320_2_alg».proof.Proof.RegMlpBlk

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- What point `t` writes back is block `t` of the two dense layers of the arrays as the region finds them. -/
theorem e_flushed0 (c : Dev nD) (b1 b2 : Cert.Net.CF Ideal Cert.ReferenceIdeal.S64)
    (hb1 : V c (Pipeline.arrRef spec0 2) = Cert.Net.r64 b1) (hb2 : V c (Pipeline.arrRef spec0 4) = Cert.Net.r64 b2) (t : Fin cfg0.N) :
    (Gen.dat0 (F := Ideal) V c).flushed 5 t
      = ((cfg0.win 5).blk t).view.read (Elt Ideal)
          (Cert.Net.mlp (V c (Pipeline.arrRef spec0 0)) (V c (Pipeline.arrRef spec0 1)) b1 (V c (Pipeline.arrRef spec0 3)) b2) := by
  show (cfg0.win 5).cut (grid0.coords t) ((dat0 V c).after 5 t) = _
  rw [after0_5]
  unfold out0_5
  rw [View.canon_unit_zero e_hz]
  simp only [View.ld_unit_zero (S := S5000x64) e_hz, View.ld_unit_zero (S := S64x64) e_hz, View.ld_unit_zero (S := S1x64) e_hz]
  unfold iblk0
  exact e_block_eq c t (V c (Pipeline.arrRef spec0 0)) (V c (Pipeline.arrRef spec0 1)) (V c (Pipeline.arrRef spec0 2))
    (V c (Pipeline.arrRef spec0 3)) (V c (Pipeline.arrRef spec0 4)) b1 b2 hb1 hb2

/-- THE FIRST REGION'S RESULT: after its twenty points the result array holds the two dense layers of the input rows,
    the bias rows being the bias vectors as one-row matrices. -/
theorem mlp0 (c : Dev nD) (b1 b2 : Cert.Net.CF Ideal Cert.ReferenceIdeal.S64)
    (hb1 : V c (Pipeline.arrRef spec0 2) = Cert.Net.r64 b1) (hb2 : V c (Pipeline.arrRef spec0 4) = Cert.Net.r64 b2) :
    (Gen.dat0 (F := Ideal) V c).arrAt 5 cfg0.N
      = Cert.Net.mlp (V c (Pipeline.arrRef spec0 0)) (V c (Pipeline.arrRef spec0 1)) b1 (V c (Pipeline.arrRef spec0 3)) b2 :=
  (dat0 V c).arrAt_eq_of_cover 5 _ (fun t _ => e_flushed0 V c b1 b2 hb1 hb2 t) e_cover0

end Cert.KernelIdeal.RegVal

end
-- ==== Proof.NetIdx2.lean ====
/-
  The 128-column layers of the network read at one entry.

  `dense2 a b W bias` at row `p`, column `q` is the 128-term product sum of the concatenated row `[a p, b p]`
  with column `q` of `W`, plus the bias: the sum splits at column 64 into the 64 terms of `a` against the upper
  half of `W` and the 64 terms of `b` against its lower half. `cheb` is `dense2` at the negated second array;
  when the second array and the matrix hold real numbers only, the negation moves out of the 64-term sum as the
  factor `-1` (over the extended reals `-(x + y) = -x - y` fails at opposite infinities, hence the hypothesis).
  Also: the two halves of a 128 × 64 matrix, a bias vector as a one-row matrix, and the constants `1`, `-1`.
-/
import proofs.«137448_j36043365548320_2_alg».proof.Proof.NetIdx1
import Idealize.ShloMosaic.Lib.Pipeline.Value
import Idealize.ShloMosaic.Lib.ValueIdx
import Idealize.ShloMosaic.PureOps.Ideal.Laws

noncomputable section

open scoped BigOperators

namespace Cert.Net

open Idealize.ShloMosaic Idealize.ShloMosaic.ValueIdx Cert.ReferenceIdeal Cert.ReferenceIdeal.Gen

/-! ## Constants -/

/-- The binary32 pattern of `1.0` denotes `1`. -/
theorem ofBits_one : Ideal.ofBits .f32 0x3F800000#32 = 1 := by
  simp [Ideal.ofBits, Ideal.ieee, -EReal.coe_mul]; norm_num

/-- The binary32 pattern of `-1.0` denotes `-1`. -/
theorem ofBits_neg_one : Ideal.ofBits .f32 0xBF800000#32 = -1 := by
  simp [Ideal.ofBits, Ideal.ieee, -EReal.coe_mul]; norm_num

/-! ## Sums -/

/-- A sum of 128 terms is the sum of the first 64 and the sum of the last 64. -/
theorem sum_split128 {M : Type*} [AddCommMonoid M] (f : Fin 128 → M) :
    ∑ k : Fin 128, f k = (∑ k : Fin 64, f ⟨k.val, by omega⟩) + ∑ k : Fin 64, f ⟨64 + k.val, by omega⟩ :=
  Fin.sum_univ_add (a := 64) (b := 64) f

/-- The coercion of the reals into the extended reals commutes with finite sums. -/
theorem coe_finset_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- For real `x k`, `w k`: `∑ (-x k) · w k = (-1) · ∑ x k · w k`. -/
theorem sum_neg_mul_of_real {ι : Type*} (s : Finset ι) (x w : ι → EReal) (hx : ∀ k, x k ≠ ⊤ ∧ x k ≠ ⊥)
    (hw : ∀ k, w k ≠ ⊤ ∧ w k ≠ ⊥) : ∑ k ∈ s, (-(x k)) * w k = (-1 : EReal) * ∑ k ∈ s, x k * w k := by
  obtain ⟨rx, hrx⟩ : ∃ rx : ι → ℝ, ∀ k, x k = (rx k : EReal) :=
    ⟨fun k => (x k).toReal, fun k => (EReal.coe_toReal (hx k).1 (hx k).2).symm⟩
  obtain ⟨rw', hrw⟩ : ∃ rw' : ι → ℝ, ∀ k, w k = (rw' k : EReal) :=
    ⟨fun k => (w k).toReal, fun k => (EReal.coe_toReal (hw k).1 (hw k).2).symm⟩
  have h1 : ∀ k ∈ s, (-(x k)) * w k = ((-(rx k * rw' k) : ℝ) : EReal) := fun k _ => by
    rw [hrx k, hrw k, EReal.neg_mul, ← EReal.coe_mul, ← EReal.coe_neg]
  have h2 : ∀ k ∈ s, x k * w k = ((rx k * rw' k : ℝ) : EReal) := fun k _ => by
    rw [hrx k, hrw k, ← EReal.coe_mul]
  rw [Finset.sum_congr rfl h1, Finset.sum_congr rfl h2, ← coe_finset_sum, ← coe_finset_sum, EReal.neg_mul, one_mul,
    ← EReal.coe_neg, Finset.sum_neg_distrib]

/-- `1 · y = y` and `(-1) · y = -y` over the extended reals. -/
theorem neg_one_mul' (y : EReal) : (-1 : EReal) * y = -y := by rw [EReal.neg_mul, one_mul]

/-! ## The pieces of a layer at an entry -/

/-- Row `k` of the upper half is row `k` of the matrix. -/
theorem top_apply (W : CF Ideal S128x64) (k q : Fin 64) :
    top (F := Ideal) W (ix2 k q) = W (ix2 (⟨k.val, by omega⟩ : Fin 128) q) := by
  unfold top
  refine extractStridedSlice_apply (s := S128x64) (t := S64x64) ![0, 0] W slices_top (ix2 k q)
    (ix2 (⟨k.val, by omega⟩ : Fin 128) q) (fun a => ?_)
  match a with
  | ⟨0, _⟩ => show k.val = 0 + k.val; omega
  | ⟨1, _⟩ => show q.val = 0 + q.val; omega

/-- Row `k` of the lower half is row `64 + k` of the matrix. -/
theorem bot_apply (W : CF Ideal S128x64) (k q : Fin 64) :
    bot (F := Ideal) W (ix2 k q) = W (ix2 (⟨64 + k.val, by omega⟩ : Fin 128) q) := by
  unfold bot
  refine extractStridedSlice_apply (s := S128x64) (t := S64x64) ![64, 0] W slices_bot (ix2 k q)
    (ix2 (⟨64 + k.val, by omega⟩ : Fin 128) q) (fun a => ?_)
  match a with
  | ⟨0, _⟩ => show 64 + k.val = 64 + k.val; rfl
  | ⟨1, _⟩ => show q.val = 0 + q.val; omega

/-- The one row of a bias vector written as a 1 × 64 matrix is the vector. -/
theorem r64_apply (b : CF Ideal S64) (q : Fin 64) : r64 (F := Ideal) b (ix2 (0 : Fin 1) q) = b (ix1 q) := by
  unfold r64
  refine shapeCast_apply (s := S64) (t := S1x64) b casts_64 (ix2 (0 : Fin 1) q) (ix1 q) ?_
  rw [Shape.rowMajor_val_one, Shape.rowMajor_val_two]
  show q.val = 0 * 64 + q.val
  omega

/-- The first 64 columns of two arrays side by side are the first array's. -/
theorem cat_left (a b : CF Ideal S100000x64) (p : Fin 100000) (k : Fin 64) :
    cat (F := Ideal) a b (ix2 p (⟨k.val, by omega⟩ : Fin 128)) = a (ix2 p k) := by
  unfold cat
  refine concatenate_pair_apply_left (t := S100000x128) (s₁ := S100000x64) (s₂ := S100000x64) (1 : Fin S100000x128.rank) a b
    concatenates_S100000x64_S100000x64_S100000x128_d1 (ix2 p (⟨k.val, by omega⟩ : Fin 128)) rfl (ix2 p k) (fun c => ?_)
  match c with
  | ⟨0, _⟩ => rfl
  | ⟨1, _⟩ => rfl

/-- The last 64 columns are the second array's. -/
theorem cat_right (a b : CF Ideal S100000x64) (p : Fin 100000) (k : Fin 64) :
    cat (F := Ideal) a b (ix2 p (⟨64 + k.val, by omega⟩ : Fin 128)) = b (ix2 p k) := by
  unfold cat
  refine concatenate_pair_apply_right (t := S100000x128) (s₁ := S100000x64) (s₂ := S100000x64) (1 : Fin S100000x128.rank) a b
    concatenates_S100000x64_S100000x64_S100000x128_d1 (ix2 p (⟨64 + k.val, by omega⟩ : Fin 128)) rfl rfl (ix2 p k) (fun c hc => ?_) ?_
  · match c with
    | ⟨0, _⟩ => rfl
    | ⟨1, _⟩ => exact absurd rfl hc
  · show k.val + 64 = 64 + k.val
    omega

/-! ## The 128 → 64 product at an entry -/

theorem dot128_lhs0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide),
    dif_pos (show (0 : Fin S100000x128.rank) ∈ dot_S100000x128_S128x64_S100000x64_1_0_0_1_n_n.lhsNonContracting by decide)]
  rfl
theorem dot128_lhs1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem dot128_rhs0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem dot128_rhs1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide),
    dif_pos (show (1 : Fin S128x64.rank) ∈ dot_S100000x128_S128x64_S100000x64_1_0_0_1_n_n.rhsNonContracting by decide)]
  rfl

/-- The host's 128 → 64 product at an entry: the sum over the 128 columns. -/
theorem dot128_apply (X : CF Ideal S100000x128) (W : CF Ideal S128x64) (p : Fin 100000) (q : Fin 64) :
    Host.dotGeneral (F := Ideal) (φ₁ := .f32) (φ₂ := .f32) dot_S100000x128_S128x64_S100000x64_1_0_0_1_n_n none X W (ix2 p q) = ∑ k : Fin 128, X (ix2 p k) * W (ix2 k q) := by
  simp only [Host.dotGeneral]
  rw [Ideal.dotGeneral_apply, ← Equiv.sum_comp (contrEquiv1 dot_S100000x128_S128x64_S100000x64_1_0_0_1_n_n 128 rfl rfl).symm]
  refine Finset.sum_congr rfl fun k _ => ?_
  have hk := contrEquiv1_symm_val dot_S100000x128_S128x64_S100000x64_1_0_0_1_n_n 128 rfl rfl k
  have el : dot_S100000x128_S128x64_S100000x64_1_0_0_1_n_n.lhsIdx (ix2 p q) ((contrEquiv1 dot_S100000x128_S128x64_S100000x64_1_0_0_1_n_n 128 rfl rfl).symm k) = ix2 p k := funext fun a => Fin.ext (by
    match a with
    | ⟨0, _⟩ => exact dot128_lhs0 _ _
    | ⟨1, _⟩ => exact (dot128_lhs1 _ _).trans hk)
  have er : dot_S100000x128_S128x64_S100000x64_1_0_0_1_n_n.rhsIdx (ix2 p q) ((contrEquiv1 dot_S100000x128_S128x64_S100000x64_1_0_0_1_n_n 128 rfl rfl).symm k) = ix2 k q := funext fun a => Fin.ext (by
    match a with
    | ⟨0, _⟩ => exact (dot128_rhs0 _ _).trans hk
    | ⟨1, _⟩ => exact dot128_rhs1 _ _)
  rw [el, er]

/-- `[a, b] W + bias` at row `p`, column `q`: the 64 terms of `a` against the upper rows of `W`, the 64 terms of `b`
    against its lower rows, and the bias. -/
theorem dense2_apply_rows (a b : CF Ideal S100000x64) (W : CF Ideal S128x64) (bias : CF Ideal S64) (p : Fin 100000) (q : Fin 64) :
    dense2 (F := Ideal) a b W bias (ix2 p q)
      = (∑ k : Fin 64, a (ix2 p k) * W (ix2 (⟨k.val, by omega⟩ : Fin 128) q))
        + (∑ k : Fin 64, b (ix2 p k) * W (ix2 (⟨64 + k.val, by omega⟩ : Fin 128) q)) + bias (ix1 q) := by
  unfold dense2
  rw [addf_apply, dot128_apply, bias64_apply, sum_split128]
  refine congrArg₂ (· + ·) (congrArg₂ (· + ·) (Finset.sum_congr rfl fun k _ => ?_) (Finset.sum_congr rfl fun k _ => ?_)) rfl
  · rw [cat_left]
  · rw [cat_right]

/-- The same with the two halves of `W` named. -/
theorem dense2_apply (a b : CF Ideal S100000x64) (W : CF Ideal S128x64) (bias : CF Ideal S64) (p : Fin 100000) (q : Fin 64) :
    dense2 (F := Ideal) a b W bias (ix2 p q)
      = (∑ k : Fin 64, a (ix2 p k) * top (F := Ideal) W (ix2 k q)) + (∑ k : Fin 64, b (ix2 p k) * bot (F := Ideal) W (ix2 k q))
        + bias (ix1 q) := by
  rw [dense2_apply_rows]
  refine congrArg₂ (· + ·) (congrArg₂ (· + ·) (Finset.sum_congr rfl fun k _ => ?_) (Finset.sum_congr rfl fun k _ => ?_)) rfl
  · rw [top_apply]
  · rw [bot_apply]

/-- `[feat, -ah] W + b` at an entry, the sign still inside the sum. -/
theorem cheb_apply (feat ah : CF Ideal S100000x64) (W : CF Ideal S128x64) (b : CF Ideal S64) (p : Fin 100000) (q : Fin 64) :
    cheb (F := Ideal) feat ah W b (ix2 p q)
      = (∑ k : Fin 64, feat (ix2 p k) * top (F := Ideal) W (ix2 k q))
        + (∑ k : Fin 64, (-(ah (ix2 p k))) * bot (F := Ideal) W (ix2 k q)) + b (ix1 q) := by
  unfold cheb
  rw [dense2_apply]
  rfl

/-- `[feat, -ah] W + b` at an entry when `ah` and `W` hold real numbers: the sign as the factor `-1` of the second sum. -/
theorem cheb_apply_of_real (feat ah : CF Ideal S100000x64) (W : CF Ideal S128x64) (b : CF Ideal S64) (hah : IsReal ah) (hW : IsReal W)
    (p : Fin 100000) (q : Fin 64) :
    cheb (F := Ideal) feat ah W b (ix2 p q)
      = (∑ k : Fin 64, feat (ix2 p k) * top (F := Ideal) W (ix2 k q))
        + (-1 : EReal) * (∑ k : Fin 64, ah (ix2 p k) * bot (F := Ideal) W (ix2 k q)) + b (ix1 q) := by
  rw [cheb_apply, sum_neg_mul_of_real Finset.univ (fun k : Fin 64 => ah (ix2 p k))
    (fun k : Fin 64 => bot (F := Ideal) W (ix2 k q)) (fun k => hah _) (fun k => by rw [bot_apply]; exact hW _)]

/-! ## The two-product layer on whole arrays -/

/-- `a W0 + c · (b W1) + bias` entry by entry, from two node arrays, two 64 × 64 matrices and a bias row; the scalar `c`
    is given by its binary32 word. -/
def dualG (cw : BitVec 32) (a b : CF Ideal S100000x64) (W0 W1 : CF Ideal S64x64) (bb : CF Ideal S1x64) : CF Ideal S100000x64 :=
  fun i => (∑ k : Fin 64, a (ix2 (⟨(i 0).val, idx2_lt0 i⟩ : Fin 100000) k) * W0 (ix2 k (⟨(i 1).val, idx2_lt1 i⟩ : Fin 64)))
    + Ideal.ofBits .f32 cw * (∑ k : Fin 64, b (ix2 (⟨(i 0).val, idx2_lt0 i⟩ : Fin 100000) k) * W1 (ix2 k (⟨(i 1).val, idx2_lt1 i⟩ : Fin 64)))
    + bb (ix2 (0 : Fin 1) (⟨(i 1).val, idx2_lt1 i⟩ : Fin 64))

theorem dualG_apply (cw : BitVec 32) (a b : CF Ideal S100000x64) (W0 W1 : CF Ideal S64x64) (bb : CF Ideal S1x64)
    (p : Fin 100000) (q : Fin 64) :
    dualG cw a b W0 W1 bb (ix2 p q)
      = (∑ k : Fin 64, a (ix2 p k) * W0 (ix2 k q)) + Ideal.ofBits .f32 cw * (∑ k : Fin 64, b (ix2 p k) * W1 (ix2 k q))
        + bb (ix2 (0 : Fin 1) q) := rfl

/-- At the word of `-1`, on the two halves of `W` and the bias as a row, and for real `ah` and `W`, it is `cheb`. -/
theorem dualG_neg_eq_cheb (feat ah : CF Ideal S100000x64) (W : CF Ideal S128x64) (b : CF Ideal S64) (hah : IsReal ah) (hW : IsReal W) :
    dualG 0xBF800000#32 feat ah (top (F := Ideal) W) (bot (F := Ideal) W) (r64 (F := Ideal) b) = cheb (F := Ideal) feat ah W b := by
  funext i
  obtain ⟨p, q, rfl⟩ : ∃ (p : Fin 100000) (q : Fin 64), i = ix2 p q := ⟨i 0, i 1, eq_ix2 i⟩
  rw [dualG_apply, cheb_apply_of_real feat ah W b hah hW, ofBits_neg_one, r64_apply]

/-- At the word of `1` it is `dense2`. -/
theorem dualG_one_eq_dense2 (a b : CF Ideal S100000x64) (W : CF Ideal S128x64) (bias : CF Ideal S64) :
    dualG 0x3F800000#32 a b (top (F := Ideal) W) (bot (F := Ideal) W) (r64 (F := Ideal) bias) = dense2 (F := Ideal) a b W bias := by
  funext i
  obtain ⟨p, q, rfl⟩ : ∃ (p : Fin 100000) (q : Fin 64), i = ix2 p q := ⟨i 0, i 1, eq_ix2 i⟩
  rw [dualG_apply, dense2_apply, ofBits_one, one_mul, r64_apply]

end Cert.Net

end
-- ==== Proof.RegDualPay.lean ====
/-
  The arithmetic of the two-product bodies on one block of 5000 rows, read one entry at a time over the extended reals.

  Each of these bodies computes, on its block, `x0 W0 + c · (x1 W1) + bias`: two matrix products into zero accumulators
  (operands narrowed to bfloat16, which over the extended reals changes nothing), the second scaled by a scalar constant
  `c` (`-1` in the six bodies of the first kind, `1` in the three of the second), and the bias row spread over the block's rows.
  When the two blocks are rows `5000 n … 5000 n + 4999` of two whole arrays, an entry of the result is the entry of the
  same layer computed on the whole arrays (`Cert.Net.dualG`).
-/
import proofs.«137448_j36043365548320_2_alg».proof.Proof.Gen.KernelIdeal.Skeleton
import proofs.«137448_j36043365548320_2_alg».proof.Proof.NetIdx2

noncomputable section

open scoped BigOperators

namespace Cert.KernelIdeal.RegVal

open Idealize.ShloMosaic Idealize.ShloMosaic.ValueIdx Cert.KernelIdeal Cert.KernelIdeal.Gen

/-- One product of the body: the block times the weights, from a zero accumulator. -/
def d_mm (x : FVec Ideal S5000x64 .f32) (W : FVec Ideal S64x64 .f32) : FVec Ideal S5000x64 .f32 :=
  matmul dot_S5000x64_S64x64_S5000x64_1_0_0_1_n_n none
    (truncf .bf16 (shapeCast S5000x64 x shapeCasts_S5000x64_S5000x64) bitsLt_bf16_f32)
    (truncf .bf16 (shapeCast S64x64 W shapeCasts_S64x64_S64x64) bitsLt_bf16_f32) (constant S5000x64 .f32 0x00000000#32)

/-- The body on a block: `x0 W0 + c · (x1 W1) + bias`, the scalar `c` given by its binary32 word. -/
def d_dual (cw : BitVec 32) (x0 x1 : FVec Ideal S5000x64 .f32) (W0 W1 : FVec Ideal S64x64 .f32) (bb : FVec Ideal S1x64 .f32) :
    FVec Ideal S5000x64 .f32 :=
  addf (addf (d_mm x0 W0) (mulf (broadcast S5000x64 (Scalar.ofBits (F := Ideal) .f32 cw)) (d_mm x1 W1)))
    (broadcastTo S5000x64 (shapeCast S1x64 bb shapeCasts_S1x64_S1x64) broadcasts_S1x64_S5000x64)

/-- The six bodies of the first kind are this one at the word of `-1`. -/
theorem k1_pay1_eq (v0 v3 : Vec Ideal S5000x64 .f32) (v6 v9 : Vec Ideal S64x64 .f32) (v17 : Vec Ideal S1x64 .f32) :
    k1_pay1 (F := Ideal) v0 v3 v6 v9 v17 = d_dual 0xBF800000#32 v0 v3 v6 v9 v17 := rfl
theorem k2_pay1_eq (v0 v3 : Vec Ideal S5000x64 .f32) (v6 v9 : Vec Ideal S64x64 .f32) (v17 : Vec Ideal S1x64 .f32) :
    k2_pay1 (F := Ideal) v0 v3 v6 v9 v17 = d_dual 0xBF800000#32 v0 v3 v6 v9 v17 := rfl
theorem k4_pay1_eq (v0 v3 : Vec Ideal S5000x64 .f32) (v6 v9 : Vec Ideal S64x64 .f32) (v17 : Vec Ideal S1x64 .f32) :
    k4_pay1 (F := Ideal) v0 v3 v6 v9 v17 = d_dual 0xBF800000#32 v0 v3 v6 v9 v17 := rfl
theorem k5_pay1_eq (v0 v3 : Vec Ideal S5000x64 .f32) (v6 v9 : Vec Ideal S64x64 .f32) (v17 : Vec Ideal S1x64 .f32) :
    k5_pay1 (F := Ideal) v0 v3 v6 v9 v17 = d_dual 0xBF800000#32 v0 v3 v6 v9 v17 := rfl
theorem k7_pay1_eq (v0 v3 : Vec Ideal S5000x64 .f32) (v6 v9 : Vec Ideal S64x64 .f32) (v17 : Vec Ideal S1x64 .f32) :
    k7_pay1 (F := Ideal) v0 v3 v6 v9 v17 = d_dual 0xBF800000#32 v0 v3 v6 v9 v17 := rfl
theorem k8_pay1_eq (v0 v3 : Vec Ideal S5000x64 .f32) (v6 v9 : Vec Ideal S64x64 .f32) (v17 : Vec Ideal S1x64 .f32) :
    k8_pay1 (F := Ideal) v0 v3 v6 v9 v17 = d_dual 0xBF800000#32 v0 v3 v6 v9 v17 := rfl
/-- One product at entry `(r, q)` of the block: the sum over the 64 contracted columns. -/
theorem d_mm_apply (x : FVec Ideal S5000x64 .f32) (W : FVec Ideal S64x64 .f32) (r : Fin 5000) (q : Fin 64) :
    d_mm x W (ix2 r q) = ∑ k : Fin 64, x (ix2 r k) * W (ix2 k q) := by
  unfold d_mm
  rw [shapeCast_self, shapeCast_self]
  exact Cert.Net.matmul_plain_apply (M := 5000) (K := 64) (N := 64) dot_S5000x64_S64x64_S5000x64_1_0_0_1_n_n rfl none
    (truncf .bf16 x bitsLt_bf16_f32) (truncf .bf16 W bitsLt_bf16_f32) r q

/-- The body at entry `(r, q)` of the block. -/
theorem d_dual_apply (cw : BitVec 32) (x0 x1 : FVec Ideal S5000x64 .f32) (W0 W1 : FVec Ideal S64x64 .f32) (bb : FVec Ideal S1x64 .f32)
    (r : Fin 5000) (q : Fin 64) :
    d_dual cw x0 x1 W0 W1 bb (ix2 r q)
      = (∑ k : Fin 64, x0 (ix2 r k) * W0 (ix2 k q)) + Ideal.ofBits .f32 cw * (∑ k : Fin 64, x1 (ix2 r k) * W1 (ix2 k q))
        + bb (ix2 (0 : Fin 1) q) := by
  unfold d_dual
  refine (addf_apply _ _ _).trans (congrArg₂ (· + ·) ((addf_apply _ _ _).trans (congrArg₂ (· + ·) (d_mm_apply x0 W0 r q) ?_)) ?_)
  · exact (mulf_apply _ _ _).trans (congrArg₂ (· * ·) rfl (d_mm_apply x1 W1 r q))
  · refine (broadcastTo_apply _ _ (ix2 r q) (ix2 (0 : Fin 1) q) fun a => ?_).trans ?_
    · match a with
      | ⟨0, _⟩ => rfl
      | ⟨1, _⟩ => rfl
    · rw [shapeCast_self]

/-- THE BLOCK AGAINST THE WHOLE ARRAYS. If the two blocks are rows `5000 n …` of the arrays `a`, `b` and the weights
    and the bias row are whole arrays, then the body's entry at `y` is the whole-array layer's entry at the array index
    `i` under `y` (row `5000 n + y 0`, column `y 1`). -/
theorem d_dual_entry (cw : BitVec 32) (a b : Cert.Net.CF Ideal Cert.ReferenceIdeal.S100000x64)
    (W0 W1 : Cert.Net.CF Ideal Cert.ReferenceIdeal.S64x64) (bb : Cert.Net.CF Ideal Cert.ReferenceIdeal.S1x64)
    (x0 x1 : FVec Ideal S5000x64 .f32) (w0 w1 : FVec Ideal S64x64 .f32) (b0 : FVec Ideal S1x64 .f32)
    (y : S5000x64.Idx) (i : S100000x64.Idx) (n : Nat)
    (hi0 : (i 0).val = n * 5000 + (y 0).val) (hi1 : (i 1).val = (y 1).val)
    (h0 : ∀ (r : Fin 5000) (k : Fin 64) (R : Fin 100000), R.val = n * 5000 + r.val → x0 (ix2 r k) = a (ix2 R k))
    (h1 : ∀ (r : Fin 5000) (k : Fin 64) (R : Fin 100000), R.val = n * 5000 + r.val → x1 (ix2 r k) = b (ix2 R k))
    (hw0 : w0 = W0) (hw1 : w1 = W1) (hb : b0 = bb) :
    d_dual cw x0 x1 w0 w1 b0 y = Cert.Net.dualG cw a b W0 W1 bb i := by
  subst hw0 hw1 hb
  have hy : y = ix2 (⟨(y 0).val, idx2_lt0 y⟩ : Fin 5000) (⟨(y 1).val, idx2_lt1 y⟩ : Fin 64) := eq_ix2 y
  have hi : i = ix2 (⟨(i 0).val, idx2_lt0 i⟩ : Fin 100000) (⟨(y 1).val, idx2_lt1 y⟩ : Fin 64) := by
    refine (eq_ix2 i).trans ?_
    funext d
    match d with
    | ⟨0, _⟩ => rfl
    | ⟨1, _⟩ => exact Fin.ext hi1
  rw [hy, hi, d_dual_apply, Cert.Net.dualG_apply]
  refine congrArg₂ (· + ·) (congrArg₂ (· + ·) (Finset.sum_congr rfl fun k _ => ?_)
    (congrArg (Ideal.ofBits .f32 cw * ·) (Finset.sum_congr rfl fun k _ => ?_))) rfl
  · rw [h0 ⟨(y 0).val, idx2_lt0 y⟩ k ⟨(i 0).val, idx2_lt0 i⟩ hi0]
  · rw [h1 ⟨(y 0).val, idx2_lt0 y⟩ k ⟨(i 0).val, idx2_lt0 i⟩ hi0]

end Cert.KernelIdeal.RegVal

end
-- ==== Proof.RegDual1.lean ====
/-
  The value of the two-product region 1 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz1 : (![0, 0] : Fin 2 → Nat) = fun _ => 0 := funext fun a => by fin_cases a <;> rfl

/-- The printed index maps, decided over the 20 points: the node arrays' and the result's blocks are numbered by the
    point along the rows, the weights' and the bias row's block is the whole array. -/
theorem d_idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point `t` is rows `5000 t …` of its array. -/
theorem d_rows1_0 (c : Dev nD) (t : Fin cfg1.N) (r : Fin 5000) (k : Fin 64) (R : Fin 100000) (hR : R.val = t.val * 5000 + r.val) :
    (iblk1 V c 0 t : Vec Ideal S5000x64 .f32) (ix2 r k) = ((V c (Pipeline.arrRef spec1 0)) : S100000x64.Idx → EReal) (ix2 R k) := by
  obtain ⟨e0, e1, -⟩ := d_idx1 t
  unfold iblk1
  rw [View.read_apply]
  refine congrArg (V c (Pipeline.arrRef spec1 0)) (funext fun a => Fin.ext ?_)
  match a with
  | ⟨0, _⟩ => show win1_0.index t (0 : Fin 2) * 5000 + 1 * r.val = R.val; rw [e0, hR]; omega
  | ⟨1, _⟩ => show win1_0.index t (1 : Fin 2) * 64 + 1 * k.val = k.val; rw [e1]; omega

/-- Window 1's block at point `t` is rows `5000 t …` of its array. -/
theorem d_rows1_1 (c : Dev nD) (t : Fin cfg1.N) (r : Fin 5000) (k : Fin 64) (R : Fin 100000) (hR : R.val = t.val * 5000 + r.val) :
    (iblk1 V c 1 t : Vec Ideal S5000x64 .f32) (ix2 r k) = ((V c (Pipeline.arrRef spec1 1)) : S100000x64.Idx → EReal) (ix2 R k) := by
  obtain ⟨-, -, e0, e1, -⟩ := d_idx1 t
  unfold iblk1
  rw [View.read_apply]
  refine congrArg (V c (Pipeline.arrRef spec1 1)) (funext fun a => Fin.ext ?_)
  match a with
  | ⟨0, _⟩ => show win1_1.index t (0 : Fin 2) * 5000 + 1 * r.val = R.val; rw [e0, hR]; omega
  | ⟨1, _⟩ => show win1_1.index t (1 : Fin 2) * 64 + 1 * k.val = k.val; rw [e1]; omega

/-- Window 2's block is its whole array at every point. -/
theorem d_whole1_2 (c : Dev nD) (t : Fin cfg1.N) :
    (iblk1 V c 2 t : Vec Ideal S64x64 .f32) = ((V c (Pipeline.arrRef spec1 2)) : S64x64.Idx → EReal) := by
  obtain ⟨-, -, -, -, e0, e1, -⟩ := d_idx1 t
  funext y
  unfold iblk1
  rw [View.read_apply]
  refine congrArg (V c (Pipeline.arrRef spec1 2)) (funext fun a => Fin.ext ?_)
  match a with
  | ⟨0, _⟩ => show win1_2.index t (0 : Fin 2) * 64 + 1 * (y 0).val = (y 0).val; rw [e0]; omega
  | ⟨1, _⟩ => show win1_2.index t (1 : Fin 2) * 64 + 1 * (y 1).val = (y 1).val; rw [e1]; omega

/-- Window 3's block is its whole array at every point. -/
theorem d_whole1_3 (c : Dev nD) (t : Fin cfg1.N) :
    (iblk1 V c 3 t : Vec Ideal S64x64 .f32) = ((V c (Pipeline.arrRef spec1 3)) : S64x64.Idx → EReal) := by
  obtain ⟨-, -, -, -, -, -, e0, e1, -⟩ := d_idx1 t
  funext y
  unfold iblk1
  rw [View.read_apply]
  refine congrArg (V c (Pipeline.arrRef spec1 3)) (funext fun a => Fin.ext ?_)
  match a with
  | ⟨0, _⟩ => show win1_3.index t (0 : Fin 2) * 64 + 1 * (y 0).val = (y 0).val; rw [e0]; omega
  | ⟨1, _⟩ => show win1_3.index t (1 : Fin 2) * 64 + 1 * (y 1).val = (y 1).val; rw [e1]; omega

/-- Window 4's block is its whole array (the bias row) at every point. -/
theorem d_whole1_4 (c : Dev nD) (t : Fin cfg1.N) :
    (iblk1 V c 4 t : Vec Ideal S1x64 .f32) = ((V c (Pipeline.arrRef spec1 4)) : S1x64.Idx → EReal) := by
  obtain ⟨-, -, -, -, -, -, -, -, e0, e1, -⟩ := d_idx1 t
  funext y
  unfold iblk1
  rw [View.read_apply]
  refine congrArg (V c (Pipeline.arrRef spec1 4)) (funext fun a => Fin.ext ?_)
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- WHAT POINT `t` WRITES BACK is block `t` of the two-product layer of the whole arrays. -/
theorem d_flushed1 (c : Dev nD) (t : Fin cfg1.N) :
    (dat1 (F := Ideal) V c).flushed 5 t = ((cfg1.win 5).blk t).view.read (Elt Ideal)
      (Cert.Net.dualG 0xBF800000#32 (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero d_hz1]
  simp only [View.ld_unit_zero (S := S5000x64) d_hz1, View.ld_unit_zero (S := S64x64) d_hz1, View.ld_unit_zero (S := S1x64) d_hz1]
  rw [k1_pay1_eq]
  obtain ⟨-, -, -, -, -, -, -, -, -, -, e0, e1⟩ := d_idx1 t
  funext j
  show d_dual 0xBF800000#32 (iblk1 V c 0 t) (iblk1 V c 1 t) (iblk1 V c 2 t) (iblk1 V c 3 t) (iblk1 V c 4 t) j
    = Cert.Net.dualG 0xBF800000#32 (V c (Pipeline.arrRef spec1 0)) (V c (Pipeline.arrRef spec1 1)) (V c (Pipeline.arrRef spec1 2)) (V c (Pipeline.arrRef spec1 3)) (V c (Pipeline.arrRef spec1 4)) (((cfg1.win 5).blk t).view.emb j)
  refine d_dual_entry 0xBF800000#32 (V c (Pipeline.arrRef spec1 0)) (V c (Pipeline.arrRef spec1 1)) (V c (Pipeline.arrRef spec1 2)) (V c (Pipeline.arrRef spec1 3)) (V c (Pipeline.arrRef spec1 4))
    (iblk1 V c 0 t) (iblk1 V c 1 t) (iblk1 V c 2 t) (iblk1 V c 3 t) (iblk1 V c 4 t) j
    (((cfg1.win 5).blk t).view.emb j) t.val ?_ ?_ (d_rows1_0 V c t) (d_rows1_1 V c t) (d_whole1_2 V c t) (d_whole1_3 V c t)
    (d_whole1_4 V c t)
  · show win1_5.index t (0 : Fin 2) * 5000 + 1 * (j 0).val = t.val * 5000 + (j 0).val
    rw [e0]; omega
  · show win1_5.index t (1 : Fin 2) * 64 + 1 * (j 1).val = (j 1).val
    rw [e1]; omega

/-- An index of the result array is in point `t`'s block iff each coordinate is in the block's range on its axis. -/
theorem d_mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v40).slice (win1_5.rect t)).set ↔ _
  rw [View.set_slice_whole, Rect.mem_set_unit]
  exact Iff.rfl

/-- Row `ρ` of the result array lies in the block of point `ρ / 5000`, which writes back: the 20 blocks cover the array. -/
theorem d_cover1 (i : S100000x64.Idx) :
    ∃ t : Fin cfg1.N, (cfg1.win 5).flush t = true ∧ i ∈ ((cfg1.win 5).blk t).view.set := by
  have hi0 : (i 0).val < 100000 := idx2_lt0 i
  have hi1 : (i 1).val < 64 := idx2_lt1 i
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, e0, e1⟩ := d_idx1 t
  refine ⟨t, flush1_5 t, ?_⟩
  rw [d_mem_blk1]
  intro a
  match a with
  | ⟨0, _⟩ =>
    show win1_5.index t (0 : Fin 2) * 5000 ≤ (i 0).val ∧ (i 0).val < win1_5.index t (0 : Fin 2) * 5000 + 5000
    rw [e0, ht]; omega
  | ⟨1, _⟩ =>
    show win1_5.index t (1 : Fin 2) * 64 ≤ (i 1).val ∧ (i 1).val < win1_5.index t (1 : Fin 2) * 64 + 64
    rw [e1]; omega

/-- THE RESULT ARRAY after the region: the two-product layer of the arrays the region finds. -/
theorem d_final1 (c : Dev nD) :
    (dat1 (F := Ideal) V c).arrAt 5 cfg1.N = Cert.Net.dualG 0xBF800000#32 (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5
    (Cert.Net.dualG 0xBF800000#32 (V c (Pipeline.arrRef spec1 0)) (V c (Pipeline.arrRef spec1 1)) (V c (Pipeline.arrRef spec1 2)) (V c (Pipeline.arrRef spec1 3)) (V c (Pipeline.arrRef spec1 4)))
    (fun t _ => d_flushed1 V c t) (fun i => d_cover1 i)

/-- With the weights the two halves of `Wc`, the bias `bc` as a row, and the second node array and `Wc` real: the
    result array is `[feat, -ah] Wc + bc`. -/
theorem dual1 (c : Dev nD) (Wc : Cert.Net.CF Ideal Cert.ReferenceIdeal.S128x64) (bc : Cert.Net.CF Ideal Cert.ReferenceIdeal.S64)
    (hwa : V c (Pipeline.arrRef spec1 2) = Cert.Net.top Wc) (hwb : V c (Pipeline.arrRef spec1 3) = Cert.Net.bot Wc)
    (hbias : V c (Pipeline.arrRef spec1 4) = Cert.Net.r64 bc)
    (hB : Cert.Net.IsReal (V c (Pipeline.arrRef spec1 1))) (hW : Cert.Net.IsReal Wc) :
    (Gen.dat1 (F := Ideal) V c).arrAt 5 cfg1.N
      = Cert.Net.cheb (V c (Pipeline.arrRef spec1 0)) (V c (Pipeline.arrRef spec1 1)) Wc bc := by
  rw [d_final1 V c, hwa, hwb, hbias]
  exact Cert.Net.dualG_neg_eq_cheb _ _ Wc bc hB hW

end Cert.KernelIdeal.RegVal

end
-- ==== Proof.RegDual2.lean ====
/-
  The value of the two-product region 2 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz2 : (![0, 0] : Fin 2 → Nat) = fun _ => 0 := funext fun a => by fin_cases a <;> rfl

/-- The printed index maps, decided over the 20 points: the node arrays' and the result's blocks are numbered by the
    point along the rows, the weights' and the bias row's block is the whole array. -/
theorem d_idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 0's block at point `t` is rows `5000 t …` of its array. -/
theorem d_rows2_0 (c : Dev nD) (t : Fin cfg2.N) (r : Fin 5000) (k : Fin 64) (R : Fin 100000) (hR : R.val = t.val * 5000 + r.val) :
    (iblk2 V c 0 t : Vec Ideal S5000x64 .f32) (ix2 r k) = ((V c (Pipeline.arrRef spec2 0)) : S100000x64.Idx → EReal) (ix2 R k) := by
  obtain ⟨e0, e1, -⟩ := d_idx2 t
  unfold iblk2
  rw [View.read_apply]
  refine congrArg (V c (Pipeline.arrRef spec2 0)) (funext fun a => Fin.ext ?_)
  match a with
  | ⟨0, _⟩ => show win2_0.index t (0 : Fin 2) * 5000 + 1 * r.val = R.val; rw [e0, hR]; omega
  | ⟨1, _⟩ => show win2_0.index t (1 : Fin 2) * 64 + 1 * k.val = k.val; rw [e1]; omega

/-- Window 1's block at point `t` is rows `5000 t …` of its array. -/
theorem d_rows2_1 (c : Dev nD) (t : Fin cfg2.N) (r : Fin 5000) (k : Fin 64) (R : Fin 100000) (hR : R.val = t.val * 5000 + r.val) :
    (iblk2 V c 1 t : Vec Ideal S5000x64 .f32) (ix2 r k) = ((V c (Pipeline.arrRef spec2 1)) : S100000x64.Idx → EReal) (ix2 R k) := by
  obtain ⟨-, -, e0, e1, -⟩ := d_idx2 t
  unfold iblk2
  rw [View.read_apply]
  refine congrArg (V c (Pipeline.arrRef spec2 1)) (funext fun a => Fin.ext ?_)
  match a with
  | ⟨0, _⟩ => show win2_1.index t (0 : Fin 2) * 5000 + 1 * r.val = R.val; rw [e0, hR]; omega
  | ⟨1, _⟩ => show win2_1.index t (1 : Fin 2) * 64 + 1 * k.val = k.val; rw [e1]; omega

/-- Window 2's block is its whole array at every point. -/
theorem d_whole2_2 (c : Dev nD) (t : Fin cfg2.N) :
    (iblk2 V c 2 t : Vec Ideal S64x64 .f32) = ((V c (Pipeline.arrRef spec2 2)) : S64x64.Idx → EReal) := by
  obtain ⟨-, -, -, -, e0, e1, -⟩ := d_idx2 t
  funext y
  unfold iblk2
  rw [View.read_apply]
  refine congrArg (V c (Pipeline.arrRef spec2 2)) (funext fun a => Fin.ext ?_)
  match a with
  | ⟨0, _⟩ => show win2_2.index t (0 : Fin 2) * 64 + 1 * (y 0).val = (y 0).val; rw [e0]; omega
  | ⟨1, _⟩ => show win2_2.index t (1 : Fin 2) * 64 + 1 * (y 1).val = (y 1).val; rw [e1]; omega

/-- Window 3's block is its whole array at every point. -/
theorem d_whole2_3 (c : Dev nD) (t : Fin cfg2.N) :
    (iblk2 V c 3 t : Vec Ideal S64x64 .f32) = ((V c (Pipeline.arrRef spec2 3)) : S64x64.Idx → EReal) := by
  obtain ⟨-, -, -, -, -, -, e0, e1, -⟩ := d_idx2 t
  funext y
  unfold iblk2
  rw [View.read_apply]
  refine congrArg (V c (Pipeline.arrRef spec2 3)) (funext fun a => Fin.ext ?_)
  match a with
  | ⟨0, _⟩ => show win2_3.index t (0 : Fin 2) * 64 + 1 * (y 0).val = (y 0).val; rw [e0]; omega
  | ⟨1, _⟩ => show win2_3.index t (1 : Fin 2) * 64 + 1 * (y 1).val = (y 1).val; rw [e1]; omega

/-- Window 4's block is its whole array (the bias row) at every point. -/
theorem d_whole2_4 (c : Dev nD) (t : Fin cfg2.N) :
    (iblk2 V c 4 t : Vec Ideal S1x64 .f32) = ((V c (Pipeline.arrRef spec2 4)) : S1x64.Idx → EReal) := by
  obtain ⟨-, -, -, -, -, -, -, -, e0, e1, -⟩ := d_idx2 t
  funext y
  unfold iblk2
  rw [View.read_apply]
  refine congrArg (V c (Pipeline.arrRef spec2 4)) (funext fun a => Fin.ext ?_)
  match a with
  | ⟨0, _⟩ => show win2_4.index t (0 : Fin 2) * 1 + 1 * (y 0).val = (y 0).val; rw [e0]; omega
  | ⟨1, _⟩ => show win2_4.index t (1 : Fin 2) * 64 + 1 * (y 1).val = (y 1).val; rw [e1]; omega

set_option maxHeartbeats 4000000 in
/-- WHAT POINT `t` WRITES BACK is block `t` of the two-product layer of the whole arrays. -/
theorem d_flushed2 (c : Dev nD) (t : Fin cfg2.N) :
    (dat2 (F := Ideal) V c).flushed 5 t = ((cfg2.win 5).blk t).view.read (Elt Ideal)
      (Cert.Net.dualG 0xBF800000#32 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5]
  unfold out2_5
  rw [View.canon_unit_zero d_hz2]
  simp only [View.ld_unit_zero (S := S5000x64) d_hz2, View.ld_unit_zero (S := S64x64) d_hz2, View.ld_unit_zero (S := S1x64) d_hz2]
  rw [k2_pay1_eq]
  obtain ⟨-, -, -, -, -, -, -, -, -, -, e0, e1⟩ := d_idx2 t
  funext j
  show d_dual 0xBF800000#32 (iblk2 V c 0 t) (iblk2 V c 1 t) (iblk2 V c 2 t) (iblk2 V c 3 t) (iblk2 V c 4 t) j
    = Cert.Net.dualG 0xBF800000#32 (V c (Pipeline.arrRef spec2 0)) (V c (Pipeline.arrRef spec2 1)) (V c (Pipeline.arrRef spec2 2)) (V c (Pipeline.arrRef spec2 3)) (V c (Pipeline.arrRef spec2 4)) (((cfg2.win 5).blk t).view.emb j)
  refine d_dual_entry 0xBF800000#32 (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 2 t) (iblk2 V c 3 t) (iblk2 V c 4 t) j
    (((cfg2.win 5).blk t).view.emb j) t.val ?_ ?_ (d_rows2_0 V c t) (d_rows2_1 V c t) (d_whole2_2 V c t) (d_whole2_3 V c t)
    (d_whole2_4 V c t)
  · show win2_5.index t (0 : Fin 2) * 5000 + 1 * (j 0).val = t.val * 5000 + (j 0).val
    rw [e0]; omega
  · show win2_5.index t (1 : Fin 2) * 64 + 1 * (j 1).val = (j 1).val
    rw [e1]; omega

/-- An index of the result array is in point `t`'s block iff each coordinate is in the block's range on its axis. -/
theorem d_mem_blk2 (t : Fin cfg2.N) (i : S100000x64.Idx) :
    i ∈ ((cfg2.win 5).blk t).view.set ↔ ∀ a : Fin 2, win2_5.index t a * S5000x64.size a ≤ (i a).val
      ∧ (i a).val < win2_5.index t a * S5000x64.size a + S5000x64.size a := by
  show i ∈ ((View.whole main_v67).slice (win2_5.rect t)).set ↔ _
  rw [View.set_slice_whole, Rect.mem_set_unit]
  exact Iff.rfl

/-- Row `ρ` of the result array lies in the block of point `ρ / 5000`, which writes back: the 20 blocks cover the array. -/
theorem d_cover2 (i : S100000x64.Idx) :
    ∃ t : Fin cfg2.N, (cfg2.win 5).flush t = true ∧ i ∈ ((cfg2.win 5).blk t).view.set := by
  have hi0 : (i 0).val < 100000 := idx2_lt0 i
  have hi1 : (i 1).val < 64 := idx2_lt1 i
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, -, -, -, -, -, -, e0, e1⟩ := d_idx2 t
  refine ⟨t, flush2_5 t, ?_⟩
  rw [d_mem_blk2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 64 ≤ (i 1).val ∧ (i 1).val < win2_5.index t (1 : Fin 2) * 64 + 64
    rw [e1]; omega

set_option maxHeartbeats 4000000 in
/-- THE RESULT ARRAY after the region: the two-product layer of the arrays the region finds. -/
theorem d_final2 (c : Dev nD) :
    (dat2 (F := Ideal) V c).arrAt 5 cfg2.N = Cert.Net.dualG 0xBF800000#32 (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5
    (Cert.Net.dualG 0xBF800000#32 (V c (Pipeline.arrRef spec2 0)) (V c (Pipeline.arrRef spec2 1)) (V c (Pipeline.arrRef spec2 2)) (V c (Pipeline.arrRef spec2 3)) (V c (Pipeline.arrRef spec2 4)))
    (fun t _ => d_flushed2 V c t) (fun i => d_cover2 i)

set_option maxHeartbeats 4000000 in
/-- With the weights the two halves of `Wc`, the bias `bc` as a row, and the second node array and `Wc` real: the
    result array is `[feat, -ah] Wc + bc`. -/
theorem dual2 (c : Dev nD) (Wc : Cert.Net.CF Ideal Cert.ReferenceIdeal.S128x64) (bc : Cert.Net.CF Ideal Cert.ReferenceIdeal.S64)
    (hwa : V c (Pipeline.arrRef spec2 2) = Cert.Net.top Wc) (hwb : V c (Pipeline.arrRef spec2 3) = Cert.Net.bot Wc)
    (hbias : V c (Pipeline.arrRef spec2 4) = Cert.Net.r64 bc)
    (hB : Cert.Net.IsReal (V c (Pipeline.arrRef spec2 1))) (hW : Cert.Net.IsReal Wc) :
    (Gen.dat2 (F := Ideal) V c).arrAt 5 cfg2.N
      = Cert.Net.cheb (V c (Pipeline.arrRef spec2 0)) (V c (Pipeline.arrRef spec2 1)) Wc bc := by
  rw [d_final2 V c, hwa, hwb, hbias]
  exact Cert.Net.dualG_neg_eq_cheb _ _ Wc bc hB hW

end Cert.KernelIdeal.RegVal

end
-- ==== Proof.RegDual4.lean ====
/-
  The value of the two-product region 4 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz4 : (![0, 0] : Fin 2 → Nat) = fun _ => 0 := funext fun a => by fin_cases a <;> rfl

/-- The printed index maps, decided over the 20 points: the node arrays' and the result's blocks are numbered by the
    point along the rows, the weights' and the bias row's block is the whole array. -/
theorem d_idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point `t` is rows `5000 t …` of its array. -/
theorem d_rows4_0 (c : Dev nD) (t : Fin cfg4.N) (r : Fin 5000) (k : Fin 64) (R : Fin 100000) (hR : R.val = t.val * 5000 + r.val) :
    (iblk4 V c 0 t : Vec Ideal S5000x64 .f32) (ix2 r k) = ((V c (Pipeline.arrRef spec4 0)) : S100000x64.Idx → EReal) (ix2 R k) := by
  obtain ⟨e0, e1, -⟩ := d_idx4 t
  unfold iblk4
  rw [View.read_apply]
  refine congrArg (V c (Pipeline.arrRef spec4 0)) (funext fun a => Fin.ext ?_)
  match a with
  | ⟨0, _⟩ => show win4_0.index t (0 : Fin 2) * 5000 + 1 * r.val = R.val; rw [e0, hR]; omega
  | ⟨1, _⟩ => show win4_0.index t (1 : Fin 2) * 64 + 1 * k.val = k.val; rw [e1]; omega

/-- Window 1's block at point `t` is rows `5000 t …` of its array. -/
theorem d_rows4_1 (c : Dev nD) (t : Fin cfg4.N) (r : Fin 5000) (k : Fin 64) (R : Fin 100000) (hR : R.val = t.val * 5000 + r.val) :
    (iblk4 V c 1 t : Vec Ideal S5000x64 .f32) (ix2 r k) = ((V c (Pipeline.arrRef spec4 1)) : S100000x64.Idx → EReal) (ix2 R k) := by
  obtain ⟨-, -, e0, e1, -⟩ := d_idx4 t
  unfold iblk4
  rw [View.read_apply]
  refine congrArg (V c (Pipeline.arrRef spec4 1)) (funext fun a => Fin.ext ?_)
  match a with
  | ⟨0, _⟩ => show win4_1.index t (0 : Fin 2) * 5000 + 1 * r.val = R.val; rw [e0, hR]; omega
  | ⟨1, _⟩ => show win4_1.index t (1 : Fin 2) * 64 + 1 * k.val = k.val; rw [e1]; omega

/-- Window 2's block is its whole array at every point. -/
theorem d_whole4_2 (c : Dev nD) (t : Fin cfg4.N) :
    (iblk4 V c 2 t : Vec Ideal S64x64 .f32) = ((V c (Pipeline.arrRef spec4 2)) : S64x64.Idx → EReal) := by
  obtain ⟨-, -, -, -, e0, e1, -⟩ := d_idx4 t
  funext y
  unfold iblk4
  rw [View.read_apply]
  refine congrArg (V c (Pipeline.arrRef spec4 2)) (funext fun a => Fin.ext ?_)
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- Window 3's block is its whole array at every point. -/
theorem d_whole4_3 (c : Dev nD) (t : Fin cfg4.N) :
    (iblk4 V c 3 t : Vec Ideal S64x64 .f32) = ((V c (Pipeline.arrRef spec4 3)) : S64x64.Idx → EReal) := by
  obtain ⟨-, -, -, -, -, -, e0, e1, -⟩ := d_idx4 t
  funext y
  unfold iblk4
  rw [View.read_apply]
  refine congrArg (V c (Pipeline.arrRef spec4 3)) (funext fun a => Fin.ext ?_)
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- Window 4's block is its whole array (the bias row) at every point. -/
theorem d_whole4_4 (c : Dev nD) (t : Fin cfg4.N) :
    (iblk4 V c 4 t : Vec Ideal S1x64 .f32) = ((V c (Pipeline.arrRef spec4 4)) : S1x64.Idx → EReal) := by
  obtain ⟨-, -, -, -, -, -, -, -, e0, e1, -⟩ := d_idx4 t
  funext y
  unfold iblk4
  rw [View.read_apply]
  refine congrArg (V c (Pipeline.arrRef spec4 4)) (funext fun a => Fin.ext ?_)
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- WHAT POINT `t` WRITES BACK is block `t` of the two-product layer of the whole arrays. -/
theorem d_flushed4 (c : Dev nD) (t : Fin cfg4.N) :
    (dat4 (F := Ideal) V c).flushed 5 t = ((cfg4.win 5).blk t).view.read (Elt Ideal)
      (Cert.Net.dualG 0xBF800000#32 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5]
  unfold out4_5
  rw [View.canon_unit_zero d_hz4]
  simp only [View.ld_unit_zero (S := S5000x64) d_hz4, View.ld_unit_zero (S := S64x64) d_hz4, View.ld_unit_zero (S := S1x64) d_hz4]
  rw [k4_pay1_eq]
  obtain ⟨-, -, -, -, -, -, -, -, -, -, e0, e1⟩ := d_idx4 t
  funext j
  show d_dual 0xBF800000#32 (iblk4 V c 0 t) (iblk4 V c 1 t) (iblk4 V c 2 t) (iblk4 V c 3 t) (iblk4 V c 4 t) j
    = Cert.Net.dualG 0xBF800000#32 (V c (Pipeline.arrRef spec4 0)) (V c (Pipeline.arrRef spec4 1)) (V c (Pipeline.arrRef spec4 2)) (V c (Pipeline.arrRef spec4 3)) (V c (Pipeline.arrRef spec4 4)) (((cfg4.win 5).blk t).view.emb j)
  refine d_dual_entry 0xBF800000#32 (V c (Pipeline.arrRef spec4 0)) (V c (Pipeline.arrRef spec4 1)) (V c (Pipeline.arrRef spec4 2)) (V c (Pipeline.arrRef spec4 3)) (V c (Pipeline.arrRef spec4 4))
    (iblk4 V c 0 t) (iblk4 V c 1 t) (iblk4 V c 2 t) (iblk4 V c 3 t) (iblk4 V c 4 t) j
    (((cfg4.win 5).blk t).view.emb j) t.val ?_ ?_ (d_rows4_0 V c t) (d_rows4_1 V c t) (d_whole4_2 V c t) (d_whole4_3 V c t)
    (d_whole4_4 V c t)
  · show win4_5.index t (0 : Fin 2) * 5000 + 1 * (j 0).val = t.val * 5000 + (j 0).val
    rw [e0]; omega
  · show win4_5.index t (1 : Fin 2) * 64 + 1 * (j 1).val = (j 1).val
    rw [e1]; omega

/-- An index of the result array is in point `t`'s block iff each coordinate is in the block's range on its axis. -/
theorem d_mem_blk4 (t : Fin cfg4.N) (i : S100000x64.Idx) :
    i ∈ ((cfg4.win 5).blk t).view.set ↔ ∀ a : Fin 2, win4_5.index t a * S5000x64.size a ≤ (i a).val
      ∧ (i a).val < win4_5.index t a * S5000x64.size a + S5000x64.size a := by
  show i ∈ ((View.whole main_v100).slice (win4_5.rect t)).set ↔ _
  rw [View.set_slice_whole, Rect.mem_set_unit]
  exact Iff.rfl

/-- Row `ρ` of the result array lies in the block of point `ρ / 5000`, which writes back: the 20 blocks cover the array. -/
theorem d_cover4 (i : S100000x64.Idx) :
    ∃ t : Fin cfg4.N, (cfg4.win 5).flush t = true ∧ i ∈ ((cfg4.win 5).blk t).view.set := by
  have hi0 : (i 0).val < 100000 := idx2_lt0 i
  have hi1 : (i 1).val < 64 := idx2_lt1 i
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, -, -, -, -, -, -, e0, e1⟩ := d_idx4 t
  refine ⟨t, flush4_5 t, ?_⟩
  rw [d_mem_blk4]
  intro a
  match a with
  | ⟨0, _⟩ =>
    show win4_5.index t (0 : Fin 2) * 5000 ≤ (i 0).val ∧ (i 0).val < win4_5.index t (0 : Fin 2) * 5000 + 5000
    rw [e0, ht]; omega
  | ⟨1, _⟩ =>
    show win4_5.index t (1 : Fin 2) * 64 ≤ (i 1).val ∧ (i 1).val < win4_5.index t (1 : Fin 2) * 64 + 64
    rw [e1]; omega

/-- THE RESULT ARRAY after the region: the two-product layer of the arrays the region finds. -/
theorem d_final4 (c : Dev nD) :
    (dat4 (F := Ideal) V c).arrAt 5 cfg4.N = Cert.Net.dualG 0xBF800000#32 (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5
    (Cert.Net.dualG 0xBF800000#32 (V c (Pipeline.arrRef spec4 0)) (V c (Pipeline.arrRef spec4 1)) (V c (Pipeline.arrRef spec4 2)) (V c (Pipeline.arrRef spec4 3)) (V c (Pipeline.arrRef spec4 4)))
    (fun t _ => d_flushed4 V c t) (fun i => d_cover4 i)

/-- With the weights the two halves of `Wc`, the bias `bc` as a row, and the second node array and `Wc` real: the
    result array is `[feat, -ah] Wc + bc`. -/
theorem dual4 (c : Dev nD) (Wc : Cert.Net.CF Ideal Cert.ReferenceIdeal.S128x64) (bc : Cert.Net.CF Ideal Cert.ReferenceIdeal.S64)
    (hwa : V c (Pipeline.arrRef spec4 2) = Cert.Net.top Wc) (hwb : V c (Pipeline.arrRef spec4 3) = Cert.Net.bot Wc)
    (hbias : V c (Pipeline.arrRef spec4 4) = Cert.Net.r64 bc)
    (hB : Cert.Net.IsReal (V c (Pipeline.arrRef spec4 1))) (hW : Cert.Net.IsReal Wc) :
    (Gen.dat4 (F := Ideal) V c).arrAt 5 cfg4.N
      = Cert.Net.cheb (V c (Pipeline.arrRef spec4 0)) (V c (Pipeline.arrRef spec4 1)) Wc bc := by
  rw [d_final4 V c, hwa, hwb, hbias]
  exact Cert.Net.dualG_neg_eq_cheb _ _ Wc bc hB hW

end Cert.KernelIdeal.RegVal

end
-- ==== Proof.RegDual5.lean ====
/-
  The value of the two-product region 5 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz5 : (![0, 0] : Fin 2 → Nat) = fun _ => 0 := funext fun a => by fin_cases a <;> rfl

/-- The printed index maps, decided over the 20 points: the node arrays' and the result's blocks are numbered by the
    point along the rows, the weights' and the bias row's block is the whole array. -/
theorem d_idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 0's block at point `t` is rows `5000 t …` of its array. -/
theorem d_rows5_0 (c : Dev nD) (t : Fin cfg5.N) (r : Fin 5000) (k : Fin 64) (R : Fin 100000) (hR : R.val = t.val * 5000 + r.val) :
    (iblk5 V c 0 t : Vec Ideal S5000x64 .f32) (ix2 r k) = ((V c (Pipeline.arrRef spec5 0)) : S100000x64.Idx → EReal) (ix2 R k) := by
  obtain ⟨e0, e1, -⟩ := d_idx5 t
  unfold iblk5
  rw [View.read_apply]
  refine congrArg (V c (Pipeline.arrRef spec5 0)) (funext fun a => Fin.ext ?_)
  match a with
  | ⟨0, _⟩ => show win5_0.index t (0 : Fin 2) * 5000 + 1 * r.val = R.val; rw [e0, hR]; omega
  | ⟨1, _⟩ => show win5_0.index t (1 : Fin 2) * 64 + 1 * k.val = k.val; rw [e1]; omega

/-- Window 1's block at point `t` is rows `5000 t …` of its array. -/
theorem d_rows5_1 (c : Dev nD) (t : Fin cfg5.N) (r : Fin 5000) (k : Fin 64) (R : Fin 100000) (hR : R.val = t.val * 5000 + r.val) :
    (iblk5 V c 1 t : Vec Ideal S5000x64 .f32) (ix2 r k) = ((V c (Pipeline.arrRef spec5 1)) : S100000x64.Idx → EReal) (ix2 R k) := by
  obtain ⟨-, -, e0, e1, -⟩ := d_idx5 t
  unfold iblk5
  rw [View.read_apply]
  refine congrArg (V c (Pipeline.arrRef spec5 1)) (funext fun a => Fin.ext ?_)
  match a with
  | ⟨0, _⟩ => show win5_1.index t (0 : Fin 2) * 5000 + 1 * r.val = R.val; rw [e0, hR]; omega
  | ⟨1, _⟩ => show win5_1.index t (1 : Fin 2) * 64 + 1 * k.val = k.val; rw [e1]; omega

/-- Window 2's block is its whole array at every point. -/
theorem d_whole5_2 (c : Dev nD) (t : Fin cfg5.N) :
    (iblk5 V c 2 t : Vec Ideal S64x64 .f32) = ((V c (Pipeline.arrRef spec5 2)) : S64x64.Idx → EReal) := by
  obtain ⟨-, -, -, -, e0, e1, -⟩ := d_idx5 t
  funext y
  unfold iblk5
  rw [View.read_apply]
  refine congrArg (V c (Pipeline.arrRef spec5 2)) (funext fun a => Fin.ext ?_)
  match a with
  | ⟨0, _⟩ => show win5_2.index t (0 : Fin 2) * 64 + 1 * (y 0).val = (y 0).val; rw [e0]; omega
  | ⟨1, _⟩ => show win5_2.index t (1 : Fin 2) * 64 + 1 * (y 1).val = (y 1).val; rw [e1]; omega

/-- Window 3's block is its whole array at every point. -/
theorem d_whole5_3 (c : Dev nD) (t : Fin cfg5.N) :
    (iblk5 V c 3 t : Vec Ideal S64x64 .f32) = ((V c (Pipeline.arrRef spec5 3)) : S64x64.Idx → EReal) := by
  obtain ⟨-, -, -, -, -, -, e0, e1, -⟩ := d_idx5 t
  funext y
  unfold iblk5
  rw [View.read_apply]
  refine congrArg (V c (Pipeline.arrRef spec5 3)) (funext fun a => Fin.ext ?_)
  match a with
  | ⟨0, _⟩ => show win5_3.index t (0 : Fin 2) * 64 + 1 * (y 0).val = (y 0).val; rw [e0]; omega
  | ⟨1, _⟩ => show win5_3.index t (1 : Fin 2) * 64 + 1 * (y 1).val = (y 1).val; rw [e1]; omega

/-- Window 4's block is its whole array (the bias row) at every point. -/
theorem d_whole5_4 (c : Dev nD) (t : Fin cfg5.N) :
    (iblk5 V c 4 t : Vec Ideal S1x64 .f32) = ((V c (Pipeline.arrRef spec5 4)) : S1x64.Idx → EReal) := by
  obtain ⟨-, -, -, -, -, -, -, -, e0, e1, -⟩ := d_idx5 t
  funext y
  unfold iblk5
  rw [View.read_apply]
  refine congrArg (V c (Pipeline.arrRef spec5 4)) (funext fun a => Fin.ext ?_)
  match a with
  | ⟨0, _⟩ => show win5_4.index t (0 : Fin 2) * 1 + 1 * (y 0).val = (y 0).val; rw [e0]; omega
  | ⟨1, _⟩ => show win5_4.index t (1 : Fin 2) * 64 + 1 * (y 1).val = (y 1).val; rw [e1]; omega

/-- WHAT POINT `t` WRITES BACK is block `t` of the two-product layer of the whole arrays. -/
theorem d_flushed5 (c : Dev nD) (t : Fin cfg5.N) :
    (dat5 (F := Ideal) V c).flushed 5 t = ((cfg5.win 5).blk t).view.read (Elt Ideal)
      (Cert.Net.dualG 0xBF800000#32 (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero d_hz5]
  simp only [View.ld_unit_zero (S := S5000x64) d_hz5, View.ld_unit_zero (S := S64x64) d_hz5, View.ld_unit_zero (S := S1x64) d_hz5]
  rw [k5_pay1_eq]
  obtain ⟨-, -, -, -, -, -, -, -, -, -, e0, e1⟩ := d_idx5 t
  funext j
  show d_dual 0xBF800000#32 (iblk5 V c 0 t) (iblk5 V c 1 t) (iblk5 V c 2 t) (iblk5 V c 3 t) (iblk5 V c 4 t) j
    = Cert.Net.dualG 0xBF800000#32 (V c (Pipeline.arrRef spec5 0)) (V c (Pipeline.arrRef spec5 1)) (V c (Pipeline.arrRef spec5 2)) (V c (Pipeline.arrRef spec5 3)) (V c (Pipeline.arrRef spec5 4)) (((cfg5.win 5).blk t).view.emb j)
  refine d_dual_entry 0xBF800000#32 (V c (Pipeline.arrRef spec5 0)) (V c (Pipeline.arrRef spec5 1)) (V c (Pipeline.arrRef spec5 2)) (V c (Pipeline.arrRef spec5 3)) (V c (Pipeline.arrRef spec5 4))
    (iblk5 V c 0 t) (iblk5 V c 1 t) (iblk5 V c 2 t) (iblk5 V c 3 t) (iblk5 V c 4 t) j
    (((cfg5.win 5).blk t).view.emb j) t.val ?_ ?_ (d_rows5_0 V c t) (d_rows5_1 V c t) (d_whole5_2 V c t) (d_whole5_3 V c t)
    (d_whole5_4 V c t)
  · show win5_5.index t (0 : Fin 2) * 5000 + 1 * (j 0).val = t.val * 5000 + (j 0).val
    rw [e0]; omega
  · show win5_5.index t (1 : Fin 2) * 64 + 1 * (j 1).val = (j 1).val
    rw [e1]; omega

/-- An index of the result array is in point `t`'s block iff each coordinate is in the block's range on its axis. -/
theorem d_mem_blk5 (t : Fin cfg5.N) (i : S100000x64.Idx) :
    i ∈ ((cfg5.win 5).blk t).view.set ↔ ∀ a : Fin 2, win5_5.index t a * S5000x64.size a ≤ (i a).val
      ∧ (i a).val < win5_5.index t a * S5000x64.size a + S5000x64.size a := by
  show i ∈ ((View.whole main_v127).slice (win5_5.rect t)).set ↔ _
  rw [View.set_slice_whole, Rect.mem_set_unit]
  exact Iff.rfl

/-- Row `ρ` of the result array lies in the block of point `ρ / 5000`, which writes back: the 20 blocks cover the array. -/
theorem d_cover5 (i : S100000x64.Idx) :
    ∃ t : Fin cfg5.N, (cfg5.win 5).flush t = true ∧ i ∈ ((cfg5.win 5).blk t).view.set := by
  have hi0 : (i 0).val < 100000 := idx2_lt0 i
  have hi1 : (i 1).val < 64 := idx2_lt1 i
  have hN : cfg5.N = 20 := N_5
  obtain ⟨t, ht⟩ : ∃ t : Fin cfg5.N, t.val = (i 0).val / 5000 := ⟨⟨(i 0).val / 5000, by rw [hN]; omega⟩, rfl⟩
  obtain ⟨-, -, -, -, -, -, -, -, -, -, e0, e1⟩ := d_idx5 t
  refine ⟨t, flush5_5 t, ?_⟩
  rw [d_mem_blk5]
  intro a
  match a with
  | ⟨0, _⟩ =>
    show win5_5.index t (0 : Fin 2) * 5000 ≤ (i 0).val ∧ (i 0).val < win5_5.index t (0 : Fin 2) * 5000 + 5000
    rw [e0, ht]; omega
  | ⟨1, _⟩ =>
    show win5_5.index t (1 : Fin 2) * 64 ≤ (i 1).val ∧ (i 1).val < win5_5.index t (1 : Fin 2) * 64 + 64
    rw [e1]; omega

/-- THE RESULT ARRAY after the region: the two-product layer of the arrays the region finds. -/
theorem d_final5 (c : Dev nD) :
    (dat5 (F := Ideal) V c).arrAt 5 cfg5.N = Cert.Net.dualG 0xBF800000#32 (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5
    (Cert.Net.dualG 0xBF800000#32 (V c (Pipeline.arrRef spec5 0)) (V c (Pipeline.arrRef spec5 1)) (V c (Pipeline.arrRef spec5 2)) (V c (Pipeline.arrRef spec5 3)) (V c (Pipeline.arrRef spec5 4)))
    (fun t _ => d_flushed5 V c t) (fun i => d_cover5 i)

/-- With the weights the two halves of `Wc`, the bias `bc` as a row, and the second node array and `Wc` real: the
    result array is `[feat, -ah] Wc + bc`. -/
theorem dual5 (c : Dev nD) (Wc : Cert.Net.CF Ideal Cert.ReferenceIdeal.S128x64) (bc : Cert.Net.CF Ideal Cert.ReferenceIdeal.S64)
    (hwa : V c (Pipeline.arrRef spec5 2) = Cert.Net.top Wc) (hwb : V c (Pipeline.arrRef spec5 3) = Cert.Net.bot Wc)
    (hbias : V c (Pipeline.arrRef spec5 4) = Cert.Net.r64 bc)
    (hB : Cert.Net.IsReal (V c (Pipeline.arrRef spec5 1))) (hW : Cert.Net.IsReal Wc) :
    (Gen.dat5 (F := Ideal) V c).arrAt 5 cfg5.N
      = Cert.Net.cheb (V c (Pipeline.arrRef spec5 0)) (V c (Pipeline.arrRef spec5 1)) Wc bc := by
  rw [d_final5 V c, hwa, hwb, hbias]
  exact Cert.Net.dualG_neg_eq_cheb _ _ Wc bc hB hW

end Cert.KernelIdeal.RegVal

end
-- ==== Proof.RegDual7.lean ====
/-
  The value of the two-product region 7 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz7 : (![0, 0] : Fin 2 → Nat) = fun _ => 0 := funext fun a => by fin_cases a <;> rfl

/-- The printed index maps, decided over the 20 points: the node arrays' and the result's blocks are numbered by the
    point along the rows, the weights' and the bias row's block is the whole array. -/
theorem d_idx7 : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = t.val ∧ win7_5.index t (1 : Fin 2) = 0 :=
  (by decide +kernel : ∀ t : Fin grid7.N, _)

/-- Window 0's block at point `t` is rows `5000 t …` of its array. -/
theorem d_rows7_0 (c : Dev nD) (t : Fin cfg7.N) (r : Fin 5000) (k : Fin 64) (R : Fin 100000) (hR : R.val = t.val * 5000 + r.val) :
    (iblk7 V c 0 t : Vec Ideal S5000x64 .f32) (ix2 r k) = ((V c (Pipeline.arrRef spec7 0)) : S100000x64.Idx → EReal) (ix2 R k) := by
  obtain ⟨e0, e1, -⟩ := d_idx7 t
  unfold iblk7
  rw [View.read_apply]
  refine congrArg (V c (Pipeline.arrRef spec7 0)) (funext fun a => Fin.ext ?_)
  match a with
  | ⟨0, _⟩ => show win7_0.index t (0 : Fin 2) * 5000 + 1 * r.val = R.val; rw [e0, hR]; omega
  | ⟨1, _⟩ => show win7_0.index t (1 : Fin 2) * 64 + 1 * k.val = k.val; rw [e1]; omega

/-- Window 1's block at point `t` is rows `5000 t …` of its array. -/
theorem d_rows7_1 (c : Dev nD) (t : Fin cfg7.N) (r : Fin 5000) (k : Fin 64) (R : Fin 100000) (hR : R.val = t.val * 5000 + r.val) :
    (iblk7 V c 1 t : Vec Ideal S5000x64 .f32) (ix2 r k) = ((V c (Pipeline.arrRef spec7 1)) : S100000x64.Idx → EReal) (ix2 R k) := by
  obtain ⟨-, -, e0, e1, -⟩ := d_idx7 t
  unfold iblk7
  rw [View.read_apply]
  refine congrArg (V c (Pipeline.arrRef spec7 1)) (funext fun a => Fin.ext ?_)
  match a with
  | ⟨0, _⟩ => show win7_1.index t (0 : Fin 2) * 5000 + 1 * r.val = R.val; rw [e0, hR]; omega
  | ⟨1, _⟩ => show win7_1.index t (1 : Fin 2) * 64 + 1 * k.val = k.val; rw [e1]; omega

/-- Window 2's block is its whole array at every point. -/
theorem d_whole7_2 (c : Dev nD) (t : Fin cfg7.N) :
    (iblk7 V c 2 t : Vec Ideal S64x64 .f32) = ((V c (Pipeline.arrRef spec7 2)) : S64x64.Idx → EReal) := by
  obtain ⟨-, -, -, -, e0, e1, -⟩ := d_idx7 t
  funext y
  unfold iblk7
  rw [View.read_apply]
  refine congrArg (V c (Pipeline.arrRef spec7 2)) (funext fun a => Fin.ext ?_)
  match a with
  | ⟨0, _⟩ => show win7_2.index t (0 : Fin 2) * 64 + 1 * (y 0).val = (y 0).val; rw [e0]; omega
  | ⟨1, _⟩ => show win7_2.index t (1 : Fin 2) * 64 + 1 * (y 1).val = (y 1).val; rw [e1]; omega

/-- Window 3's block is its whole array at every point. -/
theorem d_whole7_3 (c : Dev nD) (t : Fin cfg7.N) :
    (iblk7 V c 3 t : Vec Ideal S64x64 .f32) = ((V c (Pipeline.arrRef spec7 3)) : S64x64.Idx → EReal) := by
  obtain ⟨-, -, -, -, -, -, e0, e1, -⟩ := d_idx7 t
  funext y
  unfold iblk7
  rw [View.read_apply]
  refine congrArg (V c (Pipeline.arrRef spec7 3)) (funext fun a => Fin.ext ?_)
  match a with
  | ⟨0, _⟩ => show win7_3.index t (0 : Fin 2) * 64 + 1 * (y 0).val = (y 0).val; rw [e0]; omega
  | ⟨1, _⟩ => show win7_3.index t (1 : Fin 2) * 64 + 1 * (y 1).val = (y 1).val; rw [e1]; omega

/-- Window 4's block is its whole array (the bias row) at every point. -/
theorem d_whole7_4 (c : Dev nD) (t : Fin cfg7.N) :
    (iblk7 V c 4 t : Vec Ideal S1x64 .f32) = ((V c (Pipeline.arrRef spec7 4)) : S1x64.Idx → EReal) := by
  obtain ⟨-, -, -, -, -, -, -, -, e0, e1, -⟩ := d_idx7 t
  funext y
  unfold iblk7
  rw [View.read_apply]
  refine congrArg (V c (Pipeline.arrRef spec7 4)) (funext fun a => Fin.ext ?_)
  match a with
  | ⟨0, _⟩ => show win7_4.index t (0 : Fin 2) * 1 + 1 * (y 0).val = (y 0).val; rw [e0]; omega
  | ⟨1, _⟩ => show win7_4.index t (1 : Fin 2) * 64 + 1 * (y 1).val = (y 1).val; rw [e1]; omega

set_option maxHeartbeats 4000000 in
/-- WHAT POINT `t` WRITES BACK is block `t` of the two-product layer of the whole arrays. -/
theorem d_flushed7 (c : Dev nD) (t : Fin cfg7.N) :
    (dat7 (F := Ideal) V c).flushed 5 t = ((cfg7.win 5).blk t).view.read (Elt Ideal)
      (Cert.Net.dualG 0xBF800000#32 (V c (Pipeline.arrRef spec7 0)) (V c (Pipeline.arrRef spec7 1)) (V c (Pipeline.arrRef spec7 2)) (V c (Pipeline.arrRef spec7 3)) (V c (Pipeline.arrRef spec7 4))) := by
  show (cfg7.win 5).cut (grid7.coords t) ((dat7 (F := Ideal) V c).after 5 t) = _
  rw [after7_5]
  unfold out7_5
  rw [View.canon_unit_zero d_hz7]
  simp only [View.ld_unit_zero (S := S5000x64) d_hz7, View.ld_unit_zero (S := S64x64) d_hz7, View.ld_unit_zero (S := S1x64) d_hz7]
  rw [k7_pay1_eq]
  obtain ⟨-, -, -, -, -, -, -, -, -, -, e0, e1⟩ := d_idx7 t
  funext j
  show d_dual 0xBF800000#32 (iblk7 V c 0 t) (iblk7 V c 1 t) (iblk7 V c 2 t) (iblk7 V c 3 t) (iblk7 V c 4 t) j
    = Cert.Net.dualG 0xBF800000#32 (V c (Pipeline.arrRef spec7 0)) (V c (Pipeline.arrRef spec7 1)) (V c (Pipeline.arrRef spec7 2)) (V c (Pipeline.arrRef spec7 3)) (V c (Pipeline.arrRef spec7 4)) (((cfg7.win 5).blk t).view.emb j)
  refine d_dual_entry 0xBF800000#32 (V c (Pipeline.arrRef spec7 0)) (V c (Pipeline.arrRef spec7 1)) (V c (Pipeline.arrRef spec7 2)) (V c (Pipeline.arrRef spec7 3)) (V c (Pipeline.arrRef spec7 4))
    (iblk7 V c 0 t) (iblk7 V c 1 t) (iblk7 V c 2 t) (iblk7 V c 3 t) (iblk7 V c 4 t) j
    (((cfg7.win 5).blk t).view.emb j) t.val ?_ ?_ (d_rows7_0 V c t) (d_rows7_1 V c t) (d_whole7_2 V c t) (d_whole7_3 V c t)
    (d_whole7_4 V c t)
  · show win7_5.index t (0 : Fin 2) * 5000 + 1 * (j 0).val = t.val * 5000 + (j 0).val
    rw [e0]; omega
  · show win7_5.index t (1 : Fin 2) * 64 + 1 * (j 1).val = (j 1).val
    rw [e1]; omega

/-- An index of the result array is in point `t`'s block iff each coordinate is in the block's range on its axis. -/
theorem d_mem_blk7 (t : Fin cfg7.N) (i : S100000x64.Idx) :
    i ∈ ((cfg7.win 5).blk t).view.set ↔ ∀ a : Fin 2, win7_5.index t a * S5000x64.size a ≤ (i a).val
      ∧ (i a).val < win7_5.index t a * S5000x64.size a + S5000x64.size a := by
  show i ∈ ((View.whole main_v160).slice (win7_5.rect t)).set ↔ _
  rw [View.set_slice_whole, Rect.mem_set_unit]
  exact Iff.rfl

/-- Row `ρ` of the result array lies in the block of point `ρ / 5000`, which writes back: the 20 blocks cover the array. -/
theorem d_cover7 (i : S100000x64.Idx) :
    ∃ t : Fin cfg7.N, (cfg7.win 5).flush t = true ∧ i ∈ ((cfg7.win 5).blk t).view.set := by
  have hi0 : (i 0).val < 100000 := idx2_lt0 i
  have hi1 : (i 1).val < 64 := idx2_lt1 i
  have hN : cfg7.N = 20 := N_7
  obtain ⟨t, ht⟩ : ∃ t : Fin cfg7.N, t.val = (i 0).val / 5000 := ⟨⟨(i 0).val / 5000, by rw [hN]; omega⟩, rfl⟩
  obtain ⟨-, -, -, -, -, -, -, -, -, -, e0, e1⟩ := d_idx7 t
  refine ⟨t, flush7_5 t, ?_⟩
  rw [d_mem_blk7]
  intro a
  match a with
  | ⟨0, _⟩ =>
    show win7_5.index t (0 : Fin 2) * 5000 ≤ (i 0).val ∧ (i 0).val < win7_5.index t (0 : Fin 2) * 5000 + 5000
    rw [e0, ht]; omega
  | ⟨1, _⟩ =>
    show win7_5.index t (1 : Fin 2) * 64 ≤ (i 1).val ∧ (i 1).val < win7_5.index t (1 : Fin 2) * 64 + 64
    rw [e1]; omega

set_option maxHeartbeats 4000000 in
/-- THE RESULT ARRAY after the region: the two-product layer of the arrays the region finds. -/
theorem d_final7 (c : Dev nD) :
    (dat7 (F := Ideal) V c).arrAt 5 cfg7.N = Cert.Net.dualG 0xBF800000#32 (V c (Pipeline.arrRef spec7 0)) (V c (Pipeline.arrRef spec7 1)) (V c (Pipeline.arrRef spec7 2)) (V c (Pipeline.arrRef spec7 3)) (V c (Pipeline.arrRef spec7 4)) :=
  (dat7 (F := Ideal) V c).arrAt_eq_of_cover 5
    (Cert.Net.dualG 0xBF800000#32 (V c (Pipeline.arrRef spec7 0)) (V c (Pipeline.arrRef spec7 1)) (V c (Pipeline.arrRef spec7 2)) (V c (Pipeline.arrRef spec7 3)) (V c (Pipeline.arrRef spec7 4)))
    (fun t _ => d_flushed7 V c t) (fun i => d_cover7 i)

set_option maxHeartbeats 4000000 in
/-- With the weights the two halves of `Wc`, the bias `bc` as a row, and the second node array and `Wc` real: the
    result array is `[feat, -ah] Wc + bc`. -/
theorem dual7 (c : Dev nD) (Wc : Cert.Net.CF Ideal Cert.ReferenceIdeal.S128x64) (bc : Cert.Net.CF Ideal Cert.ReferenceIdeal.S64)
    (hwa : V c (Pipeline.arrRef spec7 2) = Cert.Net.top Wc) (hwb : V c (Pipeline.arrRef spec7 3) = Cert.Net.bot Wc)
    (hbias : V c (Pipeline.arrRef spec7 4) = Cert.Net.r64 bc)
    (hB : Cert.Net.IsReal (V c (Pipeline.arrRef spec7 1))) (hW : Cert.Net.IsReal Wc) :
    (Gen.dat7 (F := Ideal) V c).arrAt 5 cfg7.N
      = Cert.Net.cheb (V c (Pipeline.arrRef spec7 0)) (V c (Pipeline.arrRef spec7 1)) Wc bc := by
  rw [d_final7 V c, hwa, hwb, hbias]
  exact Cert.Net.dualG_neg_eq_cheb _ _ Wc bc hB hW

end Cert.KernelIdeal.RegVal

end
-- ==== Proof.RegDual8.lean ====
/-
  The value of the two-product region 8 of the kernel: its result array after the run, as a function of the arrays the
  region finds.

  The region walks 20 points; point `t` reads rows `5000 t … 5000 t + 4999` of its two node arrays (windows 0, 1) and the
  whole of the two 64 × 64 weight matrices and of the bias row (windows 2, 3, 4), and writes the body's result to rows
  `5000 t …` of the result array (window 5). The body's entry at `(r, q)` of the block is the two-product layer's entry at
  row `5000 t + r`, column `q` of the whole arrays; row `ρ` lies in block `ρ / 5000`, so the 20 blocks cover the array, which
  therefore ends holding the layer of the whole arrays. With the weights the two halves of a 128 × 64 matrix, the bias a
  vector as a row, and the second node array and the matrix real, that layer is `[feat, -ah] W + b`.
-/
import proofs.«137448_j36043365548320_2_alg».proof.Proof.Gen.KernelIdeal.Frame
import proofs.«137448_j36043365548320_2_alg».proof.Proof.RegDualPay
import Idealize.ShloMosaic.Lib.Pipeline.Value

noncomputable section

open scoped BigOperators

open Idealize.ShloMosaic Idealize.ShloMosaic.TcCoe Idealize.SL.Sem Idealize.ShloMosaic.ValueIdx
open Idealize.ShloMosaic.Pipeline (Dat)

namespace Cert.KernelIdeal.RegVal

open Cert.KernelIdeal Cert.KernelIdeal.Gen

variable (V : (c : Dev nD) → (b : Ref sig .tc) → Buf (Elt Ideal) ((c : Thread nD τ).loc b))

theorem d_hz8 : (![0, 0] : Fin 2 → Nat) = fun _ => 0 := funext fun a => by fin_cases a <;> rfl

/-- The printed index maps, decided over the 20 points: the node arrays' and the result's blocks are numbered by the
    point along the rows, the weights' and the bias row's block is the whole array. -/
theorem d_idx8 : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Window 0's block at point `t` is rows `5000 t …` of its array. -/
theorem d_rows8_0 (c : Dev nD) (t : Fin cfg8.N) (r : Fin 5000) (k : Fin 64) (R : Fin 100000) (hR : R.val = t.val * 5000 + r.val) :
    (iblk8 V c 0 t : Vec Ideal S5000x64 .f32) (ix2 r k) = ((V c (Pipeline.arrRef spec8 0)) : S100000x64.Idx → EReal) (ix2 R k) := by
  obtain ⟨e0, e1, -⟩ := d_idx8 t
  unfold iblk8
  rw [View.read_apply]
  refine congrArg (V c (Pipeline.arrRef spec8 0)) (funext fun a => Fin.ext ?_)
  match a with
  | ⟨0, _⟩ => show win8_0.index t (0 : Fin 2) * 5000 + 1 * r.val = R.val; rw [e0, hR]; omega
  | ⟨1, _⟩ => show win8_0.index t (1 : Fin 2) * 64 + 1 * k.val = k.val; rw [e1]; omega

/-- Window 1's block at point `t` is rows `5000 t …` of its array. -/
theorem d_rows8_1 (c : Dev nD) (t : Fin cfg8.N) (r : Fin 5000) (k : Fin 64) (R : Fin 100000) (hR : R.val = t.val * 5000 + r.val) :
    (iblk8 V c 1 t : Vec Ideal S5000x64 .f32) (ix2 r k) = ((V c (Pipeline.arrRef spec8 1)) : S100000x64.Idx → EReal) (ix2 R k) := by
  obtain ⟨-, -, e0, e1, -⟩ := d_idx8 t
  unfold iblk8
  rw [View.read_apply]
  refine congrArg (V c (Pipeline.arrRef spec8 1)) (funext fun a => Fin.ext ?_)
  match a with
  | ⟨0, _⟩ => show win8_1.index t (0 : Fin 2) * 5000 + 1 * r.val = R.val; rw [e0, hR]; omega
  | ⟨1, _⟩ => show win8_1.index t (1 : Fin 2) * 64 + 1 * k.val = k.val; rw [e1]; omega

/-- Window 2's block is its whole array at every point. -/
theorem d_whole8_2 (c : Dev nD) (t : Fin cfg8.N) :
    (iblk8 V c 2 t : Vec Ideal S64x64 .f32) = ((V c (Pipeline.arrRef spec8 2)) : S64x64.Idx → EReal) := by
  obtain ⟨-, -, -, -, e0, e1, -⟩ := d_idx8 t
  funext y
  unfold iblk8
  rw [View.read_apply]
  refine congrArg (V c (Pipeline.arrRef spec8 2)) (funext fun a => Fin.ext ?_)
  match a with
  | ⟨0, _⟩ => show win8_2.index t (0 : Fin 2) * 64 + 1 * (y 0).val = (y 0).val; rw [e0]; omega
  | ⟨1, _⟩ => show win8_2.index t (1 : Fin 2) * 64 + 1 * (y 1).val = (y 1).val; rw [e1]; omega

/-- Window 3's block is its whole array at every point. -/
theorem d_whole8_3 (c : Dev nD) (t : Fin cfg8.N) :
    (iblk8 V c 3 t : Vec Ideal S64x64 .f32) = ((V c (Pipeline.arrRef spec8 3)) : S64x64.Idx → EReal) := by
  obtain ⟨-, -, -, -, -, -, e0, e1, -⟩ := d_idx8 t
  funext y
  unfold iblk8
  rw [View.read_apply]
  refine congrArg (V c (Pipeline.arrRef spec8 3)) (funext fun a => Fin.ext ?_)
  match a with
  | ⟨0, _⟩ => show win8_3.index t (0 : Fin 2) * 64 + 1 * (y 0).val = (y 0).val; rw [e0]; omega
  | ⟨1, _⟩ => show win8_3.index t (1 : Fin 2) * 64 + 1 * (y 1).val = (y 1).val; rw [e1]; omega

/-- Window 4's block is its whole array (the bias row) at every point. -/
theorem d_whole8_4 (c : Dev nD) (t : Fin cfg8.N) :
    (iblk8 V c 4 t : Vec Ideal S1x64 .f32) = ((V c (Pipeline.arrRef spec8 4)) : S1x64.Idx → EReal) := by
  obtain ⟨-, -, -, -, -, -, -, -, e0, e1, -⟩ := d_idx8 t
  funext y
  unfold iblk8
  rw [View.read_apply]
  refine congrArg (V c (Pipeline.arrRef spec8 4)) (funext fun a => Fin.ext ?_)
  match a with
  | ⟨0, _⟩ => show win8_4.index t (0 : Fin 2) * 1 + 1 * (y 0).val = (y 0).val; rw [e0]; omega
  | ⟨1, _⟩ => show win8_4.index t (1 : Fin 2) * 64 + 1 * (y 1).val = (y 1).val; rw [e1]; omega

set_option maxHeartbeats 4000000 in
/-- WHAT POINT `t` WRITES BACK is block `t` of the two-product layer of the whole arrays. -/
theorem d_flushed8 (c : Dev nD) (t : Fin cfg8.N) :
    (dat8 (F := Ideal) V c).flushed 5 t = ((cfg8.win 5).blk t).view.read (Elt Ideal)
      (Cert.Net.dualG 0xBF800000#32 (V c (Pipeline.arrRef spec8 0)) (V c (Pipeline.arrRef spec8 1)) (V c (Pipeline.arrRef spec8 2)) (V c (Pipeline.arrRef spec8 3)) (V c (Pipeline.arrRef spec8 4))) := by
  show (cfg8.win 5).cut (grid8.coords t) ((dat8 (F := Ideal) V c).after 5 t) = _
  rw [after8_5]
  unfold out8_5
  rw [View.canon_unit_zero d_hz8]
  simp only [View.ld_unit_zero (S := S5000x64) d_hz8, View.ld_unit_zero (S := S64x64) d_hz8, View.ld_unit_zero (S := S1x64) d_hz8]
  rw [k8_pay1_eq]
  obtain ⟨-, -, -, -, -, -, -, -, -, -, e0, e1⟩ := d_idx8 t
  funext j
  show d_dual 0xBF800000#32 (iblk8 V c 0 t) (iblk8 V c 1 t) (iblk8 V c 2 t) (iblk8 V c 3 t) (iblk8 V c 4 t) j
    = Cert.Net.dualG 0xBF800000#32 (V c (Pipeline.arrRef spec8 0)) (V c (Pipeline.arrRef spec8 1)) (V c (Pipeline.arrRef spec8 2)) (V c (Pipeline.arrRef spec8 3)) (V c (Pipeline.arrRef spec8 4)) (((cfg8.win 5).blk t).view.emb j)
  refine d_dual_entry 0xBF800000#32 (V c (Pipeline.arrRef spec8 0)) (V c (Pipeline.arrRef spec8 1)) (V c (Pipeline.arrRef spec8 2)) (V c (Pipeline.arrRef spec8 3)) (V c (Pipeline.arrRef spec8 4))
    (iblk8 V c 0 t) (iblk8 V c 1 t) (iblk8 V c 2 t) (iblk8 V c 3 t) (iblk8 V c 4 t) j
    (((cfg8.win 5).blk t).view.emb j) t.val ?_ ?_ (d_rows8_0 V c t) (d_rows8_1 V c t) (d_whole8_2 V c t) (d_whole8_3 V c t)
    (d_whole8_4 V c t)
  · show win8_5.index t (0 : Fin 2) * 5000 + 1 * (j 0).val = t.val * 5000 + (j 0).val
    rw [e0]; omega
  · show win8_5.index t (1 : Fin 2) * 64 + 1 * (j 1).val = (j 1).val
    rw [e1]; omega

/-- An index of the result array is in point `t`'s block iff each coordinate is in the block's range on its axis. -/
theorem d_mem_blk8 (t : Fin cfg8.N) (i : S100000x64.Idx) :
    i ∈ ((cfg8.win 5).blk t).view.set ↔ ∀ a : Fin 2, win8_5.index t a * S5000x64.size a ≤ (i a).val
      ∧ (i a).val < win8_5.index t a * S5000x64.size a + S5000x64.size a := by
  show i ∈ ((View.whole main_v187).slice (win8_5.rect t)).set ↔ _
  rw [View.set_slice_whole, Rect.mem_set_unit]
  exact Iff.rfl

/-- Row `ρ` of the result array lies in the block of point `ρ / 5000`, which writes back: the 20 blocks cover the array. -/
theorem d_cover8 (i : S100000x64.Idx) :
    ∃ t : Fin cfg8.N, (cfg8.win 5).flush t = true ∧ i ∈ ((cfg8.win 5).blk t).view.set := by
  have hi0 : (i 0).val < 100000 := idx2_lt0 i
  have hi1 : (i 1).val < 64 := idx2_lt1 i
  have hN : cfg8.N = 20 := N_8
  obtain ⟨t, ht⟩ : ∃ t : Fin cfg8.N, t.val = (i 0).val / 5000 := ⟨⟨(i 0).val / 5000, by rw [hN]; omega⟩, rfl⟩
  obtain ⟨-, -, -, -, -, -, -, -, -, -, e0, e1⟩ := d_idx8 t
  refine ⟨t, flush8_5 t, ?_⟩
  rw [d_mem_blk8]
  intro a
  match a with
  | ⟨0, _⟩ =>
    show win8_5.index t (0 : Fin 2) * 5000 ≤ (i 0).val ∧ (i 0).val < win8_5.index t (0 : Fin 2) * 5000 + 5000
    rw [e0, ht]; omega
  | ⟨1, _⟩ =>
    show win8_5.index t (1 : Fin 2) * 64 ≤ (i 1).val ∧ (i 1).val < win8_5.index t (1 : Fin 2) * 64 + 64
    rw [e1]; omega

set_option maxHeartbeats 4000000 in
/-- THE RESULT ARRAY after the region: the two-product layer of the arrays the region finds. -/
theorem d_final8 (c : Dev nD) :
    (dat8 (F := Ideal) V c).arrAt 5 cfg8.N = Cert.Net.dualG 0xBF800000#32 (V c (Pipeline.arrRef spec8 0)) (V c (Pipeline.arrRef spec8 1)) (V c (Pipeline.arrRef spec8 2)) (V c (Pipeline.arrRef spec8 3)) (V c (Pipeline.arrRef spec8 4)) :=
  (dat8 (F := Ideal) V c).arrAt_eq_of_cover 5
    (Cert.Net.dualG 0xBF800000#32 (V c (Pipeline.arrRef spec8 0)) (V c (Pipeline.arrRef spec8 1)) (V c (Pipeline.arrRef spec8 2)) (V c (Pipeline.arrRef spec8 3)) (V c (Pipeline.arrRef spec8 4)))
    (fun t _ => d_flushed8 V c t) (fun i => d_cover8 i)

set_option maxHeartbeats 4000000 in
/-- With the weights the two halves of `Wc`, the bias `bc` as a row, and the second node array and `Wc` real: the
    result array is `[feat, -ah] Wc + bc`. -/
theorem dual8 (c : Dev nD) (Wc : Cert.Net.CF Ideal Cert.ReferenceIdeal.S128x64) (bc : Cert.Net.CF Ideal Cert.ReferenceIdeal.S64)
    (hwa : V c (Pipeline.arrRef spec8 2) = Cert.Net.top Wc) (hwb : V c (Pipeline.arrRef spec8 3) = Cert.Net.bot Wc)
    (hbias : V c (Pipeline.arrRef spec8 4) = Cert.Net.r64 bc)
    (hB : Cert.Net.IsReal (V c (Pipeline.arrRef spec8 1))) (hW : Cert.Net.IsReal Wc) :
    (Gen.dat8 (F := Ideal) V c).arrAt 5 cfg8.N
      = Cert.Net.cheb (V c (Pipeline.arrRef spec8 0)) (V c (Pipeline.arrRef spec8 1)) Wc bc := by
  rw [d_final8 V c, hwa, hwb, hbias]
  exact Cert.Net.dualG_neg_eq_cheb _ _ Wc bc hB hW

end Cert.KernelIdeal.RegVal

end
-- ==== Proof.RegCombPay.lean ====
/-
  The combine regions of the kernel, up to the generated frame: what one block stores, as a function of the arrays.

  A combine region reads two node arrays `A`, `B` in blocks of 5000 rows, two 64 × 64 weight matrices, a bias row and an
  accumulator, and stores `A wa + 1 · (B wb) + bias` (first output) and the accumulator plus that (second output).
  * The stored values at an entry: two 64-term sums and the bias entry (`1 · x = x`; the bf16 casts are the identity
    over the extended reals).
  * `combG`: the same expression over whole arrays; a block's stored value is `combG` at the array entry the block
    entry sits at.
  * Per region: the printed index maps decided over the 20 points, and the cover: row `r` lies in block `r / 5000`.
-/
import proofs.«137448_j36043365548320_2_alg».proof.Proof.Gen.KernelIdeal.Skeleton
import proofs.«137448_j36043365548320_2_alg».proof.Proof.Gen.KernelIdeal.Points
import proofs.«137448_j36043365548320_2_alg».proof.Proof.Gen.KernelIdeal.Launch
import proofs.«137448_j36043365548320_2_alg».proof.Proof.NetIdx1
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.KernelIdeal.RegVal

open Idealize.ShloMosaic Idealize.ShloMosaic.ValueIdx Cert.KernelIdeal Cert.KernelIdeal.Gen

/-! ## The stored values at an entry -/

/-- The combine kernel's first stored value at entry `(p, q)`: the two 64-term products and the bias row added (the
    second product is multiplied by the constant one). -/
theorem g_pay1_apply (x0 x1 : Vec Ideal S5000x64 .f32) (x2 x3 : Vec Ideal S64x64 .f32) (x4 : Vec Ideal S1x64 .f32)
    (p : Fin 5000) (q : Fin 64) :
    k3_pay1 (F := Ideal) x0 x1 x2 x3 x4 (ix2 p q)
      = (∑ k : Fin 64, x0 (ix2 p k) * x2 (ix2 k q)) + (∑ k : Fin 64, x1 (ix2 p k) * x3 (ix2 k q)) + x4 (ix2 (0 : Fin 1) q) := by
  unfold k3_pay1
  simp only [shapeCast_self]
  show (matmul _ none (truncf .bf16 x0 _) (truncf .bf16 x2 _) (constant S5000x64 .f32 0x00000000#32) (ix2 p q)
      + Ideal.ofBits .f32 0x3F800000#32 * matmul _ none (truncf .bf16 x1 _) (truncf .bf16 x3 _) (constant S5000x64 .f32 0x00000000#32) (ix2 p q))
      + broadcastTo S5000x64 x4 _ (ix2 p q) = _
  rw [Ideal.ofBits_one_f32, one_mul]
  refine congrArg₂ (· + ·) (congrArg₂ (· + ·) ?_ ?_) ?_
  · exact Cert.Net.matmul_plain_apply (M := 5000) (K := 64) (N := 64) _ rfl none _ _ p q
  · exact Cert.Net.matmul_plain_apply (M := 5000) (K := 64) (N := 64) _ rfl none _ _ p q
  · refine broadcastTo_apply _ _ _ (ix2 (0 : Fin 1) q) fun a => ?_
    match a with
    | ⟨0, _⟩ => rfl
    | ⟨1, _⟩ => rfl

/-- The second stored value: the accumulator block plus the first. -/
theorem g_pay2_apply (x0 x1 : Vec Ideal S5000x64 .f32) (x2 x3 : Vec Ideal S64x64 .f32) (x4 : Vec Ideal S1x64 .f32)
    (x5 : Vec Ideal S5000x64 .f32) (i : S5000x64.Idx) :
    k3_pay2 (F := Ideal) x0 x1 x2 x3 x4 x5 i = x5 i + k3_pay1 (F := Ideal) x0 x1 x2 x3 x4 i := by
  unfold k3_pay2
  simp only [shapeCast_self]
  rfl

/-- The later combine regions store the same two values. -/
theorem g_pay1_6 : @k6_pay1 Ideal _ = @k3_pay1 Ideal _ := rfl
theorem g_pay2_6 : @k6_pay2 Ideal _ = @k3_pay2 Ideal _ := rfl
theorem g_pay1_9 : @k9_pay1 Ideal _ = @k3_pay1 Ideal _ := rfl
theorem g_pay2_9 : @k9_pay2 Ideal _ = @k3_pay2 Ideal _ := rfl

/-! ## One block, and the whole array -/

/-- What a combine region leaves in its first output, as one function of the arrays it reads: at node `i 0` and
    column `i 1` the two 64-term products of the node's rows by the two weight matrices, and the bias, added. -/
def combG (A B : Vec Ideal S100000x64 .f32) (wa wb : Vec Ideal S64x64 .f32) (bias : Vec Ideal S1x64 .f32) :
    Vec Ideal S100000x64 .f32 := fun i =>
  (∑ k : Fin 64, A (ix2 (i 0) k) * wa (ix2 k (i 1))) + (∑ k : Fin 64, B (ix2 (i 0) k) * wb (ix2 k (i 1)))
    + bias (ix2 (0 : Fin 1) (i 1))

/-- One block of 5000 nodes: when the two node blocks are rows `5000 T + ·` of `A` and `B` and the weight and bias
    blocks are the whole arrays, the first stored value at a block entry is `combG` at the corresponding array entry. -/
theorem g_comb_block (A B : Vec Ideal S100000x64 .f32) (wa wb : Vec Ideal S64x64 .f32) (bias : Vec Ideal S1x64 .f32)
    (x0 x1 : Vec Ideal S5000x64 .f32) (x2 x3 : Vec Ideal S64x64 .f32) (x4 : Vec Ideal S1x64 .f32) (T : Nat)
    (h0 : ∀ (y : S5000x64.Idx) (k : S100000x64.Idx), (k 0).val = T * 5000 + (y 0).val → (k 1).val = (y 1).val → x0 y = A k)
    (h1 : ∀ (y : S5000x64.Idx) (k : S100000x64.Idx), (k 0).val = T * 5000 + (y 0).val → (k 1).val = (y 1).val → x1 y = B k)
    (h2 : x2 = wa) (h3 : x3 = wb) (h4 : x4 = bias)
    (y : S5000x64.Idx) (i : S100000x64.Idx) (hi0 : (i 0).val = T * 5000 + (y 0).val) (hi1 : (i 1).val = (y 1).val) :
    k3_pay1 (F := Ideal) x0 x1 x2 x3 x4 y = combG A B wa wb bias i := by
  subst h2 h3 h4
  obtain ⟨p, q, rfl⟩ : ∃ (p : Fin 5000) (q : Fin 64), y = ix2 p q := ⟨y 0, y 1, eq_ix2 y⟩
  obtain ⟨P, Q, rfl⟩ : ∃ (P : Fin 100000) (Q : Fin 64), i = ix2 P Q := ⟨i 0, i 1, eq_ix2 i⟩
  have hP : P.val = T * 5000 + p.val := hi0
  obtain rfl : Q = q := Fin.ext hi1
  rw [g_pay1_apply]
  show _ = (∑ k : Fin 64, A (ix2 P k) * x2 (ix2 k Q)) + (∑ k : Fin 64, B (ix2 P k) * x3 (ix2 k Q)) + x4 (ix2 (0 : Fin 1) Q)
  refine congrArg₂ (· + ·) (congrArg₂ (· + ·) ?_ ?_) rfl
  · exact Finset.sum_congr rfl fun k _ => by rw [h0 (ix2 p k) (ix2 P k) hP rfl]
  · exact Finset.sum_congr rfl fun k _ => by rw [h1 (ix2 p k) (ix2 P k) hP rfl]

/-- The same for the second stored value: the accumulator's block added. -/
theorem g_comb_block2 (A B Acc : Vec Ideal S100000x64 .f32) (wa wb : Vec Ideal S64x64 .f32) (bias : Vec Ideal S1x64 .f32)
    (x0 x1 x5 : Vec Ideal S5000x64 .f32) (x2 x3 : Vec Ideal S64x64 .f32) (x4 : Vec Ideal S1x64 .f32) (T : Nat)
    (h0 : ∀ (y : S5000x64.Idx) (k : S100000x64.Idx), (k 0).val = T * 5000 + (y 0).val → (k 1).val = (y 1).val → x0 y = A k)
    (h1 : ∀ (y : S5000x64.Idx) (k : S100000x64.Idx), (k 0).val = T * 5000 + (y 0).val → (k 1).val = (y 1).val → x1 y = B k)
    (h5 : ∀ (y : S5000x64.Idx) (k : S100000x64.Idx), (k 0).val = T * 5000 + (y 0).val → (k 1).val = (y 1).val → x5 y = Acc k)
    (h2 : x2 = wa) (h3 : x3 = wb) (h4 : x4 = bias)
    (y : S5000x64.Idx) (i : S100000x64.Idx) (hi0 : (i 0).val = T * 5000 + (y 0).val) (hi1 : (i 1).val = (y 1).val) :
    k3_pay2 (F := Ideal) x0 x1 x2 x3 x4 x5 y = addf Acc (combG A B wa wb bias) i := by
  rw [g_pay2_apply, g_comb_block A B wa wb bias x0 x1 x2 x3 x4 T h0 h1 h2 h3 h4 y i hi0 hi1, h5 y i hi0 hi1]
  rfl

/-! ## Region 3: where each window's block sits, and the output blocks' cover -/

/-- The printed index maps of region 3, decided over its 20 points: the node windows (0, 1, 5, 6, 7) take block `t` of
    5000 rows, the weight and bias windows (2, 3, 4) their whole array. -/
theorem g_idx3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ (win3_4.index t (0 : Fin 2) = 0 ∧ win3_4.index t (1 : Fin 2) = 0)
    ∧ (win3_5.index t (0 : Fin 2) = t.val ∧ win3_5.index t (1 : Fin 2) = 0)
    ∧ (win3_6.index t (0 : Fin 2) = t.val ∧ win3_6.index t (1 : Fin 2) = 0)
    ∧ (win3_7.index t (0 : Fin 2) = t.val ∧ win3_7.index t (1 : Fin 2) = 0) :=
  (by decide +kernel : ∀ t : Fin grid3.N, _)

/-- An index of the array is in point `t`'s block of window 6 iff each coordinate is in the block's range. -/
theorem g_mem_blk3_6 (t : Fin cfg3.N) (i : S100000x64.Idx) :
    i ∈ ((cfg3.win 6).blk t).view.set ↔ ∀ a : Fin 2, win3_6.index t a * S5000x64.size a ≤ (i a).val
      ∧ (i a).val < win3_6.index t a * S5000x64.size a + S5000x64.size a := by
  show i ∈ ((View.whole main_v69_0).slice (win3_6.rect t)).set ↔ _
  rw [View.set_slice_whole, Rect.mem_set_unit]
  exact Iff.rfl

/-- Every node row lies in the block of the point `row / 5000`. -/
theorem g_cover3_6 (i : S100000x64.Idx) :
    ∃ t : Fin cfg3.N, (cfg3.win 6).flush t = true ∧ i ∈ ((cfg3.win 6).blk t).view.set := by
  have hi0 : (i 0).val < 100000 := idx2_lt0 i
  have hi1 : (i 1).val < 64 := idx2_lt1 i
  have hN : cfg3.N = 20 := N_3
  have ht : (i 0).val / 5000 < cfg3.N := by rw [hN]; omega
  obtain ⟨-, -, -, -, -, -, e6, e7⟩ := g_idx3 ⟨(i 0).val / 5000, ht⟩
  refine ⟨⟨(i 0).val / 5000, ht⟩, flush3_6 _, ?_⟩
  rw [g_mem_blk3_6]
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [e6.1]
    show (i 0).val / 5000 * 5000 ≤ (i 0).val ∧ (i 0).val < (i 0).val / 5000 * 5000 + 5000
    omega
  | ⟨1, _⟩ =>
    show win3_6.index ⟨(i 0).val / 5000, ht⟩ (1 : Fin 2) * 64 ≤ (i 1).val
      ∧ (i 1).val < win3_6.index ⟨(i 0).val / 5000, ht⟩ (1 : Fin 2) * 64 + 64
    rw [e6.2]
    omega

/-- An index of the array is in point `t`'s block of window 7 iff each coordinate is in the block's range. -/
theorem g_mem_blk3_7 (t : Fin cfg3.N) (i : S100000x64.Idx) :
    i ∈ ((cfg3.win 7).blk t).view.set ↔ ∀ a : Fin 2, win3_7.index t a * S5000x64.size a ≤ (i a).val
      ∧ (i a).val < win3_7.index t a * S5000x64.size a + S5000x64.size a := by
  show i ∈ ((View.whole main_v69_1).slice (win3_7.rect t)).set ↔ _
  rw [View.set_slice_whole, Rect.mem_set_unit]
  exact Iff.rfl

/-- Every node row lies in the block of the point `row / 5000`. -/
theorem g_cover3_7 (i : S100000x64.Idx) :
    ∃ t : Fin cfg3.N, (cfg3.win 7).flush t = true ∧ i ∈ ((cfg3.win 7).blk t).view.set := by
  have hi0 : (i 0).val < 100000 := idx2_lt0 i
  have hi1 : (i 1).val < 64 := idx2_lt1 i
  have hN : cfg3.N = 20 := N_3
  have ht : (i 0).val / 5000 < cfg3.N := by rw [hN]; omega
  obtain ⟨-, -, -, -, -, -, e6, e7⟩ := g_idx3 ⟨(i 0).val / 5000, ht⟩
  refine ⟨⟨(i 0).val / 5000, ht⟩, flush3_7 _, ?_⟩
  rw [g_mem_blk3_7]
  intro a
  match a with
  | ⟨0, _⟩ =>
    show win3_7.index ⟨(i 0).val / 5000, ht⟩ (0 : Fin 2) * 5000 ≤ (i 0).val
      ∧ (i 0).val < win3_7.index ⟨(i 0).val / 5000, ht⟩ (0 : Fin 2) * 5000 + 5000
    rw [e7.1]
    show (i 0).val / 5000 * 5000 ≤ (i 0).val ∧ (i 0).val < (i 0).val / 5000 * 5000 + 5000
    omega
  | ⟨1, _⟩ =>
    show win3_7.index ⟨(i 0).val / 5000, ht⟩ (1 : Fin 2) * 64 ≤ (i 1).val
      ∧ (i 1).val < win3_7.index ⟨(i 0).val / 5000, ht⟩ (1 : Fin 2) * 64 + 64
    rw [e7.2]
    omega

/-! ## Region 6: where each window's block sits, and the output blocks' cover -/

/-- The printed index maps of region 6, decided over its 20 points: the node windows (0, 1, 5, 6, 7) take block `t` of
    5000 rows, the weight and bias windows (2, 3, 4) their whole array. -/
theorem g_idx6 : ∀ t : Fin cfg6.N,
    (win6_0.index t (0 : Fin 2) = t.val ∧ win6_0.index t (1 : Fin 2) = 0)
    ∧ (win6_1.index t (0 : Fin 2) = t.val ∧ win6_1.index t (1 : Fin 2) = 0)
    ∧ (win6_2.index t (0 : Fin 2) = 0 ∧ win6_2.index t (1 : Fin 2) = 0)
    ∧ (win6_3.index t (0 : Fin 2) = 0 ∧ win6_3.index t (1 : Fin 2) = 0)
    ∧ (win6_4.index t (0 : Fin 2) = 0 ∧ win6_4.index t (1 : Fin 2) = 0)
    ∧ (win6_5.index t (0 : Fin 2) = t.val ∧ win6_5.index t (1 : Fin 2) = 0)
    ∧ (win6_6.index t (0 : Fin 2) = t.val ∧ win6_6.index t (1 : Fin 2) = 0)
    ∧ (win6_7.index t (0 : Fin 2) = t.val ∧ win6_7.index t (1 : Fin 2) = 0) :=
  (by decide +kernel : ∀ t : Fin grid6.N, _)

/-- An index of the array is in point `t`'s block of window 6 iff each coordinate is in the block's range. -/
theorem g_mem_blk6_6 (t : Fin cfg6.N) (i : S100000x64.Idx) :
    i ∈ ((cfg6.win 6).blk t).view.set ↔ ∀ a : Fin 2, win6_6.index t a * S5000x64.size a ≤ (i a).val
      ∧ (i a).val < win6_6.index t a * S5000x64.size a + S5000x64.size a := by
  show i ∈ ((View.whole main_v129_0).slice (win6_6.rect t)).set ↔ _
  rw [View.set_slice_whole, Rect.mem_set_unit]
  exact Iff.rfl

/-- Every node row lies in the block of the point `row / 5000`. -/
theorem g_cover6_6 (i : S100000x64.Idx) :
    ∃ t : Fin cfg6.N, (cfg6.win 6).flush t = true ∧ i ∈ ((cfg6.win 6).blk t).view.set := by
  have hi0 : (i 0).val < 100000 := idx2_lt0 i
  have hi1 : (i 1).val < 64 := idx2_lt1 i
  have hN : cfg6.N = 20 := N_6
  have ht : (i 0).val / 5000 < cfg6.N := by rw [hN]; omega
  obtain ⟨-, -, -, -, -, -, e6, e7⟩ := g_idx6 ⟨(i 0).val / 5000, ht⟩
  refine ⟨⟨(i 0).val / 5000, ht⟩, flush6_6 _, ?_⟩
  rw [g_mem_blk6_6]
  intro a
  match a with
  | ⟨0, _⟩ =>
    show win6_6.index ⟨(i 0).val / 5000, ht⟩ (0 : Fin 2) * 5000 ≤ (i 0).val
      ∧ (i 0).val < win6_6.index ⟨(i 0).val / 5000, ht⟩ (0 : Fin 2) * 5000 + 5000
    rw [e6.1]
    show (i 0).val / 5000 * 5000 ≤ (i 0).val ∧ (i 0).val < (i 0).val / 5000 * 5000 + 5000
    omega
  | ⟨1, _⟩ =>
    show win6_6.index ⟨(i 0).val / 5000, ht⟩ (1 : Fin 2) * 64 ≤ (i 1).val
      ∧ (i 1).val < win6_6.index ⟨(i 0).val / 5000, ht⟩ (1 : Fin 2) * 64 + 64
    rw [e6.2]
    omega

/-- An index of the array is in point `t`'s block of window 7 iff each coordinate is in the block's range. -/
theorem g_mem_blk6_7 (t : Fin cfg6.N) (i : S100000x64.Idx) :
    i ∈ ((cfg6.win 7).blk t).view.set ↔ ∀ a : Fin 2, win6_7.index t a * S5000x64.size a ≤ (i a).val
      ∧ (i a).val < win6_7.index t a * S5000x64.size a + S5000x64.size a := by
  show i ∈ ((View.whole main_v129_1).slice (win6_7.rect t)).set ↔ _
  rw [View.set_slice_whole, Rect.mem_set_unit]
  exact Iff.rfl

/-- Every node row lies in the block of the point `row / 5000`. -/
theorem g_cover6_7 (i : S100000x64.Idx) :
    ∃ t : Fin cfg6.N, (cfg6.win 7).flush t = true ∧ i ∈ ((cfg6.win 7).blk t).view.set := by
  have hi0 : (i 0).val < 100000 := idx2_lt0 i
  have hi1 : (i 1).val < 64 := idx2_lt1 i
  have hN : cfg6.N = 20 := N_6
  have ht : (i 0).val / 5000 < cfg6.N := by rw [hN]; omega
  obtain ⟨-, -, -, -, -, -, e6, e7⟩ := g_idx6 ⟨(i 0).val / 5000, ht⟩
  refine ⟨⟨(i 0).val / 5000, ht⟩, flush6_7 _, ?_⟩
  rw [g_mem_blk6_7]
  intro a
  match a with
  | ⟨0, _⟩ =>
    show win6_7.index ⟨(i 0).val / 5000, ht⟩ (0 : Fin 2) * 5000 ≤ (i 0).val
      ∧ (i 0).val < win6_7.index ⟨(i 0).val / 5000, ht⟩ (0 : Fin 2) * 5000 + 5000
    rw [e7.1]
    show (i 0).val / 5000 * 5000 ≤ (i 0).val ∧ (i 0).val < (i 0).val / 5000 * 5000 + 5000
    omega
  | ⟨1, _⟩ =>
    show win6_7.index ⟨(i 0).val / 5000, ht⟩ (1 : Fin 2) * 64 ≤ (i 1).val
      ∧ (i 1).val < win6_7.index ⟨(i 0).val / 5000, ht⟩ (1 : Fin 2) * 64 + 64
    rw [e7.2]
    omega

/-! ## Region 9: where each window's block sits, and the output blocks' cover -/

/-- The printed index maps of region 9, decided over its 20 points: the node windows (0, 1, 5, 6, 7) take block `t` of
    5000 rows, the weight and bias windows (2, 3, 4) their whole array. -/
theorem g_idx9 : ∀ t : Fin cfg9.N,
    (win9_0.index t (0 : Fin 2) = t.val ∧ win9_0.index t (1 : Fin 2) = 0)
    ∧ (win9_1.index t (0 : Fin 2) = t.val ∧ win9_1.index t (1 : Fin 2) = 0)
    ∧ (win9_2.index t (0 : Fin 2) = 0 ∧ win9_2.index t (1 : Fin 2) = 0)
    ∧ (win9_3.index t (0 : Fin 2) = 0 ∧ win9_3.index t (1 : Fin 2) = 0)
    ∧ (win9_4.index t (0 : Fin 2) = 0 ∧ win9_4.index t (1 : Fin 2) = 0)
    ∧ (win9_5.index t (0 : Fin 2) = t.val ∧ win9_5.index t (1 : Fin 2) = 0)
    ∧ (win9_6.index t (0 : Fin 2) = t.val ∧ win9_6.index t (1 : Fin 2) = 0)
    ∧ (win9_7.index t (0 : Fin 2) = t.val ∧ win9_7.index t (1 : Fin 2) = 0) :=
  (by decide +kernel : ∀ t : Fin grid9.N, _)

/-- An index of the array is in point `t`'s block of window 6 iff each coordinate is in the block's range. -/
theorem g_mem_blk9_6 (t : Fin cfg9.N) (i : S100000x64.Idx) :
    i ∈ ((cfg9.win 6).blk t).view.set ↔ ∀ a : Fin 2, win9_6.index t a * S5000x64.size a ≤ (i a).val
      ∧ (i a).val < win9_6.index t a * S5000x64.size a + S5000x64.size a := by
  show i ∈ ((View.whole main_v189_0).slice (win9_6.rect t)).set ↔ _
  rw [View.set_slice_whole, Rect.mem_set_unit]
  exact Iff.rfl

/-- Every node row lies in the block of the point `row / 5000`. -/
theorem g_cover9_6 (i : S100000x64.Idx) :
    ∃ t : Fin cfg9.N, (cfg9.win 6).flush t = true ∧ i ∈ ((cfg9.win 6).blk t).view.set := by
  have hi0 : (i 0).val < 100000 := idx2_lt0 i
  have hi1 : (i 1).val < 64 := idx2_lt1 i
  have hN : cfg9.N = 20 := N_9
  have ht : (i 0).val / 5000 < cfg9.N := by rw [hN]; omega
  obtain ⟨-, -, -, -, -, -, e6, e7⟩ := g_idx9 ⟨(i 0).val / 5000, ht⟩
  refine ⟨⟨(i 0).val / 5000, ht⟩, flush9_6 _, ?_⟩
  rw [g_mem_blk9_6]
  intro a
  match a with
  | ⟨0, _⟩ =>
    show win9_6.index ⟨(i 0).val / 5000, ht⟩ (0 : Fin 2) * 5000 ≤ (i 0).val
      ∧ (i 0).val < win9_6.index ⟨(i 0).val / 5000, ht⟩ (0 : Fin 2) * 5000 + 5000
    rw [e6.1]
    show (i 0).val / 5000 * 5000 ≤ (i 0).val ∧ (i 0).val < (i 0).val / 5000 * 5000 + 5000
    omega
  | ⟨1, _⟩ =>
    show win9_6.index ⟨(i 0).val / 5000, ht⟩ (1 : Fin 2) * 64 ≤ (i 1).val
      ∧ (i 1).val < win9_6.index ⟨(i 0).val / 5000, ht⟩ (1 : Fin 2) * 64 + 64
    rw [e6.2]
    omega

/-- An index of the array is in point `t`'s block of window 7 iff each coordinate is in the block's range. -/
theorem g_mem_blk9_7 (t : Fin cfg9.N) (i : S100000x64.Idx) :
    i ∈ ((cfg9.win 7).blk t).view.set ↔ ∀ a : Fin 2, win9_7.index t a * S5000x64.size a ≤ (i a).val
      ∧ (i a).val < win9_7.index t a * S5000x64.size a + S5000x64.size a := by
  show i ∈ ((View.whole main_v189_1).slice (win9_7.rect t)).set ↔ _
  rw [View.set_slice_whole, Rect.mem_set_unit]
  exact Iff.rfl

/-- Every node row lies in the block of the point `row / 5000`. -/
theorem g_cover9_7 (i : S100000x64.Idx) :
    ∃ t : Fin cfg9.N, (cfg9.win 7).flush t = true ∧ i ∈ ((cfg9.win 7).blk t).view.set := by
  have hi0 : (i 0).val < 100000 := idx2_lt0 i
  have hi1 : (i 1).val < 64 := idx2_lt1 i
  have hN : cfg9.N = 20 := N_9
  have ht : (i 0).val / 5000 < cfg9.N := by rw [hN]; omega
  obtain ⟨-, -, -, -, -, -, e6, e7⟩ := g_idx9 ⟨(i 0).val / 5000, ht⟩
  refine ⟨⟨(i 0).val / 5000, ht⟩, flush9_7 _, ?_⟩
  rw [g_mem_blk9_7]
  intro a
  match a with
  | ⟨0, _⟩ =>
    show win9_7.index ⟨(i 0).val / 5000, ht⟩ (0 : Fin 2) * 5000 ≤ (i 0).val
      ∧ (i 0).val < win9_7.index ⟨(i 0).val / 5000, ht⟩ (0 : Fin 2) * 5000 + 5000
    rw [e7.1]
    show (i 0).val / 5000 * 5000 ≤ (i 0).val ∧ (i 0).val < (i 0).val / 5000 * 5000 + 5000
    omega
  | ⟨1, _⟩ =>
    show win9_7.index ⟨(i 0).val / 5000, ht⟩ (1 : Fin 2) * 64 ≤ (i 1).val
      ∧ (i 1).val < win9_7.index ⟨(i 0).val / 5000, ht⟩ (1 : Fin 2) * 64 + 64
    rw [e7.2]
    omega

end Cert.KernelIdeal.RegVal

end
-- ==== Proof.RegComb.lean ====
/-
  The combine regions of the kernel, read off the generated frame: after region 3 (6, 9) the first output array is
  `dense2` of the two node arrays it reads, and the second output is the accumulator plus that.

  Each point of the region's grid stores one block of 5000 rows; a block read of an array is the array at the rows the
  block sits at; the stored block is therefore block `t` of one function of the whole arrays (`combG`), the blocks
  cover the output, and `combG` with the two halves of the weight matrix and the bias row is `dense2`.
-/
import proofs.«137448_j36043365548320_2_alg».proof.Proof.Gen.KernelIdeal.Frame
import proofs.«137448_j36043365548320_2_alg».proof.Proof.RegCombPay
import proofs.«137448_j36043365548320_2_alg».proof.Proof.NetIdx2
import Idealize.ShloMosaic.Lib.Pipeline.Value
import Idealize.ShloMosaic.Lib.ValueIdx

noncomputable section

open scoped BigOperators

namespace Cert.KernelIdeal.RegVal

open Idealize.ShloMosaic Idealize.ShloMosaic.ValueIdx Idealize.ShloMosaic.TcCoe Idealize.SL.Sem
open Cert.KernelIdeal Cert.KernelIdeal.Gen
open Idealize.ShloMosaic.Pipeline (Dat)

theorem g_hz : (![0, 0] : Fin 2 → Nat) = fun _ => 0 := funext fun a => by fin_cases a <;> rfl

/-- With the weight blocks the two halves of `W` and the bias row that of `b`, `combG` is the network's `dense2`. -/
theorem g_combG_dense2 (A B : Cert.Net.CF Ideal Cert.ReferenceIdeal.S100000x64) (W : Cert.Net.CF Ideal Cert.ReferenceIdeal.S128x64)
    (b : Cert.Net.CF Ideal Cert.ReferenceIdeal.S64) :
    combG A B (Cert.Net.top W) (Cert.Net.bot W) (Cert.Net.r64 b) = Cert.Net.dense2 A B W b := by
  funext i
  obtain ⟨P, Q, rfl⟩ : ∃ (P : Fin 100000) (Q : Fin 64), i = ix2 P Q := ⟨i 0, i 1, eq_ix2 i⟩
  rw [Cert.Net.dense2_apply]
  show (∑ k : Fin 64, A (ix2 P k) * Cert.Net.top W (ix2 k Q)) + (∑ k : Fin 64, B (ix2 P k) * Cert.Net.bot W (ix2 k Q))
      + Cert.Net.r64 b (ix2 (0 : Fin 1) Q) = _
  rw [Cert.Net.r64_apply]

/-- The two outputs, once known to be `combG` and the accumulator plus `combG` at weight and bias arrays that are the
    halves of `W` and the row of `b`: `dense2`, and the accumulator plus `dense2`. -/
theorem g_comb_finish (X6 X7 A0 A1 A5 : Vec Ideal S100000x64 .f32) (A2 A3 : Vec Ideal S64x64 .f32) (A4 : Vec Ideal S1x64 .f32)
    (W : Cert.Net.CF Ideal Cert.ReferenceIdeal.S128x64) (b : Cert.Net.CF Ideal Cert.ReferenceIdeal.S64)
    (h6 : X6 = combG A0 A1 A2 A3 A4) (h7 : X7 = addf (F := Ideal) (s := S100000x64) (φ := .f32) A5 (combG A0 A1 A2 A3 A4))
    (hwa : A2 = Cert.Net.top W) (hwb : A3 = Cert.Net.bot W) (hbias : A4 = Cert.Net.r64 b) :
    X6 = Cert.Net.dense2 A0 A1 W b ∧ X7 = addf (F := Ideal) (s := S100000x64) (φ := .f32) A5 (Cert.Net.dense2 A0 A1 W b) := by
  subst hwa hwb hbias h6 h7
  rw [g_combG_dense2]
  exact ⟨rfl, rfl⟩

variable (V : (c : Dev nD) → (b : Ref sig .tc) → Buf (Elt Ideal) ((c : Thread nD τ).loc b))

/-! ## Region 3 -/

/-- Window 0's block at point `t` is rows `5000 t + ·` of its array. -/
theorem g_iblk3_0 (c : Dev nD) (t : Fin cfg3.N) (y : S5000x64.Idx) (k : S100000x64.Idx)
    (hk0 : (k 0).val = t.val * 5000 + (y 0).val) (hk1 : (k 1).val = (y 1).val) :
    (iblk3 V c 0 t : Vec Ideal S5000x64 .f32) y = ((V c (Pipeline.arrRef spec3 0)) : Vec Ideal S100000x64 .f32) k := by
  obtain ⟨e0, e1, -, -, -, e5, -, -⟩ := g_idx3 t
  show ((V c (Pipeline.arrRef spec3 0)) : Vec Ideal S100000x64 .f32) (((cfg3.win 0).blk t).view.emb y) = _
  refine congrArg ((V c (Pipeline.arrRef spec3 0)) : Vec Ideal S100000x64 .f32) (funext fun a => Fin.ext ?_)
  match a with
  | ⟨0, _⟩ => show win3_0.index t (0 : Fin 2) * 5000 + 1 * (y 0).val = (k 0).val; rw [e0.1, hk0]; omega
  | ⟨1, _⟩ => show win3_0.index t (1 : Fin 2) * 64 + 1 * (y 1).val = (k 1).val; rw [e0.2, hk1]; omega

/-- Window 1's block at point `t` is rows `5000 t + ·` of its array. -/
theorem g_iblk3_1 (c : Dev nD) (t : Fin cfg3.N) (y : S5000x64.Idx) (k : S100000x64.Idx)
    (hk0 : (k 0).val = t.val * 5000 + (y 0).val) (hk1 : (k 1).val = (y 1).val) :
    (iblk3 V c 1 t : Vec Ideal S5000x64 .f32) y = ((V c (Pipeline.arrRef spec3 1)) : Vec Ideal S100000x64 .f32) k := by
  obtain ⟨e0, e1, -, -, -, e5, -, -⟩ := g_idx3 t
  show ((V c (Pipeline.arrRef spec3 1)) : Vec Ideal S100000x64 .f32) (((cfg3.win 1).blk t).view.emb y) = _
  refine congrArg ((V c (Pipeline.arrRef spec3 1)) : Vec Ideal S100000x64 .f32) (funext fun a => Fin.ext ?_)
  match a with
  | ⟨0, _⟩ => show win3_1.index t (0 : Fin 2) * 5000 + 1 * (y 0).val = (k 0).val; rw [e1.1, hk0]; omega
  | ⟨1, _⟩ => show win3_1.index t (1 : Fin 2) * 64 + 1 * (y 1).val = (k 1).val; rw [e1.2, hk1]; omega

/-- Window 5's block at point `t` is rows `5000 t + ·` of its array. -/
theorem g_iblk3_5 (c : Dev nD) (t : Fin cfg3.N) (y : S5000x64.Idx) (k : S100000x64.Idx)
    (hk0 : (k 0).val = t.val * 5000 + (y 0).val) (hk1 : (k 1).val = (y 1).val) :
    (iblk3 V c 5 t : Vec Ideal S5000x64 .f32) y = ((V c (Pipeline.arrRef spec3 5)) : Vec Ideal S100000x64 .f32) k := by
  obtain ⟨e0, e1, -, -, -, e5, -, -⟩ := g_idx3 t
  show ((V c (Pipeline.arrRef spec3 5)) : Vec Ideal S100000x64 .f32) (((cfg3.win 5).blk t).view.emb y) = _
  refine congrArg ((V c (Pipeline.arrRef spec3 5)) : Vec Ideal S100000x64 .f32) (funext fun a => Fin.ext ?_)
  match a with
  | ⟨0, _⟩ => show win3_5.index t (0 : Fin 2) * 5000 + 1 * (y 0).val = (k 0).val; rw [e5.1, hk0]; omega
  | ⟨1, _⟩ => show win3_5.index t (1 : Fin 2) * 64 + 1 * (y 1).val = (k 1).val; rw [e5.2, hk1]; omega

/-- Window 2's block is its whole array at every point. -/
theorem g_iblk3_2 (c : Dev nD) (t : Fin cfg3.N) :
    (iblk3 V c 2 t : Vec Ideal S64x64 .f32) = ((V c (Pipeline.arrRef spec3 2)) : Vec Ideal S64x64 .f32) := by
  obtain ⟨-, -, e2, e3, e4, -, -, -⟩ := g_idx3 t
  funext y
  show ((V c (Pipeline.arrRef spec3 2)) : Vec Ideal S64x64 .f32) (((cfg3.win 2).blk t).view.emb y) = _
  refine congrArg ((V c (Pipeline.arrRef spec3 2)) : Vec Ideal S64x64 .f32) (funext fun a => Fin.ext ?_)
  match a with
  | ⟨0, _⟩ => show win3_2.index t (0 : Fin 2) * 64 + 1 * (y 0).val = (y 0).val; rw [e2.1]; omega
  | ⟨1, _⟩ => show win3_2.index t (1 : Fin 2) * 64 + 1 * (y 1).val = (y 1).val; rw [e2.2]; omega

/-- Window 3's block is its whole array at every point. -/
theorem g_iblk3_3 (c : Dev nD) (t : Fin cfg3.N) :
    (iblk3 V c 3 t : Vec Ideal S64x64 .f32) = ((V c (Pipeline.arrRef spec3 3)) : Vec Ideal S64x64 .f32) := by
  obtain ⟨-, -, e2, e3, e4, -, -, -⟩ := g_idx3 t
  funext y
  show ((V c (Pipeline.arrRef spec3 3)) : Vec Ideal S64x64 .f32) (((cfg3.win 3).blk t).view.emb y) = _
  refine congrArg ((V c (Pipeline.arrRef spec3 3)) : Vec Ideal S64x64 .f32) (funext fun a => Fin.ext ?_)
  match a with
  | ⟨0, _⟩ => show win3_3.index t (0 : Fin 2) * 64 + 1 * (y 0).val = (y 0).val; rw [e3.1]; omega
  | ⟨1, _⟩ => show win3_3.index t (1 : Fin 2) * 64 + 1 * (y 1).val = (y 1).val; rw [e3.2]; omega

/-- Window 4's block is its whole array at every point. -/
theorem g_iblk3_4 (c : Dev nD) (t : Fin cfg3.N) :
    (iblk3 V c 4 t : Vec Ideal S1x64 .f32) = ((V c (Pipeline.arrRef spec3 4)) : Vec Ideal S1x64 .f32) := by
  obtain ⟨-, -, e2, e3, e4, -, -, -⟩ := g_idx3 t
  funext y
  show ((V c (Pipeline.arrRef spec3 4)) : Vec Ideal S1x64 .f32) (((cfg3.win 4).blk t).view.emb y) = _
  refine congrArg ((V c (Pipeline.arrRef spec3 4)) : Vec Ideal S1x64 .f32) (funext fun a => Fin.ext ?_)
  match a with
  | ⟨0, _⟩ => show win3_4.index t (0 : Fin 2) * 1 + 1 * (y 0).val = (y 0).val; rw [e4.1]; omega
  | ⟨1, _⟩ => show win3_4.index t (1 : Fin 2) * 64 + 1 * (y 1).val = (y 1).val; rw [e4.2]; omega

/-- What point `t` writes back to the first output is block `t` of `combG` of the arrays the region reads. -/
theorem g_flushed3_6 (c : Dev nD) (t : Fin cfg3.N) :
    (dat3 (F := Ideal) V c).flushed 6 t = ((cfg3.win 6).blk t).view.read (Elt Ideal) (combG (V c (Pipeline.arrRef spec3 0)) (V c (Pipeline.arrRef spec3 1)) (V c (Pipeline.arrRef spec3 2)) (V c (Pipeline.arrRef spec3 3)) (V c (Pipeline.arrRef spec3 4))) := by
  show (cfg3.win 6).cut (grid3.coords t) ((dat3 (F := Ideal) V c).after 6 t) = _
  rw [after3_6]
  unfold out3_6
  rw [View.canon_unit_zero g_hz]
  simp only [View.ld_unit_zero (S := S5000x64) g_hz, View.ld_unit_zero (S := S64x64) g_hz, View.ld_unit_zero (S := S1x64) g_hz]
  obtain ⟨-, -, -, -, -, -, e6, -⟩ := g_idx3 t
  funext j
  refine g_comb_block (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t) t.val
    (g_iblk3_0 V c t) (g_iblk3_1 V c t) (g_iblk3_2 V c t) (g_iblk3_3 V c t) (g_iblk3_4 V c t)
    j (((cfg3.win 6).blk t).view.emb j) ?_ ?_
  · show win3_6.index t (0 : Fin 2) * 5000 + 1 * (j 0).val = t.val * 5000 + (j 0).val; rw [e6.1]; omega
  · show win3_6.index t (1 : Fin 2) * 64 + 1 * (j 1).val = (j 1).val; rw [e6.2]; omega

/-- What point `t` writes back to the second output: block `t` of the accumulator plus `combG`. -/
theorem g_flushed3_7 (c : Dev nD) (t : Fin cfg3.N) :
    (dat3 (F := Ideal) V c).flushed 7 t
      = ((cfg3.win 7).blk t).view.read (Elt Ideal) (addf (F := Ideal) (s := S100000x64) (φ := .f32) (V c (Pipeline.arrRef spec3 5)) (combG (V c (Pipeline.arrRef spec3 0)) (V c (Pipeline.arrRef spec3 1)) (V c (Pipeline.arrRef spec3 2)) (V c (Pipeline.arrRef spec3 3)) (V c (Pipeline.arrRef spec3 4)))) := by
  show (cfg3.win 7).cut (grid3.coords t) ((dat3 (F := Ideal) V c).after 7 t) = _
  rw [after3_7]
  unfold out3_7
  rw [View.canon_unit_zero g_hz]
  simp only [View.ld_unit_zero (S := S5000x64) g_hz, View.ld_unit_zero (S := S64x64) g_hz, View.ld_unit_zero (S := S1x64) g_hz]
  obtain ⟨-, -, -, -, -, -, -, e7⟩ := g_idx3 t
  funext j
  refine g_comb_block2 (V c (Pipeline.arrRef spec3 0)) (V c (Pipeline.arrRef spec3 1)) (V c (Pipeline.arrRef spec3 5)) (V c (Pipeline.arrRef spec3 2)) (V c (Pipeline.arrRef spec3 3)) (V c (Pipeline.arrRef spec3 4))
    (iblk3 V c 0 t) (iblk3 V c 1 t) (iblk3 V c 5 t) (iblk3 V c 2 t) (iblk3 V c 3 t) (iblk3 V c 4 t) t.val
    (g_iblk3_0 V c t) (g_iblk3_1 V c t) (g_iblk3_5 V c t) (g_iblk3_2 V c t) (g_iblk3_3 V c t) (g_iblk3_4 V c t)
    j (((cfg3.win 7).blk t).view.emb j) ?_ ?_
  · show win3_7.index t (0 : Fin 2) * 5000 + 1 * (j 0).val = t.val * 5000 + (j 0).val; rw [e7.1]; omega
  · show win3_7.index t (1 : Fin 2) * 64 + 1 * (j 1).val = (j 1).val; rw [e7.2]; omega

/-- The first output array after region 3. -/
theorem g_final3_6 (c : Dev nD) : (dat3 (F := Ideal) V c).arrAt 6 cfg3.N = (combG (V c (Pipeline.arrRef spec3 0)) (V c (Pipeline.arrRef spec3 1)) (V c (Pipeline.arrRef spec3 2)) (V c (Pipeline.arrRef spec3 3)) (V c (Pipeline.arrRef spec3 4))) :=
  (dat3 (F := Ideal) V c).arrAt_eq_of_cover 6 _ (fun t _ => g_flushed3_6 V c t) g_cover3_6

/-- The second output array after region 3. -/
theorem g_final3_7 (c : Dev nD) : (dat3 (F := Ideal) V c).arrAt 7 cfg3.N
    = addf (F := Ideal) (s := S100000x64) (φ := .f32) (V c (Pipeline.arrRef spec3 5)) (combG (V c (Pipeline.arrRef spec3 0)) (V c (Pipeline.arrRef spec3 1)) (V c (Pipeline.arrRef spec3 2)) (V c (Pipeline.arrRef spec3 3)) (V c (Pipeline.arrRef spec3 4))) :=
  (dat3 (F := Ideal) V c).arrAt_eq_of_cover 7 _ (fun t _ => g_flushed3_7 V c t) g_cover3_7

set_option maxHeartbeats 1000000 in
/-- Region 3: the first output ends at `dense2` of the two node arrays, the second at the accumulator plus that. -/
theorem comb3 (c : Dev nD) (W3 : Cert.Net.CF Ideal Cert.ReferenceIdeal.S128x64) (b3 : Cert.Net.CF Ideal Cert.ReferenceIdeal.S64)
    (hwa : V c (Pipeline.arrRef spec3 2) = Cert.Net.top W3) (hwb : V c (Pipeline.arrRef spec3 3) = Cert.Net.bot W3)
    (hbias : V c (Pipeline.arrRef spec3 4) = Cert.Net.r64 b3) :
    (Gen.dat3 (F := Ideal) V c).arrAt 6 cfg3.N
        = Cert.Net.dense2 (V c (Pipeline.arrRef spec3 0)) (V c (Pipeline.arrRef spec3 1)) W3 b3
    ∧ (Gen.dat3 (F := Ideal) V c).arrAt 7 cfg3.N
        = addf (V c (Pipeline.arrRef spec3 5))
            (Cert.Net.dense2 (V c (Pipeline.arrRef spec3 0)) (V c (Pipeline.arrRef spec3 1)) W3 b3) :=
  g_comb_finish _ _ _ _ _ _ _ _ W3 b3 (g_final3_6 V c) (g_final3_7 V c) hwa hwb hbias

/-! ## Region 6 -/

/-- Window 0's block at point `t` is rows `5000 t + ·` of its array. -/
theorem g_iblk6_0 (c : Dev nD) (t : Fin cfg6.N) (y : S5000x64.Idx) (k : S100000x64.Idx)
    (hk0 : (k 0).val = t.val * 5000 + (y 0).val) (hk1 : (k 1).val = (y 1).val) :
    (iblk6 V c 0 t : Vec Ideal S5000x64 .f32) y = ((V c (Pipeline.arrRef spec6 0)) : Vec Ideal S100000x64 .f32) k := by
  obtain ⟨e0, e1, -, -, -, e5, -, -⟩ := g_idx6 t
  show ((V c (Pipeline.arrRef spec6 0)) : Vec Ideal S100000x64 .f32) (((cfg6.win 0).blk t).view.emb y) = _
  refine congrArg ((V c (Pipeline.arrRef spec6 0)) : Vec Ideal S100000x64 .f32) (funext fun a => Fin.ext ?_)
  match a with
  | ⟨0, _⟩ => show win6_0.index t (0 : Fin 2) * 5000 + 1 * (y 0).val = (k 0).val; rw [e0.1, hk0]; omega
  | ⟨1, _⟩ => show win6_0.index t (1 : Fin 2) * 64 + 1 * (y 1).val = (k 1).val; rw [e0.2, hk1]; omega

/-- Window 1's block at point `t` is rows `5000 t + ·` of its array. -/
theorem g_iblk6_1 (c : Dev nD) (t : Fin cfg6.N) (y : S5000x64.Idx) (k : S100000x64.Idx)
    (hk0 : (k 0).val = t.val * 5000 + (y 0).val) (hk1 : (k 1).val = (y 1).val) :
    (iblk6 V c 1 t : Vec Ideal S5000x64 .f32) y = ((V c (Pipeline.arrRef spec6 1)) : Vec Ideal S100000x64 .f32) k := by
  obtain ⟨e0, e1, -, -, -, e5, -, -⟩ := g_idx6 t
  show ((V c (Pipeline.arrRef spec6 1)) : Vec Ideal S100000x64 .f32) (((cfg6.win 1).blk t).view.emb y) = _
  refine congrArg ((V c (Pipeline.arrRef spec6 1)) : Vec Ideal S100000x64 .f32) (funext fun a => Fin.ext ?_)
  match a with
  | ⟨0, _⟩ => show win6_1.index t (0 : Fin 2) * 5000 + 1 * (y 0).val = (k 0).val; rw [e1.1, hk0]; omega
  | ⟨1, _⟩ => show win6_1.index t (1 : Fin 2) * 64 + 1 * (y 1).val = (k 1).val; rw [e1.2, hk1]; omega

/-- Window 5's block at point `t` is rows `5000 t + ·` of its array. -/
theorem g_iblk6_5 (c : Dev nD) (t : Fin cfg6.N) (y : S5000x64.Idx) (k : S100000x64.Idx)
    (hk0 : (k 0).val = t.val * 5000 + (y 0).val) (hk1 : (k 1).val = (y 1).val) :
    (iblk6 V c 5 t : Vec Ideal S5000x64 .f32) y = ((V c (Pipeline.arrRef spec6 5)) : Vec Ideal S100000x64 .f32) k := by
  obtain ⟨e0, e1, -, -, -, e5, -, -⟩ := g_idx6 t
  show ((V c (Pipeline.arrRef spec6 5)) : Vec Ideal S100000x64 .f32) (((cfg6.win 5).blk t).view.emb y) = _
  refine congrArg ((V c (Pipeline.arrRef spec6 5)) : Vec Ideal S100000x64 .f32) (funext fun a => Fin.ext ?_)
  match a with
  | ⟨0, _⟩ => show win6_5.index t (0 : Fin 2) * 5000 + 1 * (y 0).val = (k 0).val; rw [e5.1, hk0]; omega
  | ⟨1, _⟩ => show win6_5.index t (1 : Fin 2) * 64 + 1 * (y 1).val = (k 1).val; rw [e5.2, hk1]; omega

/-- Window 2's block is its whole array at every point. -/
theorem g_iblk6_2 (c : Dev nD) (t : Fin cfg6.N) :
    (iblk6 V c 2 t : Vec Ideal S64x64 .f32) = ((V c (Pipeline.arrRef spec6 2)) : Vec Ideal S64x64 .f32) := by
  obtain ⟨-, -, e2, e3, e4, -, -, -⟩ := g_idx6 t
  funext y
  show ((V c (Pipeline.arrRef spec6 2)) : Vec Ideal S64x64 .f32) (((cfg6.win 2).blk t).view.emb y) = _
  refine congrArg ((V c (Pipeline.arrRef spec6 2)) : Vec Ideal S64x64 .f32) (funext fun a => Fin.ext ?_)
  match a with
  | ⟨0, _⟩ => show win6_2.index t (0 : Fin 2) * 64 + 1 * (y 0).val = (y 0).val; rw [e2.1]; omega
  | ⟨1, _⟩ => show win6_2.index t (1 : Fin 2) * 64 + 1 * (y 1).val = (y 1).val; rw [e2.2]; omega

/-- Window 3's block is its whole array at every point. -/
theorem g_iblk6_3 (c : Dev nD) (t : Fin cfg6.N) :
    (iblk6 V c 3 t : Vec Ideal S64x64 .f32) = ((V c (Pipeline.arrRef spec6 3)) : Vec Ideal S64x64 .f32) := by
  obtain ⟨-, -, e2, e3, e4, -, -, -⟩ := g_idx6 t
  funext y
  show ((V c (Pipeline.arrRef spec6 3)) : Vec Ideal S64x64 .f32) (((cfg6.win 3).blk t).view.emb y) = _
  refine congrArg ((V c (Pipeline.arrRef spec6 3)) : Vec Ideal S64x64 .f32) (funext fun a => Fin.ext ?_)
  match a with
  | ⟨0, _⟩ => show win6_3.index t (0 : Fin 2) * 64 + 1 * (y 0).val = (y 0).val; rw [e3.1]; omega
  | ⟨1, _⟩ => show win6_3.index t (1 : Fin 2) * 64 + 1 * (y 1).val = (y 1).val; rw [e3.2]; omega

/-- Window 4's block is its whole array at every point. -/
theorem g_iblk6_4 (c : Dev nD) (t : Fin cfg6.N) :
    (iblk6 V c 4 t : Vec Ideal S1x64 .f32) = ((V c (Pipeline.arrRef spec6 4)) : Vec Ideal S1x64 .f32) := by
  obtain ⟨-, -, e2, e3, e4, -, -, -⟩ := g_idx6 t
  funext y
  show ((V c (Pipeline.arrRef spec6 4)) : Vec Ideal S1x64 .f32) (((cfg6.win 4).blk t).view.emb y) = _
  refine congrArg ((V c (Pipeline.arrRef spec6 4)) : Vec Ideal S1x64 .f32) (funext fun a => Fin.ext ?_)
  match a with
  | ⟨0, _⟩ => show win6_4.index t (0 : Fin 2) * 1 + 1 * (y 0).val = (y 0).val; rw [e4.1]; omega
  | ⟨1, _⟩ => show win6_4.index t (1 : Fin 2) * 64 + 1 * (y 1).val = (y 1).val; rw [e4.2]; omega

/-- What point `t` writes back to the first output is block `t` of `combG` of the arrays the region reads. -/
theorem g_flushed6_6 (c : Dev nD) (t : Fin cfg6.N) :
    (dat6 (F := Ideal) V c).flushed 6 t = ((cfg6.win 6).blk t).view.read (Elt Ideal) (combG (V c (Pipeline.arrRef spec6 0)) (V c (Pipeline.arrRef spec6 1)) (V c (Pipeline.arrRef spec6 2)) (V c (Pipeline.arrRef spec6 3)) (V c (Pipeline.arrRef spec6 4))) := by
  show (cfg6.win 6).cut (grid6.coords t) ((dat6 (F := Ideal) V c).after 6 t) = _
  rw [after6_6]
  unfold out6_6
  rw [View.canon_unit_zero g_hz]
  simp only [View.ld_unit_zero (S := S5000x64) g_hz, View.ld_unit_zero (S := S64x64) g_hz, View.ld_unit_zero (S := S1x64) g_hz]
  rw [g_pay1_6]
  obtain ⟨-, -, -, -, -, -, e6, -⟩ := g_idx6 t
  funext j
  refine g_comb_block (V c (Pipeline.arrRef spec6 0)) (V c (Pipeline.arrRef spec6 1)) (V c (Pipeline.arrRef spec6 2)) (V c (Pipeline.arrRef spec6 3)) (V c (Pipeline.arrRef spec6 4))
    (iblk6 V c 0 t) (iblk6 V c 1 t) (iblk6 V c 2 t) (iblk6 V c 3 t) (iblk6 V c 4 t) t.val
    (g_iblk6_0 V c t) (g_iblk6_1 V c t) (g_iblk6_2 V c t) (g_iblk6_3 V c t) (g_iblk6_4 V c t)
    j (((cfg6.win 6).blk t).view.emb j) ?_ ?_
  · show win6_6.index t (0 : Fin 2) * 5000 + 1 * (j 0).val = t.val * 5000 + (j 0).val; rw [e6.1]; omega
  · show win6_6.index t (1 : Fin 2) * 64 + 1 * (j 1).val = (j 1).val; rw [e6.2]; omega

/-- What point `t` writes back to the second output: block `t` of the accumulator plus `combG`. -/
theorem g_flushed6_7 (c : Dev nD) (t : Fin cfg6.N) :
    (dat6 (F := Ideal) V c).flushed 7 t
      = ((cfg6.win 7).blk t).view.read (Elt Ideal) (addf (F := Ideal) (s := S100000x64) (φ := .f32) (V c (Pipeline.arrRef spec6 5)) (combG (V c (Pipeline.arrRef spec6 0)) (V c (Pipeline.arrRef spec6 1)) (V c (Pipeline.arrRef spec6 2)) (V c (Pipeline.arrRef spec6 3)) (V c (Pipeline.arrRef spec6 4)))) := by
  show (cfg6.win 7).cut (grid6.coords t) ((dat6 (F := Ideal) V c).after 7 t) = _
  rw [after6_7]
  unfold out6_7
  rw [View.canon_unit_zero g_hz]
  simp only [View.ld_unit_zero (S := S5000x64) g_hz, View.ld_unit_zero (S := S64x64) g_hz, View.ld_unit_zero (S := S1x64) g_hz]
  rw [g_pay2_6]
  obtain ⟨-, -, -, -, -, -, -, e7⟩ := g_idx6 t
  funext j
  refine g_comb_block2 (V c (Pipeline.arrRef spec6 0)) (V c (Pipeline.arrRef spec6 1)) (V c (Pipeline.arrRef spec6 5)) (V c (Pipeline.arrRef spec6 2)) (V c (Pipeline.arrRef spec6 3)) (V c (Pipeline.arrRef spec6 4))
    (iblk6 V c 0 t) (iblk6 V c 1 t) (iblk6 V c 5 t) (iblk6 V c 2 t) (iblk6 V c 3 t) (iblk6 V c 4 t) t.val
    (g_iblk6_0 V c t) (g_iblk6_1 V c t) (g_iblk6_5 V c t) (g_iblk6_2 V c t) (g_iblk6_3 V c t) (g_iblk6_4 V c t)
    j (((cfg6.win 7).blk t).view.emb j) ?_ ?_
  · show win6_7.index t (0 : Fin 2) * 5000 + 1 * (j 0).val = t.val * 5000 + (j 0).val; rw [e7.1]; omega
  · show win6_7.index t (1 : Fin 2) * 64 + 1 * (j 1).val = (j 1).val; rw [e7.2]; omega

/-- The first output array after region 6. -/
theorem g_final6_6 (c : Dev nD) : (dat6 (F := Ideal) V c).arrAt 6 cfg6.N = (combG (V c (Pipeline.arrRef spec6 0)) (V c (Pipeline.arrRef spec6 1)) (V c (Pipeline.arrRef spec6 2)) (V c (Pipeline.arrRef spec6 3)) (V c (Pipeline.arrRef spec6 4))) :=
  (dat6 (F := Ideal) V c).arrAt_eq_of_cover 6 _ (fun t _ => g_flushed6_6 V c t) g_cover6_6

/-- The second output array after region 6. -/
theorem g_final6_7 (c : Dev nD) : (dat6 (F := Ideal) V c).arrAt 7 cfg6.N
    = addf (F := Ideal) (s := S100000x64) (φ := .f32) (V c (Pipeline.arrRef spec6 5)) (combG (V c (Pipeline.arrRef spec6 0)) (V c (Pipeline.arrRef spec6 1)) (V c (Pipeline.arrRef spec6 2)) (V c (Pipeline.arrRef spec6 3)) (V c (Pipeline.arrRef spec6 4))) :=
  (dat6 (F := Ideal) V c).arrAt_eq_of_cover 7 _ (fun t _ => g_flushed6_7 V c t) g_cover6_7

set_option maxHeartbeats 1000000 in
/-- Region 6: the first output ends at `dense2` of the two node arrays, the second at the accumulator plus that. -/
theorem comb6 (c : Dev nD) (W3 : Cert.Net.CF Ideal Cert.ReferenceIdeal.S128x64) (b3 : Cert.Net.CF Ideal Cert.ReferenceIdeal.S64)
    (hwa : V c (Pipeline.arrRef spec6 2) = Cert.Net.top W3) (hwb : V c (Pipeline.arrRef spec6 3) = Cert.Net.bot W3)
    (hbias : V c (Pipeline.arrRef spec6 4) = Cert.Net.r64 b3) :
    (Gen.dat6 (F := Ideal) V c).arrAt 6 cfg6.N
        = Cert.Net.dense2 (V c (Pipeline.arrRef spec6 0)) (V c (Pipeline.arrRef spec6 1)) W3 b3
    ∧ (Gen.dat6 (F := Ideal) V c).arrAt 7 cfg6.N
        = addf (V c (Pipeline.arrRef spec6 5))
            (Cert.Net.dense2 (V c (Pipeline.arrRef spec6 0)) (V c (Pipeline.arrRef spec6 1)) W3 b3) :=
  g_comb_finish _ _ _ _ _ _ _ _ W3 b3 (g_final6_6 V c) (g_final6_7 V c) hwa hwb hbias

/-! ## Region 9 -/

/-- Window 0's block at point `t` is rows `5000 t + ·` of its array. -/
theorem g_iblk9_0 (c : Dev nD) (t : Fin cfg9.N) (y : S5000x64.Idx) (k : S100000x64.Idx)
    (hk0 : (k 0).val = t.val * 5000 + (y 0).val) (hk1 : (k 1).val = (y 1).val) :
    (iblk9 V c 0 t : Vec Ideal S5000x64 .f32) y = ((V c (Pipeline.arrRef spec9 0)) : Vec Ideal S100000x64 .f32) k := by
  obtain ⟨e0, e1, -, -, -, e5, -, -⟩ := g_idx9 t
  show ((V c (Pipeline.arrRef spec9 0)) : Vec Ideal S100000x64 .f32) (((cfg9.win 0).blk t).view.emb y) = _
  refine congrArg ((V c (Pipeline.arrRef spec9 0)) : Vec Ideal S100000x64 .f32) (funext fun a => Fin.ext ?_)
  match a with
  | ⟨0, _⟩ => show win9_0.index t (0 : Fin 2) * 5000 + 1 * (y 0).val = (k 0).val; rw [e0.1, hk0]; omega
  | ⟨1, _⟩ => show win9_0.index t (1 : Fin 2) * 64 + 1 * (y 1).val = (k 1).val; rw [e0.2, hk1]; omega

/-- Window 1's block at point `t` is rows `5000 t + ·` of its array. -/
theorem g_iblk9_1 (c : Dev nD) (t : Fin cfg9.N) (y : S5000x64.Idx) (k : S100000x64.Idx)
    (hk0 : (k 0).val = t.val * 5000 + (y 0).val) (hk1 : (k 1).val = (y 1).val) :
    (iblk9 V c 1 t : Vec Ideal S5000x64 .f32) y = ((V c (Pipeline.arrRef spec9 1)) : Vec Ideal S100000x64 .f32) k := by
  obtain ⟨e0, e1, -, -, -, e5, -, -⟩ := g_idx9 t
  show ((V c (Pipeline.arrRef spec9 1)) : Vec Ideal S100000x64 .f32) (((cfg9.win 1).blk t).view.emb y) = _
  refine congrArg ((V c (Pipeline.arrRef spec9 1)) : Vec Ideal S100000x64 .f32) (funext fun a => Fin.ext ?_)
  match a with
  | ⟨0, _⟩ => show win9_1.index t (0 : Fin 2) * 5000 + 1 * (y 0).val = (k 0).val; rw [e1.1, hk0]; omega
  | ⟨1, _⟩ => show win9_1.index t (1 : Fin 2) * 64 + 1 * (y 1).val = (k 1).val; rw [e1.2, hk1]; omega

/-- Window 5's block at point `t` is rows `5000 t + ·` of its array. -/
theorem g_iblk9_5 (c : Dev nD) (t : Fin cfg9.N) (y : S5000x64.Idx) (k : S100000x64.Idx)
    (hk0 : (k 0).val = t.val * 5000 + (y 0).val) (hk1 : (k 1).val = (y 1).val) :
    (iblk9 V c 5 t : Vec Ideal S5000x64 .f32) y = ((V c (Pipeline.arrRef spec9 5)) : Vec Ideal S100000x64 .f32) k := by
  obtain ⟨e0, e1, -, -, -, e5, -, -⟩ := g_idx9 t
  show ((V c (Pipeline.arrRef spec9 5)) : Vec Ideal S100000x64 .f32) (((cfg9.win 5).blk t).view.emb y) = _
  refine congrArg ((V c (Pipeline.arrRef spec9 5)) : Vec Ideal S100000x64 .f32) (funext fun a => Fin.ext ?_)
  match a with
  | ⟨0, _⟩ => show win9_5.index t (0 : Fin 2) * 5000 + 1 * (y 0).val = (k 0).val; rw [e5.1, hk0]; omega
  | ⟨1, _⟩ => show win9_5.index t (1 : Fin 2) * 64 + 1 * (y 1).val = (k 1).val; rw [e5.2, hk1]; omega

/-- Window 2's block is its whole array at every point. -/
theorem g_iblk9_2 (c : Dev nD) (t : Fin cfg9.N) :
    (iblk9 V c 2 t : Vec Ideal S64x64 .f32) = ((V c (Pipeline.arrRef spec9 2)) : Vec Ideal S64x64 .f32) := by
  obtain ⟨-, -, e2, e3, e4, -, -, -⟩ := g_idx9 t
  funext y
  show ((V c (Pipeline.arrRef spec9 2)) : Vec Ideal S64x64 .f32) (((cfg9.win 2).blk t).view.emb y) = _
  refine congrArg ((V c (Pipeline.arrRef spec9 2)) : Vec Ideal S64x64 .f32) (funext fun a => Fin.ext ?_)
  match a with
  | ⟨0, _⟩ => show win9_2.index t (0 : Fin 2) * 64 + 1 * (y 0).val = (y 0).val; rw [e2.1]; omega
  | ⟨1, _⟩ => show win9_2.index t (1 : Fin 2) * 64 + 1 * (y 1).val = (y 1).val; rw [e2.2]; omega

/-- Window 3's block is its whole array at every point. -/
theorem g_iblk9_3 (c : Dev nD) (t : Fin cfg9.N) :
    (iblk9 V c 3 t : Vec Ideal S64x64 .f32) = ((V c (Pipeline.arrRef spec9 3)) : Vec Ideal S64x64 .f32) := by
  obtain ⟨-, -, e2, e3, e4, -, -, -⟩ := g_idx9 t
  funext y
  show ((V c (Pipeline.arrRef spec9 3)) : Vec Ideal S64x64 .f32) (((cfg9.win 3).blk t).view.emb y) = _
  refine congrArg ((V c (Pipeline.arrRef spec9 3)) : Vec Ideal S64x64 .f32) (funext fun a => Fin.ext ?_)
  match a with
  | ⟨0, _⟩ => show win9_3.index t (0 : Fin 2) * 64 + 1 * (y 0).val = (y 0).val; rw [e3.1]; omega
  | ⟨1, _⟩ => show win9_3.index t (1 : Fin 2) * 64 + 1 * (y 1).val = (y 1).val; rw [e3.2]; omega

/-- Window 4's block is its whole array at every point. -/
theorem g_iblk9_4 (c : Dev nD) (t : Fin cfg9.N) :
    (iblk9 V c 4 t : Vec Ideal S1x64 .f32) = ((V c (Pipeline.arrRef spec9 4)) : Vec Ideal S1x64 .f32) := by
  obtain ⟨-, -, e2, e3, e4, -, -, -⟩ := g_idx9 t
  funext y
  show ((V c (Pipeline.arrRef spec9 4)) : Vec Ideal S1x64 .f32) (((cfg9.win 4).blk t).view.emb y) = _
  refine congrArg ((V c (Pipeline.arrRef spec9 4)) : Vec Ideal S1x64 .f32) (funext fun a => Fin.ext ?_)
  match a with
  | ⟨0, _⟩ => show win9_4.index t (0 : Fin 2) * 1 + 1 * (y 0).val = (y 0).val; rw [e4.1]; omega
  | ⟨1, _⟩ => show win9_4.index t (1 : Fin 2) * 64 + 1 * (y 1).val = (y 1).val; rw [e4.2]; omega

/-- What point `t` writes back to the first output is block `t` of `combG` of the arrays the region reads. -/
theorem g_flushed9_6 (c : Dev nD) (t : Fin cfg9.N) :
    (dat9 (F := Ideal) V c).flushed 6 t = ((cfg9.win 6).blk t).view.read (Elt Ideal) (combG (V c (Pipeline.arrRef spec9 0)) (V c (Pipeline.arrRef spec9 1)) (V c (Pipeline.arrRef spec9 2)) (V c (Pipeline.arrRef spec9 3)) (V c (Pipeline.arrRef spec9 4))) := by
  show (cfg9.win 6).cut (grid9.coords t) ((dat9 (F := Ideal) V c).after 6 t) = _
  rw [after9_6]
  unfold out9_6
  rw [View.canon_unit_zero g_hz]
  simp only [View.ld_unit_zero (S := S5000x64) g_hz, View.ld_unit_zero (S := S64x64) g_hz, View.ld_unit_zero (S := S1x64) g_hz]
  rw [g_pay1_9]
  obtain ⟨-, -, -, -, -, -, e6, -⟩ := g_idx9 t
  funext j
  refine g_comb_block (V c (Pipeline.arrRef spec9 0)) (V c (Pipeline.arrRef spec9 1)) (V c (Pipeline.arrRef spec9 2)) (V c (Pipeline.arrRef spec9 3)) (V c (Pipeline.arrRef spec9 4))
    (iblk9 V c 0 t) (iblk9 V c 1 t) (iblk9 V c 2 t) (iblk9 V c 3 t) (iblk9 V c 4 t) t.val
    (g_iblk9_0 V c t) (g_iblk9_1 V c t) (g_iblk9_2 V c t) (g_iblk9_3 V c t) (g_iblk9_4 V c t)
    j (((cfg9.win 6).blk t).view.emb j) ?_ ?_
  · show win9_6.index t (0 : Fin 2) * 5000 + 1 * (j 0).val = t.val * 5000 + (j 0).val; rw [e6.1]; omega
  · show win9_6.index t (1 : Fin 2) * 64 + 1 * (j 1).val = (j 1).val; rw [e6.2]; omega

/-- What point `t` writes back to the second output: block `t` of the accumulator plus `combG`. -/
theorem g_flushed9_7 (c : Dev nD) (t : Fin cfg9.N) :
    (dat9 (F := Ideal) V c).flushed 7 t
      = ((cfg9.win 7).blk t).view.read (Elt Ideal) (addf (F := Ideal) (s := S100000x64) (φ := .f32) (V c (Pipeline.arrRef spec9 5)) (combG (V c (Pipeline.arrRef spec9 0)) (V c (Pipeline.arrRef spec9 1)) (V c (Pipeline.arrRef spec9 2)) (V c (Pipeline.arrRef spec9 3)) (V c (Pipeline.arrRef spec9 4)))) := by
  show (cfg9.win 7).cut (grid9.coords t) ((dat9 (F := Ideal) V c).after 7 t) = _
  rw [after9_7]
  unfold out9_7
  rw [View.canon_unit_zero g_hz]
  simp only [View.ld_unit_zero (S := S5000x64) g_hz, View.ld_unit_zero (S := S64x64) g_hz, View.ld_unit_zero (S := S1x64) g_hz]
  rw [g_pay2_9]
  obtain ⟨-, -, -, -, -, -, -, e7⟩ := g_idx9 t
  funext j
  refine g_comb_block2 (V c (Pipeline.arrRef spec9 0)) (V c (Pipeline.arrRef spec9 1)) (V c (Pipeline.arrRef spec9 5)) (V c (Pipeline.arrRef spec9 2)) (V c (Pipeline.arrRef spec9 3)) (V c (Pipeline.arrRef spec9 4))
    (iblk9 V c 0 t) (iblk9 V c 1 t) (iblk9 V c 5 t) (iblk9 V c 2 t) (iblk9 V c 3 t) (iblk9 V c 4 t) t.val
    (g_iblk9_0 V c t) (g_iblk9_1 V c t) (g_iblk9_5 V c t) (g_iblk9_2 V c t) (g_iblk9_3 V c t) (g_iblk9_4 V c t)
    j (((cfg9.win 7).blk t).view.emb j) ?_ ?_
  · show win9_7.index t (0 : Fin 2) * 5000 + 1 * (j 0).val = t.val * 5000 + (j 0).val; rw [e7.1]; omega
  · show win9_7.index t (1 : Fin 2) * 64 + 1 * (j 1).val = (j 1).val; rw [e7.2]; omega

/-- The first output array after region 9. -/
theorem g_final9_6 (c : Dev nD) : (dat9 (F := Ideal) V c).arrAt 6 cfg9.N = (combG (V c (Pipeline.arrRef spec9 0)) (V c (Pipeline.arrRef spec9 1)) (V c (Pipeline.arrRef spec9 2)) (V c (Pipeline.arrRef spec9 3)) (V c (Pipeline.arrRef spec9 4))) :=
  (dat9 (F := Ideal) V c).arrAt_eq_of_cover 6 _ (fun t _ => g_flushed9_6 V c t) g_cover9_6

/-- The second output array after region 9. -/
theorem g_final9_7 (c : Dev nD) : (dat9 (F := Ideal) V c).arrAt 7 cfg9.N
    = addf (F := Ideal) (s := S100000x64) (φ := .f32) (V c (Pipeline.arrRef spec9 5)) (combG (V c (Pipeline.arrRef spec9 0)) (V c (Pipeline.arrRef spec9 1)) (V c (Pipeline.arrRef spec9 2)) (V c (Pipeline.arrRef spec9 3)) (V c (Pipeline.arrRef spec9 4))) :=
  (dat9 (F := Ideal) V c).arrAt_eq_of_cover 7 _ (fun t _ => g_flushed9_7 V c t) g_cover9_7

set_option maxHeartbeats 1000000 in
/-- Region 9: the first output ends at `dense2` of the two node arrays, the second at the accumulator plus that. -/
theorem comb9 (c : Dev nD) (W3 : Cert.Net.CF Ideal Cert.ReferenceIdeal.S128x64) (b3 : Cert.Net.CF Ideal Cert.ReferenceIdeal.S64)
    (hwa : V c (Pipeline.arrRef spec9 2) = Cert.Net.top W3) (hwb : V c (Pipeline.arrRef spec9 3) = Cert.Net.bot W3)
    (hbias : V c (Pipeline.arrRef spec9 4) = Cert.Net.r64 b3) :
    (Gen.dat9 (F := Ideal) V c).arrAt 6 cfg9.N
        = Cert.Net.dense2 (V c (Pipeline.arrRef spec9 0)) (V c (Pipeline.arrRef spec9 1)) W3 b3
    ∧ (Gen.dat9 (F := Ideal) V c).arrAt 7 cfg9.N
        = addf (V c (Pipeline.arrRef spec9 5))
            (Cert.Net.dense2 (V c (Pipeline.arrRef spec9 0)) (V c (Pipeline.arrRef spec9 1)) W3 b3) :=
  g_comb_finish _ _ _ _ _ _ _ _ W3 b3 (g_final9_6 V c) (g_final9_7 V c) hwa hwb hbias

end Cert.KernelIdeal.RegVal

end
-- ==== Proof.RegHeadBlk.lean ====
/-
  The head region on one block of 5000 rows, and how its blocks tile the result.

  The region runs over 20 points. At point `t` its body loads rows `5000 t … 5000 t + 4999` of the node states
  (a 5000 × 64 block), the whole 64 × 2 weights and the whole 1 × 2 bias row, and stores a 5000 × 2 block, rows
  `5000 t …` of the result. The body's one store covers its whole buffer, so what it leaves is its arithmetic on
  the loaded blocks; entry `(r, q)` of that is the network's head at row `5000 t + r`, column `q`, because the
  block of node states read at `(r, k)` is the array at `(5000 t + r, k)`, the weights and the bias row are read
  where they stand, and the bias row is the bias vector as a one-row matrix. Row `R` of the result lies in the
  block of point `R / 5000`, so the 20 blocks cover the result.
-/
import proofs.«137448_j36043365548320_2_alg».proof.Proof.Gen.KernelIdeal.Launch
import proofs.«137448_j36043365548320_2_alg».proof.Proof.Gen.KernelIdeal.Points
import proofs.«137448_j36043365548320_2_alg».proof.Proof.Gen.KernelIdeal.Skeleton
import proofs.«137448_j36043365548320_2_alg».proof.Proof.Net
import proofs.«137448_j36043365548320_2_alg».proof.Proof.NetIdx1
import proofs.«137448_j36043365548320_2_alg».proof.Proof.RegMlpPay
import Idealize.ShloMosaic.Lib.Pipeline.Value
import Idealize.ShloMosaic.Lib.ValueIdx
import Idealize.ShloMosaic.Lib.Tactic

set_option maxRecDepth 16384

noncomputable section

open scoped BigOperators

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The blocks and what the body leaves -/

/-- Window `w`'s block of the head region at point `t`, read off its array. -/
def f_iblk10 (c : Dev nD) (w : Fin cfg10.W) (t : Fin cfg10.N) : ((cfg10.win w).xblock (cfg10.grid.coords t)).Idx → Elt Ideal (cfg10.win w).elt :=
  ((cfg10.win w).blk t).view.read (Elt Ideal) (V c (Pipeline.arrRef spec10 w))

theorem f_hz : (![0, 0] : Fin 2 → Nat) = fun _ => 0 := funext fun a => by fin_cases a <;> rfl

/-- The rectangles of the body's three loads and its one store: each its whole staging buffer. -/
abbrev f_r0 : Rect S5000x64 := Rect.unit (s := S5000x64) ![0, 0] S5000x64.size inb_S5000x64_S5000x64_0_0
abbrev f_r1 : Rect S64x2 := Rect.unit (s := S64x2) ![0, 0] S64x2.size inb_S64x2_S64x2_0_0
abbrev f_r2 : Rect S1x2 := Rect.unit (s := S1x2) ![0, 0] S1x2.size inb_S1x2_S1x2_0_0
abbrev f_r3 : Rect S5000x2 := Rect.unit (s := S5000x2) ![0, 0] S5000x2.size inb_S5000x2_S5000x2_0_0

/-- The output buffer after the body, from the three loaded blocks: its one store as a piece. -/
def f_out10 (x0 : Vec Ideal S5000x64 .f32) (x1 : Vec Ideal S64x2 .f32) (x2 : Vec Ideal S1x2 .f32) : Vec Ideal S5000x2 .f32 :=
  View.canon [⟨f_r3, k10_pay1 (View.ld x0 f_r0) (View.ld x1 f_r1) (View.ld x2 f_r2)⟩]

/-- The store covers the whole buffer and the loads read whole buffers: the body leaves its arithmetic on the blocks. -/
theorem f_out10_eq (x0 : Vec Ideal S5000x64 .f32) (x1 : Vec Ideal S64x2 .f32) (x2 : Vec Ideal S1x2 .f32) :
    f_out10 x0 x1 x2 = k10_pay1 (F := Ideal) x0 x1 x2 := by
  unfold f_out10
  rw [View.canon_unit_zero f_hz]
  simp only [View.ld_unit_zero (S := S5000x64) f_hz, View.ld_unit_zero (S := S64x2) f_hz, View.ld_unit_zero (S := S1x2) f_hz]

/-! ## The index maps over the 20 points -/

/-- The block indices of the four windows at point `t`: the node states' and the result's rows move with the point, the
    weights and the bias row stay. -/
theorem f_idx10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- Entry `(r, k)` of the node states' block at point `t` is entry `(5000 t + r, k)` of the array. -/
theorem f_iblk10_0_apply (c : Dev nD) (t : Fin cfg10.N) (r : Fin 5000) (k : Fin 64) (R : Fin 100000) (hR : R.val = 5000 * t.val + r.val) :
    (f_iblk10 V c 0 t : Vec Ideal S5000x64 .f32) (ix2 r k) = (V c (Pipeline.arrRef spec10 0) : S100000x64.Idx → Ideal .f32) (ix2 R k) := by
  obtain ⟨h0, h1, -⟩ := f_idx10 t
  unfold f_iblk10
  rw [View.read_apply]
  refine congrArg (V c (Pipeline.arrRef spec10 0)) (funext fun a => Fin.ext ?_)
  match a with
  | ⟨0, _⟩ => show win10_0.index t 0 * 5000 + 1 * r.val = R.val; rw [h0, hR]; omega
  | ⟨1, _⟩ => show win10_0.index t 1 * 64 + 1 * k.val = k.val; rw [h1]; omega

/-- The weights' block at any point is the whole array. -/
theorem f_iblk10_1_apply (c : Dev nD) (t : Fin cfg10.N) (k : Fin 64) (q : Fin 2) :
    (f_iblk10 V c 1 t : Vec Ideal S64x2 .f32) (ix2 k q) = (V c (Pipeline.arrRef spec10 1) : S64x2.Idx → Ideal .f32) (ix2 k q) := by
  obtain ⟨-, -, h0, h1, -⟩ := f_idx10 t
  unfold f_iblk10
  rw [View.read_apply]
  refine congrArg (V c (Pipeline.arrRef spec10 1)) (funext fun a => Fin.ext ?_)
  match a with
  | ⟨0, _⟩ => show win10_1.index t 0 * 64 + 1 * k.val = k.val; rw [h0]; omega
  | ⟨1, _⟩ => show win10_1.index t 1 * 2 + 1 * q.val = q.val; rw [h1]; omega

/-- The bias row's block at any point is the whole row. -/
theorem f_iblk10_2_apply (c : Dev nD) (t : Fin cfg10.N) (q : Fin 2) :
    (f_iblk10 V c 2 t : Vec Ideal S1x2 .f32) (ix2 (0 : Fin 1) q) = (V c (Pipeline.arrRef spec10 2) : S1x2.Idx → Ideal .f32) (ix2 (0 : Fin 1) q) := by
  obtain ⟨-, -, -, -, h0, h1, -⟩ := f_idx10 t
  unfold f_iblk10
  rw [View.read_apply]
  refine congrArg (V c (Pipeline.arrRef spec10 2)) (funext fun a => Fin.ext ?_)
  match a with
  | ⟨0, _⟩ => show win10_2.index t 0 * 1 + 1 * 0 = 0; rw [h0]
  | ⟨1, _⟩ => show win10_2.index t 1 * 2 + 1 * q.val = q.val; rw [h1]; omega

/-- Entry `(r, q)` of the result's block at point `t` sits at `(5000 t + r, q)` of the result. -/
theorem f_emb10_3 (t : Fin cfg10.N) (r : Fin 5000) (q : Fin 2) (R : Fin 100000) (hR : R.val = 5000 * t.val + r.val) :
    ((cfg10.win 3).blk t).view.emb (ix2 r q) = (ix2 R q : S100000x2.Idx) := by
  obtain ⟨-, -, -, -, -, -, h0, h1⟩ := f_idx10 t
  refine funext fun a => Fin.ext ?_
  match a with
  | ⟨0, _⟩ => show win10_3.index t 0 * 5000 + 1 * r.val = R.val; rw [h0, hR]; omega
  | ⟨1, _⟩ => show win10_3.index t 1 * 2 + 1 * q.val = q.val; rw [h1]; omega

/-! ## The body's arithmetic on a block is the network's head on its rows -/

/-- The bias vector as a one-row matrix reads its entry at the column. -/
theorem f_r2_apply (b4 : Cert.Net.CF Ideal Cert.ReferenceIdeal.S2) (q : Fin 2) :
    Cert.Net.r2 b4 (ix2 (0 : Fin 1) q) = b4 (ix1 q) := by
  unfold Cert.Net.r2
  refine shapeCast_apply b4 Cert.Net.casts_2 (ix2 (0 : Fin 1) q) (ix1 q) ?_
  rw [Shape.rowMajor_val_one, Shape.rowMajor_val_two]
  show q.val = 0 * 2 + q.val
  omega

/-- Over any three blocks that read the arrays as the region's do: the body at `(r, q)` is the head at `(R, q)`. -/
theorem f_pay10_of (x0 : Vec Ideal S5000x64 .f32) (x1 : Vec Ideal S64x2 .f32) (x2 : Vec Ideal S1x2 .f32)
    (A : Cert.Net.CF Ideal Cert.ReferenceIdeal.S100000x64) (W4 : Cert.Net.CF Ideal Cert.ReferenceIdeal.S64x2)
    (b4 : Cert.Net.CF Ideal Cert.ReferenceIdeal.S2) (r : Fin 5000) (q : Fin 2) (R : Fin 100000)
    (h0 : ∀ k : Fin 64, x0 (ix2 r k) = A (ix2 R k)) (h1 : ∀ k : Fin 64, x1 (ix2 k q) = W4 (ix2 k q))
    (h2 : x2 (ix2 (0 : Fin 1) q) = b4 (ix1 q)) :
    k10_pay1 (F := Ideal) x0 x1 x2 (ix2 r q) = Cert.Net.head A W4 b4 (ix2 R q) := by
  rw [k10_pay1_apply, Cert.Net.head_apply]
  refine congrArg₂ (· + ·) (Finset.sum_congr rfl fun k _ => ?_) h2
  rw [h0 k, h1 k]

/-- What point `t` leaves in the result's buffer is block `t` of the network's head of the arrays the region finds,
    the bias row being the bias vector `b4` as a one-row matrix. -/
theorem f_block10 (c : Dev nD) (b4 : Cert.Net.CF Ideal Cert.ReferenceIdeal.S2)
    (hb : V c (Pipeline.arrRef spec10 2) = Cert.Net.r2 b4) (t : Fin cfg10.N) :
    f_out10 (f_iblk10 V c 0 t) (f_iblk10 V c 1 t) (f_iblk10 V c 2 t)
      = ((cfg10.win 3).blk t).view.read (Elt Ideal)
          (Cert.Net.head (V c (Pipeline.arrRef spec10 0)) (V c (Pipeline.arrRef spec10 1)) b4) := by
  rw [f_out10_eq]
  funext j
  obtain ⟨r, q, rfl⟩ : ∃ (r : Fin 5000) (q : Fin 2), j = ix2 r q := ⟨j 0, j 1, eq_ix2 j⟩
  have ht : t.val < 20 := lt_of_lt_of_eq t.isLt N_10
  have hr : r.val < 5000 := r.isLt
  rw [View.read_apply, f_emb10_3 t r q ⟨5000 * t.val + r.val, by omega⟩ rfl]
  refine f_pay10_of _ _ _ (V c (Pipeline.arrRef spec10 0)) (V c (Pipeline.arrRef spec10 1)) b4 r q ⟨5000 * t.val + r.val, by omega⟩
    (fun k => f_iblk10_0_apply V c t r k _ rfl) (fun k => f_iblk10_1_apply V c t k q) ?_
  rw [f_iblk10_2_apply V c t q, hb]
  exact f_r2_apply b4 q

/-! ## The 20 blocks cover the result -/

/-- An index of the result is in point `t`'s block iff each coordinate is in the block's range. -/
theorem f_mem_blk10 (t : Fin cfg10.N) (i : S100000x2.Idx) :
    i ∈ ((cfg10.win 3).blk t).view.set ↔ ∀ a : Fin 2, win10_3.index t a * S5000x2.size a ≤ (i a).val ∧ (i a).val < win10_3.index t a * S5000x2.size a + S5000x2.size a := by
  show i ∈ ((View.whole main_v191).slice (win10_3.rect t)).set ↔ _
  rw [View.set_slice_whole, Rect.mem_set_unit]
  exact Iff.rfl

/-- Row `R` of the result lies in the block of point `R / 5000`. -/
theorem f_cover10 (i : S100000x2.Idx) : ∃ t : Fin cfg10.N, (cfg10.win 3).flush t = true ∧ i ∈ ((cfg10.win 3).blk t).view.set := by
  have hi0 : (i 0).val < 100000 := (i 0).isLt
  have hi1 : (i 1).val < 2 := (i 1).isLt
  have hN : cfg10.N = 20 := N_10
  refine ⟨⟨(i 0).val / 5000, by rw [hN]; omega⟩, flush10_3 _, ?_⟩
  rw [f_mem_blk10]
  obtain ⟨-, -, -, -, -, -, h0, h1⟩ := f_idx10 ⟨(i 0).val / 5000, by rw [hN]; omega⟩
  intro a
  match a with
  | ⟨0, _⟩ =>
    show win10_3.index _ (0 : Fin 2) * 5000 ≤ (i 0).val ∧ (i 0).val < win10_3.index _ (0 : Fin 2) * 5000 + 5000
    rw [h0]; dsimp only; omega
  | ⟨1, _⟩ =>
    show win10_3.index _ (1 : Fin 2) * 2 ≤ (i 1).val ∧ (i 1).val < win10_3.index _ (1 : Fin 2) * 2 + 2
    rw [h1]; omega

end Cert.KernelIdeal.RegVal

end
-- ==== Proof.RegHead.lean ====
/-
  The head region's result is the network's head.

  What each of the 20 points writes back is its block of one whole-array function, the network's head of the node
  states and weights the region finds and of the bias vector whose one-row form the region finds; the blocks cover the
  result; so the result array after the region is that function.
-/
import proofs.«137448_j36043365548320_2_alg».proof.Proof.Gen.KernelIdeal.Frame
import proofs.«137448_j36043365548320_2_alg».proof.Proof.RegHeadBlk

set_option maxRecDepth 16384

noncomputable section

namespace Cert.KernelIdeal.RegVal

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-! ## The head region's result array -/

theorem head10 (c : Dev nD) (b4 : Cert.Net.CF Ideal Cert.ReferenceIdeal.S2)
    (hb : V c (Pipeline.arrRef spec10 2) = Cert.Net.r2 b4) :
    (Gen.dat10 (F := Ideal) V c).arrAt 3 cfg10.N
      = Cert.Net.head (V c (Pipeline.arrRef spec10 0)) (V c (Pipeline.arrRef spec10 1)) b4 := by
  refine (Gen.dat10 (F := Ideal) V c).arrAt_eq_of_cover 3 _ (fun t _ => ?_) f_cover10
  show (cfg10.win 3).cut (grid10.coords t) ((Gen.dat10 (F := Ideal) V c).after 3 t) = _
  rw [Gen.after10_3]
  exact f_block10 V c b4 hb t

end Cert.KernelIdeal.RegVal

end
-- ==== Proof.LibRegionKeepOuts.lean ====
/-
  A pipelined region leaves alone every buffer but its output arrays.

  A region's exit contents are its entry contents with the pipeline's arrays replaced by what the pipeline leaves in
  them.  When every array that is not an output is left as the region found it, any buffer that is none of the output
  arrays holds at the exit what it held at the entry — whether it is one of the region's input arrays or no array of
  the region at all.  The outputs are given as a Boolean marking of the windows, so a region with several outputs
  (a value and an accumulator written side by side) is covered.
-/
import Idealize.ShloMosaic.Lib.Pipeline.FrameSuffix

noncomputable section

namespace Cert.RegionOp

open Idealize.ShloMosaic Idealize.ShloMosaic.Pipeline Idealize.ShloMosaic.TcCoe

variable {nD : Nat} {τ : Topo} {sig : RefSig} {Val : EltTy → Type}

/-- The exit contents of a region whose arrays `A` agree with the entry contents `V` at every window not marked as an
    output: at any buffer `b` that is no marked window's array they are the entry contents. -/
theorem withArrays_keep_outs {gr W : Nat} (win : Fin W → WinSpec sig gr) (hinj : Function.Injective (arrRef win))
    (c : Dev nD) (V : Valuation τ sig Val) (A : (w : Fin W) → Buf Val ((win w).arr.view.loc (c.tc : Thread nD τ)))
    (out : Fin W → Bool) (hin : ∀ w, out w = false → A w = V (Proc.devRef .tc (arrRef win w)))
    (b : Ref sig .tc) (hb : ∀ w, out w = true → b ≠ arrRef win w) :
    withArrays win c V A (Proc.devRef .tc b) = V (Proc.devRef .tc b) := by
  by_cases h : ∃ w, Proc.devRef (τ := τ) .tc (arrRef win w) = Proc.devRef .tc b
  · obtain ⟨w, hw⟩ := h
    have hwb : arrRef win w = b := Proc.devRef_injective _ hw
    subst hwb
    rw [withArrays_arr win hinj c V A w]
    cases ho : out w with
    | false => exact hin w ho
    | true => exact absurd rfl (hb w ho)
  · unfold withArrays; rw [dif_neg h]

end Cert.RegionOp

end
-- ==== Proof.KChain.lean ====
/-
  The idealized kernel's result as a function of its arguments.

  The run leaves the result buffer at the last segment boundary's contents.  Those contents are a fold from the launch
  memory: a host stretch applies its operations, a region replaces its output arrays by what its write-backs leave.
  Walking the fold boundary by boundary, each buffer that a later segment reads is named as a function of the launch
  arguments: the node state after the dense layers (`tH0`), and per relation the first neighbour sum (`tA`), the first
  convolution (`tP`), the second neighbour sum (`tB`), the second convolution (`tQ`), the new node state (`tH`) and
  the running sum of the states (`tS`).  A host stretch's outputs are the network's own functions of what it reads;
  a region's output is the network's layer of the arrays it stages — for a convolution this uses that the neighbour
  sum and the weights are real, which follows stage by stage from the arguments being real.  A buffer no segment
  writes keeps its contents.  The last region's output is the head of the summed states: the network's value.
-/
import proofs.«137448_j36043365548320_2_alg».proof.Proof.Gen.KernelIdeal.Frame
import proofs.«137448_j36043365548320_2_alg».proof.Proof.Net
import proofs.«137448_j36043365548320_2_alg».proof.Proof.NetReal
import proofs.«137448_j36043365548320_2_alg».proof.Proof.KHost
import proofs.«137448_j36043365548320_2_alg».proof.Proof.RegMlp
import proofs.«137448_j36043365548320_2_alg».proof.Proof.RegDual1
import proofs.«137448_j36043365548320_2_alg».proof.Proof.RegDual2
import proofs.«137448_j36043365548320_2_alg».proof.Proof.RegDual4
import proofs.«137448_j36043365548320_2_alg».proof.Proof.RegDual5
import proofs.«137448_j36043365548320_2_alg».proof.Proof.RegDual7
import proofs.«137448_j36043365548320_2_alg».proof.Proof.RegDual8
import proofs.«137448_j36043365548320_2_alg».proof.Proof.RegComb
import proofs.«137448_j36043365548320_2_alg».proof.Proof.RegHead
import proofs.«137448_j36043365548320_2_alg».proof.Proof.LibRegionKeepOuts

set_option maxRecDepth 16384

noncomputable section

namespace Cert.KernelIdeal.KChain

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## The launch arguments and the network's intermediate states -/

/-- Argument 0 as launched. -/
abbrev a0 : Cert.Net.CF Ideal Cert.ReferenceIdeal.S100000x64 := m ((c : Thread nD τ).loc main_arg0)
/-- Argument 1 as launched. -/
abbrev a1 : Cert.Net.CI Ideal Cert.ReferenceIdeal.S3x1000000 := m ((c : Thread nD τ).loc main_arg1)
/-- Argument 2 as launched. -/
abbrev a2 : Cert.Net.CI Ideal Cert.ReferenceIdeal.S3x1000000 := m ((c : Thread nD τ).loc main_arg2)
/-- Argument 3 as launched. -/
abbrev a3 : Cert.Net.CF Ideal Cert.ReferenceIdeal.S64x64 := m ((c : Thread nD τ).loc main_arg3)
/-- Argument 4 as launched. -/
abbrev a4 : Cert.Net.CF Ideal Cert.ReferenceIdeal.S64 := m ((c : Thread nD τ).loc main_arg4)
/-- Argument 5 as launched. -/
abbrev a5 : Cert.Net.CF Ideal Cert.ReferenceIdeal.S64x64 := m ((c : Thread nD τ).loc main_arg5)
/-- Argument 6 as launched. -/
abbrev a6 : Cert.Net.CF Ideal Cert.ReferenceIdeal.S64 := m ((c : Thread nD τ).loc main_arg6)
/-- Argument 7 as launched. -/
abbrev a7 : Cert.Net.CF Ideal Cert.ReferenceIdeal.S128x64 := m ((c : Thread nD τ).loc main_arg7)
/-- Argument 8 as launched. -/
abbrev a8 : Cert.Net.CF Ideal Cert.ReferenceIdeal.S64 := m ((c : Thread nD τ).loc main_arg8)
/-- Argument 9 as launched. -/
abbrev a9 : Cert.Net.CF Ideal Cert.ReferenceIdeal.S128x64 := m ((c : Thread nD τ).loc main_arg9)
/-- Argument 10 as launched. -/
abbrev a10 : Cert.Net.CF Ideal Cert.ReferenceIdeal.S64 := m ((c : Thread nD τ).loc main_arg10)
/-- Argument 11 as launched. -/
abbrev a11 : Cert.Net.CF Ideal Cert.ReferenceIdeal.S128x64 := m ((c : Thread nD τ).loc main_arg11)
/-- Argument 12 as launched. -/
abbrev a12 : Cert.Net.CF Ideal Cert.ReferenceIdeal.S64 := m ((c : Thread nD τ).loc main_arg12)
/-- Argument 13 as launched. -/
abbrev a13 : Cert.Net.CF Ideal Cert.ReferenceIdeal.S64x2 := m ((c : Thread nD τ).loc main_arg13)
/-- Argument 14 as launched. -/
abbrev a14 : Cert.Net.CF Ideal Cert.ReferenceIdeal.S2 := m ((c : Thread nD τ).loc main_arg14)

/-- The node state after the two dense layers. -/
def tH0 : Cert.Net.CF Ideal Cert.ReferenceIdeal.S100000x64 := Cert.Net.mlp (a0 m c) (a3 m c) (a4 m c) (a5 m c) (a6 m c)
/-- The running sum of the relations' states, before any relation. -/
def tS0 (m : (ℓ : Loc nD τ sig) → Buf (Elt Ideal) ℓ) (c : Dev nD) : Cert.Net.CF Ideal Cert.ReferenceIdeal.S100000x64 := Cert.Net.zero
/-- Relation 0: the neighbour sum of the incoming state. -/
def tA0 : Cert.Net.CF Ideal Cert.ReferenceIdeal.S100000x64 := Cert.Net.agg (tH0 m c) (Cert.Net.row0 (a1 m c)) (Cert.Net.row0 (a2 m c))
/-- Relation 0: the first convolution. -/
def tP0 : Cert.Net.CF Ideal Cert.ReferenceIdeal.S100000x64 := Cert.Net.cheb (tH0 m c) (tA0 m c) (a7 m c) (a8 m c)
/-- Relation 0: the neighbour sum of the first convolution. -/
def tB0 : Cert.Net.CF Ideal Cert.ReferenceIdeal.S100000x64 := Cert.Net.agg (tP0 m c) (Cert.Net.row0 (a1 m c)) (Cert.Net.row0 (a2 m c))
/-- Relation 0: the second convolution. -/
def tQ0 : Cert.Net.CF Ideal Cert.ReferenceIdeal.S100000x64 := Cert.Net.cheb (tP0 m c) (tB0 m c) (a9 m c) (a10 m c)
/-- The node state after relation 0. -/
def tH1 : Cert.Net.CF Ideal Cert.ReferenceIdeal.S100000x64 := Cert.Net.dense2 (tP0 m c) (tQ0 m c) (a11 m c) (a12 m c)
/-- The sum of the states after relations 0 … 0. -/
def tS1 : Cert.Net.CF Ideal Cert.ReferenceIdeal.S100000x64 := addf (F := Ideal) (φ := .f32) (tS0 m c) (tH1 m c)
/-- Relation 1: the neighbour sum of the incoming state. -/
def tA1 : Cert.Net.CF Ideal Cert.ReferenceIdeal.S100000x64 := Cert.Net.agg (tH1 m c) (Cert.Net.row1 (a1 m c)) (Cert.Net.row1 (a2 m c))
/-- Relation 1: the first convolution. -/
def tP1 : Cert.Net.CF Ideal Cert.ReferenceIdeal.S100000x64 := Cert.Net.cheb (tH1 m c) (tA1 m c) (a7 m c) (a8 m c)
/-- Relation 1: the neighbour sum of the first convolution. -/
def tB1 : Cert.Net.CF Ideal Cert.ReferenceIdeal.S100000x64 := Cert.Net.agg (tP1 m c) (Cert.Net.row1 (a1 m c)) (Cert.Net.row1 (a2 m c))
/-- Relation 1: the second convolution. -/
def tQ1 : Cert.Net.CF Ideal Cert.ReferenceIdeal.S100000x64 := Cert.Net.cheb (tP1 m c) (tB1 m c) (a9 m c) (a10 m c)
/-- The node state after relation 1. -/
def tH2 : Cert.Net.CF Ideal Cert.ReferenceIdeal.S100000x64 := Cert.Net.dense2 (tP1 m c) (tQ1 m c) (a11 m c) (a12 m c)
/-- The sum of the states after relations 0 … 1. -/
def tS2 : Cert.Net.CF Ideal Cert.ReferenceIdeal.S100000x64 := addf (F := Ideal) (φ := .f32) (tS1 m c) (tH2 m c)
/-- Relation 2: the neighbour sum of the incoming state. -/
def tA2 : Cert.Net.CF Ideal Cert.ReferenceIdeal.S100000x64 := Cert.Net.agg (tH2 m c) (Cert.Net.row2 (a1 m c)) (Cert.Net.row2 (a2 m c))
/-- Relation 2: the first convolution. -/
def tP2 : Cert.Net.CF Ideal Cert.ReferenceIdeal.S100000x64 := Cert.Net.cheb (tH2 m c) (tA2 m c) (a7 m c) (a8 m c)
/-- Relation 2: the neighbour sum of the first convolution. -/
def tB2 : Cert.Net.CF Ideal Cert.ReferenceIdeal.S100000x64 := Cert.Net.agg (tP2 m c) (Cert.Net.row2 (a1 m c)) (Cert.Net.row2 (a2 m c))
/-- Relation 2: the second convolution. -/
def tQ2 : Cert.Net.CF Ideal Cert.ReferenceIdeal.S100000x64 := Cert.Net.cheb (tP2 m c) (tB2 m c) (a9 m c) (a10 m c)
/-- The node state after relation 2. -/
def tH3 : Cert.Net.CF Ideal Cert.ReferenceIdeal.S100000x64 := Cert.Net.dense2 (tP2 m c) (tQ2 m c) (a11 m c) (a12 m c)
/-- The sum of the states after relations 0 … 2. -/
def tS3 : Cert.Net.CF Ideal Cert.ReferenceIdeal.S100000x64 := addf (F := Ideal) (φ := .f32) (tS2 m c) (tH3 m c)

/-- Every float argument is real. -/
structure ArgsReal : Prop where
  a0 : Cert.Net.IsReal (a0 m c)
  a3 : Cert.Net.IsReal (a3 m c)
  a4 : Cert.Net.IsReal (a4 m c)
  a5 : Cert.Net.IsReal (a5 m c)
  a6 : Cert.Net.IsReal (a6 m c)
  a7 : Cert.Net.IsReal (a7 m c)
  a8 : Cert.Net.IsReal (a8 m c)
  a9 : Cert.Net.IsReal (a9 m c)
  a10 : Cert.Net.IsReal (a10 m c)
  a11 : Cert.Net.IsReal (a11 m c)
  a12 : Cert.Net.IsReal (a12 m c)
  a13 : Cert.Net.IsReal (a13 m c)
  a14 : Cert.Net.IsReal (a14 m c)

/-! ## The states are real when the arguments are -/

theorem r_tH0 (hr : ArgsReal m c) : Cert.Net.IsReal (tH0 m c) := Cert.Net.isReal_mlp hr.a0 hr.a3 hr.a4 hr.a5 hr.a6
theorem r_tA0 (hr : ArgsReal m c) : Cert.Net.IsReal (tA0 m c) := Cert.Net.isReal_agg _ _ (r_tH0 m c hr)
theorem r_tP0 (hr : ArgsReal m c) : Cert.Net.IsReal (tP0 m c) := Cert.Net.isReal_cheb (r_tH0 m c hr) (r_tA0 m c hr) hr.a7 hr.a8
theorem r_tB0 (hr : ArgsReal m c) : Cert.Net.IsReal (tB0 m c) := Cert.Net.isReal_agg _ _ (r_tP0 m c hr)
theorem r_tQ0 (hr : ArgsReal m c) : Cert.Net.IsReal (tQ0 m c) := Cert.Net.isReal_cheb (r_tP0 m c hr) (r_tB0 m c hr) hr.a9 hr.a10
theorem r_tH1 (hr : ArgsReal m c) : Cert.Net.IsReal (tH1 m c) := Cert.Net.isReal_dense2 (r_tP0 m c hr) (r_tQ0 m c hr) hr.a11 hr.a12
theorem r_tA1 (hr : ArgsReal m c) : Cert.Net.IsReal (tA1 m c) := Cert.Net.isReal_agg _ _ (r_tH1 m c hr)
theorem r_tP1 (hr : ArgsReal m c) : Cert.Net.IsReal (tP1 m c) := Cert.Net.isReal_cheb (r_tH1 m c hr) (r_tA1 m c hr) hr.a7 hr.a8
theorem r_tB1 (hr : ArgsReal m c) : Cert.Net.IsReal (tB1 m c) := Cert.Net.isReal_agg _ _ (r_tP1 m c hr)
theorem r_tQ1 (hr : ArgsReal m c) : Cert.Net.IsReal (tQ1 m c) := Cert.Net.isReal_cheb (r_tP1 m c hr) (r_tB1 m c hr) hr.a9 hr.a10
theorem r_tH2 (hr : ArgsReal m c) : Cert.Net.IsReal (tH2 m c) := Cert.Net.isReal_dense2 (r_tP1 m c hr) (r_tQ1 m c hr) hr.a11 hr.a12
theorem r_tA2 (hr : ArgsReal m c) : Cert.Net.IsReal (tA2 m c) := Cert.Net.isReal_agg _ _ (r_tH2 m c hr)
theorem r_tP2 (hr : ArgsReal m c) : Cert.Net.IsReal (tP2 m c) := Cert.Net.isReal_cheb (r_tH2 m c hr) (r_tA2 m c hr) hr.a7 hr.a8
theorem r_tB2 (hr : ArgsReal m c) : Cert.Net.IsReal (tB2 m c) := Cert.Net.isReal_agg _ _ (r_tP2 m c hr)
theorem r_tQ2 (hr : ArgsReal m c) : Cert.Net.IsReal (tQ2 m c) := Cert.Net.isReal_cheb (r_tP2 m c hr) (r_tB2 m c hr) hr.a9 hr.a10
theorem r_tH3 (hr : ArgsReal m c) : Cert.Net.IsReal (tH3 m c) := Cert.Net.isReal_dense2 (r_tP2 m c hr) (r_tQ2 m c hr) hr.a11 hr.a12

/-! ## A region leaves every buffer but its outputs as it found it -/

/-- The outputs among region 0's windows. -/
abbrev outs0 : Fin 6 → Bool := ![false, false, false, false, false, true]
theorem keepR0 (b : Ref sig .tc) (hb : ∀ w : Fin 6, outs0 w = true → b ≠ Pipeline.arrRef spec0 w) :
    W2 m ρ c (Proc.devRef .tc b) = W1 m ρ c (Proc.devRef .tc b) := by
  unfold W2
  refine Cert.RegionOp.withArrays_keep_outs spec0 launch0.win.arr_inj c _ _ outs0 (fun w hw => ?_) b hb
  fin_cases w
  · exact ((dat0 (V1 m ρ) c).arrAt_in 0 rfl _).trans (A_eq0 (V1 m ρ) c 0)
  · exact ((dat0 (V1 m ρ) c).arrAt_in 1 rfl _).trans (A_eq0 (V1 m ρ) c 1)
  · exact ((dat0 (V1 m ρ) c).arrAt_in 2 rfl _).trans (A_eq0 (V1 m ρ) c 2)
  · exact ((dat0 (V1 m ρ) c).arrAt_in 3 rfl _).trans (A_eq0 (V1 m ρ) c 3)
  · exact ((dat0 (V1 m ρ) c).arrAt_in 4 rfl _).trans (A_eq0 (V1 m ρ) c 4)
  · exact absurd hw (by decide)
/-- The outputs among region 1's windows. -/
abbrev outs1 : Fin 6 → Bool := ![false, false, false, false, false, true]
theorem keepR1 (b : Ref sig .tc) (hb : ∀ w : Fin 6, outs1 w = true → b ≠ Pipeline.arrRef spec1 w) :
    W6 m ρ c (Proc.devRef .tc b) = W5 m ρ c (Proc.devRef .tc b) := by
  unfold W6
  refine Cert.RegionOp.withArrays_keep_outs spec1 launch1.win.arr_inj c _ _ outs1 (fun w hw => ?_) b hb
  fin_cases w
  · exact ((dat1 (V5 m ρ) c).arrAt_in 0 rfl _).trans (A_eq1 (V5 m ρ) c 0)
  · exact ((dat1 (V5 m ρ) c).arrAt_in 1 rfl _).trans (A_eq1 (V5 m ρ) c 1)
  · exact ((dat1 (V5 m ρ) c).arrAt_in 2 rfl _).trans (A_eq1 (V5 m ρ) c 2)
  · exact ((dat1 (V5 m ρ) c).arrAt_in 3 rfl _).trans (A_eq1 (V5 m ρ) c 3)
  · exact ((dat1 (V5 m ρ) c).arrAt_in 4 rfl _).trans (A_eq1 (V5 m ρ) c 4)
  · exact absurd hw (by decide)
/-- The outputs among region 2's windows. -/
abbrev outs2 : Fin 6 → Bool := ![false, false, false, false, false, true]
theorem keepR2 (b : Ref sig .tc) (hb : ∀ w : Fin 6, outs2 w = true → b ≠ Pipeline.arrRef spec2 w) :
    W10 m ρ c (Proc.devRef .tc b) = W9 m ρ c (Proc.devRef .tc b) := by
  unfold W10
  refine Cert.RegionOp.withArrays_keep_outs spec2 launch2.win.arr_inj c _ _ outs2 (fun w hw => ?_) b hb
  fin_cases w
  · exact ((dat2 (V9 m ρ) c).arrAt_in 0 rfl _).trans (A_eq2 (V9 m ρ) c 0)
  · exact ((dat2 (V9 m ρ) c).arrAt_in 1 rfl _).trans (A_eq2 (V9 m ρ) c 1)
  · exact ((dat2 (V9 m ρ) c).arrAt_in 2 rfl _).trans (A_eq2 (V9 m ρ) c 2)
  · exact ((dat2 (V9 m ρ) c).arrAt_in 3 rfl _).trans (A_eq2 (V9 m ρ) c 3)
  · exact ((dat2 (V9 m ρ) c).arrAt_in 4 rfl _).trans (A_eq2 (V9 m ρ) c 4)
  · exact absurd hw (by decide)
/-- The outputs among region 3's windows. -/
abbrev outs3 : Fin 8 → Bool := ![false, false, false, false, false, false, true, true]
theorem keepR3 (b : Ref sig .tc) (hb : ∀ w : Fin 8, outs3 w = true → b ≠ Pipeline.arrRef spec3 w) :
    W12 m ρ c (Proc.devRef .tc b) = W11 m ρ c (Proc.devRef .tc b) := by
  unfold W12
  refine Cert.RegionOp.withArrays_keep_outs spec3 launch3.win.arr_inj c _ _ outs3 (fun w hw => ?_) b hb
  fin_cases w
  · exact ((dat3 (V11 m ρ) c).arrAt_in 0 rfl _).trans (A_eq3 (V11 m ρ) c 0)
  · exact ((dat3 (V11 m ρ) c).arrAt_in 1 rfl _).trans (A_eq3 (V11 m ρ) c 1)
  · exact ((dat3 (V11 m ρ) c).arrAt_in 2 rfl _).trans (A_eq3 (V11 m ρ) c 2)
  · exact ((dat3 (V11 m ρ) c).arrAt_in 3 rfl _).trans (A_eq3 (V11 m ρ) c 3)
  · exact ((dat3 (V11 m ρ) c).arrAt_in 4 rfl _).trans (A_eq3 (V11 m ρ) c 4)
  · exact ((dat3 (V11 m ρ) c).arrAt_in 5 rfl _).trans (A_eq3 (V11 m ρ) c 5)
  · exact absurd hw (by decide)
  · exact absurd hw (by decide)
/-- The outputs among region 4's windows. -/
abbrev outs4 : Fin 6 → Bool := ![false, false, false, false, false, true]
theorem keepR4 (b : Ref sig .tc) (hb : ∀ w : Fin 6, outs4 w = true → b ≠ Pipeline.arrRef spec4 w) :
    W16 m ρ c (Proc.devRef .tc b) = W15 m ρ c (Proc.devRef .tc b) := by
  unfold W16
  refine Cert.RegionOp.withArrays_keep_outs spec4 launch4.win.arr_inj c _ _ outs4 (fun w hw => ?_) b hb
  fin_cases w
  · exact ((dat4 (V15 m ρ) c).arrAt_in 0 rfl _).trans (A_eq4 (V15 m ρ) c 0)
  · exact ((dat4 (V15 m ρ) c).arrAt_in 1 rfl _).trans (A_eq4 (V15 m ρ) c 1)
  · exact ((dat4 (V15 m ρ) c).arrAt_in 2 rfl _).trans (A_eq4 (V15 m ρ) c 2)
  · exact ((dat4 (V15 m ρ) c).arrAt_in 3 rfl _).trans (A_eq4 (V15 m ρ) c 3)
  · exact ((dat4 (V15 m ρ) c).arrAt_in 4 rfl _).trans (A_eq4 (V15 m ρ) c 4)
  · exact absurd hw (by decide)
/-- The outputs among region 5's windows. -/
abbrev outs5 : Fin 6 → Bool := ![false, false, false, false, false, true]
theorem keepR5 (b : Ref sig .tc) (hb : ∀ w : Fin 6, outs5 w = true → b ≠ Pipeline.arrRef spec5 w) :
    W20 m ρ c (Proc.devRef .tc b) = W19 m ρ c (Proc.devRef .tc b) := by
  unfold W20
  refine Cert.RegionOp.withArrays_keep_outs spec5 launch5.win.arr_inj c _ _ outs5 (fun w hw => ?_) b hb
  fin_cases w
  · exact ((dat5 (V19 m ρ) c).arrAt_in 0 rfl _).trans (A_eq5 (V19 m ρ) c 0)
  · exact ((dat5 (V19 m ρ) c).arrAt_in 1 rfl _).trans (A_eq5 (V19 m ρ) c 1)
  · exact ((dat5 (V19 m ρ) c).arrAt_in 2 rfl _).trans (A_eq5 (V19 m ρ) c 2)
  · exact ((dat5 (V19 m ρ) c).arrAt_in 3 rfl _).trans (A_eq5 (V19 m ρ) c 3)
  · exact ((dat5 (V19 m ρ) c).arrAt_in 4 rfl _).trans (A_eq5 (V19 m ρ) c 4)
  · exact absurd hw (by decide)
/-- The outputs among region 6's windows. -/
abbrev outs6 : Fin 8 → Bool := ![false, false, false, false, false, false, true, true]
theorem keepR6 (b : Ref sig .tc) (hb : ∀ w : Fin 8, outs6 w = true → b ≠ Pipeline.arrRef spec6 w) :
    W22 m ρ c (Proc.devRef .tc b) = W21 m ρ c (Proc.devRef .tc b) := by
  unfold W22
  refine Cert.RegionOp.withArrays_keep_outs spec6 launch6.win.arr_inj c _ _ outs6 (fun w hw => ?_) b hb
  fin_cases w
  · exact ((dat6 (V21 m ρ) c).arrAt_in 0 rfl _).trans (A_eq6 (V21 m ρ) c 0)
  · exact ((dat6 (V21 m ρ) c).arrAt_in 1 rfl _).trans (A_eq6 (V21 m ρ) c 1)
  · exact ((dat6 (V21 m ρ) c).arrAt_in 2 rfl _).trans (A_eq6 (V21 m ρ) c 2)
  · exact ((dat6 (V21 m ρ) c).arrAt_in 3 rfl _).trans (A_eq6 (V21 m ρ) c 3)
  · exact ((dat6 (V21 m ρ) c).arrAt_in 4 rfl _).trans (A_eq6 (V21 m ρ) c 4)
  · exact ((dat6 (V21 m ρ) c).arrAt_in 5 rfl _).trans (A_eq6 (V21 m ρ) c 5)
  · exact absurd hw (by decide)
  · exact absurd hw (by decide)
/-- The outputs among region 7's windows. -/
abbrev outs7 : Fin 6 → Bool := ![false, false, false, false, false, true]
theorem keepR7 (b : Ref sig .tc) (hb : ∀ w : Fin 6, outs7 w = true → b ≠ Pipeline.arrRef spec7 w) :
    W26 m ρ c (Proc.devRef .tc b) = W25 m ρ c (Proc.devRef .tc b) := by
  unfold W26
  refine Cert.RegionOp.withArrays_keep_outs spec7 launch7.win.arr_inj c _ _ outs7 (fun w hw => ?_) b hb
  fin_cases w
  · exact ((dat7 (V25 m ρ) c).arrAt_in 0 rfl _).trans (A_eq7 (V25 m ρ) c 0)
  · exact ((dat7 (V25 m ρ) c).arrAt_in 1 rfl _).trans (A_eq7 (V25 m ρ) c 1)
  · exact ((dat7 (V25 m ρ) c).arrAt_in 2 rfl _).trans (A_eq7 (V25 m ρ) c 2)
  · exact ((dat7 (V25 m ρ) c).arrAt_in 3 rfl _).trans (A_eq7 (V25 m ρ) c 3)
  · exact ((dat7 (V25 m ρ) c).arrAt_in 4 rfl _).trans (A_eq7 (V25 m ρ) c 4)
  · exact absurd hw (by decide)
/-- The outputs among region 8's windows. -/
abbrev outs8 : Fin 6 → Bool := ![false, false, false, false, false, true]
theorem keepR8 (b : Ref sig .tc) (hb : ∀ w : Fin 6, outs8 w = true → b ≠ Pipeline.arrRef spec8 w) :
    W30 m ρ c (Proc.devRef .tc b) = W29 m ρ c (Proc.devRef .tc b) := by
  unfold W30
  refine Cert.RegionOp.withArrays_keep_outs spec8 launch8.win.arr_inj c _ _ outs8 (fun w hw => ?_) b hb
  fin_cases w
  · exact ((dat8 (V29 m ρ) c).arrAt_in 0 rfl _).trans (A_eq8 (V29 m ρ) c 0)
  · exact ((dat8 (V29 m ρ) c).arrAt_in 1 rfl _).trans (A_eq8 (V29 m ρ) c 1)
  · exact ((dat8 (V29 m ρ) c).arrAt_in 2 rfl _).trans (A_eq8 (V29 m ρ) c 2)
  · exact ((dat8 (V29 m ρ) c).arrAt_in 3 rfl _).trans (A_eq8 (V29 m ρ) c 3)
  · exact ((dat8 (V29 m ρ) c).arrAt_in 4 rfl _).trans (A_eq8 (V29 m ρ) c 4)
  · exact absurd hw (by decide)
/-- The outputs among region 9's windows. -/
abbrev outs9 : Fin 8 → Bool := ![false, false, false, false, false, false, true, true]
theorem keepR9 (b : Ref sig .tc) (hb : ∀ w : Fin 8, outs9 w = true → b ≠ Pipeline.arrRef spec9 w) :
    W32 m ρ c (Proc.devRef .tc b) = W31 m ρ c (Proc.devRef .tc b) := by
  unfold W32
  refine Cert.RegionOp.withArrays_keep_outs spec9 launch9.win.arr_inj c _ _ outs9 (fun w hw => ?_) b hb
  fin_cases w
  · exact ((dat9 (V31 m ρ) c).arrAt_in 0 rfl _).trans (A_eq9 (V31 m ρ) c 0)
  · exact ((dat9 (V31 m ρ) c).arrAt_in 1 rfl _).trans (A_eq9 (V31 m ρ) c 1)
  · exact ((dat9 (V31 m ρ) c).arrAt_in 2 rfl _).trans (A_eq9 (V31 m ρ) c 2)
  · exact ((dat9 (V31 m ρ) c).arrAt_in 3 rfl _).trans (A_eq9 (V31 m ρ) c 3)
  · exact ((dat9 (V31 m ρ) c).arrAt_in 4 rfl _).trans (A_eq9 (V31 m ρ) c 4)
  · exact ((dat9 (V31 m ρ) c).arrAt_in 5 rfl _).trans (A_eq9 (V31 m ρ) c 5)
  · exact absurd hw (by decide)
  · exact absurd hw (by decide)
/-- The outputs among region 10's windows. -/
abbrev outs10 : Fin 4 → Bool := ![false, false, false, true]
theorem keepR10 (b : Ref sig .tc) (hb : ∀ w : Fin 4, outs10 w = true → b ≠ Pipeline.arrRef spec10 w) :
    W34 m ρ c (Proc.devRef .tc b) = W33 m ρ c (Proc.devRef .tc b) := by
  unfold W34
  refine Cert.RegionOp.withArrays_keep_outs spec10 launch10.win.arr_inj c _ _ outs10 (fun w hw => ?_) b hb
  fin_cases w
  · exact ((dat10 (V33 m ρ) c).arrAt_in 0 rfl _).trans (A_eq10 (V33 m ρ) c 0)
  · exact ((dat10 (V33 m ρ) c).arrAt_in 1 rfl _).trans (A_eq10 (V33 m ρ) c 1)
  · exact ((dat10 (V33 m ρ) c).arrAt_in 2 rfl _).trans (A_eq10 (V33 m ρ) c 2)
  · exact absurd hw (by decide)

/-! ## The fold, boundary by boundary -/
theorem f0_arg13 (hr : ArgsReal m c) : W0 m ρ c (Proc.devRef .tc main_arg13) = (a13 m c) := rfl
theorem f0_arg14 (hr : ArgsReal m c) : W0 m ρ c (Proc.devRef .tc main_arg14) = (a14 m c) := rfl
theorem f0_arg12 (hr : ArgsReal m c) : W0 m ρ c (Proc.devRef .tc main_arg12) = (a12 m c) := rfl
theorem f0_arg10 (hr : ArgsReal m c) : W0 m ρ c (Proc.devRef .tc main_arg10) = (a10 m c) := rfl
theorem f0_arg1 (hr : ArgsReal m c) : W0 m ρ c (Proc.devRef .tc main_arg1) = (a1 m c) := rfl
theorem f0_arg2 (hr : ArgsReal m c) : W0 m ρ c (Proc.devRef .tc main_arg2) = (a2 m c) := rfl
theorem f0_arg8 (hr : ArgsReal m c) : W0 m ρ c (Proc.devRef .tc main_arg8) = (a8 m c) := rfl
theorem f0_arg7 (hr : ArgsReal m c) : W0 m ρ c (Proc.devRef .tc main_arg7) = (a7 m c) := rfl
theorem f0_arg9 (hr : ArgsReal m c) : W0 m ρ c (Proc.devRef .tc main_arg9) = (a9 m c) := rfl
theorem f0_arg11 (hr : ArgsReal m c) : W0 m ρ c (Proc.devRef .tc main_arg11) = (a11 m c) := rfl
theorem f0_arg0 (hr : ArgsReal m c) : W0 m ρ c (Proc.devRef .tc main_arg0) = (a0 m c) := rfl
theorem f0_arg3 (hr : ArgsReal m c) : W0 m ρ c (Proc.devRef .tc main_arg3) = (a3 m c) := rfl
theorem f0_arg5 (hr : ArgsReal m c) : W0 m ρ c (Proc.devRef .tc main_arg5) = (a5 m c) := rfl
theorem f0_arg4 (hr : ArgsReal m c) : W0 m ρ c (Proc.devRef .tc main_arg4) = (a4 m c) := rfl
theorem f0_arg6 (hr : ArgsReal m c) : W0 m ρ c (Proc.devRef .tc main_arg6) = (a6 m c) := rfl

-- boundary 1
theorem f1_arg13 (hr : ArgsReal m c) : W1 m ρ c (Proc.devRef .tc main_arg13) = (a13 m c) :=
  (Cert.KernelIdeal.KHost.keep0 (W0 m ρ c) main_arg13 (by decide)).trans (f0_arg13 m ρ c hr)
theorem f1_arg14 (hr : ArgsReal m c) : W1 m ρ c (Proc.devRef .tc main_arg14) = (a14 m c) :=
  (Cert.KernelIdeal.KHost.keep0 (W0 m ρ c) main_arg14 (by decide)).trans (f0_arg14 m ρ c hr)
theorem f1_arg12 (hr : ArgsReal m c) : W1 m ρ c (Proc.devRef .tc main_arg12) = (a12 m c) :=
  (Cert.KernelIdeal.KHost.keep0 (W0 m ρ c) main_arg12 (by decide)).trans (f0_arg12 m ρ c hr)
theorem f1_arg10 (hr : ArgsReal m c) : W1 m ρ c (Proc.devRef .tc main_arg10) = (a10 m c) :=
  (Cert.KernelIdeal.KHost.keep0 (W0 m ρ c) main_arg10 (by decide)).trans (f0_arg10 m ρ c hr)
theorem f1_arg1 (hr : ArgsReal m c) : W1 m ρ c (Proc.devRef .tc main_arg1) = (a1 m c) :=
  (Cert.KernelIdeal.KHost.keep0 (W0 m ρ c) main_arg1 (by decide)).trans (f0_arg1 m ρ c hr)
theorem f1_arg2 (hr : ArgsReal m c) : W1 m ρ c (Proc.devRef .tc main_arg2) = (a2 m c) :=
  (Cert.KernelIdeal.KHost.keep0 (W0 m ρ c) main_arg2 (by decide)).trans (f0_arg2 m ρ c hr)
theorem f1_arg8 (hr : ArgsReal m c) : W1 m ρ c (Proc.devRef .tc main_arg8) = (a8 m c) :=
  (Cert.KernelIdeal.KHost.keep0 (W0 m ρ c) main_arg8 (by decide)).trans (f0_arg8 m ρ c hr)
theorem f1_arg7 (hr : ArgsReal m c) : W1 m ρ c (Proc.devRef .tc main_arg7) = (a7 m c) :=
  (Cert.KernelIdeal.KHost.keep0 (W0 m ρ c) main_arg7 (by decide)).trans (f0_arg7 m ρ c hr)
theorem f1_arg9 (hr : ArgsReal m c) : W1 m ρ c (Proc.devRef .tc main_arg9) = (a9 m c) :=
  (Cert.KernelIdeal.KHost.keep0 (W0 m ρ c) main_arg9 (by decide)).trans (f0_arg9 m ρ c hr)
theorem f1_arg11 (hr : ArgsReal m c) : W1 m ρ c (Proc.devRef .tc main_arg11) = (a11 m c) :=
  (Cert.KernelIdeal.KHost.keep0 (W0 m ρ c) main_arg11 (by decide)).trans (f0_arg11 m ρ c hr)
theorem f1_arg0 (hr : ArgsReal m c) : W1 m ρ c (Proc.devRef .tc main_arg0) = (a0 m c) :=
  (Cert.KernelIdeal.KHost.keep0 (W0 m ρ c) main_arg0 (by decide)).trans (f0_arg0 m ρ c hr)
theorem f1_arg3 (hr : ArgsReal m c) : W1 m ρ c (Proc.devRef .tc main_arg3) = (a3 m c) :=
  (Cert.KernelIdeal.KHost.keep0 (W0 m ρ c) main_arg3 (by decide)).trans (f0_arg3 m ρ c hr)
theorem f1_v0 (hr : ArgsReal m c) : W1 m ρ c (Proc.devRef .tc main_v0) = (Cert.Net.r64 (a4 m c)) :=
  (Cert.KernelIdeal.KHost.h0_v0 (W0 m ρ c)).trans (by rw [f0_arg4 m ρ c hr]; try rfl)
theorem f1_arg5 (hr : ArgsReal m c) : W1 m ρ c (Proc.devRef .tc main_arg5) = (a5 m c) :=
  (Cert.KernelIdeal.KHost.keep0 (W0 m ρ c) main_arg5 (by decide)).trans (f0_arg5 m ρ c hr)
theorem f1_v1 (hr : ArgsReal m c) : W1 m ρ c (Proc.devRef .tc main_v1) = (Cert.Net.r64 (a6 m c)) :=
  (Cert.KernelIdeal.KHost.h0_v1 (W0 m ρ c)).trans (by rw [f0_arg6 m ρ c hr]; try rfl)

-- boundary 2
theorem f2_arg13 (hr : ArgsReal m c) : W2 m ρ c (Proc.devRef .tc main_arg13) = (a13 m c) :=
  (keepR0 m ρ c main_arg13 (by decide)).trans (f1_arg13 m ρ c hr)
theorem f2_arg14 (hr : ArgsReal m c) : W2 m ρ c (Proc.devRef .tc main_arg14) = (a14 m c) :=
  (keepR0 m ρ c main_arg14 (by decide)).trans (f1_arg14 m ρ c hr)
theorem f2_arg12 (hr : ArgsReal m c) : W2 m ρ c (Proc.devRef .tc main_arg12) = (a12 m c) :=
  (keepR0 m ρ c main_arg12 (by decide)).trans (f1_arg12 m ρ c hr)
theorem f2_arg10 (hr : ArgsReal m c) : W2 m ρ c (Proc.devRef .tc main_arg10) = (a10 m c) :=
  (keepR0 m ρ c main_arg10 (by decide)).trans (f1_arg10 m ρ c hr)
theorem f2_arg1 (hr : ArgsReal m c) : W2 m ρ c (Proc.devRef .tc main_arg1) = (a1 m c) :=
  (keepR0 m ρ c main_arg1 (by decide)).trans (f1_arg1 m ρ c hr)
theorem f2_arg2 (hr : ArgsReal m c) : W2 m ρ c (Proc.devRef .tc main_arg2) = (a2 m c) :=
  (keepR0 m ρ c main_arg2 (by decide)).trans (f1_arg2 m ρ c hr)
theorem f2_arg8 (hr : ArgsReal m c) : W2 m ρ c (Proc.devRef .tc main_arg8) = (a8 m c) :=
  (keepR0 m ρ c main_arg8 (by decide)).trans (f1_arg8 m ρ c hr)
theorem f2_v2 (hr : ArgsReal m c) : W2 m ρ c (Proc.devRef .tc main_v2) = (tH0 m c) :=
  (W2_arr m ρ c 5).trans ((Cert.KernelIdeal.RegVal.mlp0 (V1 m ρ) c (a4 m c) (a6 m c) (f1_v0 m ρ c hr) (f1_v1 m ρ c hr)).trans (by
    rw [show (V1 m ρ) c (Pipeline.arrRef spec0 0) = _ from f1_arg0 m ρ c hr,
      show (V1 m ρ) c (Pipeline.arrRef spec0 1) = _ from f1_arg3 m ρ c hr,
      show (V1 m ρ) c (Pipeline.arrRef spec0 3) = _ from f1_arg5 m ρ c hr]; try rfl))
theorem f2_arg7 (hr : ArgsReal m c) : W2 m ρ c (Proc.devRef .tc main_arg7) = (a7 m c) :=
  (keepR0 m ρ c main_arg7 (by decide)).trans (f1_arg7 m ρ c hr)
theorem f2_arg9 (hr : ArgsReal m c) : W2 m ρ c (Proc.devRef .tc main_arg9) = (a9 m c) :=
  (keepR0 m ρ c main_arg9 (by decide)).trans (f1_arg9 m ρ c hr)
theorem f2_arg11 (hr : ArgsReal m c) : W2 m ρ c (Proc.devRef .tc main_arg11) = (a11 m c) :=
  (keepR0 m ρ c main_arg11 (by decide)).trans (f1_arg11 m ρ c hr)

-- boundary 5
theorem f5_arg13 (hr : ArgsReal m c) : W5 m ρ c (Proc.devRef .tc main_arg13) = (a13 m c) :=
  (Cert.KernelIdeal.KHost.keep1 (W2 m ρ c) main_arg13 (by decide)).trans (f2_arg13 m ρ c hr)
theorem f5_arg14 (hr : ArgsReal m c) : W5 m ρ c (Proc.devRef .tc main_arg14) = (a14 m c) :=
  (Cert.KernelIdeal.KHost.keep1 (W2 m ρ c) main_arg14 (by decide)).trans (f2_arg14 m ρ c hr)
theorem f5_v7 (hr : ArgsReal m c) : W5 m ρ c (Proc.devRef .tc main_v7) = (Cert.Net.top (a11 m c)) :=
  (Cert.KernelIdeal.KHost.g1_v7 (W2 m ρ c)).trans (by rw [f2_arg11 m ρ c hr]; try rfl)
theorem f5_v8 (hr : ArgsReal m c) : W5 m ρ c (Proc.devRef .tc main_v8) = (Cert.Net.bot (a11 m c)) :=
  (Cert.KernelIdeal.KHost.g1_v8 (W2 m ρ c)).trans (by rw [f2_arg11 m ρ c hr]; try rfl)
theorem f5_arg12 (hr : ArgsReal m c) : W5 m ρ c (Proc.devRef .tc main_arg12) = (a12 m c) :=
  (Cert.KernelIdeal.KHost.keep1 (W2 m ρ c) main_arg12 (by decide)).trans (f2_arg12 m ρ c hr)
theorem f5_v5 (hr : ArgsReal m c) : W5 m ρ c (Proc.devRef .tc main_v5) = (Cert.Net.top (a9 m c)) :=
  (Cert.KernelIdeal.KHost.g1_v5 (W2 m ρ c)).trans (by rw [f2_arg9 m ρ c hr]; try rfl)
theorem f5_v6 (hr : ArgsReal m c) : W5 m ρ c (Proc.devRef .tc main_v6) = (Cert.Net.bot (a9 m c)) :=
  (Cert.KernelIdeal.KHost.g1_v6 (W2 m ρ c)).trans (by rw [f2_arg9 m ρ c hr]; try rfl)
theorem f5_arg10 (hr : ArgsReal m c) : W5 m ρ c (Proc.devRef .tc main_arg10) = (a10 m c) :=
  (Cert.KernelIdeal.KHost.keep1 (W2 m ρ c) main_arg10 (by decide)).trans (f2_arg10 m ρ c hr)
theorem f5_v3 (hr : ArgsReal m c) : W5 m ρ c (Proc.devRef .tc main_v3) = (Cert.Net.top (a7 m c)) :=
  (Cert.KernelIdeal.KHost.g1_v3 (W2 m ρ c)).trans (by rw [f2_arg7 m ρ c hr]; try rfl)
theorem f5_v4 (hr : ArgsReal m c) : W5 m ρ c (Proc.devRef .tc main_v4) = (Cert.Net.bot (a7 m c)) :=
  (Cert.KernelIdeal.KHost.g1_v4 (W2 m ρ c)).trans (by rw [f2_arg7 m ρ c hr]; try rfl)
theorem f5_arg1 (hr : ArgsReal m c) : W5 m ρ c (Proc.devRef .tc main_arg1) = (a1 m c) :=
  (Cert.KernelIdeal.KHost.keep1 (W2 m ρ c) main_arg1 (by decide)).trans (f2_arg1 m ρ c hr)
theorem f5_arg2 (hr : ArgsReal m c) : W5 m ρ c (Proc.devRef .tc main_arg2) = (a2 m c) :=
  (Cert.KernelIdeal.KHost.keep1 (W2 m ρ c) main_arg2 (by decide)).trans (f2_arg2 m ρ c hr)
theorem f5_arg8 (hr : ArgsReal m c) : W5 m ρ c (Proc.devRef .tc main_arg8) = (a8 m c) :=
  (Cert.KernelIdeal.KHost.keep1 (W2 m ρ c) main_arg8 (by decide)).trans (f2_arg8 m ρ c hr)
theorem f5_v9 (hr : ArgsReal m c) : W5 m ρ c (Proc.devRef .tc main_v9) = (Cert.Net.zero (F := Ideal)) :=
  (Cert.KernelIdeal.KHost.g1_v9 (W2 m ρ c))
theorem f5_v11 (hr : ArgsReal m c) : W5 m ρ c (Proc.devRef .tc main_v11) = (Cert.Net.row0 (a1 m c)) :=
  (Cert.KernelIdeal.KHost.g1_v11 (W2 m ρ c)).trans (by rw [f2_arg1 m ρ c hr]; try rfl)
theorem f5_v13 (hr : ArgsReal m c) : W5 m ρ c (Proc.devRef .tc main_v13) = (Cert.Net.row0 (a2 m c)) :=
  (Cert.KernelIdeal.KHost.g1_v13 (W2 m ρ c)).trans (by rw [f2_arg2 m ρ c hr]; try rfl)
theorem f5_v2 (hr : ArgsReal m c) : W5 m ρ c (Proc.devRef .tc main_v2) = (tH0 m c) :=
  (Cert.KernelIdeal.KHost.keep1 (W2 m ρ c) main_v2 (by decide)).trans (f2_v2 m ρ c hr)
theorem f5_v38 (hr : ArgsReal m c) : W5 m ρ c (Proc.devRef .tc main_v38) = (tA0 m c) :=
  (Cert.KernelIdeal.KHost.g1_v38 (W2 m ρ c)).trans (by rw [f2_v2 m ρ c hr, f2_arg1 m ρ c hr, f2_arg2 m ρ c hr]; try rfl)
theorem f5_v39 (hr : ArgsReal m c) : W5 m ρ c (Proc.devRef .tc main_v39) = (Cert.Net.r64 (a8 m c)) :=
  (Cert.KernelIdeal.KHost.g1_v39 (W2 m ρ c)).trans (by rw [f2_arg8 m ρ c hr]; try rfl)

-- boundary 6
theorem f6_arg13 (hr : ArgsReal m c) : W6 m ρ c (Proc.devRef .tc main_arg13) = (a13 m c) :=
  (keepR1 m ρ c main_arg13 (by decide)).trans (f5_arg13 m ρ c hr)
theorem f6_arg14 (hr : ArgsReal m c) : W6 m ρ c (Proc.devRef .tc main_arg14) = (a14 m c) :=
  (keepR1 m ρ c main_arg14 (by decide)).trans (f5_arg14 m ρ c hr)
theorem f6_v7 (hr : ArgsReal m c) : W6 m ρ c (Proc.devRef .tc main_v7) = (Cert.Net.top (a11 m c)) :=
  (keepR1 m ρ c main_v7 (by decide)).trans (f5_v7 m ρ c hr)
theorem f6_v8 (hr : ArgsReal m c) : W6 m ρ c (Proc.devRef .tc main_v8) = (Cert.Net.bot (a11 m c)) :=
  (keepR1 m ρ c main_v8 (by decide)).trans (f5_v8 m ρ c hr)
theorem f6_arg12 (hr : ArgsReal m c) : W6 m ρ c (Proc.devRef .tc main_arg12) = (a12 m c) :=
  (keepR1 m ρ c main_arg12 (by decide)).trans (f5_arg12 m ρ c hr)
theorem f6_v5 (hr : ArgsReal m c) : W6 m ρ c (Proc.devRef .tc main_v5) = (Cert.Net.top (a9 m c)) :=
  (keepR1 m ρ c main_v5 (by decide)).trans (f5_v5 m ρ c hr)
theorem f6_v6 (hr : ArgsReal m c) : W6 m ρ c (Proc.devRef .tc main_v6) = (Cert.Net.bot (a9 m c)) :=
  (keepR1 m ρ c main_v6 (by decide)).trans (f5_v6 m ρ c hr)
theorem f6_arg10 (hr : ArgsReal m c) : W6 m ρ c (Proc.devRef .tc main_arg10) = (a10 m c) :=
  (keepR1 m ρ c main_arg10 (by decide)).trans (f5_arg10 m ρ c hr)
theorem f6_v3 (hr : ArgsReal m c) : W6 m ρ c (Proc.devRef .tc main_v3) = (Cert.Net.top (a7 m c)) :=
  (keepR1 m ρ c main_v3 (by decide)).trans (f5_v3 m ρ c hr)
theorem f6_v4 (hr : ArgsReal m c) : W6 m ρ c (Proc.devRef .tc main_v4) = (Cert.Net.bot (a7 m c)) :=
  (keepR1 m ρ c main_v4 (by decide)).trans (f5_v4 m ρ c hr)
theorem f6_arg1 (hr : ArgsReal m c) : W6 m ρ c (Proc.devRef .tc main_arg1) = (a1 m c) :=
  (keepR1 m ρ c main_arg1 (by decide)).trans (f5_arg1 m ρ c hr)
theorem f6_arg2 (hr : ArgsReal m c) : W6 m ρ c (Proc.devRef .tc main_arg2) = (a2 m c) :=
  (keepR1 m ρ c main_arg2 (by decide)).trans (f5_arg2 m ρ c hr)
theorem f6_arg8 (hr : ArgsReal m c) : W6 m ρ c (Proc.devRef .tc main_arg8) = (a8 m c) :=
  (keepR1 m ρ c main_arg8 (by decide)).trans (f5_arg8 m ρ c hr)
theorem f6_v40 (hr : ArgsReal m c) : W6 m ρ c (Proc.devRef .tc main_v40) = (tP0 m c) :=
  (W6_arr m ρ c 5).trans ((Cert.KernelIdeal.RegVal.dual1 (V5 m ρ) c (a7 m c) (a8 m c) (f5_v3 m ρ c hr) (f5_v4 m ρ c hr) (f5_v39 m ρ c hr)
      (by rw [show (V5 m ρ) c (Pipeline.arrRef spec1 1) = _ from f5_v38 m ρ c hr]; exact r_tA0 m c hr) hr.a7).trans (by
    rw [show (V5 m ρ) c (Pipeline.arrRef spec1 0) = _ from f5_v2 m ρ c hr,
      show (V5 m ρ) c (Pipeline.arrRef spec1 1) = _ from f5_v38 m ρ c hr]; try rfl))
theorem f6_v9 (hr : ArgsReal m c) : W6 m ρ c (Proc.devRef .tc main_v9) = (Cert.Net.zero (F := Ideal)) :=
  (keepR1 m ρ c main_v9 (by decide)).trans (f5_v9 m ρ c hr)
theorem f6_v11 (hr : ArgsReal m c) : W6 m ρ c (Proc.devRef .tc main_v11) = (Cert.Net.row0 (a1 m c)) :=
  (keepR1 m ρ c main_v11 (by decide)).trans (f5_v11 m ρ c hr)
theorem f6_v13 (hr : ArgsReal m c) : W6 m ρ c (Proc.devRef .tc main_v13) = (Cert.Net.row0 (a2 m c)) :=
  (keepR1 m ρ c main_v13 (by decide)).trans (f5_v13 m ρ c hr)

-- boundary 9
theorem f9_arg13 (hr : ArgsReal m c) : W9 m ρ c (Proc.devRef .tc main_arg13) = (a13 m c) :=
  (Cert.KernelIdeal.KHost.keep2 (W6 m ρ c) main_arg13 (by decide)).trans (f6_arg13 m ρ c hr)
theorem f9_arg14 (hr : ArgsReal m c) : W9 m ρ c (Proc.devRef .tc main_arg14) = (a14 m c) :=
  (Cert.KernelIdeal.KHost.keep2 (W6 m ρ c) main_arg14 (by decide)).trans (f6_arg14 m ρ c hr)
theorem f9_v7 (hr : ArgsReal m c) : W9 m ρ c (Proc.devRef .tc main_v7) = (Cert.Net.top (a11 m c)) :=
  (Cert.KernelIdeal.KHost.keep2 (W6 m ρ c) main_v7 (by decide)).trans (f6_v7 m ρ c hr)
theorem f9_v8 (hr : ArgsReal m c) : W9 m ρ c (Proc.devRef .tc main_v8) = (Cert.Net.bot (a11 m c)) :=
  (Cert.KernelIdeal.KHost.keep2 (W6 m ρ c) main_v8 (by decide)).trans (f6_v8 m ρ c hr)
theorem f9_arg12 (hr : ArgsReal m c) : W9 m ρ c (Proc.devRef .tc main_arg12) = (a12 m c) :=
  (Cert.KernelIdeal.KHost.keep2 (W6 m ρ c) main_arg12 (by decide)).trans (f6_arg12 m ρ c hr)
theorem f9_v5 (hr : ArgsReal m c) : W9 m ρ c (Proc.devRef .tc main_v5) = (Cert.Net.top (a9 m c)) :=
  (Cert.KernelIdeal.KHost.keep2 (W6 m ρ c) main_v5 (by decide)).trans (f6_v5 m ρ c hr)
theorem f9_v6 (hr : ArgsReal m c) : W9 m ρ c (Proc.devRef .tc main_v6) = (Cert.Net.bot (a9 m c)) :=
  (Cert.KernelIdeal.KHost.keep2 (W6 m ρ c) main_v6 (by decide)).trans (f6_v6 m ρ c hr)
theorem f9_arg10 (hr : ArgsReal m c) : W9 m ρ c (Proc.devRef .tc main_arg10) = (a10 m c) :=
  (Cert.KernelIdeal.KHost.keep2 (W6 m ρ c) main_arg10 (by decide)).trans (f6_arg10 m ρ c hr)
theorem f9_v3 (hr : ArgsReal m c) : W9 m ρ c (Proc.devRef .tc main_v3) = (Cert.Net.top (a7 m c)) :=
  (Cert.KernelIdeal.KHost.keep2 (W6 m ρ c) main_v3 (by decide)).trans (f6_v3 m ρ c hr)
theorem f9_v4 (hr : ArgsReal m c) : W9 m ρ c (Proc.devRef .tc main_v4) = (Cert.Net.bot (a7 m c)) :=
  (Cert.KernelIdeal.KHost.keep2 (W6 m ρ c) main_v4 (by decide)).trans (f6_v4 m ρ c hr)
theorem f9_arg1 (hr : ArgsReal m c) : W9 m ρ c (Proc.devRef .tc main_arg1) = (a1 m c) :=
  (Cert.KernelIdeal.KHost.keep2 (W6 m ρ c) main_arg1 (by decide)).trans (f6_arg1 m ρ c hr)
theorem f9_arg2 (hr : ArgsReal m c) : W9 m ρ c (Proc.devRef .tc main_arg2) = (a2 m c) :=
  (Cert.KernelIdeal.KHost.keep2 (W6 m ρ c) main_arg2 (by decide)).trans (f6_arg2 m ρ c hr)
theorem f9_arg8 (hr : ArgsReal m c) : W9 m ρ c (Proc.devRef .tc main_arg8) = (a8 m c) :=
  (Cert.KernelIdeal.KHost.keep2 (W6 m ρ c) main_arg8 (by decide)).trans (f6_arg8 m ρ c hr)
theorem f9_v40 (hr : ArgsReal m c) : W9 m ρ c (Proc.devRef .tc main_v40) = (tP0 m c) :=
  (Cert.KernelIdeal.KHost.keep2 (W6 m ρ c) main_v40 (by decide)).trans (f6_v40 m ρ c hr)
theorem f9_v9 (hr : ArgsReal m c) : W9 m ρ c (Proc.devRef .tc main_v9) = (Cert.Net.zero (F := Ideal)) :=
  (Cert.KernelIdeal.KHost.keep2 (W6 m ρ c) main_v9 (by decide)).trans (f6_v9 m ρ c hr)
theorem f9_v65 (hr : ArgsReal m c) : W9 m ρ c (Proc.devRef .tc main_v65) = (tB0 m c) :=
  (Cert.KernelIdeal.KHost.g2_v65 (W6 m ρ c)).trans (by rw [f6_v40 m ρ c hr, f6_v11 m ρ c hr, f6_v13 m ρ c hr]; try rfl)
theorem f9_v66 (hr : ArgsReal m c) : W9 m ρ c (Proc.devRef .tc main_v66) = (Cert.Net.r64 (a10 m c)) :=
  (Cert.KernelIdeal.KHost.g2_v66 (W6 m ρ c)).trans (by rw [f6_arg10 m ρ c hr]; try rfl)

-- boundary 10
theorem f10_arg13 (hr : ArgsReal m c) : W10 m ρ c (Proc.devRef .tc main_arg13) = (a13 m c) :=
  (keepR2 m ρ c main_arg13 (by decide)).trans (f9_arg13 m ρ c hr)
theorem f10_arg14 (hr : ArgsReal m c) : W10 m ρ c (Proc.devRef .tc main_arg14) = (a14 m c) :=
  (keepR2 m ρ c main_arg14 (by decide)).trans (f9_arg14 m ρ c hr)
theorem f10_v7 (hr : ArgsReal m c) : W10 m ρ c (Proc.devRef .tc main_v7) = (Cert.Net.top (a11 m c)) :=
  (keepR2 m ρ c main_v7 (by decide)).trans (f9_v7 m ρ c hr)
theorem f10_v8 (hr : ArgsReal m c) : W10 m ρ c (Proc.devRef .tc main_v8) = (Cert.Net.bot (a11 m c)) :=
  (keepR2 m ρ c main_v8 (by decide)).trans (f9_v8 m ρ c hr)
theorem f10_arg12 (hr : ArgsReal m c) : W10 m ρ c (Proc.devRef .tc main_arg12) = (a12 m c) :=
  (keepR2 m ρ c main_arg12 (by decide)).trans (f9_arg12 m ρ c hr)
theorem f10_v5 (hr : ArgsReal m c) : W10 m ρ c (Proc.devRef .tc main_v5) = (Cert.Net.top (a9 m c)) :=
  (keepR2 m ρ c main_v5 (by decide)).trans (f9_v5 m ρ c hr)
theorem f10_v6 (hr : ArgsReal m c) : W10 m ρ c (Proc.devRef .tc main_v6) = (Cert.Net.bot (a9 m c)) :=
  (keepR2 m ρ c main_v6 (by decide)).trans (f9_v6 m ρ c hr)
theorem f10_arg10 (hr : ArgsReal m c) : W10 m ρ c (Proc.devRef .tc main_arg10) = (a10 m c) :=
  (keepR2 m ρ c main_arg10 (by decide)).trans (f9_arg10 m ρ c hr)
theorem f10_v3 (hr : ArgsReal m c) : W10 m ρ c (Proc.devRef .tc main_v3) = (Cert.Net.top (a7 m c)) :=
  (keepR2 m ρ c main_v3 (by decide)).trans (f9_v3 m ρ c hr)
theorem f10_v4 (hr : ArgsReal m c) : W10 m ρ c (Proc.devRef .tc main_v4) = (Cert.Net.bot (a7 m c)) :=
  (keepR2 m ρ c main_v4 (by decide)).trans (f9_v4 m ρ c hr)
theorem f10_arg1 (hr : ArgsReal m c) : W10 m ρ c (Proc.devRef .tc main_arg1) = (a1 m c) :=
  (keepR2 m ρ c main_arg1 (by decide)).trans (f9_arg1 m ρ c hr)
theorem f10_arg2 (hr : ArgsReal m c) : W10 m ρ c (Proc.devRef .tc main_arg2) = (a2 m c) :=
  (keepR2 m ρ c main_arg2 (by decide)).trans (f9_arg2 m ρ c hr)
theorem f10_arg8 (hr : ArgsReal m c) : W10 m ρ c (Proc.devRef .tc main_arg8) = (a8 m c) :=
  (keepR2 m ρ c main_arg8 (by decide)).trans (f9_arg8 m ρ c hr)
theorem f10_v40 (hr : ArgsReal m c) : W10 m ρ c (Proc.devRef .tc main_v40) = (tP0 m c) :=
  (keepR2 m ρ c main_v40 (by decide)).trans (f9_v40 m ρ c hr)
theorem f10_v67 (hr : ArgsReal m c) : W10 m ρ c (Proc.devRef .tc main_v67) = (tQ0 m c) :=
  (W10_arr m ρ c 5).trans ((Cert.KernelIdeal.RegVal.dual2 (V9 m ρ) c (a9 m c) (a10 m c) (f9_v5 m ρ c hr) (f9_v6 m ρ c hr) (f9_v66 m ρ c hr)
      (by rw [show (V9 m ρ) c (Pipeline.arrRef spec2 1) = _ from f9_v65 m ρ c hr]; exact r_tB0 m c hr) hr.a9).trans (by
    rw [show (V9 m ρ) c (Pipeline.arrRef spec2 0) = _ from f9_v40 m ρ c hr,
      show (V9 m ρ) c (Pipeline.arrRef spec2 1) = _ from f9_v65 m ρ c hr]; try rfl))
theorem f10_v9 (hr : ArgsReal m c) : W10 m ρ c (Proc.devRef .tc main_v9) = (Cert.Net.zero (F := Ideal)) :=
  (keepR2 m ρ c main_v9 (by decide)).trans (f9_v9 m ρ c hr)

-- boundary 11
theorem f11_arg13 (hr : ArgsReal m c) : W11 m ρ c (Proc.devRef .tc main_arg13) = (a13 m c) :=
  (Cert.KernelIdeal.KHost.keep3 (W10 m ρ c) main_arg13 (by decide)).trans (f10_arg13 m ρ c hr)
theorem f11_arg14 (hr : ArgsReal m c) : W11 m ρ c (Proc.devRef .tc main_arg14) = (a14 m c) :=
  (Cert.KernelIdeal.KHost.keep3 (W10 m ρ c) main_arg14 (by decide)).trans (f10_arg14 m ρ c hr)
theorem f11_v7 (hr : ArgsReal m c) : W11 m ρ c (Proc.devRef .tc main_v7) = (Cert.Net.top (a11 m c)) :=
  (Cert.KernelIdeal.KHost.keep3 (W10 m ρ c) main_v7 (by decide)).trans (f10_v7 m ρ c hr)
theorem f11_v8 (hr : ArgsReal m c) : W11 m ρ c (Proc.devRef .tc main_v8) = (Cert.Net.bot (a11 m c)) :=
  (Cert.KernelIdeal.KHost.keep3 (W10 m ρ c) main_v8 (by decide)).trans (f10_v8 m ρ c hr)
theorem f11_arg12 (hr : ArgsReal m c) : W11 m ρ c (Proc.devRef .tc main_arg12) = (a12 m c) :=
  (Cert.KernelIdeal.KHost.keep3 (W10 m ρ c) main_arg12 (by decide)).trans (f10_arg12 m ρ c hr)
theorem f11_v5 (hr : ArgsReal m c) : W11 m ρ c (Proc.devRef .tc main_v5) = (Cert.Net.top (a9 m c)) :=
  (Cert.KernelIdeal.KHost.keep3 (W10 m ρ c) main_v5 (by decide)).trans (f10_v5 m ρ c hr)
theorem f11_v6 (hr : ArgsReal m c) : W11 m ρ c (Proc.devRef .tc main_v6) = (Cert.Net.bot (a9 m c)) :=
  (Cert.KernelIdeal.KHost.keep3 (W10 m ρ c) main_v6 (by decide)).trans (f10_v6 m ρ c hr)
theorem f11_arg10 (hr : ArgsReal m c) : W11 m ρ c (Proc.devRef .tc main_arg10) = (a10 m c) :=
  (Cert.KernelIdeal.KHost.keep3 (W10 m ρ c) main_arg10 (by decide)).trans (f10_arg10 m ρ c hr)
theorem f11_v3 (hr : ArgsReal m c) : W11 m ρ c (Proc.devRef .tc main_v3) = (Cert.Net.top (a7 m c)) :=
  (Cert.KernelIdeal.KHost.keep3 (W10 m ρ c) main_v3 (by decide)).trans (f10_v3 m ρ c hr)
theorem f11_v4 (hr : ArgsReal m c) : W11 m ρ c (Proc.devRef .tc main_v4) = (Cert.Net.bot (a7 m c)) :=
  (Cert.KernelIdeal.KHost.keep3 (W10 m ρ c) main_v4 (by decide)).trans (f10_v4 m ρ c hr)
theorem f11_arg1 (hr : ArgsReal m c) : W11 m ρ c (Proc.devRef .tc main_arg1) = (a1 m c) :=
  (Cert.KernelIdeal.KHost.keep3 (W10 m ρ c) main_arg1 (by decide)).trans (f10_arg1 m ρ c hr)
theorem f11_arg2 (hr : ArgsReal m c) : W11 m ρ c (Proc.devRef .tc main_arg2) = (a2 m c) :=
  (Cert.KernelIdeal.KHost.keep3 (W10 m ρ c) main_arg2 (by decide)).trans (f10_arg2 m ρ c hr)
theorem f11_arg8 (hr : ArgsReal m c) : W11 m ρ c (Proc.devRef .tc main_arg8) = (a8 m c) :=
  (Cert.KernelIdeal.KHost.keep3 (W10 m ρ c) main_arg8 (by decide)).trans (f10_arg8 m ρ c hr)
theorem f11_v40 (hr : ArgsReal m c) : W11 m ρ c (Proc.devRef .tc main_v40) = (tP0 m c) :=
  (Cert.KernelIdeal.KHost.keep3 (W10 m ρ c) main_v40 (by decide)).trans (f10_v40 m ρ c hr)
theorem f11_v67 (hr : ArgsReal m c) : W11 m ρ c (Proc.devRef .tc main_v67) = (tQ0 m c) :=
  (Cert.KernelIdeal.KHost.keep3 (W10 m ρ c) main_v67 (by decide)).trans (f10_v67 m ρ c hr)
theorem f11_v68 (hr : ArgsReal m c) : W11 m ρ c (Proc.devRef .tc main_v68) = (Cert.Net.r64 (a12 m c)) :=
  (Cert.KernelIdeal.KHost.g3_v68 (W10 m ρ c)).trans (by rw [f10_arg12 m ρ c hr]; try rfl)
theorem f11_v9 (hr : ArgsReal m c) : W11 m ρ c (Proc.devRef .tc main_v9) = (Cert.Net.zero (F := Ideal)) :=
  (Cert.KernelIdeal.KHost.keep3 (W10 m ρ c) main_v9 (by decide)).trans (f10_v9 m ρ c hr)

-- boundary 12
theorem f12_arg13 (hr : ArgsReal m c) : W12 m ρ c (Proc.devRef .tc main_arg13) = (a13 m c) :=
  (keepR3 m ρ c main_arg13 (by decide)).trans (f11_arg13 m ρ c hr)
theorem f12_arg14 (hr : ArgsReal m c) : W12 m ρ c (Proc.devRef .tc main_arg14) = (a14 m c) :=
  (keepR3 m ρ c main_arg14 (by decide)).trans (f11_arg14 m ρ c hr)
theorem f12_v7 (hr : ArgsReal m c) : W12 m ρ c (Proc.devRef .tc main_v7) = (Cert.Net.top (a11 m c)) :=
  (keepR3 m ρ c main_v7 (by decide)).trans (f11_v7 m ρ c hr)
theorem f12_v8 (hr : ArgsReal m c) : W12 m ρ c (Proc.devRef .tc main_v8) = (Cert.Net.bot (a11 m c)) :=
  (keepR3 m ρ c main_v8 (by decide)).trans (f11_v8 m ρ c hr)
theorem f12_arg12 (hr : ArgsReal m c) : W12 m ρ c (Proc.devRef .tc main_arg12) = (a12 m c) :=
  (keepR3 m ρ c main_arg12 (by decide)).trans (f11_arg12 m ρ c hr)
theorem f12_v5 (hr : ArgsReal m c) : W12 m ρ c (Proc.devRef .tc main_v5) = (Cert.Net.top (a9 m c)) :=
  (keepR3 m ρ c main_v5 (by decide)).trans (f11_v5 m ρ c hr)
theorem f12_v6 (hr : ArgsReal m c) : W12 m ρ c (Proc.devRef .tc main_v6) = (Cert.Net.bot (a9 m c)) :=
  (keepR3 m ρ c main_v6 (by decide)).trans (f11_v6 m ρ c hr)
theorem f12_arg10 (hr : ArgsReal m c) : W12 m ρ c (Proc.devRef .tc main_arg10) = (a10 m c) :=
  (keepR3 m ρ c main_arg10 (by decide)).trans (f11_arg10 m ρ c hr)
theorem f12_v3 (hr : ArgsReal m c) : W12 m ρ c (Proc.devRef .tc main_v3) = (Cert.Net.top (a7 m c)) :=
  (keepR3 m ρ c main_v3 (by decide)).trans (f11_v3 m ρ c hr)
theorem f12_v4 (hr : ArgsReal m c) : W12 m ρ c (Proc.devRef .tc main_v4) = (Cert.Net.bot (a7 m c)) :=
  (keepR3 m ρ c main_v4 (by decide)).trans (f11_v4 m ρ c hr)
theorem f12_arg1 (hr : ArgsReal m c) : W12 m ρ c (Proc.devRef .tc main_arg1) = (a1 m c) :=
  (keepR3 m ρ c main_arg1 (by decide)).trans (f11_arg1 m ρ c hr)
theorem f12_arg2 (hr : ArgsReal m c) : W12 m ρ c (Proc.devRef .tc main_arg2) = (a2 m c) :=
  (keepR3 m ρ c main_arg2 (by decide)).trans (f11_arg2 m ρ c hr)
theorem f12_arg8 (hr : ArgsReal m c) : W12 m ρ c (Proc.devRef .tc main_arg8) = (a8 m c) :=
  (keepR3 m ρ c main_arg8 (by decide)).trans (f11_arg8 m ρ c hr)
theorem f12_v69_1 (hr : ArgsReal m c) : W12 m ρ c (Proc.devRef .tc main_v69_1) = (tS1 m c) :=
  (W12_arr m ρ c 7).trans (((Cert.KernelIdeal.RegVal.comb3 (V11 m ρ) c (a11 m c) (a12 m c) (f11_v7 m ρ c hr) (f11_v8 m ρ c hr) (f11_v68 m ρ c hr)).2).trans (by
    rw [show (V11 m ρ) c (Pipeline.arrRef spec3 0) = _ from f11_v40 m ρ c hr,
      show (V11 m ρ) c (Pipeline.arrRef spec3 1) = _ from f11_v67 m ρ c hr,
      show (V11 m ρ) c (Pipeline.arrRef spec3 5) = _ from f11_v9 m ρ c hr]; try rfl))
theorem f12_v69_0 (hr : ArgsReal m c) : W12 m ρ c (Proc.devRef .tc main_v69_0) = (tH1 m c) :=
  (W12_arr m ρ c 6).trans (((Cert.KernelIdeal.RegVal.comb3 (V11 m ρ) c (a11 m c) (a12 m c) (f11_v7 m ρ c hr) (f11_v8 m ρ c hr) (f11_v68 m ρ c hr)).1).trans (by
    rw [show (V11 m ρ) c (Pipeline.arrRef spec3 0) = _ from f11_v40 m ρ c hr,
      show (V11 m ρ) c (Pipeline.arrRef spec3 1) = _ from f11_v67 m ρ c hr]; try rfl))

-- boundary 15
theorem f15_arg13 (hr : ArgsReal m c) : W15 m ρ c (Proc.devRef .tc main_arg13) = (a13 m c) :=
  (Cert.KernelIdeal.KHost.keep4 (W12 m ρ c) main_arg13 (by decide)).trans (f12_arg13 m ρ c hr)
theorem f15_arg14 (hr : ArgsReal m c) : W15 m ρ c (Proc.devRef .tc main_arg14) = (a14 m c) :=
  (Cert.KernelIdeal.KHost.keep4 (W12 m ρ c) main_arg14 (by decide)).trans (f12_arg14 m ρ c hr)
theorem f15_v7 (hr : ArgsReal m c) : W15 m ρ c (Proc.devRef .tc main_v7) = (Cert.Net.top (a11 m c)) :=
  (Cert.KernelIdeal.KHost.keep4 (W12 m ρ c) main_v7 (by decide)).trans (f12_v7 m ρ c hr)
theorem f15_v8 (hr : ArgsReal m c) : W15 m ρ c (Proc.devRef .tc main_v8) = (Cert.Net.bot (a11 m c)) :=
  (Cert.KernelIdeal.KHost.keep4 (W12 m ρ c) main_v8 (by decide)).trans (f12_v8 m ρ c hr)
theorem f15_arg12 (hr : ArgsReal m c) : W15 m ρ c (Proc.devRef .tc main_arg12) = (a12 m c) :=
  (Cert.KernelIdeal.KHost.keep4 (W12 m ρ c) main_arg12 (by decide)).trans (f12_arg12 m ρ c hr)
theorem f15_v5 (hr : ArgsReal m c) : W15 m ρ c (Proc.devRef .tc main_v5) = (Cert.Net.top (a9 m c)) :=
  (Cert.KernelIdeal.KHost.keep4 (W12 m ρ c) main_v5 (by decide)).trans (f12_v5 m ρ c hr)
theorem f15_v6 (hr : ArgsReal m c) : W15 m ρ c (Proc.devRef .tc main_v6) = (Cert.Net.bot (a9 m c)) :=
  (Cert.KernelIdeal.KHost.keep4 (W12 m ρ c) main_v6 (by decide)).trans (f12_v6 m ρ c hr)
theorem f15_arg10 (hr : ArgsReal m c) : W15 m ρ c (Proc.devRef .tc main_arg10) = (a10 m c) :=
  (Cert.KernelIdeal.KHost.keep4 (W12 m ρ c) main_arg10 (by decide)).trans (f12_arg10 m ρ c hr)
theorem f15_v3 (hr : ArgsReal m c) : W15 m ρ c (Proc.devRef .tc main_v3) = (Cert.Net.top (a7 m c)) :=
  (Cert.KernelIdeal.KHost.keep4 (W12 m ρ c) main_v3 (by decide)).trans (f12_v3 m ρ c hr)
theorem f15_v4 (hr : ArgsReal m c) : W15 m ρ c (Proc.devRef .tc main_v4) = (Cert.Net.bot (a7 m c)) :=
  (Cert.KernelIdeal.KHost.keep4 (W12 m ρ c) main_v4 (by decide)).trans (f12_v4 m ρ c hr)
theorem f15_arg1 (hr : ArgsReal m c) : W15 m ρ c (Proc.devRef .tc main_arg1) = (a1 m c) :=
  (Cert.KernelIdeal.KHost.keep4 (W12 m ρ c) main_arg1 (by decide)).trans (f12_arg1 m ρ c hr)
theorem f15_arg2 (hr : ArgsReal m c) : W15 m ρ c (Proc.devRef .tc main_arg2) = (a2 m c) :=
  (Cert.KernelIdeal.KHost.keep4 (W12 m ρ c) main_arg2 (by decide)).trans (f12_arg2 m ρ c hr)
theorem f15_arg8 (hr : ArgsReal m c) : W15 m ρ c (Proc.devRef .tc main_arg8) = (a8 m c) :=
  (Cert.KernelIdeal.KHost.keep4 (W12 m ρ c) main_arg8 (by decide)).trans (f12_arg8 m ρ c hr)
theorem f15_v69_1 (hr : ArgsReal m c) : W15 m ρ c (Proc.devRef .tc main_v69_1) = (tS1 m c) :=
  (Cert.KernelIdeal.KHost.keep4 (W12 m ρ c) main_v69_1 (by decide)).trans (f12_v69_1 m ρ c hr)
theorem f15_v71 (hr : ArgsReal m c) : W15 m ρ c (Proc.devRef .tc main_v71) = (Cert.Net.row1 (a1 m c)) :=
  (Cert.KernelIdeal.KHost.g4_v71 (W12 m ρ c)).trans (by rw [f12_arg1 m ρ c hr]; try rfl)
theorem f15_v73 (hr : ArgsReal m c) : W15 m ρ c (Proc.devRef .tc main_v73) = (Cert.Net.row1 (a2 m c)) :=
  (Cert.KernelIdeal.KHost.g4_v73 (W12 m ρ c)).trans (by rw [f12_arg2 m ρ c hr]; try rfl)
theorem f15_v69_0 (hr : ArgsReal m c) : W15 m ρ c (Proc.devRef .tc main_v69_0) = (tH1 m c) :=
  (Cert.KernelIdeal.KHost.keep4 (W12 m ρ c) main_v69_0 (by decide)).trans (f12_v69_0 m ρ c hr)
theorem f15_v98 (hr : ArgsReal m c) : W15 m ρ c (Proc.devRef .tc main_v98) = (tA1 m c) :=
  (Cert.KernelIdeal.KHost.g4_v98 (W12 m ρ c)).trans (by rw [f12_v69_0 m ρ c hr, f12_arg1 m ρ c hr, f12_arg2 m ρ c hr]; try rfl)
theorem f15_v99 (hr : ArgsReal m c) : W15 m ρ c (Proc.devRef .tc main_v99) = (Cert.Net.r64 (a8 m c)) :=
  (Cert.KernelIdeal.KHost.g4_v99 (W12 m ρ c)).trans (by rw [f12_arg8 m ρ c hr]; try rfl)

-- boundary 16
theorem f16_arg13 (hr : ArgsReal m c) : W16 m ρ c (Proc.devRef .tc main_arg13) = (a13 m c) :=
  (keepR4 m ρ c main_arg13 (by decide)).trans (f15_arg13 m ρ c hr)
theorem f16_arg14 (hr : ArgsReal m c) : W16 m ρ c (Proc.devRef .tc main_arg14) = (a14 m c) :=
  (keepR4 m ρ c main_arg14 (by decide)).trans (f15_arg14 m ρ c hr)
theorem f16_v7 (hr : ArgsReal m c) : W16 m ρ c (Proc.devRef .tc main_v7) = (Cert.Net.top (a11 m c)) :=
  (keepR4 m ρ c main_v7 (by decide)).trans (f15_v7 m ρ c hr)
theorem f16_v8 (hr : ArgsReal m c) : W16 m ρ c (Proc.devRef .tc main_v8) = (Cert.Net.bot (a11 m c)) :=
  (keepR4 m ρ c main_v8 (by decide)).trans (f15_v8 m ρ c hr)
theorem f16_arg12 (hr : ArgsReal m c) : W16 m ρ c (Proc.devRef .tc main_arg12) = (a12 m c) :=
  (keepR4 m ρ c main_arg12 (by decide)).trans (f15_arg12 m ρ c hr)
theorem f16_v5 (hr : ArgsReal m c) : W16 m ρ c (Proc.devRef .tc main_v5) = (Cert.Net.top (a9 m c)) :=
  (keepR4 m ρ c main_v5 (by decide)).trans (f15_v5 m ρ c hr)
theorem f16_v6 (hr : ArgsReal m c) : W16 m ρ c (Proc.devRef .tc main_v6) = (Cert.Net.bot (a9 m c)) :=
  (keepR4 m ρ c main_v6 (by decide)).trans (f15_v6 m ρ c hr)
theorem f16_arg10 (hr : ArgsReal m c) : W16 m ρ c (Proc.devRef .tc main_arg10) = (a10 m c) :=
  (keepR4 m ρ c main_arg10 (by decide)).trans (f15_arg10 m ρ c hr)
theorem f16_v3 (hr : ArgsReal m c) : W16 m ρ c (Proc.devRef .tc main_v3) = (Cert.Net.top (a7 m c)) :=
  (keepR4 m ρ c main_v3 (by decide)).trans (f15_v3 m ρ c hr)
theorem f16_v4 (hr : ArgsReal m c) : W16 m ρ c (Proc.devRef .tc main_v4) = (Cert.Net.bot (a7 m c)) :=
  (keepR4 m ρ c main_v4 (by decide)).trans (f15_v4 m ρ c hr)
theorem f16_arg1 (hr : ArgsReal m c) : W16 m ρ c (Proc.devRef .tc main_arg1) = (a1 m c) :=
  (keepR4 m ρ c main_arg1 (by decide)).trans (f15_arg1 m ρ c hr)
theorem f16_arg2 (hr : ArgsReal m c) : W16 m ρ c (Proc.devRef .tc main_arg2) = (a2 m c) :=
  (keepR4 m ρ c main_arg2 (by decide)).trans (f15_arg2 m ρ c hr)
theorem f16_arg8 (hr : ArgsReal m c) : W16 m ρ c (Proc.devRef .tc main_arg8) = (a8 m c) :=
  (keepR4 m ρ c main_arg8 (by decide)).trans (f15_arg8 m ρ c hr)
theorem f16_v100 (hr : ArgsReal m c) : W16 m ρ c (Proc.devRef .tc main_v100) = (tP1 m c) :=
  (W16_arr m ρ c 5).trans ((Cert.KernelIdeal.RegVal.dual4 (V15 m ρ) c (a7 m c) (a8 m c) (f15_v3 m ρ c hr) (f15_v4 m ρ c hr) (f15_v99 m ρ c hr)
      (by rw [show (V15 m ρ) c (Pipeline.arrRef spec4 1) = _ from f15_v98 m ρ c hr]; exact r_tA1 m c hr) hr.a7).trans (by
    rw [show (V15 m ρ) c (Pipeline.arrRef spec4 0) = _ from f15_v69_0 m ρ c hr,
      show (V15 m ρ) c (Pipeline.arrRef spec4 1) = _ from f15_v98 m ρ c hr]; try rfl))
theorem f16_v69_1 (hr : ArgsReal m c) : W16 m ρ c (Proc.devRef .tc main_v69_1) = (tS1 m c) :=
  (keepR4 m ρ c main_v69_1 (by decide)).trans (f15_v69_1 m ρ c hr)
theorem f16_v71 (hr : ArgsReal m c) : W16 m ρ c (Proc.devRef .tc main_v71) = (Cert.Net.row1 (a1 m c)) :=
  (keepR4 m ρ c main_v71 (by decide)).trans (f15_v71 m ρ c hr)
theorem f16_v73 (hr : ArgsReal m c) : W16 m ρ c (Proc.devRef .tc main_v73) = (Cert.Net.row1 (a2 m c)) :=
  (keepR4 m ρ c main_v73 (by decide)).trans (f15_v73 m ρ c hr)

-- boundary 19
theorem f19_arg13 (hr : ArgsReal m c) : W19 m ρ c (Proc.devRef .tc main_arg13) = (a13 m c) :=
  (Cert.KernelIdeal.KHost.keep5 (W16 m ρ c) main_arg13 (by decide)).trans (f16_arg13 m ρ c hr)
theorem f19_arg14 (hr : ArgsReal m c) : W19 m ρ c (Proc.devRef .tc main_arg14) = (a14 m c) :=
  (Cert.KernelIdeal.KHost.keep5 (W16 m ρ c) main_arg14 (by decide)).trans (f16_arg14 m ρ c hr)
theorem f19_v7 (hr : ArgsReal m c) : W19 m ρ c (Proc.devRef .tc main_v7) = (Cert.Net.top (a11 m c)) :=
  (Cert.KernelIdeal.KHost.keep5 (W16 m ρ c) main_v7 (by decide)).trans (f16_v7 m ρ c hr)
theorem f19_v8 (hr : ArgsReal m c) : W19 m ρ c (Proc.devRef .tc main_v8) = (Cert.Net.bot (a11 m c)) :=
  (Cert.KernelIdeal.KHost.keep5 (W16 m ρ c) main_v8 (by decide)).trans (f16_v8 m ρ c hr)
theorem f19_arg12 (hr : ArgsReal m c) : W19 m ρ c (Proc.devRef .tc main_arg12) = (a12 m c) :=
  (Cert.KernelIdeal.KHost.keep5 (W16 m ρ c) main_arg12 (by decide)).trans (f16_arg12 m ρ c hr)
theorem f19_v5 (hr : ArgsReal m c) : W19 m ρ c (Proc.devRef .tc main_v5) = (Cert.Net.top (a9 m c)) :=
  (Cert.KernelIdeal.KHost.keep5 (W16 m ρ c) main_v5 (by decide)).trans (f16_v5 m ρ c hr)
theorem f19_v6 (hr : ArgsReal m c) : W19 m ρ c (Proc.devRef .tc main_v6) = (Cert.Net.bot (a9 m c)) :=
  (Cert.KernelIdeal.KHost.keep5 (W16 m ρ c) main_v6 (by decide)).trans (f16_v6 m ρ c hr)
theorem f19_arg10 (hr : ArgsReal m c) : W19 m ρ c (Proc.devRef .tc main_arg10) = (a10 m c) :=
  (Cert.KernelIdeal.KHost.keep5 (W16 m ρ c) main_arg10 (by decide)).trans (f16_arg10 m ρ c hr)
theorem f19_v3 (hr : ArgsReal m c) : W19 m ρ c (Proc.devRef .tc main_v3) = (Cert.Net.top (a7 m c)) :=
  (Cert.KernelIdeal.KHost.keep5 (W16 m ρ c) main_v3 (by decide)).trans (f16_v3 m ρ c hr)
theorem f19_v4 (hr : ArgsReal m c) : W19 m ρ c (Proc.devRef .tc main_v4) = (Cert.Net.bot (a7 m c)) :=
  (Cert.KernelIdeal.KHost.keep5 (W16 m ρ c) main_v4 (by decide)).trans (f16_v4 m ρ c hr)
theorem f19_arg1 (hr : ArgsReal m c) : W19 m ρ c (Proc.devRef .tc main_arg1) = (a1 m c) :=
  (Cert.KernelIdeal.KHost.keep5 (W16 m ρ c) main_arg1 (by decide)).trans (f16_arg1 m ρ c hr)
theorem f19_arg2 (hr : ArgsReal m c) : W19 m ρ c (Proc.devRef .tc main_arg2) = (a2 m c) :=
  (Cert.KernelIdeal.KHost.keep5 (W16 m ρ c) main_arg2 (by decide)).trans (f16_arg2 m ρ c hr)
theorem f19_arg8 (hr : ArgsReal m c) : W19 m ρ c (Proc.devRef .tc main_arg8) = (a8 m c) :=
  (Cert.KernelIdeal.KHost.keep5 (W16 m ρ c) main_arg8 (by decide)).trans (f16_arg8 m ρ c hr)
theorem f19_v100 (hr : ArgsReal m c) : W19 m ρ c (Proc.devRef .tc main_v100) = (tP1 m c) :=
  (Cert.KernelIdeal.KHost.keep5 (W16 m ρ c) main_v100 (by decide)).trans (f16_v100 m ρ c hr)
theorem f19_v69_1 (hr : ArgsReal m c) : W19 m ρ c (Proc.devRef .tc main_v69_1) = (tS1 m c) :=
  (Cert.KernelIdeal.KHost.keep5 (W16 m ρ c) main_v69_1 (by decide)).trans (f16_v69_1 m ρ c hr)
theorem f19_v125 (hr : ArgsReal m c) : W19 m ρ c (Proc.devRef .tc main_v125) = (tB1 m c) :=
  (Cert.KernelIdeal.KHost.g5_v125 (W16 m ρ c)).trans (by rw [f16_v100 m ρ c hr, f16_v71 m ρ c hr, f16_v73 m ρ c hr]; try rfl)
theorem f19_v126 (hr : ArgsReal m c) : W19 m ρ c (Proc.devRef .tc main_v126) = (Cert.Net.r64 (a10 m c)) :=
  (Cert.KernelIdeal.KHost.g5_v126 (W16 m ρ c)).trans (by rw [f16_arg10 m ρ c hr]; try rfl)

-- boundary 20
theorem f20_arg13 (hr : ArgsReal m c) : W20 m ρ c (Proc.devRef .tc main_arg13) = (a13 m c) :=
  (keepR5 m ρ c main_arg13 (by decide)).trans (f19_arg13 m ρ c hr)
theorem f20_arg14 (hr : ArgsReal m c) : W20 m ρ c (Proc.devRef .tc main_arg14) = (a14 m c) :=
  (keepR5 m ρ c main_arg14 (by decide)).trans (f19_arg14 m ρ c hr)
theorem f20_v7 (hr : ArgsReal m c) : W20 m ρ c (Proc.devRef .tc main_v7) = (Cert.Net.top (a11 m c)) :=
  (keepR5 m ρ c main_v7 (by decide)).trans (f19_v7 m ρ c hr)
theorem f20_v8 (hr : ArgsReal m c) : W20 m ρ c (Proc.devRef .tc main_v8) = (Cert.Net.bot (a11 m c)) :=
  (keepR5 m ρ c main_v8 (by decide)).trans (f19_v8 m ρ c hr)
theorem f20_arg12 (hr : ArgsReal m c) : W20 m ρ c (Proc.devRef .tc main_arg12) = (a12 m c) :=
  (keepR5 m ρ c main_arg12 (by decide)).trans (f19_arg12 m ρ c hr)
theorem f20_v5 (hr : ArgsReal m c) : W20 m ρ c (Proc.devRef .tc main_v5) = (Cert.Net.top (a9 m c)) :=
  (keepR5 m ρ c main_v5 (by decide)).trans (f19_v5 m ρ c hr)
theorem f20_v6 (hr : ArgsReal m c) : W20 m ρ c (Proc.devRef .tc main_v6) = (Cert.Net.bot (a9 m c)) :=
  (keepR5 m ρ c main_v6 (by decide)).trans (f19_v6 m ρ c hr)
theorem f20_arg10 (hr : ArgsReal m c) : W20 m ρ c (Proc.devRef .tc main_arg10) = (a10 m c) :=
  (keepR5 m ρ c main_arg10 (by decide)).trans (f19_arg10 m ρ c hr)
theorem f20_v3 (hr : ArgsReal m c) : W20 m ρ c (Proc.devRef .tc main_v3) = (Cert.Net.top (a7 m c)) :=
  (keepR5 m ρ c main_v3 (by decide)).trans (f19_v3 m ρ c hr)
theorem f20_v4 (hr : ArgsReal m c) : W20 m ρ c (Proc.devRef .tc main_v4) = (Cert.Net.bot (a7 m c)) :=
  (keepR5 m ρ c main_v4 (by decide)).trans (f19_v4 m ρ c hr)
theorem f20_arg1 (hr : ArgsReal m c) : W20 m ρ c (Proc.devRef .tc main_arg1) = (a1 m c) :=
  (keepR5 m ρ c main_arg1 (by decide)).trans (f19_arg1 m ρ c hr)
theorem f20_arg2 (hr : ArgsReal m c) : W20 m ρ c (Proc.devRef .tc main_arg2) = (a2 m c) :=
  (keepR5 m ρ c main_arg2 (by decide)).trans (f19_arg2 m ρ c hr)
theorem f20_arg8 (hr : ArgsReal m c) : W20 m ρ c (Proc.devRef .tc main_arg8) = (a8 m c) :=
  (keepR5 m ρ c main_arg8 (by decide)).trans (f19_arg8 m ρ c hr)
theorem f20_v100 (hr : ArgsReal m c) : W20 m ρ c (Proc.devRef .tc main_v100) = (tP1 m c) :=
  (keepR5 m ρ c main_v100 (by decide)).trans (f19_v100 m ρ c hr)
theorem f20_v127 (hr : ArgsReal m c) : W20 m ρ c (Proc.devRef .tc main_v127) = (tQ1 m c) :=
  (W20_arr m ρ c 5).trans ((Cert.KernelIdeal.RegVal.dual5 (V19 m ρ) c (a9 m c) (a10 m c) (f19_v5 m ρ c hr) (f19_v6 m ρ c hr) (f19_v126 m ρ c hr)
      (by rw [show (V19 m ρ) c (Pipeline.arrRef spec5 1) = _ from f19_v125 m ρ c hr]; exact r_tB1 m c hr) hr.a9).trans (by
    rw [show (V19 m ρ) c (Pipeline.arrRef spec5 0) = _ from f19_v100 m ρ c hr,
      show (V19 m ρ) c (Pipeline.arrRef spec5 1) = _ from f19_v125 m ρ c hr]; try rfl))
theorem f20_v69_1 (hr : ArgsReal m c) : W20 m ρ c (Proc.devRef .tc main_v69_1) = (tS1 m c) :=
  (keepR5 m ρ c main_v69_1 (by decide)).trans (f19_v69_1 m ρ c hr)

-- boundary 21
theorem f21_arg13 (hr : ArgsReal m c) : W21 m ρ c (Proc.devRef .tc main_arg13) = (a13 m c) :=
  (Cert.KernelIdeal.KHost.keep6 (W20 m ρ c) main_arg13 (by decide)).trans (f20_arg13 m ρ c hr)
theorem f21_arg14 (hr : ArgsReal m c) : W21 m ρ c (Proc.devRef .tc main_arg14) = (a14 m c) :=
  (Cert.KernelIdeal.KHost.keep6 (W20 m ρ c) main_arg14 (by decide)).trans (f20_arg14 m ρ c hr)
theorem f21_v7 (hr : ArgsReal m c) : W21 m ρ c (Proc.devRef .tc main_v7) = (Cert.Net.top (a11 m c)) :=
  (Cert.KernelIdeal.KHost.keep6 (W20 m ρ c) main_v7 (by decide)).trans (f20_v7 m ρ c hr)
theorem f21_v8 (hr : ArgsReal m c) : W21 m ρ c (Proc.devRef .tc main_v8) = (Cert.Net.bot (a11 m c)) :=
  (Cert.KernelIdeal.KHost.keep6 (W20 m ρ c) main_v8 (by decide)).trans (f20_v8 m ρ c hr)
theorem f21_arg12 (hr : ArgsReal m c) : W21 m ρ c (Proc.devRef .tc main_arg12) = (a12 m c) :=
  (Cert.KernelIdeal.KHost.keep6 (W20 m ρ c) main_arg12 (by decide)).trans (f20_arg12 m ρ c hr)
theorem f21_v5 (hr : ArgsReal m c) : W21 m ρ c (Proc.devRef .tc main_v5) = (Cert.Net.top (a9 m c)) :=
  (Cert.KernelIdeal.KHost.keep6 (W20 m ρ c) main_v5 (by decide)).trans (f20_v5 m ρ c hr)
theorem f21_v6 (hr : ArgsReal m c) : W21 m ρ c (Proc.devRef .tc main_v6) = (Cert.Net.bot (a9 m c)) :=
  (Cert.KernelIdeal.KHost.keep6 (W20 m ρ c) main_v6 (by decide)).trans (f20_v6 m ρ c hr)
theorem f21_arg10 (hr : ArgsReal m c) : W21 m ρ c (Proc.devRef .tc main_arg10) = (a10 m c) :=
  (Cert.KernelIdeal.KHost.keep6 (W20 m ρ c) main_arg10 (by decide)).trans (f20_arg10 m ρ c hr)
theorem f21_v3 (hr : ArgsReal m c) : W21 m ρ c (Proc.devRef .tc main_v3) = (Cert.Net.top (a7 m c)) :=
  (Cert.KernelIdeal.KHost.keep6 (W20 m ρ c) main_v3 (by decide)).trans (f20_v3 m ρ c hr)
theorem f21_v4 (hr : ArgsReal m c) : W21 m ρ c (Proc.devRef .tc main_v4) = (Cert.Net.bot (a7 m c)) :=
  (Cert.KernelIdeal.KHost.keep6 (W20 m ρ c) main_v4 (by decide)).trans (f20_v4 m ρ c hr)
theorem f21_arg1 (hr : ArgsReal m c) : W21 m ρ c (Proc.devRef .tc main_arg1) = (a1 m c) :=
  (Cert.KernelIdeal.KHost.keep6 (W20 m ρ c) main_arg1 (by decide)).trans (f20_arg1 m ρ c hr)
theorem f21_arg2 (hr : ArgsReal m c) : W21 m ρ c (Proc.devRef .tc main_arg2) = (a2 m c) :=
  (Cert.KernelIdeal.KHost.keep6 (W20 m ρ c) main_arg2 (by decide)).trans (f20_arg2 m ρ c hr)
theorem f21_arg8 (hr : ArgsReal m c) : W21 m ρ c (Proc.devRef .tc main_arg8) = (a8 m c) :=
  (Cert.KernelIdeal.KHost.keep6 (W20 m ρ c) main_arg8 (by decide)).trans (f20_arg8 m ρ c hr)
theorem f21_v100 (hr : ArgsReal m c) : W21 m ρ c (Proc.devRef .tc main_v100) = (tP1 m c) :=
  (Cert.KernelIdeal.KHost.keep6 (W20 m ρ c) main_v100 (by decide)).trans (f20_v100 m ρ c hr)
theorem f21_v127 (hr : ArgsReal m c) : W21 m ρ c (Proc.devRef .tc main_v127) = (tQ1 m c) :=
  (Cert.KernelIdeal.KHost.keep6 (W20 m ρ c) main_v127 (by decide)).trans (f20_v127 m ρ c hr)
theorem f21_v128 (hr : ArgsReal m c) : W21 m ρ c (Proc.devRef .tc main_v128) = (Cert.Net.r64 (a12 m c)) :=
  (Cert.KernelIdeal.KHost.g6_v128 (W20 m ρ c)).trans (by rw [f20_arg12 m ρ c hr]; try rfl)
theorem f21_v69_1 (hr : ArgsReal m c) : W21 m ρ c (Proc.devRef .tc main_v69_1) = (tS1 m c) :=
  (Cert.KernelIdeal.KHost.keep6 (W20 m ρ c) main_v69_1 (by decide)).trans (f20_v69_1 m ρ c hr)

-- boundary 22
theorem f22_arg13 (hr : ArgsReal m c) : W22 m ρ c (Proc.devRef .tc main_arg13) = (a13 m c) :=
  (keepR6 m ρ c main_arg13 (by decide)).trans (f21_arg13 m ρ c hr)
theorem f22_arg14 (hr : ArgsReal m c) : W22 m ρ c (Proc.devRef .tc main_arg14) = (a14 m c) :=
  (keepR6 m ρ c main_arg14 (by decide)).trans (f21_arg14 m ρ c hr)
theorem f22_v7 (hr : ArgsReal m c) : W22 m ρ c (Proc.devRef .tc main_v7) = (Cert.Net.top (a11 m c)) :=
  (keepR6 m ρ c main_v7 (by decide)).trans (f21_v7 m ρ c hr)
theorem f22_v8 (hr : ArgsReal m c) : W22 m ρ c (Proc.devRef .tc main_v8) = (Cert.Net.bot (a11 m c)) :=
  (keepR6 m ρ c main_v8 (by decide)).trans (f21_v8 m ρ c hr)
theorem f22_v129_1 (hr : ArgsReal m c) : W22 m ρ c (Proc.devRef .tc main_v129_1) = (tS2 m c) :=
  (W22_arr m ρ c 7).trans (((Cert.KernelIdeal.RegVal.comb6 (V21 m ρ) c (a11 m c) (a12 m c) (f21_v7 m ρ c hr) (f21_v8 m ρ c hr) (f21_v128 m ρ c hr)).2).trans (by
    rw [show (V21 m ρ) c (Pipeline.arrRef spec6 0) = _ from f21_v100 m ρ c hr,
      show (V21 m ρ) c (Pipeline.arrRef spec6 1) = _ from f21_v127 m ρ c hr,
      show (V21 m ρ) c (Pipeline.arrRef spec6 5) = _ from f21_v69_1 m ρ c hr]; try rfl))
theorem f22_arg12 (hr : ArgsReal m c) : W22 m ρ c (Proc.devRef .tc main_arg12) = (a12 m c) :=
  (keepR6 m ρ c main_arg12 (by decide)).trans (f21_arg12 m ρ c hr)
theorem f22_v5 (hr : ArgsReal m c) : W22 m ρ c (Proc.devRef .tc main_v5) = (Cert.Net.top (a9 m c)) :=
  (keepR6 m ρ c main_v5 (by decide)).trans (f21_v5 m ρ c hr)
theorem f22_v6 (hr : ArgsReal m c) : W22 m ρ c (Proc.devRef .tc main_v6) = (Cert.Net.bot (a9 m c)) :=
  (keepR6 m ρ c main_v6 (by decide)).trans (f21_v6 m ρ c hr)
theorem f22_arg10 (hr : ArgsReal m c) : W22 m ρ c (Proc.devRef .tc main_arg10) = (a10 m c) :=
  (keepR6 m ρ c main_arg10 (by decide)).trans (f21_arg10 m ρ c hr)
theorem f22_v129_0 (hr : ArgsReal m c) : W22 m ρ c (Proc.devRef .tc main_v129_0) = (tH2 m c) :=
  (W22_arr m ρ c 6).trans (((Cert.KernelIdeal.RegVal.comb6 (V21 m ρ) c (a11 m c) (a12 m c) (f21_v7 m ρ c hr) (f21_v8 m ρ c hr) (f21_v128 m ρ c hr)).1).trans (by
    rw [show (V21 m ρ) c (Pipeline.arrRef spec6 0) = _ from f21_v100 m ρ c hr,
      show (V21 m ρ) c (Pipeline.arrRef spec6 1) = _ from f21_v127 m ρ c hr]; try rfl))
theorem f22_v3 (hr : ArgsReal m c) : W22 m ρ c (Proc.devRef .tc main_v3) = (Cert.Net.top (a7 m c)) :=
  (keepR6 m ρ c main_v3 (by decide)).trans (f21_v3 m ρ c hr)
theorem f22_v4 (hr : ArgsReal m c) : W22 m ρ c (Proc.devRef .tc main_v4) = (Cert.Net.bot (a7 m c)) :=
  (keepR6 m ρ c main_v4 (by decide)).trans (f21_v4 m ρ c hr)
theorem f22_arg1 (hr : ArgsReal m c) : W22 m ρ c (Proc.devRef .tc main_arg1) = (a1 m c) :=
  (keepR6 m ρ c main_arg1 (by decide)).trans (f21_arg1 m ρ c hr)
theorem f22_arg2 (hr : ArgsReal m c) : W22 m ρ c (Proc.devRef .tc main_arg2) = (a2 m c) :=
  (keepR6 m ρ c main_arg2 (by decide)).trans (f21_arg2 m ρ c hr)
theorem f22_arg8 (hr : ArgsReal m c) : W22 m ρ c (Proc.devRef .tc main_arg8) = (a8 m c) :=
  (keepR6 m ρ c main_arg8 (by decide)).trans (f21_arg8 m ρ c hr)

-- boundary 25
theorem f25_arg13 (hr : ArgsReal m c) : W25 m ρ c (Proc.devRef .tc main_arg13) = (a13 m c) :=
  (Cert.KernelIdeal.KHost.keep7 (W22 m ρ c) main_arg13 (by decide)).trans (f22_arg13 m ρ c hr)
theorem f25_arg14 (hr : ArgsReal m c) : W25 m ρ c (Proc.devRef .tc main_arg14) = (a14 m c) :=
  (Cert.KernelIdeal.KHost.keep7 (W22 m ρ c) main_arg14 (by decide)).trans (f22_arg14 m ρ c hr)
theorem f25_v7 (hr : ArgsReal m c) : W25 m ρ c (Proc.devRef .tc main_v7) = (Cert.Net.top (a11 m c)) :=
  (Cert.KernelIdeal.KHost.keep7 (W22 m ρ c) main_v7 (by decide)).trans (f22_v7 m ρ c hr)
theorem f25_v8 (hr : ArgsReal m c) : W25 m ρ c (Proc.devRef .tc main_v8) = (Cert.Net.bot (a11 m c)) :=
  (Cert.KernelIdeal.KHost.keep7 (W22 m ρ c) main_v8 (by decide)).trans (f22_v8 m ρ c hr)
theorem f25_v129_1 (hr : ArgsReal m c) : W25 m ρ c (Proc.devRef .tc main_v129_1) = (tS2 m c) :=
  (Cert.KernelIdeal.KHost.keep7 (W22 m ρ c) main_v129_1 (by decide)).trans (f22_v129_1 m ρ c hr)
theorem f25_arg12 (hr : ArgsReal m c) : W25 m ρ c (Proc.devRef .tc main_arg12) = (a12 m c) :=
  (Cert.KernelIdeal.KHost.keep7 (W22 m ρ c) main_arg12 (by decide)).trans (f22_arg12 m ρ c hr)
theorem f25_v5 (hr : ArgsReal m c) : W25 m ρ c (Proc.devRef .tc main_v5) = (Cert.Net.top (a9 m c)) :=
  (Cert.KernelIdeal.KHost.keep7 (W22 m ρ c) main_v5 (by decide)).trans (f22_v5 m ρ c hr)
theorem f25_v6 (hr : ArgsReal m c) : W25 m ρ c (Proc.devRef .tc main_v6) = (Cert.Net.bot (a9 m c)) :=
  (Cert.KernelIdeal.KHost.keep7 (W22 m ρ c) main_v6 (by decide)).trans (f22_v6 m ρ c hr)
theorem f25_v131 (hr : ArgsReal m c) : W25 m ρ c (Proc.devRef .tc main_v131) = (Cert.Net.row2 (a1 m c)) :=
  (Cert.KernelIdeal.KHost.g7_v131 (W22 m ρ c)).trans (by rw [f22_arg1 m ρ c hr]; try rfl)
theorem f25_v133 (hr : ArgsReal m c) : W25 m ρ c (Proc.devRef .tc main_v133) = (Cert.Net.row2 (a2 m c)) :=
  (Cert.KernelIdeal.KHost.g7_v133 (W22 m ρ c)).trans (by rw [f22_arg2 m ρ c hr]; try rfl)
theorem f25_arg10 (hr : ArgsReal m c) : W25 m ρ c (Proc.devRef .tc main_arg10) = (a10 m c) :=
  (Cert.KernelIdeal.KHost.keep7 (W22 m ρ c) main_arg10 (by decide)).trans (f22_arg10 m ρ c hr)
theorem f25_v129_0 (hr : ArgsReal m c) : W25 m ρ c (Proc.devRef .tc main_v129_0) = (tH2 m c) :=
  (Cert.KernelIdeal.KHost.keep7 (W22 m ρ c) main_v129_0 (by decide)).trans (f22_v129_0 m ρ c hr)
theorem f25_v158 (hr : ArgsReal m c) : W25 m ρ c (Proc.devRef .tc main_v158) = (tA2 m c) :=
  (Cert.KernelIdeal.KHost.g7_v158 (W22 m ρ c)).trans (by rw [f22_v129_0 m ρ c hr, f22_arg1 m ρ c hr, f22_arg2 m ρ c hr]; try rfl)
theorem f25_v3 (hr : ArgsReal m c) : W25 m ρ c (Proc.devRef .tc main_v3) = (Cert.Net.top (a7 m c)) :=
  (Cert.KernelIdeal.KHost.keep7 (W22 m ρ c) main_v3 (by decide)).trans (f22_v3 m ρ c hr)
theorem f25_v4 (hr : ArgsReal m c) : W25 m ρ c (Proc.devRef .tc main_v4) = (Cert.Net.bot (a7 m c)) :=
  (Cert.KernelIdeal.KHost.keep7 (W22 m ρ c) main_v4 (by decide)).trans (f22_v4 m ρ c hr)
theorem f25_v159 (hr : ArgsReal m c) : W25 m ρ c (Proc.devRef .tc main_v159) = (Cert.Net.r64 (a8 m c)) :=
  (Cert.KernelIdeal.KHost.g7_v159 (W22 m ρ c)).trans (by rw [f22_arg8 m ρ c hr]; try rfl)

-- boundary 26
theorem f26_arg13 (hr : ArgsReal m c) : W26 m ρ c (Proc.devRef .tc main_arg13) = (a13 m c) :=
  (keepR7 m ρ c main_arg13 (by decide)).trans (f25_arg13 m ρ c hr)
theorem f26_arg14 (hr : ArgsReal m c) : W26 m ρ c (Proc.devRef .tc main_arg14) = (a14 m c) :=
  (keepR7 m ρ c main_arg14 (by decide)).trans (f25_arg14 m ρ c hr)
theorem f26_v160 (hr : ArgsReal m c) : W26 m ρ c (Proc.devRef .tc main_v160) = (tP2 m c) :=
  (W26_arr m ρ c 5).trans ((Cert.KernelIdeal.RegVal.dual7 (V25 m ρ) c (a7 m c) (a8 m c) (f25_v3 m ρ c hr) (f25_v4 m ρ c hr) (f25_v159 m ρ c hr)
      (by rw [show (V25 m ρ) c (Pipeline.arrRef spec7 1) = _ from f25_v158 m ρ c hr]; exact r_tA2 m c hr) hr.a7).trans (by
    rw [show (V25 m ρ) c (Pipeline.arrRef spec7 0) = _ from f25_v129_0 m ρ c hr,
      show (V25 m ρ) c (Pipeline.arrRef spec7 1) = _ from f25_v158 m ρ c hr]; try rfl))
theorem f26_v7 (hr : ArgsReal m c) : W26 m ρ c (Proc.devRef .tc main_v7) = (Cert.Net.top (a11 m c)) :=
  (keepR7 m ρ c main_v7 (by decide)).trans (f25_v7 m ρ c hr)
theorem f26_v8 (hr : ArgsReal m c) : W26 m ρ c (Proc.devRef .tc main_v8) = (Cert.Net.bot (a11 m c)) :=
  (keepR7 m ρ c main_v8 (by decide)).trans (f25_v8 m ρ c hr)
theorem f26_v129_1 (hr : ArgsReal m c) : W26 m ρ c (Proc.devRef .tc main_v129_1) = (tS2 m c) :=
  (keepR7 m ρ c main_v129_1 (by decide)).trans (f25_v129_1 m ρ c hr)
theorem f26_arg12 (hr : ArgsReal m c) : W26 m ρ c (Proc.devRef .tc main_arg12) = (a12 m c) :=
  (keepR7 m ρ c main_arg12 (by decide)).trans (f25_arg12 m ρ c hr)
theorem f26_v5 (hr : ArgsReal m c) : W26 m ρ c (Proc.devRef .tc main_v5) = (Cert.Net.top (a9 m c)) :=
  (keepR7 m ρ c main_v5 (by decide)).trans (f25_v5 m ρ c hr)
theorem f26_v6 (hr : ArgsReal m c) : W26 m ρ c (Proc.devRef .tc main_v6) = (Cert.Net.bot (a9 m c)) :=
  (keepR7 m ρ c main_v6 (by decide)).trans (f25_v6 m ρ c hr)
theorem f26_v131 (hr : ArgsReal m c) : W26 m ρ c (Proc.devRef .tc main_v131) = (Cert.Net.row2 (a1 m c)) :=
  (keepR7 m ρ c main_v131 (by decide)).trans (f25_v131 m ρ c hr)
theorem f26_v133 (hr : ArgsReal m c) : W26 m ρ c (Proc.devRef .tc main_v133) = (Cert.Net.row2 (a2 m c)) :=
  (keepR7 m ρ c main_v133 (by decide)).trans (f25_v133 m ρ c hr)
theorem f26_arg10 (hr : ArgsReal m c) : W26 m ρ c (Proc.devRef .tc main_arg10) = (a10 m c) :=
  (keepR7 m ρ c main_arg10 (by decide)).trans (f25_arg10 m ρ c hr)

-- boundary 29
theorem f29_arg13 (hr : ArgsReal m c) : W29 m ρ c (Proc.devRef .tc main_arg13) = (a13 m c) :=
  (Cert.KernelIdeal.KHost.keep8 (W26 m ρ c) main_arg13 (by decide)).trans (f26_arg13 m ρ c hr)
theorem f29_arg14 (hr : ArgsReal m c) : W29 m ρ c (Proc.devRef .tc main_arg14) = (a14 m c) :=
  (Cert.KernelIdeal.KHost.keep8 (W26 m ρ c) main_arg14 (by decide)).trans (f26_arg14 m ρ c hr)
theorem f29_v160 (hr : ArgsReal m c) : W29 m ρ c (Proc.devRef .tc main_v160) = (tP2 m c) :=
  (Cert.KernelIdeal.KHost.keep8 (W26 m ρ c) main_v160 (by decide)).trans (f26_v160 m ρ c hr)
theorem f29_v7 (hr : ArgsReal m c) : W29 m ρ c (Proc.devRef .tc main_v7) = (Cert.Net.top (a11 m c)) :=
  (Cert.KernelIdeal.KHost.keep8 (W26 m ρ c) main_v7 (by decide)).trans (f26_v7 m ρ c hr)
theorem f29_v8 (hr : ArgsReal m c) : W29 m ρ c (Proc.devRef .tc main_v8) = (Cert.Net.bot (a11 m c)) :=
  (Cert.KernelIdeal.KHost.keep8 (W26 m ρ c) main_v8 (by decide)).trans (f26_v8 m ρ c hr)
theorem f29_v129_1 (hr : ArgsReal m c) : W29 m ρ c (Proc.devRef .tc main_v129_1) = (tS2 m c) :=
  (Cert.KernelIdeal.KHost.keep8 (W26 m ρ c) main_v129_1 (by decide)).trans (f26_v129_1 m ρ c hr)
theorem f29_arg12 (hr : ArgsReal m c) : W29 m ρ c (Proc.devRef .tc main_arg12) = (a12 m c) :=
  (Cert.KernelIdeal.KHost.keep8 (W26 m ρ c) main_arg12 (by decide)).trans (f26_arg12 m ρ c hr)
theorem f29_v185 (hr : ArgsReal m c) : W29 m ρ c (Proc.devRef .tc main_v185) = (tB2 m c) :=
  (Cert.KernelIdeal.KHost.g8_v185 (W26 m ρ c)).trans (by rw [f26_v160 m ρ c hr, f26_v131 m ρ c hr, f26_v133 m ρ c hr]; try rfl)
theorem f29_v5 (hr : ArgsReal m c) : W29 m ρ c (Proc.devRef .tc main_v5) = (Cert.Net.top (a9 m c)) :=
  (Cert.KernelIdeal.KHost.keep8 (W26 m ρ c) main_v5 (by decide)).trans (f26_v5 m ρ c hr)
theorem f29_v6 (hr : ArgsReal m c) : W29 m ρ c (Proc.devRef .tc main_v6) = (Cert.Net.bot (a9 m c)) :=
  (Cert.KernelIdeal.KHost.keep8 (W26 m ρ c) main_v6 (by decide)).trans (f26_v6 m ρ c hr)
theorem f29_v186 (hr : ArgsReal m c) : W29 m ρ c (Proc.devRef .tc main_v186) = (Cert.Net.r64 (a10 m c)) :=
  (Cert.KernelIdeal.KHost.g8_v186 (W26 m ρ c)).trans (by rw [f26_arg10 m ρ c hr]; try rfl)

-- boundary 30
theorem f30_arg13 (hr : ArgsReal m c) : W30 m ρ c (Proc.devRef .tc main_arg13) = (a13 m c) :=
  (keepR8 m ρ c main_arg13 (by decide)).trans (f29_arg13 m ρ c hr)
theorem f30_arg14 (hr : ArgsReal m c) : W30 m ρ c (Proc.devRef .tc main_arg14) = (a14 m c) :=
  (keepR8 m ρ c main_arg14 (by decide)).trans (f29_arg14 m ρ c hr)
theorem f30_v160 (hr : ArgsReal m c) : W30 m ρ c (Proc.devRef .tc main_v160) = (tP2 m c) :=
  (keepR8 m ρ c main_v160 (by decide)).trans (f29_v160 m ρ c hr)
theorem f30_v187 (hr : ArgsReal m c) : W30 m ρ c (Proc.devRef .tc main_v187) = (tQ2 m c) :=
  (W30_arr m ρ c 5).trans ((Cert.KernelIdeal.RegVal.dual8 (V29 m ρ) c (a9 m c) (a10 m c) (f29_v5 m ρ c hr) (f29_v6 m ρ c hr) (f29_v186 m ρ c hr)
      (by rw [show (V29 m ρ) c (Pipeline.arrRef spec8 1) = _ from f29_v185 m ρ c hr]; exact r_tB2 m c hr) hr.a9).trans (by
    rw [show (V29 m ρ) c (Pipeline.arrRef spec8 0) = _ from f29_v160 m ρ c hr,
      show (V29 m ρ) c (Pipeline.arrRef spec8 1) = _ from f29_v185 m ρ c hr]; try rfl))
theorem f30_v7 (hr : ArgsReal m c) : W30 m ρ c (Proc.devRef .tc main_v7) = (Cert.Net.top (a11 m c)) :=
  (keepR8 m ρ c main_v7 (by decide)).trans (f29_v7 m ρ c hr)
theorem f30_v8 (hr : ArgsReal m c) : W30 m ρ c (Proc.devRef .tc main_v8) = (Cert.Net.bot (a11 m c)) :=
  (keepR8 m ρ c main_v8 (by decide)).trans (f29_v8 m ρ c hr)
theorem f30_v129_1 (hr : ArgsReal m c) : W30 m ρ c (Proc.devRef .tc main_v129_1) = (tS2 m c) :=
  (keepR8 m ρ c main_v129_1 (by decide)).trans (f29_v129_1 m ρ c hr)
theorem f30_arg12 (hr : ArgsReal m c) : W30 m ρ c (Proc.devRef .tc main_arg12) = (a12 m c) :=
  (keepR8 m ρ c main_arg12 (by decide)).trans (f29_arg12 m ρ c hr)

-- boundary 31
theorem f31_arg13 (hr : ArgsReal m c) : W31 m ρ c (Proc.devRef .tc main_arg13) = (a13 m c) :=
  (Cert.KernelIdeal.KHost.keep9 (W30 m ρ c) main_arg13 (by decide)).trans (f30_arg13 m ρ c hr)
theorem f31_arg14 (hr : ArgsReal m c) : W31 m ρ c (Proc.devRef .tc main_arg14) = (a14 m c) :=
  (Cert.KernelIdeal.KHost.keep9 (W30 m ρ c) main_arg14 (by decide)).trans (f30_arg14 m ρ c hr)
theorem f31_v160 (hr : ArgsReal m c) : W31 m ρ c (Proc.devRef .tc main_v160) = (tP2 m c) :=
  (Cert.KernelIdeal.KHost.keep9 (W30 m ρ c) main_v160 (by decide)).trans (f30_v160 m ρ c hr)
theorem f31_v187 (hr : ArgsReal m c) : W31 m ρ c (Proc.devRef .tc main_v187) = (tQ2 m c) :=
  (Cert.KernelIdeal.KHost.keep9 (W30 m ρ c) main_v187 (by decide)).trans (f30_v187 m ρ c hr)
theorem f31_v7 (hr : ArgsReal m c) : W31 m ρ c (Proc.devRef .tc main_v7) = (Cert.Net.top (a11 m c)) :=
  (Cert.KernelIdeal.KHost.keep9 (W30 m ρ c) main_v7 (by decide)).trans (f30_v7 m ρ c hr)
theorem f31_v8 (hr : ArgsReal m c) : W31 m ρ c (Proc.devRef .tc main_v8) = (Cert.Net.bot (a11 m c)) :=
  (Cert.KernelIdeal.KHost.keep9 (W30 m ρ c) main_v8 (by decide)).trans (f30_v8 m ρ c hr)
theorem f31_v188 (hr : ArgsReal m c) : W31 m ρ c (Proc.devRef .tc main_v188) = (Cert.Net.r64 (a12 m c)) :=
  (Cert.KernelIdeal.KHost.g9_v188 (W30 m ρ c)).trans (by rw [f30_arg12 m ρ c hr]; try rfl)
theorem f31_v129_1 (hr : ArgsReal m c) : W31 m ρ c (Proc.devRef .tc main_v129_1) = (tS2 m c) :=
  (Cert.KernelIdeal.KHost.keep9 (W30 m ρ c) main_v129_1 (by decide)).trans (f30_v129_1 m ρ c hr)

-- boundary 32
theorem f32_v189_1 (hr : ArgsReal m c) : W32 m ρ c (Proc.devRef .tc main_v189_1) = (tS3 m c) :=
  (W32_arr m ρ c 7).trans (((Cert.KernelIdeal.RegVal.comb9 (V31 m ρ) c (a11 m c) (a12 m c) (f31_v7 m ρ c hr) (f31_v8 m ρ c hr) (f31_v188 m ρ c hr)).2).trans (by
    rw [show (V31 m ρ) c (Pipeline.arrRef spec9 0) = _ from f31_v160 m ρ c hr,
      show (V31 m ρ) c (Pipeline.arrRef spec9 1) = _ from f31_v187 m ρ c hr,
      show (V31 m ρ) c (Pipeline.arrRef spec9 5) = _ from f31_v129_1 m ρ c hr]; try rfl))
theorem f32_arg13 (hr : ArgsReal m c) : W32 m ρ c (Proc.devRef .tc main_arg13) = (a13 m c) :=
  (keepR9 m ρ c main_arg13 (by decide)).trans (f31_arg13 m ρ c hr)
theorem f32_arg14 (hr : ArgsReal m c) : W32 m ρ c (Proc.devRef .tc main_arg14) = (a14 m c) :=
  (keepR9 m ρ c main_arg14 (by decide)).trans (f31_arg14 m ρ c hr)

-- boundary 33
theorem f33_v189_1 (hr : ArgsReal m c) : W33 m ρ c (Proc.devRef .tc main_v189_1) = (tS3 m c) :=
  (Cert.KernelIdeal.KHost.keep10 (W32 m ρ c) main_v189_1 (by decide)).trans (f32_v189_1 m ρ c hr)
theorem f33_arg13 (hr : ArgsReal m c) : W33 m ρ c (Proc.devRef .tc main_arg13) = (a13 m c) :=
  (Cert.KernelIdeal.KHost.keep10 (W32 m ρ c) main_arg13 (by decide)).trans (f32_arg13 m ρ c hr)
theorem f33_v190 (hr : ArgsReal m c) : W33 m ρ c (Proc.devRef .tc main_v190) = (Cert.Net.r2 (a14 m c)) :=
  (Cert.KernelIdeal.KHost.h10_v190 (W32 m ρ c)).trans (by rw [f32_arg14 m ρ c hr]; try rfl)

-- boundary 34
theorem f34_v191 (hr : ArgsReal m c) : W34 m ρ c (Proc.devRef .tc main_v191) = (Cert.Net.head (tS3 m c) (a13 m c) (a14 m c)) :=
  (W34_arr m ρ c 3).trans ((Cert.KernelIdeal.RegVal.head10 (V33 m ρ) c (a14 m c) (f33_v190 m ρ c hr)).trans (by
    rw [show (V33 m ρ) c (Pipeline.arrRef spec10 0) = _ from f33_v189_1 m ρ c hr,
      show (V33 m ρ) c (Pipeline.arrRef spec10 1) = _ from f33_arg13 m ρ c hr]; try rfl))

/-! ## The result -/

/-- The kernel's result buffer at the last boundary is the network's value of the launch arguments. -/
theorem result (hr : ArgsReal m c) :
    W34 m ρ c (Proc.devRef .tc main_v191)
      = Cert.Net.net (a0 m c) (a1 m c) (a2 m c) (a3 m c) (a4 m c) (a5 m c) (a6 m c) (a7 m c) (a8 m c) (a9 m c) (a10 m c)
          (a11 m c) (a12 m c) (a13 m c) (a14 m c) :=
  (f34_v191 m ρ c hr).trans (by
    unfold Cert.Net.net tS3 tS2 tS1 tS0 tH3 tH2 tH1 tQ2 tQ1 tQ0 tB2 tB1 tB0 tP2 tP1 tP0 tA2 tA1 tA0 tH0 Cert.Net.relH Cert.Net.conv1
    rfl)

end Cert.KernelIdeal.KChain

end
-- ==== Proof.lean ====
/-
  The proof of `Cert.Claim`: the three frames, the idealization (nothing rewritten), and the algebraic claim.

  Both programs compute one function of the fifteen arguments, the network `Cert.Net.net`. The idealized kernel's run
  ends with its result buffer at the contents of the last segment boundary, and that boundary read through the host
  stretches and the eleven regions is the network of the arguments, given that the thirteen float arguments are real —
  which the precondition says. The reference's run ends with its result buffer at the fold of its operations over the
  launch contents, and that fold read at the result buffer is the network of the arguments for any float values. From
  memories agreeing on the arguments the two results are therefore the same array. Each run also leaves every argument
  as launched; the reference's frame is its run with the result forgotten, the kernels' frames are the generated ones.
-/
import proofs.«137448_j36043365548320_2_alg».proof.Defs
import proofs.«137448_j36043365548320_2_alg».proof.Proof.Gen.Kernel
import proofs.«137448_j36043365548320_2_alg».proof.Proof.Gen.Kernel.Skeleton
import proofs.«137448_j36043365548320_2_alg».proof.Proof.Gen.Kernel.Launch
import proofs.«137448_j36043365548320_2_alg».proof.Proof.Gen.Kernel.Points
import proofs.«137448_j36043365548320_2_alg».proof.Proof.Gen.Kernel.Frame
import proofs.«137448_j36043365548320_2_alg».proof.Proof.Gen.KernelIdeal
import proofs.«137448_j36043365548320_2_alg».proof.Proof.Gen.KernelIdeal.Skeleton
import proofs.«137448_j36043365548320_2_alg».proof.Proof.Gen.KernelIdeal.Launch
import proofs.«137448_j36043365548320_2_alg».proof.Proof.Gen.KernelIdeal.Points
import proofs.«137448_j36043365548320_2_alg».proof.Proof.Gen.KernelIdeal.Frame
import proofs.«137448_j36043365548320_2_alg».proof.Proof.Gen.ReferenceIdeal
import proofs.«137448_j36043365548320_2_alg».proof.Proof.Gen.Pre_finite_inputs
import proofs.«137448_j36043365548320_2_alg».proof.Proof.Net
import proofs.«137448_j36043365548320_2_alg».proof.Proof.PreReal
import proofs.«137448_j36043365548320_2_alg».proof.Proof.RefRun
import proofs.«137448_j36043365548320_2_alg».proof.Proof.RefFold
import proofs.«137448_j36043365548320_2_alg».proof.Proof.KRun
import proofs.«137448_j36043365548320_2_alg».proof.Proof.KChain
import Idealize.ShloMosaic.Adequacy
import Idealize.ShloMosaic.Init

noncomputable section

namespace Cert.Proof

open Idealize.ShloMosaic Idealize.ShloMosaic.TcCoe Idealize.SL.Sem

/-- The network at equal arguments is equal. -/
theorem net_congr
    {x x' : Cert.Net.CF Ideal Cert.ReferenceIdeal.S100000x64} {s s' d d' : Cert.Net.CI Ideal Cert.ReferenceIdeal.S3x1000000}
    {W1 W1' : Cert.Net.CF Ideal Cert.ReferenceIdeal.S64x64} {b1 b1' : Cert.Net.CF Ideal Cert.ReferenceIdeal.S64}
    {W2 W2' : Cert.Net.CF Ideal Cert.ReferenceIdeal.S64x64} {b2 b2' : Cert.Net.CF Ideal Cert.ReferenceIdeal.S64}
    {Wc1 Wc1' : Cert.Net.CF Ideal Cert.ReferenceIdeal.S128x64} {bc1 bc1' : Cert.Net.CF Ideal Cert.ReferenceIdeal.S64}
    {Wc2 Wc2' : Cert.Net.CF Ideal Cert.ReferenceIdeal.S128x64} {bc2 bc2' : Cert.Net.CF Ideal Cert.ReferenceIdeal.S64}
    {W3 W3' : Cert.Net.CF Ideal Cert.ReferenceIdeal.S128x64} {b3 b3' : Cert.Net.CF Ideal Cert.ReferenceIdeal.S64}
    {W4 W4' : Cert.Net.CF Ideal Cert.ReferenceIdeal.S64x2} {b4 b4' : Cert.Net.CF Ideal Cert.ReferenceIdeal.S2}
    (h0 : x' = x) (h1 : s' = s) (h2 : d' = d) (h3 : W1' = W1) (h4 : b1' = b1) (h5 : W2' = W2) (h6 : b2' = b2)
    (h7 : Wc1' = Wc1) (h8 : bc1' = bc1) (h9 : Wc2' = Wc2) (h10 : bc2' = bc2) (h11 : W3' = W3) (h12 : b3' = b3)
    (h13 : W4' = W4) (h14 : b4' = b4) :
    Cert.Net.net x' s' d' W1' b1' W2' b2' Wc1' bc1' Wc2' bc2' W3' b3' W4' b4'
      = Cert.Net.net x s d W1 b1 W2 b2 Wc1 bc1 Wc2 bc2 W3 b3 W4 b4 := by
  subst h0 h1 h2 h3 h4 h5 h6 h7 h8 h9 h10 h11 h12 h13 h14; rfl

/-- Under the precondition the kernel's thirteen float arguments are real. -/
theorem argsReal (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.KernelIdeal.KChain.ArgsReal m c := by
  obtain ⟨r0, r3, r4, r5, r6, r7, r8, r9, r10, r11, r12, r13, r14⟩ := Cert.PreReal.args_real m h c
  exact ⟨r0, r3, r4, r5, r6, r7, r8, r9, r10, r11, r12, r13, r14⟩

theorem kernel_frame : Cert.frame_Kernel (hKernel := Cert.Kernel.Gen.facts) (hPre_finite_inputs := Cert.Pre_finite_inputs.Gen.facts) :=
  fun m ρ _ => Cert.Kernel.Gen.frame m ρ

theorem kernelIdeal_frame : Cert.frame_KernelIdeal (hKernelIdeal := Cert.KernelIdeal.Gen.facts) (hPre_finite_inputs := Cert.Pre_finite_inputs.Gen.facts) :=
  fun m ρ _ => Cert.KernelIdeal.Gen.frame m ρ

/-- The reference's run with the result dropped. -/
theorem reference_frame : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run (F := Ideal) m ρ)

/-- Both programs end with the network of the arguments in their result buffers. -/
theorem both_net : Cert.algebraic_KernelIdeal_ReferenceIdeal (hKernelIdeal := Cert.KernelIdeal.Gen.facts) (hReferenceIdeal := Cert.ReferenceIdeal.Gen.facts)
    (hPre_finite_inputs := Cert.Pre_finite_inputs.Gen.facts) := by
  intro m ρ m' ρ' hpre hagree
  refine ⟨fun c => Cert.Net.net (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KChain.result m ρ c (argsReal m hpre c)), (h c).2⟩)
      (Cert.KernelIdeal.KRun.run (F := Ideal) m ρ)
  · refine (θ_run Cert.ReferenceIdeal.defs _ _).mono (fun r h c => ⟨?_, (h c).2⟩) (Cert.ReferenceIdeal.RefRun.run (F := Ideal) m' ρ')
    obtain ⟨e0, e1, e2, e3, e4, e5, e6, e7, e8, e9, e10, e11, e12, e13, e14⟩ := hagree c
    exact ((h c).1.trans (Cert.ReferenceIdeal.RefFold.fold (fun b => m' ((c : Dev Cert.ReferenceIdeal.nD), b)))).trans
      (net_congr e0 e1 e2 e3 e4 e5 e6 e7 e8 e9 e10 e11 e12 e13 e14)

theorem claim : Cert.Claim :=
  ⟨Cert.Kernel.Gen.facts, Cert.KernelIdeal.Gen.facts, Cert.ReferenceIdeal.Gen.facts, Cert.Pre_finite_inputs.Gen.facts,
    kernel_frame, kernelIdeal_frame, reference_frame, trivial, both_net⟩

end Cert.Proof

end
